-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S1024x2048 : Shape := ⟨2, ![1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2048x1024 .f32) (main_arg1 : FVec F S1024x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S2x1024x128 : Shape := ⟨3, ![2, 1024, 128]⟩
abbrev S16x1024x128 : Shape := ⟨3, ![16, 1024, 128]⟩
abbrev S16 : Shape := ⟨1, ![16]⟩
abbrev S_ : Shape := ⟨0, ![]⟩
abbrev S2 : Shape := ⟨1, ![2]⟩
abbrev S1 : Shape := ⟨1, ![1]⟩
abbrev S1x1024x128 : Shape := ⟨3, ![1, 1024, 128]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .local _ .vmem, ⟨0, _⟩ => ⟨S1024x1024, .f32⟩
  | .local _ .vmem, ⟨1, _⟩ => ⟨S2x1024x128, .f32⟩
  | .local _ .vmem, ⟨2, _⟩ => ⟨S16x1024x128, .bf16⟩
  | .local _ .vmem, ⟨3, _⟩ => ⟨S16x1024x128, .bf16⟩
  | .local _ .vmem, ⟨4, _⟩ => ⟨S16x1024x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  { ofTc nBuf bufTy 1 83 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32 : BitVec 32 := 0#32
  ![v8.toNat, 0]
def k0_dev1 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v16 : BitVec 32 := Scalar.muli v6 c2_i32_11
  let v17 : BitVec 32 := Scalar.addi c0_i32_12 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v18 : BitVec 32 := Scalar.muli v5 c1_i32_13
  let v19 : BitVec 32 := Scalar.addi v17 v18
  v19.toNat
def k0_dev2 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v20 : BitVec 32 := Scalar.muli v2 c2_i32_15
  let v21 : BitVec 32 := Scalar.addi c0_i32_16 v20
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_17 : BitVec 32 := 1#32
  let v22 : BitVec 32 := Scalar.muli v7 c1_i32_17
  let v23 : BitVec 32 := Scalar.addi v21 v22
  v23.toNat
def k0_dev3 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v45 : BitVec 32 := Scalar.muli v6 c2_i32_42
  let v46 : BitVec 32 := Scalar.addi c0_i32_43 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v47 : BitVec 32 := Scalar.muli v5 c1_i32_44
  let v48 : BitVec 32 := Scalar.addi v46 v47
  v48.toNat
def k0_dev4 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v75 : BitVec 32 := Scalar.muli v6 c2_i32_70
  let v76 : BitVec 32 := Scalar.addi c0_i32_71 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v77 : BitVec 32 := Scalar.muli v5 c1_i32_72
  let v78 : BitVec 32 := Scalar.addi v76 v77
  v78.toNat
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_99 : BitVec 32 := 0#32
  ![v8.toNat, 0]
def k0_dev5 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v110 : BitVec 32 := Scalar.muli v2 c2_i32_105
  let v111 : BitVec 32 := Scalar.addi c0_i32_106 v110
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_107 : BitVec 32 := 1#32
  let v112 : BitVec 32 := Scalar.muli v7 c1_i32_107
  let v113 : BitVec 32 := Scalar.addi v111 v112
  v113.toNat
def k0_dev6 (d0 : Dev nD) : Nat :=
  let c0_i32_133 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_132 : BitVec 32 := 2#32
  let v139 : BitVec 32 := Scalar.muli v6 c2_i32_132
  let v140 : BitVec 32 := Scalar.addi c0_i32_133 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_134 : BitVec 32 := 1#32
  let v141 : BitVec 32 := Scalar.muli v5 c1_i32_134
  let v142 : BitVec 32 := Scalar.addi v140 v141
  v142.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c128_i32_161 : BitVec 32 := 128#32
  ![v8.toNat, 128]
def k0_dev7 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v174 : BitVec 32 := Scalar.muli v2 c2_i32_167
  let v175 : BitVec 32 := Scalar.addi c0_i32_168 v174
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_169 : BitVec 32 := 1#32
  let v176 : BitVec 32 := Scalar.muli v7 c1_i32_169
  let v177 : BitVec 32 := Scalar.addi v175 v176
  v177.toNat
def k0_dev8 (d0 : Dev nD) : Nat :=
  let c0_i32_194 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_193 : BitVec 32 := 2#32
  let v203 : BitVec 32 := Scalar.muli v6 c2_i32_193
  let v204 : BitVec 32 := Scalar.addi c0_i32_194 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_195 : BitVec 32 := 1#32
  let v205 : BitVec 32 := Scalar.muli v5 c1_i32_195
  let v206 : BitVec 32 := Scalar.addi v204 v205
  v206.toNat
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c256_i32_222 : BitVec 32 := 256#32
  ![v8.toNat, 256]
def k0_dev9 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v238 : BitVec 32 := Scalar.muli v2 c2_i32_228
  let v239 : BitVec 32 := Scalar.addi c0_i32_229 v238
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_230 : BitVec 32 := 1#32
  let v240 : BitVec 32 := Scalar.muli v7 c1_i32_230
  let v241 : BitVec 32 := Scalar.addi v239 v240
  v241.toNat
def k0_dev10 (d0 : Dev nD) : Nat :=
  let c0_i32_255 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_254 : BitVec 32 := 2#32
  let v267 : BitVec 32 := Scalar.muli v6 c2_i32_254
  let v268 : BitVec 32 := Scalar.addi c0_i32_255 v267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v269 : BitVec 32 := Scalar.muli v5 c1_i32_256
  let v270 : BitVec 32 := Scalar.addi v268 v269
  v270.toNat
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c384_i32_283 : BitVec 32 := 384#32
  ![v8.toNat, 384]
def k0_dev11 (d0 : Dev nD) : Nat :=
  let c0_i32_290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_289 : BitVec 32 := 2#32
  let v302 : BitVec 32 := Scalar.muli v2 c2_i32_289
  let v303 : BitVec 32 := Scalar.addi c0_i32_290 v302
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_291 : BitVec 32 := 1#32
  let v304 : BitVec 32 := Scalar.muli v7 c1_i32_291
  let v305 : BitVec 32 := Scalar.addi v303 v304
  v305.toNat
def k0_dev12 (d0 : Dev nD) : Nat :=
  let c0_i32_316 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_315 : BitVec 32 := 2#32
  let v331 : BitVec 32 := Scalar.muli v6 c2_i32_315
  let v332 : BitVec 32 := Scalar.addi c0_i32_316 v331
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_317 : BitVec 32 := 1#32
  let v333 : BitVec 32 := Scalar.muli v5 c1_i32_317
  let v334 : BitVec 32 := Scalar.addi v332 v333
  v334.toNat
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c512_i32_344 : BitVec 32 := 512#32
  ![v8.toNat, 512]
def k0_dev13 (d0 : Dev nD) : Nat :=
  let c0_i32_351 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_350 : BitVec 32 := 2#32
  let v366 : BitVec 32 := Scalar.muli v2 c2_i32_350
  let v367 : BitVec 32 := Scalar.addi c0_i32_351 v366
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_352 : BitVec 32 := 1#32
  let v368 : BitVec 32 := Scalar.muli v7 c1_i32_352
  let v369 : BitVec 32 := Scalar.addi v367 v368
  v369.toNat
def k0_dev14 (d0 : Dev nD) : Nat :=
  let c0_i32_377 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_376 : BitVec 32 := 2#32
  let v395 : BitVec 32 := Scalar.muli v6 c2_i32_376
  let v396 : BitVec 32 := Scalar.addi c0_i32_377 v395
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_378 : BitVec 32 := 1#32
  let v397 : BitVec 32 := Scalar.muli v5 c1_i32_378
  let v398 : BitVec 32 := Scalar.addi v396 v397
  v398.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c640_i32_405 : BitVec 32 := 640#32
  ![v8.toNat, 640]
def k0_dev15 (d0 : Dev nD) : Nat :=
  let c0_i32_412 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_411 : BitVec 32 := 2#32
  let v430 : BitVec 32 := Scalar.muli v2 c2_i32_411
  let v431 : BitVec 32 := Scalar.addi c0_i32_412 v430
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_413 : BitVec 32 := 1#32
  let v432 : BitVec 32 := Scalar.muli v7 c1_i32_413
  let v433 : BitVec 32 := Scalar.addi v431 v432
  v433.toNat
def k0_dev16 (d0 : Dev nD) : Nat :=
  let c0_i32_439 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_438 : BitVec 32 := 2#32
  let v459 : BitVec 32 := Scalar.muli v6 c2_i32_438
  let v460 : BitVec 32 := Scalar.addi c0_i32_439 v459
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_440 : BitVec 32 := 1#32
  let v461 : BitVec 32 := Scalar.muli v5 c1_i32_440
  let v462 : BitVec 32 := Scalar.addi v460 v461
  v462.toNat
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c768_i32_467 : BitVec 32 := 768#32
  ![v8.toNat, 768]
def k0_dev17 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v494 : BitVec 32 := Scalar.muli v2 c2_i32_473
  let v495 : BitVec 32 := Scalar.addi c0_i32_474 v494
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_475 : BitVec 32 := 1#32
  let v496 : BitVec 32 := Scalar.muli v7 c1_i32_475
  let v497 : BitVec 32 := Scalar.addi v495 v496
  v497.toNat
def k0_dev18 (d0 : Dev nD) : Nat :=
  let c0_i32_500 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_499 : BitVec 32 := 2#32
  let v523 : BitVec 32 := Scalar.muli v6 c2_i32_499
  let v524 : BitVec 32 := Scalar.addi c0_i32_500 v523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_501 : BitVec 32 := 1#32
  let v525 : BitVec 32 := Scalar.muli v5 c1_i32_501
  let v526 : BitVec 32 := Scalar.addi v524 v525
  v526.toNat
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c896_i32_528 : BitVec 32 := 896#32
  ![v8.toNat, 896]
def k0_dev19 (d0 : Dev nD) : Nat :=
  let c0_i32_535 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_534 : BitVec 32 := 2#32
  let v558 : BitVec 32 := Scalar.muli v2 c2_i32_534
  let v559 : BitVec 32 := Scalar.addi c0_i32_535 v558
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_536 : BitVec 32 := 1#32
  let v560 : BitVec 32 := Scalar.muli v7 c1_i32_536
  let v561 : BitVec 32 := Scalar.addi v559 v560
  v561.toNat
def k0_dev20 (d0 : Dev nD) : Nat :=
  let c0_i32_561 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_560 : BitVec 32 := 2#32
  let v587 : BitVec 32 := Scalar.muli v6 c2_i32_560
  let v588 : BitVec 32 := Scalar.addi c0_i32_561 v587
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_562 : BitVec 32 := 1#32
  let v589 : BitVec 32 := Scalar.muli v5 c1_i32_562
  let v590 : BitVec 32 := Scalar.addi v588 v589
  v590.toNat
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1024_i32_589 : BitVec 32 := 1024#32
  ![v8.toNat, 1024]
def k0_dev21 (d0 : Dev nD) : Nat :=
  let c0_i32_596 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_595 : BitVec 32 := 2#32
  let v622 : BitVec 32 := Scalar.muli v2 c2_i32_595
  let v623 : BitVec 32 := Scalar.addi c0_i32_596 v622
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_597 : BitVec 32 := 1#32
  let v624 : BitVec 32 := Scalar.muli v7 c1_i32_597
  let v625 : BitVec 32 := Scalar.addi v623 v624
  v625.toNat
def k0_dev22 (d0 : Dev nD) : Nat :=
  let c0_i32_622 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_621 : BitVec 32 := 2#32
  let v651 : BitVec 32 := Scalar.muli v6 c2_i32_621
  let v652 : BitVec 32 := Scalar.addi c0_i32_622 v651
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_623 : BitVec 32 := 1#32
  let v653 : BitVec 32 := Scalar.muli v5 c1_i32_623
  let v654 : BitVec 32 := Scalar.addi v652 v653
  v654.toNat
def k0_off11 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1152_i32_650 : BitVec 32 := 1152#32
  ![v8.toNat, 1152]
def k0_dev23 (d0 : Dev nD) : Nat :=
  let c0_i32_657 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_656 : BitVec 32 := 2#32
  let v686 : BitVec 32 := Scalar.muli v2 c2_i32_656
  let v687 : BitVec 32 := Scalar.addi c0_i32_657 v686
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_658 : BitVec 32 := 1#32
  let v688 : BitVec 32 := Scalar.muli v7 c1_i32_658
  let v689 : BitVec 32 := Scalar.addi v687 v688
  v689.toNat
def k0_dev24 (d0 : Dev nD) : Nat :=
  let c0_i32_683 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_682 : BitVec 32 := 2#32
  let v715 : BitVec 32 := Scalar.muli v6 c2_i32_682
  let v716 : BitVec 32 := Scalar.addi c0_i32_683 v715
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_684 : BitVec 32 := 1#32
  let v717 : BitVec 32 := Scalar.muli v5 c1_i32_684
  let v718 : BitVec 32 := Scalar.addi v716 v717
  v718.toNat
def k0_off12 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1280_i32_711 : BitVec 32 := 1280#32
  ![v8.toNat, 1280]
def k0_dev25 (d0 : Dev nD) : Nat :=
  let c0_i32_718 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_717 : BitVec 32 := 2#32
  let v750 : BitVec 32 := Scalar.muli v2 c2_i32_717
  let v751 : BitVec 32 := Scalar.addi c0_i32_718 v750
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_719 : BitVec 32 := 1#32
  let v752 : BitVec 32 := Scalar.muli v7 c1_i32_719
  let v753 : BitVec 32 := Scalar.addi v751 v752
  v753.toNat
def k0_dev26 (d0 : Dev nD) : Nat :=
  let c0_i32_744 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_743 : BitVec 32 := 2#32
  let v779 : BitVec 32 := Scalar.muli v6 c2_i32_743
  let v780 : BitVec 32 := Scalar.addi c0_i32_744 v779
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_745 : BitVec 32 := 1#32
  let v781 : BitVec 32 := Scalar.muli v5 c1_i32_745
  let v782 : BitVec 32 := Scalar.addi v780 v781
  v782.toNat
def k0_off13 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1408_i32_772 : BitVec 32 := 1408#32
  ![v8.toNat, 1408]
def k0_dev27 (d0 : Dev nD) : Nat :=
  let c0_i32_779 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_778 : BitVec 32 := 2#32
  let v814 : BitVec 32 := Scalar.muli v2 c2_i32_778
  let v815 : BitVec 32 := Scalar.addi c0_i32_779 v814
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_780 : BitVec 32 := 1#32
  let v816 : BitVec 32 := Scalar.muli v7 c1_i32_780
  let v817 : BitVec 32 := Scalar.addi v815 v816
  v817.toNat
def k0_dev28 (d0 : Dev nD) : Nat :=
  let c0_i32_805 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_804 : BitVec 32 := 2#32
  let v843 : BitVec 32 := Scalar.muli v6 c2_i32_804
  let v844 : BitVec 32 := Scalar.addi c0_i32_805 v843
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_806 : BitVec 32 := 1#32
  let v845 : BitVec 32 := Scalar.muli v5 c1_i32_806
  let v846 : BitVec 32 := Scalar.addi v844 v845
  v846.toNat
def k0_off14 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1536_i32_833 : BitVec 32 := 1536#32
  ![v8.toNat, 1536]
def k0_dev29 (d0 : Dev nD) : Nat :=
  let c0_i32_840 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_839 : BitVec 32 := 2#32
  let v878 : BitVec 32 := Scalar.muli v2 c2_i32_839
  let v879 : BitVec 32 := Scalar.addi c0_i32_840 v878
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_841 : BitVec 32 := 1#32
  let v880 : BitVec 32 := Scalar.muli v7 c1_i32_841
  let v881 : BitVec 32 := Scalar.addi v879 v880
  v881.toNat
def k0_dev30 (d0 : Dev nD) : Nat :=
  let c0_i32_866 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_865 : BitVec 32 := 2#32
  let v907 : BitVec 32 := Scalar.muli v6 c2_i32_865
  let v908 : BitVec 32 := Scalar.addi c0_i32_866 v907
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_867 : BitVec 32 := 1#32
  let v909 : BitVec 32 := Scalar.muli v5 c1_i32_867
  let v910 : BitVec 32 := Scalar.addi v908 v909
  v910.toNat
def k0_off15 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1664_i32_894 : BitVec 32 := 1664#32
  ![v8.toNat, 1664]
def k0_dev31 (d0 : Dev nD) : Nat :=
  let c0_i32_901 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_900 : BitVec 32 := 2#32
  let v942 : BitVec 32 := Scalar.muli v2 c2_i32_900
  let v943 : BitVec 32 := Scalar.addi c0_i32_901 v942
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_902 : BitVec 32 := 1#32
  let v944 : BitVec 32 := Scalar.muli v7 c1_i32_902
  let v945 : BitVec 32 := Scalar.addi v943 v944
  v945.toNat
def k0_dev32 (d0 : Dev nD) : Nat :=
  let c0_i32_922 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_921 : BitVec 32 := 2#32
  let v966 : BitVec 32 := Scalar.muli v6 c2_i32_921
  let v967 : BitVec 32 := Scalar.addi c0_i32_922 v966
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_923 : BitVec 32 := 1#32
  let v968 : BitVec 32 := Scalar.muli v5 c1_i32_923
  let v969 : BitVec 32 := Scalar.addi v967 v968
  v969.toNat
def k0_off16 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1792_i32_950 : BitVec 32 := 1792#32
  ![v8.toNat, 1792]
def k0_dev33 (d0 : Dev nD) : Nat :=
  let c0_i32_957 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_956 : BitVec 32 := 2#32
  let v1001 : BitVec 32 := Scalar.muli v2 c2_i32_956
  let v1002 : BitVec 32 := Scalar.addi c0_i32_957 v1001
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_958 : BitVec 32 := 1#32
  let v1003 : BitVec 32 := Scalar.muli v7 c1_i32_958
  let v1004 : BitVec 32 := Scalar.addi v1002 v1003
  v1004.toNat
def k0_off17 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1920_i32_984 : BitVec 32 := 1920#32
  ![v8.toNat, 1920]
def k0_dev34 (d0 : Dev nD) : Nat :=
  let c0_i32_991 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_990 : BitVec 32 := 2#32
  let v1035 : BitVec 32 := Scalar.muli v2 c2_i32_990
  let v1036 : BitVec 32 := Scalar.addi c0_i32_991 v1035
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_992 : BitVec 32 := 1#32
  let v1037 : BitVec 32 := Scalar.muli v7 c1_i32_992
  let v1038 : BitVec 32 := Scalar.addi v1036 v1037
  v1038.toNat

class Facts₀ : Prop where
  inb_S2_S1_0 : ∀ a, (![0] : Fin 1 → Nat) a + S1.size a ≤ S2.size a
  squeezes_S1_S_ : S1.Squeezes S_
  inb_S2x1024x128_S1x1024x128_0_0_0 : ∀ a, (![0, 0, 0] : Fin 3 → Nat) a + S1x1024x128.size a ≤ S2x1024x128.size a
  squeezes_S1x1024x128_S1024x128 : S1x1024x128.Squeezes S1024x128
  inb_S1024x2048_S1024x128_0_0 : ∀ a, (![0, 0] : Fin 2 → Nat) a + S1024x128.size a ≤ S1024x2048.size a
  hamt_1 : (1#32 : BitVec 32).msb = false
  hamt_2 : (2#32 : BitVec 32).msb = false
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S2_S1_1 : ∀ a, (![1] : Fin 1 → Nat) a + S1.size a ≤ S2.size a
  inb_S2x1024x128_S1x1024x128_1_0_0 : ∀ a, (![1, 0, 0] : Fin 3 → Nat) a + S1x1024x128.size a ≤ S2x1024x128.size a
  inb_S1024x2048_S1024x128_0_128 : ∀ a, (![0, 128] : Fin 2 → Nat) a + S1024x128.size a ≤ S1024x2048.size a
  h_S1x1024x128 : 0 < S1x1024x128.numel
  shapeCasts_S1x1024x128_S1024x128 : S1x1024x128.ShapeCasts S1024x128
  inb_S16x1024x128_S1x1024x128_0_0_0 : ∀ a, (![0, 0, 0] : Fin 3 → Nat) a + S1x1024x128.size a ≤ S16x1024x128.size a
  shapeCasts_S1024x128_S1x1024x128 : S1024x128.ShapeCasts S1x1024x128
  packedbf16_S16x1024x128_S1x1024x128_0_0_0 : (Rect.unit (s := S16x1024x128) ![0, 0, 0] S1x1024x128.size inb_S16x1024x128_S1x1024x128_0_0_0).PackedRows (EltTy.packing .bf16)
  inb_S16_S1_0 : ∀ a, (![0] : Fin 1 → Nat) a + S1.size a ≤ S16.size a
  wordsbf16_S16x1024x128_S1x1024x128_0_0_0 : (Rect.unit (s := S16x1024x128) ![0, 0, 0] S1x1024x128.size inb_S16x1024x128_S1x1024x128_0_0_0).WholeWords (EltTy.packing .bf16)
  inb_S1024x2048_S1024x128_0_256 : ∀ a, (![0, 256] : Fin 2 → Nat) a + S1024x128.size a ≤ S1024x2048.size a
  inb_S16x1024x128_S1x1024x128_1_0_0 : ∀ a, (![1, 0, 0] : Fin 3 → Nat) a + S1x1024x128.size a ≤ S16x1024x128.size a
  packedbf16_S16x1024x128_S1x1024x128_1_0_0 : (Rect.unit (s := S16x1024x128) ![1, 0, 0] S1x1024x128.size inb_S16x1024x128_S1x1024x128_1_0_0).PackedRows (EltTy.packing .bf16)
  inb_S16_S1_1 : ∀ a, (![1] : Fin 1 → Nat) a + S1.size a ≤ S16.size a
  wordsbf16_S16x1024x128_S1x1024x128_1_0_0 : (Rect.unit (s := S16x1024x128) ![1, 0, 0] S1x1024x128.size inb_S16x1024x128_S1x1024x128_1_0_0).WholeWords (EltTy.packing .bf16)
  inb_S1024x2048_S1024x128_0_384 : ∀ a, (![0, 384] : Fin 2 → Nat) a + S1024x128.size a ≤ S1024x2048.size a
  inb_S16x1024x128_S1x1024x128_2_0_0 : ∀ a, (![2, 0, 0] : Fin 3 → Nat) a + S1x1024x128.size a ≤ S16x1024x128.size a
  packedbf16_S16x1024x128_S1x1024x128_2_0_0 : (Rect.unit (s := S16x1024x128) ![2, 0, 0] S1x1024x128.size inb_S16x1024x128_S1x1024x128_2_0_0).PackedRows (EltTy.packing .bf16)
  inb_S16_S1_2 : ∀ a, (![2] : Fin 1 → Nat) a + S1.size a ≤ S16.size a
  wordsbf16_S16x1024x128_S1x1024x128_2_0_0 : (Rect.unit (s := S16x1024x128) ![2, 0, 0] S1x1024x128.size inb_S16x1024x128_S1x1024x128_2_0_0).WholeWords (EltTy.packing .bf16)
  inb_S1024x2048_S1024x128_0_512 : ∀ a, (![0, 512] : Fin 2 → Nat) a + S1024x128.size a ≤ S1024x2048.size a
  inb_S16x1024x128_S1x1024x128_3_0_0 : ∀ a, (![3, 0, 0] : Fin 3 → Nat) a + S1x1024x128.size a ≤ S16x1024x128.size a
  packedbf16_S16x1024x128_S1x1024x128_3_0_0 : (Rect.unit (s := S16x1024x128) ![3, 0, 0] S1x1024x128.size inb_S16x1024x128_S1x1024x128_3_0_0).PackedRows (EltTy.packing .bf16)
  inb_S16_S1_3 : ∀ a, (![3] : Fin 1 → Nat) a + S1.size a ≤ S16.size a
  wordsbf16_S16x1024x128_S1x1024x128_3_0_0 : (Rect.unit (s := S16x1024x128) ![3, 0, 0] S1x1024x128.size inb_S16x1024x128_S1x1024x128_3_0_0).WholeWords (EltTy.packing .bf16)
  inb_S1024x2048_S1024x128_0_640 : ∀ a, (![0, 640] : Fin 2 → Nat) a + S1024x128.size a ≤ S1024x2048.size a
  inb_S16x1024x128_S1x1024x128_4_0_0 : ∀ a, (![4, 0, 0] : Fin 3 → Nat) a + S1x1024x128.size a ≤ S16x1024x128.size a
  packedbf16_S16x1024x128_S1x1024x128_4_0_0 : (Rect.unit (s := S16x1024x128) ![4, 0, 0] S1x1024x128.size inb_S16x1024x128_S1x1024x128_4_0_0).PackedRows (EltTy.packing .bf16)
  inb_S16_S1_4 : ∀ a, (![4] : Fin 1 → Nat) a + S1.size a ≤ S16.size a
  wordsbf16_S16x1024x128_S1x1024x128_4_0_0 : (Rect.unit (s := S16x1024x128) ![4, 0, 0] S1x1024x128.size inb_S16x1024x128_S1x1024x128_4_0_0).WholeWords (EltTy.packing .bf16)
  inb_S1024x2048_S1024x128_0_768 : ∀ a, (![0, 768] : Fin 2 → Nat) a + S1024x128.size a ≤ S1024x2048.size a
  inb_S16x1024x128_S1x1024x128_5_0_0 : ∀ a, (![5, 0, 0] : Fin 3 → Nat) a + S1x1024x128.size a ≤ S16x1024x128.size a
  packedbf16_S16x1024x128_S1x1024x128_5_0_0 : (Rect.unit (s := S16x1024x128) ![5, 0, 0] S1x1024x128.size inb_S16x1024x128_S1x1024x128_5_0_0).PackedRows (EltTy.packing .bf16)
  inb_S16_S1_5 : ∀ a, (![5] : Fin 1 → Nat) a + S1.size a ≤ S16.size a
  wordsbf16_S16x1024x128_S1x1024x128_5_0_0 : (Rect.unit (s := S16x1024x128) ![5, 0, 0] S1x1024x128.size inb_S16x1024x128_S1x1024x128_5_0_0).WholeWords (EltTy.packing .bf16)
  inb_S1024x2048_S1024x128_0_896 : ∀ a, (![0, 896] : Fin 2 → Nat) a + S1024x128.size a ≤ S1024x2048.size a
  inb_S16x1024x128_S1x1024x128_6_0_0 : ∀ a, (![6, 0, 0] : Fin 3 → Nat) a + S1x1024x128.size a ≤ S16x1024x128.size a
  packedbf16_S16x1024x128_S1x1024x128_6_0_0 : (Rect.unit (s := S16x1024x128) ![6, 0, 0] S1x1024x128.size inb_S16x1024x128_S1x1024x128_6_0_0).PackedRows (EltTy.packing .bf16)
  inb_S16_S1_6 : ∀ a, (![6] : Fin 1 → Nat) a + S1.size a ≤ S16.size a
  wordsbf16_S16x1024x128_S1x1024x128_6_0_0 : (Rect.unit (s := S16x1024x128) ![6, 0, 0] S1x1024x128.size inb_S16x1024x128_S1x1024x128_6_0_0).WholeWords (EltTy.packing .bf16)
  inb_S1024x2048_S1024x128_0_1024 : ∀ a, (![0, 1024] : Fin 2 → Nat) a + S1024x128.size a ≤ S1024x2048.size a
  inb_S16x1024x128_S1x1024x128_7_0_0 : ∀ a, (![7, 0, 0] : Fin 3 → Nat) a + S1x1024x128.size a ≤ S16x1024x128.size a
  packedbf16_S16x1024x128_S1x1024x128_7_0_0 : (Rect.unit (s := S16x1024x128) ![7, 0, 0] S1x1024x128.size inb_S16x1024x128_S1x1024x128_7_0_0).PackedRows (EltTy.packing .bf16)
  inb_S16_S1_7 : ∀ a, (![7] : Fin 1 → Nat) a + S1.size a ≤ S16.size a
  wordsbf16_S16x1024x128_S1x1024x128_7_0_0 : (Rect.unit (s := S16x1024x128) ![7, 0, 0] S1x1024x128.size inb_S16x1024x128_S1x1024x128_7_0_0).WholeWords (EltTy.packing .bf16)
  inb_S1024x2048_S1024x128_0_1152 : ∀ a, (![0, 1152] : Fin 2 → Nat) a + S1024x128.size a ≤ S1024x2048.size a
  inb_S16x1024x128_S1x1024x128_8_0_0 : ∀ a, (![8, 0, 0] : Fin 3 → Nat) a + S1x1024x128.size a ≤ S16x1024x128.size a
  packedbf16_S16x1024x128_S1x1024x128_8_0_0 : (Rect.unit (s := S16x1024x128) ![8, 0, 0] S1x1024x128.size inb_S16x1024x128_S1x1024x128_8_0_0).PackedRows (EltTy.packing .bf16)
  inb_S16_S1_8 : ∀ a, (![8] : Fin 1 → Nat) a + S1.size a ≤ S16.size a
  wordsbf16_S16x1024x128_S1x1024x128_8_0_0 : (Rect.unit (s := S16x1024x128) ![8, 0, 0] S1x1024x128.size inb_S16x1024x128_S1x1024x128_8_0_0).WholeWords (EltTy.packing .bf16)
  inb_S1024x2048_S1024x128_0_1280 : ∀ a, (![0, 1280] : Fin 2 → Nat) a + S1024x128.size a ≤ S1024x2048.size a
  inb_S16x1024x128_S1x1024x128_9_0_0 : ∀ a, (![9, 0, 0] : Fin 3 → Nat) a + S1x1024x128.size a ≤ S16x1024x128.size a
  packedbf16_S16x1024x128_S1x1024x128_9_0_0 : (Rect.unit (s := S16x1024x128) ![9, 0, 0] S1x1024x128.size inb_S16x1024x128_S1x1024x128_9_0_0).PackedRows (EltTy.packing .bf16)
  inb_S16_S1_9 : ∀ a, (![9] : Fin 1 → Nat) a + S1.size a ≤ S16.size a
  wordsbf16_S16x1024x128_S1x1024x128_9_0_0 : (Rect.unit (s := S16x1024x128) ![9, 0, 0] S1x1024x128.size inb_S16x1024x128_S1x1024x128_9_0_0).WholeWords (EltTy.packing .bf16)
  inb_S1024x2048_S1024x128_0_1408 : ∀ a, (![0, 1408] : Fin 2 → Nat) a + S1024x128.size a ≤ S1024x2048.size a
  inb_S16x1024x128_S1x1024x128_10_0_0 : ∀ a, (![10, 0, 0] : Fin 3 → Nat) a + S1x1024x128.size a ≤ S16x1024x128.size a
  packedbf16_S16x1024x128_S1x1024x128_10_0_0 : (Rect.unit (s := S16x1024x128) ![10, 0, 0] S1x1024x128.size inb_S16x1024x128_S1x1024x128_10_0_0).PackedRows (EltTy.packing .bf16)
  inb_S16_S1_10 : ∀ a, (![10] : Fin 1 → Nat) a + S1.size a ≤ S16.size a
  wordsbf16_S16x1024x128_S1x1024x128_10_0_0 : (Rect.unit (s := S16x1024x128) ![10, 0, 0] S1x1024x128.size inb_S16x1024x128_S1x1024x128_10_0_0).WholeWords (EltTy.packing .bf16)
  inb_S1024x2048_S1024x128_0_1536 : ∀ a, (![0, 1536] : Fin 2 → Nat) a + S1024x128.size a ≤ S1024x2048.size a
  inb_S16x1024x128_S1x1024x128_11_0_0 : ∀ a, (![11, 0, 0] : Fin 3 → Nat) a + S1x1024x128.size a ≤ S16x1024x128.size a
  packedbf16_S16x1024x128_S1x1024x128_11_0_0 : (Rect.unit (s := S16x1024x128) ![11, 0, 0] S1x1024x128.size inb_S16x1024x128_S1x1024x128_11_0_0).PackedRows (EltTy.packing .bf16)
  inb_S16_S1_11 : ∀ a, (![11] : Fin 1 → Nat) a + S1.size a ≤ S16.size a
  wordsbf16_S16x1024x128_S1x1024x128_11_0_0 : (Rect.unit (s := S16x1024x128) ![11, 0, 0] S1x1024x128.size inb_S16x1024x128_S1x1024x128_11_0_0).WholeWords (EltTy.packing .bf16)
  inb_S1024x2048_S1024x128_0_1664 : ∀ a, (![0, 1664] : Fin 2 → Nat) a + S1024x128.size a ≤ S1024x2048.size a
  inb_S16x1024x128_S1x1024x128_12_0_0 : ∀ a, (![12, 0, 0] : Fin 3 → Nat) a + S1x1024x128.size a ≤ S16x1024x128.size a
  packedbf16_S16x1024x128_S1x1024x128_12_0_0 : (Rect.unit (s := S16x1024x128) ![12, 0, 0] S1x1024x128.size inb_S16x1024x128_S1x1024x128_12_0_0).PackedRows (EltTy.packing .bf16)
  inb_S16_S1_12 : ∀ a, (![12] : Fin 1 → Nat) a + S1.size a ≤ S16.size a
  wordsbf16_S16x1024x128_S1x1024x128_12_0_0 : (Rect.unit (s := S16x1024x128) ![12, 0, 0] S1x1024x128.size inb_S16x1024x128_S1x1024x128_12_0_0).WholeWords (EltTy.packing .bf16)
  inb_S1024x2048_S1024x128_0_1792 : ∀ a, (![0, 1792] : Fin 2 → Nat) a + S1024x128.size a ≤ S1024x2048.size a
  inb_S16x1024x128_S1x1024x128_13_0_0 : ∀ a, (![13, 0, 0] : Fin 3 → Nat) a + S1x1024x128.size a ≤ S16x1024x128.size a
  packedbf16_S16x1024x128_S1x1024x128_13_0_0 : (Rect.unit (s := S16x1024x128) ![13, 0, 0] S1x1024x128.size inb_S16x1024x128_S1x1024x128_13_0_0).PackedRows (EltTy.packing .bf16)
  inb_S16_S1_13 : ∀ a, (![13] : Fin 1 → Nat) a + S1.size a ≤ S16.size a
  wordsbf16_S16x1024x128_S1x1024x128_13_0_0 : (Rect.unit (s := S16x1024x128) ![13, 0, 0] S1x1024x128.size inb_S16x1024x128_S1x1024x128_13_0_0).WholeWords (EltTy.packing .bf16)
  inb_S1024x2048_S1024x128_0_1920 : ∀ a, (![0, 1920] : Fin 2 → Nat) a + S1024x128.size a ≤ S1024x2048.size a
  inb_S16x1024x128_S1x1024x128_14_0_0 : ∀ a, (![14, 0, 0] : Fin 3 → Nat) a + S1x1024x128.size a ≤ S16x1024x128.size a
  packedbf16_S16x1024x128_S1x1024x128_14_0_0 : (Rect.unit (s := S16x1024x128) ![14, 0, 0] S1x1024x128.size inb_S16x1024x128_S1x1024x128_14_0_0).PackedRows (EltTy.packing .bf16)
  inb_S16_S1_14 : ∀ a, (![14] : Fin 1 → Nat) a + S1.size a ≤ S16.size a
  wordsbf16_S16x1024x128_S1x1024x128_14_0_0 : (Rect.unit (s := S16x1024x128) ![14, 0, 0] S1x1024x128.size inb_S16x1024x128_S1x1024x128_14_0_0).WholeWords (EltTy.packing .bf16)
  inb_S16x1024x128_S1x1024x128_15_0_0 : ∀ a, (![15, 0, 0] : Fin 3 → Nat) a + S1x1024x128.size a ≤ S16x1024x128.size a
  packedbf16_S16x1024x128_S1x1024x128_15_0_0 : (Rect.unit (s := S16x1024x128) ![15, 0, 0] S1x1024x128.size inb_S16x1024x128_S1x1024x128_15_0_0).PackedRows (EltTy.packing .bf16)
  inb_S16_S1_15 : ∀ a, (![15] : Fin 1 → Nat) a + S1.size a ≤ S16.size a
  wordsbf16_S16x1024x128_S1x1024x128_15_0_0 : (Rect.unit (s := S16x1024x128) ![15, 0, 0] S1x1024x128.size inb_S16x1024x128_S1x1024x128_15_0_0).WholeWords (EltTy.packing .bf16)
  dot_S1024x1024_S1024x128_S1024x128_1_0_0_1_n_n_wf : DotDims.WF S1024x1024 S1024x128 S1024x128 [1] [0] [0] [1] [] []
  hcc0_scratch5 : 0 + S16.numel ≤ 83
  hcc0_scratch6 : 16 + S16.numel ≤ 83
  hcc0_scratch7 : 32 + S16.numel ≤ 83
  hcc0_scratch8 : 48 + S16.numel ≤ 83
  hcc0_scratch9 : 64 + S_.numel ≤ 83
  hcc0_scratch10 : 65 + S2.numel ≤ 83
  hcc0_scratch11 : 67 + S16.numel ≤ 83
  k0_off1_inb : ∀ d0 : Dev nD, ∀ a, (k0_off1 d0) a + S1024x1024.size a ≤ S2048x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off2_inb : ∀ d0 : Dev nD, ∀ a, (k0_off2 d0) a + S1024x128.size a ≤ S2048x2048.size a
  k0_off2_wordsbf16 : ∀ d0 : Dev nD, (Rect.unit (s := S2048x2048) (k0_off2 d0) S1024x128.size (k0_off2_inb d0)).WholeWords (EltTy.packing .bf16)
  k0_dev5_lt : ∀ d0 : Dev nD, (k0_dev5 d0) < nD
  k0_dev6_lt : ∀ d0 : Dev nD, (k0_dev6 d0) < nD
  k0_off3_inb : ∀ d0 : Dev nD, ∀ a, (k0_off3 d0) a + S1024x128.size a ≤ S2048x2048.size a
  k0_off3_wordsbf16 : ∀ d0 : Dev nD, (Rect.unit (s := S2048x2048) (k0_off3 d0) S1024x128.size (k0_off3_inb d0)).WholeWords (EltTy.packing .bf16)
  k0_dev7_lt : ∀ d0 : Dev nD, (k0_dev7 d0) < nD
  k0_dev8_lt : ∀ d0 : Dev nD, (k0_dev8 d0) < nD
  k0_off4_inb : ∀ d0 : Dev nD, ∀ a, (k0_off4 d0) a + S1024x128.size a ≤ S2048x2048.size a
  k0_off4_wordsbf16 : ∀ d0 : Dev nD, (Rect.unit (s := S2048x2048) (k0_off4 d0) S1024x128.size (k0_off4_inb d0)).WholeWords (EltTy.packing .bf16)
  k0_dev9_lt : ∀ d0 : Dev nD, (k0_dev9 d0) < nD
  k0_dev10_lt : ∀ d0 : Dev nD, (k0_dev10 d0) < nD
  k0_off5_inb : ∀ d0 : Dev nD, ∀ a, (k0_off5 d0) a + S1024x128.size a ≤ S2048x2048.size a
  k0_off5_wordsbf16 : ∀ d0 : Dev nD, (Rect.unit (s := S2048x2048) (k0_off5 d0) S1024x128.size (k0_off5_inb d0)).WholeWords (EltTy.packing .bf16)
  k0_dev11_lt : ∀ d0 : Dev nD, (k0_dev11 d0) < nD
  k0_dev12_lt : ∀ d0 : Dev nD, (k0_dev12 d0) < nD
  k0_off6_inb : ∀ d0 : Dev nD, ∀ a, (k0_off6 d0) a + S1024x128.size a ≤ S2048x2048.size a
  k0_off6_wordsbf16 : ∀ d0 : Dev nD, (Rect.unit (s := S2048x2048) (k0_off6 d0) S1024x128.size (k0_off6_inb d0)).WholeWords (EltTy.packing .bf16)
  k0_dev13_lt : ∀ d0 : Dev nD, (k0_dev13 d0) < nD
  k0_dev14_lt : ∀ d0 : Dev nD, (k0_dev14 d0) < nD
  k0_off7_inb : ∀ d0 : Dev nD, ∀ a, (k0_off7 d0) a + S1024x128.size a ≤ S2048x2048.size a
  k0_off7_wordsbf16 : ∀ d0 : Dev nD, (Rect.unit (s := S2048x2048) (k0_off7 d0) S1024x128.size (k0_off7_inb d0)).WholeWords (EltTy.packing .bf16)
  k0_dev15_lt : ∀ d0 : Dev nD, (k0_dev15 d0) < nD
  k0_dev16_lt : ∀ d0 : Dev nD, (k0_dev16 d0) < nD
  k0_off8_inb : ∀ d0 : Dev nD, ∀ a, (k0_off8 d0) a + S1024x128.size a ≤ S2048x2048.size a
  k0_off8_wordsbf16 : ∀ d0 : Dev nD, (Rect.unit (s := S2048x2048) (k0_off8 d0) S1024x128.size (k0_off8_inb d0)).WholeWords (EltTy.packing .bf16)
  k0_dev17_lt : ∀ d0 : Dev nD, (k0_dev17 d0) < nD
  k0_dev18_lt : ∀ d0 : Dev nD, (k0_dev18 d0) < nD
  k0_off9_inb : ∀ d0 : Dev nD, ∀ a, (k0_off9 d0) a + S1024x128.size a ≤ S2048x2048.size a
  k0_off9_wordsbf16 : ∀ d0 : Dev nD, (Rect.unit (s := S2048x2048) (k0_off9 d0) S1024x128.size (k0_off9_inb d0)).WholeWords (EltTy.packing .bf16)
  k0_dev19_lt : ∀ d0 : Dev nD, (k0_dev19 d0) < nD
  k0_dev20_lt : ∀ d0 : Dev nD, (k0_dev20 d0) < nD
  k0_off10_inb : ∀ d0 : Dev nD, ∀ a, (k0_off10 d0) a + S1024x128.size a ≤ S2048x2048.size a
  k0_off10_wordsbf16 : ∀ d0 : Dev nD, (Rect.unit (s := S2048x2048) (k0_off10 d0) S1024x128.size (k0_off10_inb d0)).WholeWords (EltTy.packing .bf16)
  k0_dev21_lt : ∀ d0 : Dev nD, (k0_dev21 d0) < nD
  k0_dev22_lt : ∀ d0 : Dev nD, (k0_dev22 d0) < nD
  k0_off11_inb : ∀ d0 : Dev nD, ∀ a, (k0_off11 d0) a + S1024x128.size a ≤ S2048x2048.size a
  k0_off11_wordsbf16 : ∀ d0 : Dev nD, (Rect.unit (s := S2048x2048) (k0_off11 d0) S1024x128.size (k0_off11_inb d0)).WholeWords (EltTy.packing .bf16)
  k0_dev23_lt : ∀ d0 : Dev nD, (k0_dev23 d0) < nD
  k0_dev24_lt : ∀ d0 : Dev nD, (k0_dev24 d0) < nD
  k0_off12_inb : ∀ d0 : Dev nD, ∀ a, (k0_off12 d0) a + S1024x128.size a ≤ S2048x2048.size a
  k0_off12_wordsbf16 : ∀ d0 : Dev nD, (Rect.unit (s := S2048x2048) (k0_off12 d0) S1024x128.size (k0_off12_inb d0)).WholeWords (EltTy.packing .bf16)
  k0_dev25_lt : ∀ d0 : Dev nD, (k0_dev25 d0) < nD
  k0_dev26_lt : ∀ d0 : Dev nD, (k0_dev26 d0) < nD
  k0_off13_inb : ∀ d0 : Dev nD, ∀ a, (k0_off13 d0) a + S1024x128.size a ≤ S2048x2048.size a
  k0_off13_wordsbf16 : ∀ d0 : Dev nD, (Rect.unit (s := S2048x2048) (k0_off13 d0) S1024x128.size (k0_off13_inb d0)).WholeWords (EltTy.packing .bf16)
  k0_dev27_lt : ∀ d0 : Dev nD, (k0_dev27 d0) < nD
  k0_dev28_lt : ∀ d0 : Dev nD, (k0_dev28 d0) < nD
  k0_off14_inb : ∀ d0 : Dev nD, ∀ a, (k0_off14 d0) a + S1024x128.size a ≤ S2048x2048.size a
  k0_off14_wordsbf16 : ∀ d0 : Dev nD, (Rect.unit (s := S2048x2048) (k0_off14 d0) S1024x128.size (k0_off14_inb d0)).WholeWords (EltTy.packing .bf16)
  k0_dev29_lt : ∀ d0 : Dev nD, (k0_dev29 d0) < nD
  k0_dev30_lt : ∀ d0 : Dev nD, (k0_dev30 d0) < nD
  k0_off15_inb : ∀ d0 : Dev nD, ∀ a, (k0_off15 d0) a + S1024x128.size a ≤ S2048x2048.size a
  k0_off15_wordsbf16 : ∀ d0 : Dev nD, (Rect.unit (s := S2048x2048) (k0_off15 d0) S1024x128.size (k0_off15_inb d0)).WholeWords (EltTy.packing .bf16)
  k0_dev31_lt : ∀ d0 : Dev nD, (k0_dev31 d0) < nD
  k0_dev32_lt : ∀ d0 : Dev nD, (k0_dev32 d0) < nD
  k0_off16_inb : ∀ d0 : Dev nD, ∀ a, (k0_off16 d0) a + S1024x128.size a ≤ S2048x2048.size a
  k0_off16_wordsbf16 : ∀ d0 : Dev nD, (Rect.unit (s := S2048x2048) (k0_off16 d0) S1024x128.size (k0_off16_inb d0)).WholeWords (EltTy.packing .bf16)
  k0_dev33_lt : ∀ d0 : Dev nD, (k0_dev33 d0) < nD
  k0_off17_inb : ∀ d0 : Dev nD, ∀ a, (k0_off17 d0) a + S1024x128.size a ≤ S2048x2048.size a
  k0_off17_wordsbf16 : ∀ d0 : Dev nD, (Rect.unit (s := S2048x2048) (k0_off17 d0) S1024x128.size (k0_off17_inb d0)).WholeWords (EltTy.packing .bf16)
  k0_dev34_lt : ∀ d0 : Dev nD, (k0_dev34 d0) < nD

variable [Facts₀]

abbrev cc0_scratch5 : DmaSems sig S16 := SemArray.consecutive 0 S16 hcc0_scratch5
abbrev cc0_scratch6 : DmaSems sig S16 := SemArray.consecutive 16 S16 hcc0_scratch6
abbrev cc0_scratch7 : DmaSems sig S16 := SemArray.consecutive 32 S16 hcc0_scratch7
abbrev cc0_scratch8 : DmaSems sig S16 := SemArray.consecutive 48 S16 hcc0_scratch8
abbrev cc0_scratch9 : DmaSems sig S_ := SemArray.consecutive 64 S_ hcc0_scratch9
abbrev cc0_scratch10 : DmaSems sig S2 := SemArray.consecutive 65 S2 hcc0_scratch10
abbrev cc0_scratch11 : DmaSems sig S16 := SemArray.consecutive 67 S16 hcc0_scratch11
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.IdealSide.Cells.lean ====
/-
  The mesh is 2 × 2: device `c` sits at row `c / 2` of the contraction split and holds row half `c % 2` of the
  result. Its partner across the contraction split (`xn c`) holds the other half of the columns of the left factor
  and of the rows of the right factor; its partner across the row split (`yn c`) computes the other half of the rows.
  A device's sixteen column chunks of width 128 each travel twice: the partial product to `xn c`, the finished sum to
  `yn c`. This module names the partners, the buffers' sixteen slots and the semaphore cells of that traffic.
-/
import proofs.«900449_g7700000000000450_dist_matmul_k_x_m2048_n2048_k1024_v7x_xy2x2_bf16_1_alg».proof.Proof.Gen.KernelIdeal.Skeleton
import proofs.«900449_g7700000000000450_dist_matmul_k_x_m2048_n2048_k1024_v7x_xy2x2_bf16_1_alg».proof.Proof.Gen.KernelIdeal.Launch
import proofs.«900449_g7700000000000450_dist_matmul_k_x_m2048_n2048_k1024_v7x_xy2x2_bf16_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Tactic

noncomputable section

namespace Cert.KernelIdeal.DM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, one for the mesh traffic (duty names `Bool`), and the counters
    the local copies' invariants draw on -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-- A memory of the four devices. -/
abbrev Mem (F : FTy → Type) [FloatOps F] : Type := (ℓ : Loc nD τ sig) → Buf (Elt F) ℓ

/-! ## The partners -/

/-- The partner across the contraction split: the same row half, the other half of the contraction. -/
def xn (c : Dev nD) : Dev nD := ⟨((c.val % 2) + 2) - 2 * (c.val / 2), by revert c; decide⟩
/-- The partner across the row split: the same contraction half, the other row half. -/
def yn (c : Dev nD) : Dev nD := ⟨(2 * (c.val / 2) + 1) - (c.val % 2), by revert c; decide⟩

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide
theorem xn_yn (c : Dev nD) : xn (yn c) = yn (xn c) := by revert c; decide
/-- The partners keep what they should: `xn` the row half, `yn` the contraction half. -/
theorem xn_row (c : Dev nD) : (xn c).val % 2 = c.val % 2 := by revert c; decide
theorem yn_col (c : Dev nD) : (yn c).val / 2 = c.val / 2 := by revert c; decide
theorem yn_row (c : Dev nD) : (yn c).val % 2 = 1 - c.val % 2 := by revert c; decide
theorem xn_col (c : Dev nD) : (xn c).val / 2 = 1 - c.val / 2 := by revert c; decide

def xnEquiv : Dev nD ≃ Dev nD := ⟨xn, xn, xn_xn, xn_xn⟩
def ynEquiv : Dev nD ≃ Dev nD := ⟨yn, yn, yn_yn, yn_yn⟩

/-! The kernel's device chains: each names one of the two partners. -/
theorem dev1_eq (c : Dev nD) (h : k0_dev1 c < nD) : (⟨k0_dev1 c, h⟩ : Dev nD) = xn c := Fin.ext (k0_dev1_eq c)
theorem dev3_eq (c : Dev nD) (h : k0_dev3 c < nD) : (⟨k0_dev3 c, h⟩ : Dev nD) = xn c := Fin.ext (k0_dev3_eq c)
theorem dev4_eq (c : Dev nD) (h : k0_dev4 c < nD) : (⟨k0_dev4 c, h⟩ : Dev nD) = xn c := Fin.ext (k0_dev4_eq c)
theorem dev6_eq (c : Dev nD) (h : k0_dev6 c < nD) : (⟨k0_dev6 c, h⟩ : Dev nD) = xn c := Fin.ext (k0_dev6_eq c)
theorem dev8_eq (c : Dev nD) (h : k0_dev8 c < nD) : (⟨k0_dev8 c, h⟩ : Dev nD) = xn c := Fin.ext (k0_dev8_eq c)
theorem dev10_eq (c : Dev nD) (h : k0_dev10 c < nD) : (⟨k0_dev10 c, h⟩ : Dev nD) = xn c := Fin.ext (k0_dev10_eq c)
theorem dev12_eq (c : Dev nD) (h : k0_dev12 c < nD) : (⟨k0_dev12 c, h⟩ : Dev nD) = xn c := Fin.ext (k0_dev12_eq c)
theorem dev14_eq (c : Dev nD) (h : k0_dev14 c < nD) : (⟨k0_dev14 c, h⟩ : Dev nD) = xn c := Fin.ext (k0_dev14_eq c)
theorem dev16_eq (c : Dev nD) (h : k0_dev16 c < nD) : (⟨k0_dev16 c, h⟩ : Dev nD) = xn c := Fin.ext (k0_dev16_eq c)
theorem dev18_eq (c : Dev nD) (h : k0_dev18 c < nD) : (⟨k0_dev18 c, h⟩ : Dev nD) = xn c := Fin.ext (k0_dev18_eq c)
theorem dev20_eq (c : Dev nD) (h : k0_dev20 c < nD) : (⟨k0_dev20 c, h⟩ : Dev nD) = xn c := Fin.ext (k0_dev20_eq c)
theorem dev22_eq (c : Dev nD) (h : k0_dev22 c < nD) : (⟨k0_dev22 c, h⟩ : Dev nD) = xn c := Fin.ext (k0_dev22_eq c)
theorem dev24_eq (c : Dev nD) (h : k0_dev24 c < nD) : (⟨k0_dev24 c, h⟩ : Dev nD) = xn c := Fin.ext (k0_dev24_eq c)
theorem dev26_eq (c : Dev nD) (h : k0_dev26 c < nD) : (⟨k0_dev26 c, h⟩ : Dev nD) = xn c := Fin.ext (k0_dev26_eq c)
theorem dev28_eq (c : Dev nD) (h : k0_dev28 c < nD) : (⟨k0_dev28 c, h⟩ : Dev nD) = xn c := Fin.ext (k0_dev28_eq c)
theorem dev30_eq (c : Dev nD) (h : k0_dev30 c < nD) : (⟨k0_dev30 c, h⟩ : Dev nD) = xn c := Fin.ext (k0_dev30_eq c)
theorem dev32_eq (c : Dev nD) (h : k0_dev32 c < nD) : (⟨k0_dev32 c, h⟩ : Dev nD) = xn c := Fin.ext (k0_dev32_eq c)
theorem dev2_eq (c : Dev nD) (h : k0_dev2 c < nD) : (⟨k0_dev2 c, h⟩ : Dev nD) = yn c := Fin.ext (k0_dev2_eq c)
theorem dev5_eq (c : Dev nD) (h : k0_dev5 c < nD) : (⟨k0_dev5 c, h⟩ : Dev nD) = yn c := Fin.ext (k0_dev5_eq c)
theorem dev7_eq (c : Dev nD) (h : k0_dev7 c < nD) : (⟨k0_dev7 c, h⟩ : Dev nD) = yn c := Fin.ext (k0_dev7_eq c)
theorem dev9_eq (c : Dev nD) (h : k0_dev9 c < nD) : (⟨k0_dev9 c, h⟩ : Dev nD) = yn c := Fin.ext (k0_dev9_eq c)
theorem dev11_eq (c : Dev nD) (h : k0_dev11 c < nD) : (⟨k0_dev11 c, h⟩ : Dev nD) = yn c := Fin.ext (k0_dev11_eq c)
theorem dev13_eq (c : Dev nD) (h : k0_dev13 c < nD) : (⟨k0_dev13 c, h⟩ : Dev nD) = yn c := Fin.ext (k0_dev13_eq c)
theorem dev15_eq (c : Dev nD) (h : k0_dev15 c < nD) : (⟨k0_dev15 c, h⟩ : Dev nD) = yn c := Fin.ext (k0_dev15_eq c)
theorem dev17_eq (c : Dev nD) (h : k0_dev17 c < nD) : (⟨k0_dev17 c, h⟩ : Dev nD) = yn c := Fin.ext (k0_dev17_eq c)
theorem dev19_eq (c : Dev nD) (h : k0_dev19 c < nD) : (⟨k0_dev19 c, h⟩ : Dev nD) = yn c := Fin.ext (k0_dev19_eq c)
theorem dev21_eq (c : Dev nD) (h : k0_dev21 c < nD) : (⟨k0_dev21 c, h⟩ : Dev nD) = yn c := Fin.ext (k0_dev21_eq c)
theorem dev23_eq (c : Dev nD) (h : k0_dev23 c < nD) : (⟨k0_dev23 c, h⟩ : Dev nD) = yn c := Fin.ext (k0_dev23_eq c)
theorem dev25_eq (c : Dev nD) (h : k0_dev25 c < nD) : (⟨k0_dev25 c, h⟩ : Dev nD) = yn c := Fin.ext (k0_dev25_eq c)
theorem dev27_eq (c : Dev nD) (h : k0_dev27 c < nD) : (⟨k0_dev27 c, h⟩ : Dev nD) = yn c := Fin.ext (k0_dev27_eq c)
theorem dev29_eq (c : Dev nD) (h : k0_dev29 c < nD) : (⟨k0_dev29 c, h⟩ : Dev nD) = yn c := Fin.ext (k0_dev29_eq c)
theorem dev31_eq (c : Dev nD) (h : k0_dev31 c < nD) : (⟨k0_dev31 c, h⟩ : Dev nD) = yn c := Fin.ext (k0_dev31_eq c)
theorem dev33_eq (c : Dev nD) (h : k0_dev33 c < nD) : (⟨k0_dev33 c, h⟩ : Dev nD) = yn c := Fin.ext (k0_dev33_eq c)
theorem dev34_eq (c : Dev nD) (h : k0_dev34 c < nD) : (⟨k0_dev34 c, h⟩ : Dev nD) = yn c := Fin.ext (k0_dev34_eq c)

/-! ## The buffers and their sixteen slots -/

abbrev aM : Memref sig .tc .hbm S2048x1024 .f32 := Memref.whole main_arg0
abbrev bM : Memref sig .tc .hbm S1024x2048 .f32 := Memref.whole main_arg1
abbrev oM : Memref sig .tc .hbm S2048x2048 .bf16 := Memref.whole main_v1
abbrev avM : Memref sig .tc .vmem S1024x1024 .f32 := Memref.whole cc0_scratch0
abbrev bvM : Memref sig .tc .vmem S2x1024x128 .f32 := Memref.whole cc0_scratch1
abbrev psM : Memref sig .tc .vmem S16x1024x128 .bf16 := Memref.whole cc0_scratch2
abbrev prM : Memref sig .tc .vmem S16x1024x128 .bf16 := Memref.whole cc0_scratch3
abbrev cvM : Memref sig .tc .vmem S16x1024x128 .bf16 := Memref.whole cc0_scratch4

/-- Offsets of slot `j` in a buffer of sixteen [1024, 128] slots. -/
abbrev slotOff (j : Fin 16) : Fin 3 → Nat := ![j.val, 0, 0]
theorem slot_inb : ∀ (j : Fin 16) a, slotOff j a + S1x1024x128.size a ≤ S16x1024x128.size a := by decide
abbrev slotR (j : Fin 16) : Rect S16x1024x128 := Rect.unit (s := S16x1024x128) (slotOff j) S1x1024x128.size (slot_inb j)
/-- Slot `j` of a sixteen-slot buffer as the transfers name it: the slice, squeezed to [1024, 128]. -/
abbrev slotM (M : Memref sig .tc .vmem S16x1024x128 .bf16) (j : Fin 16) : Memref sig .tc .vmem S1024x128 .bf16 :=
  (M.slice (slotR j) (fun _ => rfl)).squeeze S1024x128 squeezes_S1x1024x128_S1024x128

/-- The two slots of the right factor's double buffer. -/
abbrev bvOff (p : Fin 2) : Fin 3 → Nat := ![p.val, 0, 0]
theorem bv_inb : ∀ (p : Fin 2) a, bvOff p a + S1x1024x128.size a ≤ S2x1024x128.size a := by decide
abbrev bvR (p : Fin 2) : Rect S2x1024x128 := Rect.unit (s := S2x1024x128) (bvOff p) S1x1024x128.size (bv_inb p)
abbrev bvSlot (p : Fin 2) : Memref sig .tc .vmem S1024x128 .f32 :=
  (bvM.slice (bvR p) (fun _ => rfl)).squeeze S1024x128 squeezes_S1x1024x128_S1024x128

/-- The rows of the result a device computes, at column chunk `j`: offsets into the [2048, 2048] array. -/
abbrev outOff (c : Dev nD) (j : Fin 16) : Fin 2 → Nat := ![1024 * (c.val % 2), 128 * j.val]
theorem out_inb : ∀ (c : Dev nD) (j : Fin 16) a, outOff c j a + S1024x128.size a ≤ S2048x2048.size a := by decide
abbrev outR (c : Dev nD) (j : Fin 16) : Rect S2048x2048 := Rect.unit (s := S2048x2048) (outOff c j) S1024x128.size (out_inb c j)
/-- The block of the result array device `c`'s rows fill at chunk `j` (on whichever device the array lives). -/
abbrev outM (c : Dev nD) (j : Fin 16) : Memref sig .tc .hbm S1024x128 .bf16 := oM.slice (outR c j) (fun _ => rfl)

/-- What a transfer of one slot credits. -/
abbrev Ncr : ℕ := (slotM psM 0).view.dmaCredit
theorem Ncr_pos : 0 < Ncr := View.dmaCredit_pos _ (by decide)

/-! ## The cells -/

/-- The runtime's barrier semaphore of collective id 0 (not scoped). -/
abbrev barS : Sem sig := (SemArray.scalar (sig.barrier 0 rfl) : Sems sig S_).sem
/-! The four arrays of sixteen DMA semaphores of the two exchanges: partial products out and in, sums out and in. -/
abbrev s1S (j : Fin 16) : DmaSem sig := ⟨j.val, Nat.lt_of_lt_of_le j.isLt (by decide)⟩
abbrev r1S (j : Fin 16) : DmaSem sig := ⟨16 + j.val, Nat.lt_of_lt_of_le (Nat.add_lt_add_left j.isLt 16) (by decide)⟩
abbrev s2S (j : Fin 16) : DmaSem sig := ⟨32 + j.val, Nat.lt_of_lt_of_le (Nat.add_lt_add_left j.isLt 32) (by decide)⟩
abbrev r2S (j : Fin 16) : DmaSem sig := ⟨48 + j.val, Nat.lt_of_lt_of_le (Nat.add_lt_add_left j.isLt 48) (by decide)⟩

abbrev barCell (c : Dev nD) : GSem nD τ sig := ((c : Thread nD τ), .reg barS)
abbrev s1Cell (j : Fin 16) (c : Dev nD) : GSem nD τ sig := ((c : Thread nD τ), .dma (s1S j))
abbrev r1Cell (j : Fin 16) (c : Dev nD) : GSem nD τ sig := ((c : Thread nD τ), .dma (r1S j))
abbrev s2Cell (j : Fin 16) (c : Dev nD) : GSem nD τ sig := ((c : Thread nD τ), .dma (s2S j))
abbrev r2Cell (j : Fin 16) (c : Dev nD) : GSem nD τ sig := ((c : Thread nD τ), .dma (r2S j))

end Cert.KernelIdeal.DM

end
-- ==== Proof.IdealSide.Spec.lean ====
/-
  What the kernel computes, as pure functions of the four devices' argument arrays.
  Device `c` multiplies its 1024 rows of its half of the left factor (`aRows`) with column chunk `j` of its half of the
  right factor (`bCols`): the partial product `pCh`, a sum over the device's 1024 contraction indices. The finished chunk
  `sCh` adds the partner's partial product — the other 1024 contraction indices — and the result array `outSpec` holds,
  at row `r` and column `q`, chunk `q / 128` of the device that owns row half `r / 1024`.
-/
import proofs.«900449_g7700000000000450_dist_matmul_k_x_m2048_n2048_k1024_v7x_xy2x2_bf16_1_alg».proof.Proof.IdealSide.Cells
import Idealize.ShloMosaic.Lib.ValueIdx

noncomputable section

namespace Cert.KernelIdeal.DM

open Cert.KernelIdeal Cert.KernelIdeal.Gen
open Idealize.ShloMosaic Idealize.ShloMosaic.TcCoe Idealize.SL.Sem

variable {F : FTy → Type} [FloatOps F]

/-- The rows of the left factor device `c` copies into its first scratch buffer: rows `1024 (c % 2) …` of its block. -/
abbrev aSrc (c : Dev nD) : Memref sig .tc .hbm S1024x1024 .f32 :=
  aM.slice (Rect.unit (s := S2048x1024) (k0_off1 c) S1024x1024.size (k0_off1_inb c)) (fun _ => rfl)
def aRows (m : Mem F) (c : Dev nD) : Vec F S1024x1024 .f32 :=
  (aSrc c).view.read (Elt F) (m ((c : Thread nD τ).loc main_arg0))

/-- Column chunk `j` of the right factor's block: columns `128 j …`. -/
abbrev bOff (j : Fin 16) : Fin 2 → Nat := ![0, 128 * j.val]
theorem b_inb : ∀ (j : Fin 16) a, bOff j a + S1024x128.size a ≤ S1024x2048.size a := by decide
abbrev bSrc (j : Fin 16) : Memref sig .tc .hbm S1024x128 .f32 :=
  bM.slice (Rect.unit (s := S1024x2048) (bOff j) S1024x128.size (b_inb j)) (fun _ => rfl)
def bCols (m : Mem F) (c : Dev nD) (j : Fin 16) : Vec F S1024x128 .f32 :=
  (bSrc j).view.read (Elt F) (m ((c : Thread nD τ).loc main_arg1))

/-- Device `c`'s partial product of chunk `j`, as the body computes it: the sum over the device's own contraction half. -/
def pCh (m : Mem F) (c : Dev nD) (j : Fin 16) : FVec F S1x1024x128 .bf16 :=
  k0_pay3 (k0_pay1 (aRows m c)) (shapeCast S1x1024x128 (bCols m c j) shapeCasts_S1024x128_S1x1024x128)

/-- Device `c`'s finished chunk `j`: its own partial product plus its partner's across the contraction split. -/
def sCh (m : Mem F) (c : Dev nD) (j : Fin 16) : FVec F S1x1024x128 .bf16 :=
  k0_pay4 (pCh m c j) (pCh m (xn c) j)

/-- The device, of `c` and its partner across the row split, that computes row `r` of the result. -/
def rowDev (c : Dev nD) (r : ℕ) : Dev nD := if r / 1024 = c.val % 2 then c else yn c

/-- The result array on device `c` after the run: every device ends with the same whole array. -/
def outSpec (m : Mem F) (c : Dev nD) : Vec F S2048x2048 .bf16 := fun i =>
  sCh m (rowDev c (i 0).val) ⟨(i 1).val / 128 % 16, Nat.mod_lt _ (by decide)⟩
    (ValueIdx.ix3 (0 : Fin 1) (⟨(i 0).val % 1024, Nat.mod_lt _ (by decide)⟩ : Fin 1024) (⟨(i 1).val % 128, Nat.mod_lt _ (by decide)⟩ : Fin 128))

end Cert.KernelIdeal.DM

end
-- ==== Proof.IdealSide.Sched.lean ====
/-
  The schedule of the mesh traffic. Every cell has one round. A device's barrier cell has two duties of one unit:
  `false`, its partner across the contraction split handing over its whole receive buffer for partial products, and
  `true`, its partner across the row split handing over the rows of its result array this device's rows go to. The
  four exchange cells of chunk `j` have one duty each of a slot's credit: a partial product read out (the source share
  back), a partial product landed (the slot holding the partner's product), a sum read out, and a sum landed (the block
  of the result holding the partner's finished chunk). Contents are named: each buffer has ONE contents function, and a
  payload holds a part of the buffer at that function.
-/
import proofs.«900449_g7700000000000450_dist_matmul_k_x_m2048_n2048_k1024_v7x_xy2x2_bf16_1_alg».proof.Proof.IdealSide.Spec

noncomputable section

namespace Cert.KernelIdeal.DM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The buffers' contents, whole -/

/-- Coordinates of an index of a sixteen-slot buffer inside its slot. -/
abbrev inSlot (i : S16x1024x128.Idx) : S1x1024x128.Idx :=
  ValueIdx.ix3 (0 : Fin 1) (⟨(i 1).val, (i 1).isLt⟩ : Fin 1024) (⟨(i 2).val, (i 2).isLt⟩ : Fin 128)
abbrev slotOf (i : S16x1024x128.Idx) : Fin 16 := ⟨(i 0).val, (i 0).isLt⟩

variable (m : Mem F)

/-- The send buffer: slot `j` the device's own partial product of chunk `j`. -/
def psFull (c : Dev nD) : Buf (Elt F) (psM.view.loc (c : Thread nD τ)) := fun i => pCh m c (slotOf i) (inSlot i)
/-- The receive buffer: slot `j` the partner's partial product of chunk `j`. -/
def prFull (c : Dev nD) : Buf (Elt F) (prM.view.loc (c : Thread nD τ)) := fun i => pCh m (xn c) (slotOf i) (inSlot i)
/-- The sum buffer: slot `j` the finished chunk `j`. -/
def cvFull (c : Dev nD) : Buf (Elt F) (cvM.view.loc (c : Thread nD τ)) := fun i => sCh m c (slotOf i) (inSlot i)
/-- The result array. -/
def outFull (c : Dev nD) : Buf (Elt F) (oM.view.loc (c : Thread nD τ)) := outSpec m c

/-! ## Parts of buffers, held -/

/-- Slot `j` of sixteen-slot buffer `M` on device `c`, at share `q`, at the buffer's contents `f`. -/
@[reducible] def slotPts (M : Memref sig .tc .vmem S16x1024x128 .bf16) (c : Dev nD) (j : Fin 16) (q : PosShare TreeShare)
    (f : Buf (Elt F) ((slotM M j).view.loc (c : Thread nD τ))) : sProp 𝕄 :=
  (slotM M j).view.loc (c : Thread nD τ) ↦[(slotM M j).view.set]{q} f
/-- The block of the result array on device `c` that device `d`'s rows fill at chunk `j`. -/
@[reducible] def outPts (c d : Dev nD) (j : Fin 16) (f : Buf (Elt F) ((outM d j).view.loc (c : Thread nD τ))) : sProp 𝕄 :=
  (outM d j).view.loc (c : Thread nD τ) ↦[(outM d j).view.set]{fullShare} f

/-- The rows of the result array device `d` computes: 1024 whole rows. -/
abbrev rowsOff (d : Dev nD) : Fin 2 → Nat := ![1024 * (d.val % 2), 0]
theorem rows_inb : ∀ (d : Dev nD) a, rowsOff d a + S1024x2048.size a ≤ S2048x2048.size a := by decide
abbrev rowsM (d : Dev nD) : Memref sig .tc .hbm S1024x2048 .bf16 :=
  oM.slice (Rect.unit (s := S2048x2048) (rowsOff d) S1024x2048.size (rows_inb d)) (fun _ => rfl)

/-! The two shares a source slot is cut into while a transfer from it is pending: one lent, one kept for reading. -/
abbrev lentQ : PosShare TreeShare := fullShare.left
abbrev keptQ : PosShare TreeShare := fullShare.right

/-! ## The payloads -/

/-- From the partner across the contraction split: its whole receive buffer. -/
def barPayX (c : Dev nD) : sProp 𝕄 := iprop(∃ f, prM.view.loc (xn c : Thread nD τ) ↦{fullShare} f)
/-- From the partner across the row split: the rows of ITS result array that THIS device computes. -/
def barPayY (c : Dev nD) : sProp 𝕄 := iprop(∃ f, (rowsM c).view.loc (yn c : Thread nD τ) ↦[(rowsM c).view.set]{fullShare} f)
/-- A partial product read out: the lent share of the slot back. -/
def s1Pay (j : Fin 16) (c : Dev nD) : sProp 𝕄 := slotPts psM c j lentQ (psFull m c)
/-- A partial product landed: the receive slot holding the partner's product. -/
def r1Pay (j : Fin 16) (c : Dev nD) : sProp 𝕄 := slotPts prM c j fullShare (prFull m c)
/-- A sum read out: the lent share of the slot back. -/
def s2Pay (j : Fin 16) (c : Dev nD) : sProp 𝕄 := slotPts cvM c j lentQ (cvFull m c)
/-- A sum landed: the block of the result array of the partner's rows, holding the partner's finished chunk. -/
def r2Pay (j : Fin 16) (c : Dev nD) : sProp 𝕄 := outPts c (yn c) j (outFull m c)

/-! ## The schedule -/

/-- Which of the traffic's cells a semaphore is. -/
inductive CellKind | bar | s1 (j : Fin 16) | r1 (j : Fin 16) | s2 (j : Fin 16) | r2 (j : Fin 16) | other
  deriving DecidableEq

def kindOf : SemLoc sig → CellKind
  | .reg s => if s = barS then .bar else .other
  | .dma q => if h : q.val < 16 then .s1 ⟨q.val, h⟩
      else if h : q.val < 32 then .r1 ⟨q.val - 16, by omega⟩
      else if h : q.val < 48 then .s2 ⟨q.val - 32, by omega⟩
      else if h : q.val < 64 then .r2 ⟨q.val - 48, by omega⟩ else .other

theorem kindOf_bar : kindOf (.reg barS : SemLoc sig) = .bar := by decide
theorem kindOf_s1 (j : Fin 16) : kindOf (.dma (s1S j) : SemLoc sig) = .s1 j := by revert j; decide
theorem kindOf_r1 (j : Fin 16) : kindOf (.dma (r1S j) : SemLoc sig) = .r1 j := by revert j; decide
theorem kindOf_s2 (j : Fin 16) : kindOf (.dma (s2S j) : SemLoc sig) = .s2 j := by revert j; decide
theorem kindOf_r2 (j : Fin 16) : kindOf (.dma (r2S j) : SemLoc sig) = .r2 j := by revert j; decide

def meshRd : Rounds.Schedule (GSem nD τ sig) Bool 𝕄 where
  duties g r :=
    if g.1.2 = .tc ∧ r = 0 then
      match kindOf g.2 with
      | .bar => Finset.univ
      | .s1 _ | .r1 _ | .s2 _ | .r2 _ => {false}
      | .other => ∅
    else ∅
  unitless _ := False
  amount g _ _ := match kindOf g.2 with
    | .bar | .other => 1
    | _ => Ncr
  payload g _ d := match kindOf g.2 with
    | .bar => if d then barPayY g.1.1 else barPayX g.1.1
    | .s1 j => s1Pay m j g.1.1
    | .r1 j => r1Pay m j g.1.1
    | .s2 j => s2Pay m j g.1.1
    | .r2 j => r2Pay m j g.1.1
    | .other => iprop(emp)
  amount_pos g _ _ _ := by
    cases kindOf g.2 <;> first | exact Nat.one_pos | exact Ncr_pos

instance meshRd_payload_storable (g : GSem nD τ sig) (r : ℕ) (d : Bool) :
    BI.Storable (upEmb : UEmb _ 𝕄) ((meshRd (F := F) m).payload g r d) := by
  show BI.Storable upEmb (match kindOf g.2 with
    | .bar => if d then barPayY g.1.1 else barPayX g.1.1
    | .s1 j => s1Pay m j g.1.1
    | .r1 j => r1Pay m j g.1.1
    | .s2 j => s2Pay m j g.1.1
    | .r2 j => r2Pay m j g.1.1
    | .other => iprop(emp))
  unfold barPayX barPayY s1Pay r1Pay s2Pay r2Pay slotPts outPts
  split <;> (try split) <;> infer_instance

/-! ## The tables, computed -/

section Tables
variable (c : Dev nD) (j : Fin 16)

theorem duties_bar : (meshRd (F := F) m).duties (barCell c) 0 = Finset.univ := by
  simp only [meshRd, kindOf_bar, and_self, if_true]
theorem duties_s1 : (meshRd (F := F) m).duties (s1Cell j c) 0 = {false} := by simp only [meshRd, kindOf_s1, and_self, if_true]
theorem duties_r1 : (meshRd (F := F) m).duties (r1Cell j c) 0 = {false} := by simp only [meshRd, kindOf_r1, and_self, if_true]
theorem duties_s2 : (meshRd (F := F) m).duties (s2Cell j c) 0 = {false} := by simp only [meshRd, kindOf_s2, and_self, if_true]
theorem duties_r2 : (meshRd (F := F) m).duties (r2Cell j c) 0 = {false} := by simp only [meshRd, kindOf_r2, and_self, if_true]
/-- No duty from round 1 on: what closing a cell asks. -/
theorem duties_later (g : GSem nD τ sig) : ∀ r, 1 ≤ r → (meshRd (F := F) m).duties g r = ∅ := fun r hr => by
  dsimp only [meshRd]; rw [if_neg (fun h => by omega)]

theorem amount_bar (d : Bool) : (meshRd (F := F) m).amount (barCell c) 0 d = 1 := by simp only [meshRd, kindOf_bar]
theorem amount_s1 (d : Bool) : (meshRd (F := F) m).amount (s1Cell j c) 0 d = Ncr := by simp only [meshRd, kindOf_s1]
theorem amount_r1 (d : Bool) : (meshRd (F := F) m).amount (r1Cell j c) 0 d = Ncr := by simp only [meshRd, kindOf_r1]
theorem amount_s2 (d : Bool) : (meshRd (F := F) m).amount (s2Cell j c) 0 d = Ncr := by simp only [meshRd, kindOf_s2]
theorem amount_r2 (d : Bool) : (meshRd (F := F) m).amount (r2Cell j c) 0 d = Ncr := by simp only [meshRd, kindOf_r2]

theorem expect_bar : (meshRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_s1 : (meshRd (F := F) m).expect (s1Cell j c) 0 = Ncr := by
  unfold Schedule.expect Schedule.amountOf; rw [duties_s1, Finset.sum_singleton, amount_s1]
theorem expect_r1 : (meshRd (F := F) m).expect (r1Cell j c) 0 = Ncr := by
  unfold Schedule.expect Schedule.amountOf; rw [duties_r1, Finset.sum_singleton, amount_r1]
theorem expect_s2 : (meshRd (F := F) m).expect (s2Cell j c) 0 = Ncr := by
  unfold Schedule.expect Schedule.amountOf; rw [duties_s2, Finset.sum_singleton, amount_s2]
theorem expect_r2 : (meshRd (F := F) m).expect (r2Cell j c) 0 = Ncr := by
  unfold Schedule.expect Schedule.amountOf; rw [duties_r2, Finset.sum_singleton, amount_r2]

theorem payload_bar_false : (meshRd (F := F) m).payload (barCell c) 0 false = barPayX c := by
  simp only [meshRd, kindOf_bar, Bool.false_eq_true, if_false]
theorem payload_bar_true : (meshRd (F := F) m).payload (barCell c) 0 true = barPayY c := by
  simp only [meshRd, kindOf_bar, if_true]
theorem payload_s1 (d : Bool) : (meshRd (F := F) m).payload (s1Cell j c) 0 d = s1Pay m j c := by simp only [meshRd, kindOf_s1]
theorem payload_r1 (d : Bool) : (meshRd (F := F) m).payload (r1Cell j c) 0 d = r1Pay m j c := by simp only [meshRd, kindOf_r1]
theorem payload_s2 (d : Bool) : (meshRd (F := F) m).payload (s2Cell j c) 0 d = s2Pay m j c := by simp only [meshRd, kindOf_s2]
theorem payload_r2 (d : Bool) : (meshRd (F := F) m).payload (r2Cell j c) 0 d = r2Pay m j c := by simp only [meshRd, kindOf_r2]

/-! A wait for a whole round, no duty taken, gets the round's payloads. -/
theorem rest_bar : bigSep ((meshRd (F := F) m).duties (barCell c) 0 \ ∅) (fun d => (meshRd (F := F) m).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_s1 : bigSep ((meshRd (F := F) m).duties (s1Cell j c) 0 \ ∅) (fun d => (meshRd (F := F) m).payload (s1Cell j c) 0 d) = s1Pay m j c := by
  rw [Finset.sdiff_empty, duties_s1, bigSep_singleton, payload_s1]
theorem rest_r1 : bigSep ((meshRd (F := F) m).duties (r1Cell j c) 0 \ ∅) (fun d => (meshRd (F := F) m).payload (r1Cell j c) 0 d) = r1Pay m j c := by
  rw [Finset.sdiff_empty, duties_r1, bigSep_singleton, payload_r1]
theorem rest_s2 : bigSep ((meshRd (F := F) m).duties (s2Cell j c) 0 \ ∅) (fun d => (meshRd (F := F) m).payload (s2Cell j c) 0 d) = s2Pay m j c := by
  rw [Finset.sdiff_empty, duties_s2, bigSep_singleton, payload_s2]
theorem rest_r2 : bigSep ((meshRd (F := F) m).duties (r2Cell j c) 0 \ ∅) (fun d => (meshRd (F := F) m).payload (r2Cell j c) 0 d) = r2Pay m j c := by
  rw [Finset.sdiff_empty, duties_r2, bigSep_singleton, payload_r2]

end Tables

end Cert.KernelIdeal.DM

end
-- ==== Proof.IdealSide.Inv.lean ====
/-
  What a device holds while it runs. The levels order the waits: local and read-out cells at 0, a barrier cell at 1,
  the landing cell of partial product `j` at `2 + j`, the landing cell of sum `j` at `18 + j`; a device waits on a cell
  only while everything it still owes lies strictly above it. What it owes is counted by the sends already issued:
  after `n₁` partial products and `n₂` sums it owes the landings of the rest.
-/
import proofs.«900449_g7700000000000450_dist_matmul_k_x_m2048_n2048_k1024_v7x_xy2x2_bf16_1_alg».proof.Proof.IdealSide.Sched

noncomputable section

namespace Cert.KernelIdeal.DM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

/-! ## Levels -/

def L (g : GSem nD τ sig) : Finset Unit := if g.1.2 = .tc then {()} else ∅
def lv (g : GSem nD τ sig) (_ : Unit) : ℕ := match kindOf g.2 with
  | .bar => 1
  | .r1 j => 2 + j.val
  | .r2 j => 18 + j.val
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## What a device owes -/

/-- The landings of the partial products not yet sent, `n` sent. -/
def owe1 (c : Dev nD) (n : ℕ) : CellTallies nD τ sig Unit :=
  ∑ j ∈ Finset.univ.filter (fun j : Fin 16 => n ≤ j.val), tallyAt (r1Cell j (xn c)) () Ncr
/-- The landings of the sums not yet sent, `n` sent. -/
def owe2 (c : Dev nD) (n : ℕ) : CellTallies nD τ sig Unit :=
  ∑ j ∈ Finset.univ.filter (fun j : Fin 16 => n ≤ j.val), tallyAt (r2Cell j (yn c)) () Ncr
def owed (c : Dev nD) (n₁ n₂ : ℕ) : CellTallies nD τ sig Unit := owe1 c n₁ + owe2 c n₂
/-- At launch: every landing and one unit on each partner's barrier cell — the first signal (across the contraction
    split) peels the last summand, the second the one before. -/
def O₀ (c : Dev nD) : CellTallies nD τ sig Unit :=
  owed c 0 0 + tallyAt (barCell (yn c)) () 1 + tallyAt (barCell (xn c)) () 1

theorem filter_ge_succ (n : Fin 16) :
    (Finset.univ.filter (fun j : Fin 16 => n.val ≤ j.val)) = insert n (Finset.univ.filter (fun j : Fin 16 => n.val + 1 ≤ j.val)) := by
  ext j; simp only [Finset.mem_filter, Finset.mem_univ, true_and, Finset.mem_insert]
  constructor
  · intro h; by_cases hj : j = n
    · exact Or.inl hj
    · exact Or.inr (by have : j.val ≠ n.val := fun h' => hj (Fin.ext h'); omega)
  · rintro (rfl | h)
    · exact Nat.le_refl _
    · omega
theorem owe1_succ (c : Dev nD) (n : Fin 16) : owe1 c n.val = owe1 c (n.val + 1) + tallyAt (r1Cell n (xn c)) () Ncr := by
  unfold owe1; rw [filter_ge_succ, Finset.sum_insert (by simp), add_comm]
theorem owe2_succ (c : Dev nD) (n : Fin 16) : owe2 c n.val = owe2 c (n.val + 1) + tallyAt (r2Cell n (yn c)) () Ncr := by
  unfold owe2; rw [filter_ge_succ, Finset.sum_insert (by simp), add_comm]
theorem owe1_done (c : Dev nD) : owe1 c 16 = 0 := by
  unfold owe1; rw [Finset.filter_false_of_mem (fun j _ => by have := j.isLt; omega), Finset.sum_empty]
theorem owe2_done (c : Dev nD) : owe2 c 16 = 0 := by
  unfold owe2; rw [Finset.filter_false_of_mem (fun j _ => by have := j.isLt; omega), Finset.sum_empty]
theorem owed_done (c : Dev nD) : owed c 16 16 = 0 := by unfold owed; rw [owe1_done, owe2_done, add_zero]

/-! ## The cells, indexed -/

/-- A device's cells: its barrier cell, or exchange cell `(k, j)` — `k` = 0 a partial product read out, 1 landed,
    2 a sum read out, 3 landed. -/
abbrev CIx : Type := Option (Fin 4 × Fin 16)
abbrev csem : CIx → SemLoc sig
  | none => .reg barS
  | some (0, j) => .dma (s1S j)
  | some (1, j) => .dma (r1S j)
  | some (2, j) => .dma (s2S j)
  | some (3, j) => .dma (r2S j)
abbrev kcell (ck : Dev nD × CIx) : GSem nD τ sig := ((ck.1 : Thread nD τ), csem ck.2)

/-- The kernel's local DMA semaphores: the left factor's copy, the right factor's two, the result's sixteen. -/
abbrev aS : DmaSem sig := ⟨64, by decide⟩
abbrev bS (p : Fin 2) : DmaSem sig := ⟨65 + p.val, Nat.lt_of_lt_of_le (Nat.add_lt_add_left p.isLt 65) (by decide)⟩
abbrev oS (j : Fin 16) : DmaSem sig := ⟨67 + j.val, Nat.lt_of_lt_of_le (Nat.add_lt_add_left j.isLt 67) (by decide)⟩
/-- Their counters at zero. -/
def localSems0 (c : Dev nD) : sProp 𝕄 :=
  iprop(semVal ((c : Thread nD τ), .dma aS) 0 ∗ semVal ((c : Thread nD τ), .dma (bS 0)) 0 ∗ semVal ((c : Thread nD τ), .dma (bS 1)) 0
    ∗ bigSep Finset.univ fun j : Fin 16 => semVal ((c : Thread nD τ), .dma (oS j)) 0)

/-! ## The ghost state -/

/-- What every device knows: every cell's invariant, and that its one round is open. -/
def records (K : Dev nD × CIx → ℕ) : sProp 𝕄 :=
  iprop((bigSep Finset.univ fun ck : Dev nD × CIx => cellInv ER (meshRd m) (K ck) (kcell ck))
    ∗ bigSep Finset.univ fun ck : Dev nD × CIx => reached ER (kcell ck) 0)

instance records_persistent (K : Dev nD × CIx → ℕ) : BI.Persistent (records m K) := by unfold records; infer_instance

/-- The tokens of the duties device `c` pays: its partners' barrier cells, and per chunk its two read-outs and its
    partners' two landings. -/
def chunkToks (c : Dev nD) (j : Fin 16) : sProp 𝕄 :=
  iprop(dutyTok ER (s1Cell j c) 0 false ∗ dutyTok ER (r1Cell j (xn c)) 0 false
    ∗ dutyTok ER (s2Cell j c) 0 false ∗ dutyTok ER (r2Cell j (yn c)) 0 false)
def payToks (c : Dev nD) : sProp 𝕄 :=
  iprop(dutyTok ER (barCell (xn c)) 0 false ∗ dutyTok ER (barCell (yn c)) 0 true ∗ bigSep Finset.univ (chunkToks c))
/-- Its positions: every one of its cells at the start of round 0. -/
def positions (c : Dev nD) : sProp 𝕄 := bigSep Finset.univ fun x : CIx => atPos ER (kcell (c, x)) 0 ∅ 0

def ghost (K : Dev nD × CIx → ℕ) (c : Dev nD) : sProp 𝕄 :=
  iprop(records m K ∗ positions c ∗ payToks c ∗ localSems0 c)

/-- The credit a device waits with: two units on its barrier cell, a slot's credit on each landing cell. -/
def creds (c : Dev nD) : sProp 𝕄 :=
  iprop(cred (tallyAt (barCell c) () 2)
    ∗ bigSep Finset.univ fun j : Fin 16 => iprop(cred (tallyAt (r1Cell j c) () Ncr) ∗ cred (tallyAt (r2Cell j c) () Ncr)))

/-- What a device's body starts from, the buffers apart. -/
def start (c : Dev nD) : sProp 𝕄 := iprop((∃ K, ghost m K c) ∗ creds c ∗ levAts L lv)

/-- The three arrays as launched: the two arguments at the memory's contents, the result at some. -/
def arrays0 (c : Dev nD) : sProp 𝕄 :=
  iprop((aM.view.loc (c : Thread nD τ) ↦{fullShare} m ((c : Thread nD τ).loc main_arg0))
    ∗ (bM.view.loc (c : Thread nD τ) ↦{fullShare} m ((c : Thread nD τ).loc main_arg1))
    ∗ ∃ f, oM.view.loc (c : Thread nD τ) ↦{fullShare} f)
/-- After the run: the arguments as they were, the result the whole product. -/
def arrays1 (c : Dev nD) : sProp 𝕄 :=
  iprop((aM.view.loc (c : Thread nD τ) ↦{fullShare} m ((c : Thread nD τ).loc main_arg0))
    ∗ (bM.view.loc (c : Thread nD τ) ↦{fullShare} m ((c : Thread nD τ).loc main_arg1))
    ∗ (oM.view.loc (c : Thread nD τ) ↦{fullShare} outFull m c))
/-- The five scratch buffers, each whole at some contents. -/
def scratch (c : Dev nD) : sProp 𝕄 :=
  iprop((∃ f, avM.view.loc (c : Thread nD τ) ↦{fullShare} f) ∗ (∃ f, bvM.view.loc (c : Thread nD τ) ↦{fullShare} f)
    ∗ (∃ f, psM.view.loc (c : Thread nD τ) ↦{fullShare} f) ∗ (∃ f, prM.view.loc (c : Thread nD τ) ↦{fullShare} f)
    ∗ (∃ f, cvM.view.loc (c : Thread nD τ) ↦{fullShare} f))
/-- The kernel's sixty-four exchange semaphores, back at zero. -/
def exchSems0 (c : Dev nD) : sProp 𝕄 :=
  bigSep Finset.univ fun kj : Fin 4 × Fin 16 => semVal (kcell (c, some kj)) 0

def Φ₀ (c : Dev nD) : sProp 𝕄 := iprop(start m c ∗ arrays0 m c ∗ scratch c)
def Φ₁ (c : Dev nD) : sProp 𝕄 := iprop(arrays1 m c ∗ scratch c ∗ localSems0 c ∗ exchSems0 c)

/-- The pipeline's proof data: no window; before the one point a device owes everything, after it nothing. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

end Cert.KernelIdeal.DM

end
-- ==== Proof.IdealSide.RunValues.lean ====
/-
  What the body's loads read and what its stores and landed copies leave, against the buffers' contents functions.
  A sixteen-slot buffer's slot `j` is the rectangle at offsets `(j, 0, 0)` of extents `[1, 1024, 128]`: an index
  `y` of the slot sits at `(j, y 1, y 2)`, so the buffer's contents function, which reads chunk `i 0` at
  `(0, i 1, i 2)`, reads chunk `j` at `y` there. The copies name a slot squeezed to `[1024, 128]`: index `(a, b)`
  is the slot's `(0, a, b)`, the same element of the buffer whichever of the three sixteen-slot buffers it is. The
  block of the result array at offsets `(1024 (c % 2), 128 j)` of extents `[1024, 128]` holds, at `(a, b)`, row
  `1024 (c % 2) + a` and column `128 j + b` of the array: that row belongs to the device of row half `c % 2` among a
  device and its partner across the row split, the column to chunk `j`, so the result's contents function reads there
  device `c`'s finished chunk `j` at `(0, a, b)`, on `c` and on its partner alike.
-/
import proofs.«900449_g7700000000000450_dist_matmul_k_x_m2048_n2048_k1024_v7x_xy2x2_bf16_1_alg».proof.Proof.IdealSide.Sched
import Idealize.ShloMosaic.Lib.Pipeline.Value
import Idealize.ShloMosaic.Lib.ValueIdx
import Idealize.ShloMosaic.Lib.ValueLayout
import Idealize.ShloMosaic.Lib.Writes

noncomputable section

namespace Cert.KernelIdeal.DM

open Cert.KernelIdeal Cert.KernelIdeal.Gen
open Idealize.ShloMosaic Idealize.ShloMosaic.TcCoe Idealize.SL.Sem
open Idealize.ShloMosaic.ValueIdx

variable {F : FTy → Type} [FloatOps F] (m : Mem F)

/-! ## A slot of a sixteen-slot buffer, by coordinates -/

/-- An index of a slot, placed in the sixteen-slot buffer, lies in slot `j` at its own row and column. -/
theorem slot_coords (j : Fin 16) (y : S1x1024x128.Idx) :
    slotOf ((slotR j).emb y) = j ∧ inSlot ((slotR j).emb y) = y := by
  have h0 : (y 0).val = 0 := by have := (y 0).isLt; simp at this; omega
  refine ⟨Fin.ext ?_, funext fun a => Fin.ext ?_⟩
  · show j.val + 1 * (y 0).val = j.val
    omega
  · match a with
    | ⟨0, _⟩ => show 0 = (y 0).val; rw [h0]
    | ⟨1, _⟩ => show 0 + 1 * (y 1).val = (y 1).val; omega
    | ⟨2, _⟩ => show 0 + 1 * (y 2).val = (y 2).val; omega

/-- The partial product landed in the partner's receive slot (the partner across the contraction split): that
    partner's receive buffer's contents there, the partner's partner being the sender. -/
theorem land1 (c : Dev nD) (j : Fin 16) (fs : Buf (Elt F) ((slotM psM j).view.loc (c : Thread nD τ)))
    (hfs : ∀ i ∈ (slotM psM j).view.set, fs i = psFull m c i) (fd : Buf (Elt F) ((slotM prM j).view.loc (xn c : Thread nD τ))) :
    ∀ i ∈ (slotM prM j).view.set,
      ((slotM prM j).view.write (Elt F) fd ((slotM psM j).view.read (Elt F) fs) Finset.univ) i = prFull m (xn c) i := by
  intro i hi
  obtain ⟨x, -, rfl⟩ := Finset.mem_map.mp hi
  rw [View.write_emb_of_mem _ _ (Finset.mem_univ x), View.read_apply, hfs _ ((slotM psM j).view.emb_mem_set x), cast_cast, cast_eq]
  unfold psFull prFull
  rw [xn_xn]
  rfl

/-- The elements of a slot as the transfers name it are those of the slot's rectangle. -/
theorem slot_set_eq (M : Memref sig .tc .vmem S16x1024x128 .bf16) (j : Fin 16) :
    (slotM M j).view.set = (M.access (slotR j)).set := by
  show ((M.view.slice (slotR j)).reshape S1024x128 _).set = _
  rw [View.set_reshape]

/-- A slot of the send buffer after its store of the device's partial product: the send buffer's contents function there. -/
theorem ps_store (c : Dev nD) (j : Fin 16) (fp : Buf (Elt F) ((slotM psM j).view.loc (c : Thread nD τ))) :
    ∀ i ∈ (slotM psM j).view.set, View.write (Elt F) (psM.access (slotR j)) fp (pCh m c j) Finset.univ i = psFull m c i := by
  intro i hi
  rw [slot_set_eq] at hi
  obtain ⟨y, -, rfl⟩ := Finset.mem_map.mp hi
  rw [View.write_emb_of_mem _ _ (Finset.mem_univ y), cast_eq]
  unfold psFull
  obtain ⟨e1, e2⟩ := slot_coords j y
  show pCh m c j y = pCh m c (slotOf ((slotR j).emb y)) (inSlot ((slotR j).emb y))
  rw [e1, e2]

/-- A slot of the sum buffer after its store of the finished chunk. -/
theorem cv_store (c : Dev nD) (j : Fin 16) (fc : Buf (Elt F) ((slotM cvM j).view.loc (c : Thread nD τ))) :
    ∀ i ∈ (slotM cvM j).view.set, View.write (Elt F) (cvM.access (slotR j)) fc (sCh m c j) Finset.univ i = cvFull m c i := by
  intro i hi
  rw [slot_set_eq] at hi
  obtain ⟨y, -, rfl⟩ := Finset.mem_map.mp hi
  rw [View.write_emb_of_mem _ _ (Finset.mem_univ y), cast_eq]
  unfold cvFull
  obtain ⟨e1, e2⟩ := slot_coords j y
  show sCh m c j y = sCh m c (slotOf ((slotR j).emb y)) (inSlot ((slotR j).emb y))
  rw [e1, e2]

/-! ## The loads -/

/-- After the copy of the device's rows of the left factor has landed whole in the first scratch buffer (whatever it
    held), a load of the whole buffer reads those rows. -/
theorem a_load (c : Dev nD) (f0 : Buf (Elt F) (avM.view.loc (c : Thread nD τ))) :
    View.readAt (Elt F) avM.view (Rect.unit (s := S1024x1024) ![0, 0] S1024x1024.size inb_S1024x1024_S1024x1024_0_0).toLoadRect
        (View.write (Elt F) avM.view f0 (ReadAs.same.apply ((aSrc c).view.read (Elt F) (m ((c : Thread nD τ).loc main_arg0)))) Finset.univ)
      = aRows m c := by
  rw [ReadAs.apply_same]
  refine (Memref.readAt_unit_zero (Elt F) cc0_scratch0 (funext fun a => by fin_cases a <;> rfl) _ _).trans ?_
  exact View.write_whole_univ cc0_scratch0 f0 _

/-- A load of slot `j` of the receive buffer through the whole buffer, from contents that agree with the receive
    buffer's contents function on the slot, reads the partner's partial product. -/
theorem pr_load (c : Dev nD) (j : Fin 16) (fr : Buf (Elt F) (prM.view.loc (c : Thread nD τ)))
    (hfr : ∀ i ∈ (slotM prM j).view.set, fr i = prFull m c i) :
    View.readAt (Elt F) prM.view (slotR j).toLoadRect fr = pCh m (xn c) j := by
  funext y
  have hy : (prM.access (slotR j)).emb y ∈ (slotM prM j).view.set := by
    rw [slot_set_eq]; exact View.emb_mem_set _ y
  obtain ⟨e1, e2⟩ := slot_coords j y
  rw [View.readAt_apply, View.read_apply, cast_eq]
  refine (hfr _ hy).trans ?_
  unfold prFull
  show pCh m (xn c) (slotOf ((slotR j).emb y)) (inSlot ((slotR j).emb y)) = pCh m (xn c) j y
  rw [e1, e2]

/-- A view whose newest listed write is a whole-view piece reads that piece's payload, whatever lies under it. -/
theorem read_writes_whole_cons {sig' : RefSig} {κ : Kind} {sp : Space} {s : Shape} {e : EltTy} {Val : EltTy → Type}
    (v : View sig' κ sp s e) (f : v.ty.Contents Val) (w : s.Idx → Val e) (L : List (View.Piece Val s e)) :
    v.read Val (v.writes Val f (⟨Rect.whole s, w⟩ :: L)) = w := by
  funext y
  have h := View.read_writes_cons_emb v f (Rect.whole s) w L y
  rwa [Rect.emb_whole_apply] at h

/-- A slot of the double buffer whose newest listed write is the whole slot, loaded through the whole double buffer:
    the payload, recast to [1, 1024, 128]. -/
theorem bv_load_whole (c : Dev nD) (p : Fin 2) (w : S1024x128.Idx → Elt F .f32)
    (base : Buf (Elt F) ((bvSlot p).view.loc (c : Thread nD τ))) (older : List (View.Piece (Elt F) S1024x128 .f32)) :
    View.readAt (Elt F) bvM.view (bvR p).toLoadRect ((bvSlot p).view.writes (Elt F) base (⟨Rect.whole S1024x128, w⟩ :: older))
      = shapeCast S1x1024x128 w shapeCasts_S1024x128_S1x1024x128 := by
  have h1 := read_writes_whole_cons (bvSlot p).view base w older
  have h2 := Memref.read_squeeze_slice bvM (bvR p) (fun _ => rfl) squeezes_S1x1024x128_S1024x128 shapeCasts_S1x1024x128_S1024x128
    ((bvSlot p).view.writes (Elt F) base (⟨Rect.whole S1024x128, w⟩ :: older))
  have key : shapeCast S1024x128
      (View.readAt (Elt F) bvM.view (bvR p).toLoadRect ((bvSlot p).view.writes (Elt F) base (⟨Rect.whole S1024x128, w⟩ :: older)))
      shapeCasts_S1x1024x128_S1024x128 = w := h2.symm.trans h1
  refine Eq.trans ?_ (congrArg (fun u => shapeCast S1x1024x128 u shapeCasts_S1024x128_S1x1024x128) key)
  exact (shapeCast_shapeCast _ shapeCasts_S1x1024x128_S1024x128 shapeCasts_S1024x128_S1x1024x128).symm

/-- After column chunk `j` of the right factor has landed whole in slot `p` of the double buffer (the newest of the
    writes listed on that slot, over any base and any older writes), a load of slot `p` through the whole double buffer
    reads that chunk, recast to [1, 1024, 128]. -/
theorem b_load (c : Dev nD) (p : Fin 2) (j : Fin 16) (base : Buf (Elt F) ((bvSlot p).view.loc (c : Thread nD τ)))
    (older : List (View.Piece (Elt F) S1024x128 .f32)) :
    View.readAt (Elt F) bvM.view (bvR p).toLoadRect
        ((bvSlot p).view.writes (Elt F) base
          (⟨Rect.whole S1024x128, ReadAs.same.apply ((bSrc j).view.read (Elt F) (m ((c : Thread nD τ).loc main_arg1)))⟩ :: older))
      = shapeCast S1x1024x128 (bCols m c j) shapeCasts_S1024x128_S1x1024x128 :=
  bv_load_whole c p _ base older

/-! ## The finished chunk, from the sum buffer into the result array -/

/-- A load of slot `j` of the sum buffer through the whole buffer, from contents that agree with the sum buffer's
    contents function on the slot, reads the finished chunk. -/
theorem cv_load (c : Dev nD) (j : Fin 16) (fc : Buf (Elt F) (cvM.view.loc (c : Thread nD τ)))
    (hfc : ∀ i ∈ (slotM cvM j).view.set, fc i = cvFull m c i) :
    View.readAt (Elt F) cvM.view (slotR j).toLoadRect fc = sCh m c j := by
  funext y
  have hy : (cvM.access (slotR j)).emb y ∈ (slotM cvM j).view.set := by
    rw [slot_set_eq]; exact View.emb_mem_set _ y
  obtain ⟨e1, e2⟩ := slot_coords j y
  rw [View.readAt_apply, View.read_apply, cast_eq]
  refine (hfc _ hy).trans ?_
  unfold cvFull
  show sCh m c (slotOf ((slotR j).emb y)) (inSlot ((slotR j).emb y)) = sCh m c j y
  rw [e1, e2]

/-- The same slot read through the view the copies name it by: the finished chunk, recast to [1024, 128]. -/
theorem cv_slot_read (c : Dev nD) (j : Fin 16) (cv : Buf (Elt F) ((slotM cvM j).view.loc (c : Thread nD τ)))
    (hcv : ∀ i ∈ (slotM cvM j).view.set, cv i = cvFull m c i) :
    (slotM cvM j).view.read (Elt F) cv = shapeCast S1024x128 (sCh m c j) shapeCasts_S1x1024x128_S1024x128 := by
  rw [← cv_load m c j cv hcv]
  exact Memref.read_squeeze_slice cvM (slotR j) (fun _ => rfl) squeezes_S1x1024x128_S1024x128 shapeCasts_S1x1024x128_S1024x128 cv

/-- A finished chunk read at equal devices, chunks and indices. -/
theorem sCh_congr {d d' : Dev nD} {j j' : Fin 16} {y y' : S1x1024x128.Idx} (hd : d = d') (hj : j = j') (hy : y = y') :
    sCh m d j y = sCh m d' j' y' := by
  subst hd hj hy; rfl

/-- Among a device and its partner across the row split, the one that computes a row of row half `c % 2` is `c`. -/
theorem rowDev_of (c' c : Dev nD) (hc' : c' = c ∨ c' = yn c) (r : ℕ) (hr : r / 1024 = c.val % 2) : rowDev c' r = c := by
  unfold rowDev
  rcases hc' with rfl | rfl
  · rw [if_pos hr]
  · have h2 : c.val % 2 < 2 := Nat.mod_lt _ (by decide)
    rw [if_neg (by rw [yn_row]; omega), yn_yn]

/-- The result's contents function on the block of device `c`'s rows at chunk `j`, on `c` or on its partner across the
    row split: device `c`'s finished chunk `j`, recast to [1024, 128]. -/
theorem outSpec_block (c' c : Dev nD) (j : Fin 16) (hc' : c' = c ∨ c' = yn c) (x : S1024x128.Idx) :
    outSpec m c' ((outR c j).emb x) = shapeCast S1024x128 (sCh m c j) shapeCasts_S1x1024x128_S1024x128 x := by
  obtain ⟨a, b, rfl⟩ : ∃ a b, x = ix2 a b := ⟨x 0, x 1, eq_ix2 x⟩
  rw [shapeCast_1ab_ab_apply]
  have ha : a.val < 1024 := a.isLt
  have hb : b.val < 128 := b.isLt
  have h2 : c.val % 2 < 2 := Nat.mod_lt _ (by decide)
  unfold outSpec
  refine sCh_congr m ?_ (Fin.ext ?_) (funext fun t => ?_)
  · exact rowDev_of c' c hc' _ (show (1024 * (c.val % 2) + 1 * a.val) / 1024 = c.val % 2 by omega)
  · show (128 * j.val + 1 * b.val) / 128 % 16 = j.val
    omega
  · match t with
    | ⟨0, _⟩ => rfl
    | ⟨1, _⟩ => exact Fin.ext (show (1024 * (c.val % 2) + 1 * a.val) % 1024 = a.val by omega)
    | ⟨2, _⟩ => exact Fin.ext (show (128 * j.val + 1 * b.val) % 128 = b.val by omega)

/-- A view whose newest listed write is a whole-view piece holds that piece's payload at each of its own elements. -/
theorem writes_whole_cons_emb {sig' : RefSig} {κ : Kind} {sp : Space} {s : Shape} {e : EltTy} {Val : EltTy → Type}
    (v : View sig' κ sp s e) (f : v.ty.Contents Val) (w : s.Idx → Val e) (L : List (View.Piece Val s e)) (x : s.Idx) :
    v.writes Val f (⟨Rect.whole s, w⟩ :: L) (v.emb x) = _root_.cast (congrArg Val v.elt_eq.symm) (w x) := by
  have he : v.emb x = (v.slice (Rect.whole s)).emb x := by
    show _ = v.emb ((Rect.whole s).emb x)
    rw [Rect.emb_whole_apply]
  rw [View.writes_cons, he]
  exact View.write_emb_of_mem _ _ (Finset.mem_univ x)

/-- The block of the result array that device `c`'s rows fill at chunk `j`, after the local copy of the finished
    chunk has landed in it (newest write; any base, any older writes; the block's offsets however spelt): the result
    array's contents there. -/
theorem out_local (c : Dev nD) (j : Fin 16) {off : Fin 2 → Nat} (hoff : off = outOff c j) (inb : ∀ a, off a + S1024x128.size a ≤ S2048x2048.size a)
    (cv : Buf (Elt F) ((slotM cvM j).view.loc (c : Thread nD τ))) (hcv : ∀ i ∈ (slotM cvM j).view.set, cv i = cvFull m c i)
    (fo : Buf (Elt F) (oM.view.loc (c : Thread nD τ))) (older : List (View.Piece (Elt F) S1024x128 .bf16)) :
    ∀ i ∈ (outM c j).view.set,
      ((oM.slice (Rect.unit (s := S2048x2048) off S1024x128.size inb) (fun _ => rfl)).view.writes (Elt F) fo
        (⟨Rect.whole S1024x128, ReadAs.same.apply ((slotM cvM j).view.read (Elt F) cv)⟩ :: older)) i = outFull m c i := by
  subst hoff
  intro i hi
  obtain ⟨x, -, rfl⟩ := Finset.mem_map.mp hi
  refine (writes_whole_cons_emb (outM c j).view fo _ older x).trans ?_
  rw [cast_eq, ReadAs.apply_same, cv_slot_read m c j cv hcv]
  exact (outSpec_block m c c j (Or.inl rfl) x).symm

/-- The finished chunk landed in the partner's result array (the partner across the row split), in the block of
    device `c`'s rows: the partner's result array's contents there, the partner's partner across the row split being `c`. -/
theorem land2 (c : Dev nD) (j : Fin 16) (cv : Buf (Elt F) ((slotM cvM j).view.loc (c : Thread nD τ)))
    (hcv : ∀ i ∈ (slotM cvM j).view.set, cv i = cvFull m c i) (fd : Buf (Elt F) ((outM c j).view.loc (yn c : Thread nD τ))) :
    ∀ i ∈ (outM c j).view.set,
      ((outM c j).view.write (Elt F) fd ((slotM cvM j).view.read (Elt F) cv) Finset.univ) i = outFull m (yn c) i := by
  intro i hi
  obtain ⟨x, -, rfl⟩ := Finset.mem_map.mp hi
  rw [View.write_emb_of_mem _ _ (Finset.mem_univ x), cast_eq, cv_slot_read m c j cv hcv]
  exact (outSpec_block m (yn c) c j (Or.inr rfl) x).symm

/-- A load of slot `j` of the send buffer through the whole buffer, from contents that agree with the send buffer's
    contents function on the slot, reads the device's own partial product. -/
theorem ps_load (c : Dev nD) (j : Fin 16) (fs : Buf (Elt F) (psM.view.loc (c : Thread nD τ)))
    (hfs : ∀ i ∈ (slotM psM j).view.set, fs i = psFull m c i) :
    View.readAt (Elt F) psM.view (slotR j).toLoadRect fs = pCh m c j := by
  funext y
  have hy : (psM.access (slotR j)).emb y ∈ (slotM psM j).view.set := by
    rw [slot_set_eq]; exact View.emb_mem_set _ y
  obtain ⟨e1, e2⟩ := slot_coords j y
  rw [View.readAt_apply, View.read_apply, cast_eq]
  refine (hfs _ hy).trans ?_
  unfold psFull
  show pCh m c (slotOf ((slotR j).emb y)) (inSlot ((slotR j).emb y)) = pCh m c j y
  rw [e1, e2]

/-- info: 'Cert.KernelIdeal.DM.land1' depends on axioms: [propext, Classical.choice, Quot.sound] -/
#guard_msgs in #print axioms Cert.KernelIdeal.DM.land1
/-- info: 'Cert.KernelIdeal.DM.out_local' depends on axioms: [propext, Classical.choice, Quot.sound] -/
#guard_msgs in #print axioms Cert.KernelIdeal.DM.out_local

end Cert.KernelIdeal.DM

end
-- ==== Proof.IdealSide.Steps.lean ====
/-
  One lemma per kind of protocol statement, generic in the chunk. A barrier signal pays one unit to a partner and hands it
  a buffer; the barrier wait takes both partners' units and buffers. A send pays two duties at once: the read-out duty on the
  sender's own cell (the lent share of the source comes back with it) and the landing duty on the partner's cell (the
  destination, rewritten, goes to the partner). A wait takes a cell's one round, and the cell is closed: its counter is the
  device's again, at zero. A device may wait on a cell while it owes landings only if the cell lies below all of them.
-/
import proofs.«900449_g7700000000000450_dist_matmul_k_x_m2048_n2048_k1024_v7x_xy2x2_bf16_1_alg».proof.Proof.IdealSide.Inv
import proofs.«900449_g7700000000000450_dist_matmul_k_x_m2048_n2048_k1024_v7x_xy2x2_bf16_1_alg».proof.Proof.IdealSide.RunValues

noncomputable section

namespace Cert.KernelIdeal.DM

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : Mem F)

/-! ## Waiting while owing -/

omit [FloatOps F] in
/-- What a device owes after `n₁` partial products and `n₂` sums sits on the landing cells of the rest. -/
theorem owed_pos {c : Dev nD} {n₁ n₂ : ℕ} {g : GSem nD τ sig} {i : Unit} (h : 0 < owed c n₁ n₂ g i) :
    (∃ k : Fin 16, n₁ ≤ k.val ∧ g = r1Cell k (xn c)) ∨ (∃ k : Fin 16, n₂ ≤ k.val ∧ g = r2Cell k (yn c)) := by
  unfold owed owe1 owe2 at h
  rcases Pipeline.add_pos_cases h with h | h
  · obtain ⟨k, hk, hk'⟩ := Pipeline.sum_pos_exists h
    exact Or.inl ⟨k, (Finset.mem_filter.mp hk).2, (Pipeline.tallyAt_pos hk').1⟩
  · obtain ⟨k, hk, hk'⟩ := Pipeline.sum_pos_exists h
    exact Or.inr ⟨k, (Finset.mem_filter.mp hk).2, (Pipeline.tallyAt_pos hk').1⟩

omit [FloatOps F] in
theorem lv_r1 (k : Fin 16) (d : Dev nD) : lv (r1Cell k d) () = 2 + k.val := by unfold lv; rw [kindOf_r1]
omit [FloatOps F] in
theorem lv_r2 (k : Fin 16) (d : Dev nD) : lv (r2Cell k d) () = 18 + k.val := by unfold lv; rw [kindOf_r2]
omit [FloatOps F] in
theorem lv_bar (d : Dev nD) : lv (barCell d) () = 1 := by unfold lv; rw [kindOf_bar]
omit [FloatOps F] in
theorem lv_s1 (k : Fin 16) (d : Dev nD) : lv (s1Cell k d) () = 0 := by unfold lv; rw [kindOf_s1]
omit [FloatOps F] in
theorem lv_s2 (k : Fin 16) (d : Dev nD) : lv (s2Cell k d) () = 0 := by unfold lv; rw [kindOf_s2]

omit [FloatOps F] in
/-- A wait on a cell of level `ℓ` is allowed while the device owes the landings from `n₁` and `n₂` on, if those all lie above `ℓ`. -/
theorem mayWait_owed (c : Dev nD) (sm : SemLoc sig) (n₁ n₂ : ℕ)
    (h₁ : ∀ k : Fin 16, n₁ ≤ k.val → lv ((c : Thread nD τ), sm) () < 2 + k.val)
    (h₂ : ∀ k : Fin 16, n₂ ≤ k.val → lv ((c : Thread nD τ), sm) () < 18 + k.val) :
    (levAts L lv : sProp 𝕄) ⊢ MayWait (c : Thread nD τ) sm () (owed c n₁ n₂) :=
  Pipeline.mayWait_of_levAts (by rw [L_tc]; exact Finset.mem_singleton_self _) fun g i hg => by
    cases i
    rcases owed_pos hg with ⟨k, hk, rfl⟩ | ⟨k, hk, rfl⟩
    · exact ⟨by rw [L_tc]; exact Finset.mem_singleton_self _, by rw [lv_r1]; exact h₁ k hk⟩
    · exact ⟨by rw [L_tc]; exact Finset.mem_singleton_self _, by rw [lv_r2]; exact h₂ k hk⟩

omit [FloatOps F] in
/-- The local copies' semaphores are at level 0: below every landing. -/
theorem mayWait_local (c : Dev nD) (q : DmaSem sig) (hq : kindOf (.dma q : SemLoc sig) = .other) (n₁ n₂ : ℕ) :
    (levAts L lv : sProp 𝕄) ⊢ MayWait (c : Thread nD τ) (.dma q) () (owed c n₁ n₂) :=
  have h0 : lv ((c : Thread nD τ), SemLoc.dma q) () = 0 := by unfold lv; rw [hq]
  mayWait_owed c (.dma q) n₁ n₂ (fun k _ => by rw [h0]; omega) (fun k _ => by rw [h0]; omega)

/-! ## The barrier -/

/-- The signal across the contraction split: one unit, and the device's whole receive buffer. -/
theorem sigX_step (c n' : Dev nD) (hn' : n' = xn c) (κ : ℕ) {α : Type} {k : PUnit → Prog (TpuEff nD τ sig (Elt F) Λ₀ .tc) α} {Q : α → sProp 𝕄}
    (n : ℕ) (hn : 1 = n) (O : CellTallies nD τ sig Unit) (W : Waits sig Unit) (f : Buf (Elt F) (prM.view.loc (c : Thread nD τ))) :
    iprop(cellInv ER (meshRd m) κ (barCell (xn c)) ∗ owes (c : Thread nD τ) (O + tallyAt (barCell (xn c)) () 1) W
        ∗ dutyTok ER (barCell (xn c)) 0 false ∗ (prM.view.loc (c : Thread nD τ) ↦{fullShare} f) ∗ reached ER (barCell (xn c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS n) k) Q) := by
  subst hn; subst hn'
  iintro ⟨#HI, HO, Ht, Hp, #Hr⟩
  iapply (Rounds.wp_signal 𝒱₀ ER (meshRd m) (c : Thread nD τ) none (dst := (xn c : Thread nD τ)) (κ := κ) (d := false)
      (by rw [duties_bar]; exact Finset.mem_univ _) (amount_bar m (xn c) false) () O rfl) $$ [HO Ht Hp]
  isplitr; · iexact HI
  isplitl [HO]; · iexact HO
  isplitl [Ht]; · iexact Ht
  isplitl [Hp]
  · rw [payload_bar_false]; unfold barPayX; rw [xn_xn]; iexists f; iexact Hp
  · iexact Hr

/-- The signal across the row split: one unit, and the rows of the device's result array its partner computes. -/
theorem sigY_step (c n' : Dev nD) (hn' : n' = yn c) (κ : ℕ) {α : Type} {k : PUnit → Prog (TpuEff nD τ sig (Elt F) Λ₀ .tc) α} {Q : α → sProp 𝕄}
    (n : ℕ) (hn : 1 = n) (O : CellTallies nD τ sig Unit) (W : Waits sig Unit) (f : Buf (Elt F) ((rowsM (yn c)).view.loc (c : Thread nD τ))) :
    iprop(cellInv ER (meshRd m) κ (barCell (yn c)) ∗ owes (c : Thread nD τ) (O + tallyAt (barCell (yn c)) () 1) W
        ∗ dutyTok ER (barCell (yn c)) 0 true ∗ ((rowsM (yn c)).view.loc (c : Thread nD τ) ↦[(rowsM (yn c)).view.set]{fullShare} f)
        ∗ reached ER (barCell (yn c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS n) k) Q) := by
  subst hn; subst hn'
  iintro ⟨#HI, HO, Ht, Hp, #Hr⟩
  iapply (Rounds.wp_signal 𝒱₀ ER (meshRd m) (c : Thread nD τ) none (dst := (yn c : Thread nD τ)) (κ := κ) (d := true)
      (by rw [duties_bar]; exact Finset.mem_univ _) (amount_bar m (yn c) true) () O rfl) $$ [HO Ht Hp]
  isplitr; · iexact HI
  isplitl [HO]; · iexact HO
  isplitl [Ht]; · iexact Ht
  isplitl [Hp]
  · rw [payload_bar_true]; unfold barPayY; rw [yn_yn]; iexists f; iexact Hp
  · iexact Hr

/-- The wait for both partners: the partner's receive buffer across the contraction split, and the rows of the partner's
    result array across the row split that this device computes. -/
theorem bar_wait (c : Dev nD) (κ : ℕ) {α : Type} {k : PUnit → Prog (TpuEff nD τ sig (Elt F) Λ₀ .tc) α} {Q : α → sProp 𝕄}
    (n : ℕ) (hn : 2 = n) (W : Waits sig Unit) :
    iprop(cellInv ER (meshRd m) κ (barCell c) ∗ cred (tallyAt (barCell c) () 2) ∗ owes (c : Thread nD τ) (owed c 0 0) W
        ∗ levAts L lv ∗ atPos ER (barCell c) 0 ∅ 0)
      ⊢ iprop(((owes (c : Thread nD τ) (owed c 0 0) (insert (SemLoc.reg barS, ()) W) ∗ barPayX c ∗ barPayY c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#HI, Hc, HO, #Hlev, Hat⟩ Hk
  iapply (Rounds.wp_wait_rest_token 𝒱₀ ER (meshRd m) (c : Thread nD τ) none (κ := κ)
      (wpE_semWait_eq 𝒱₀ (c : Thread nD τ) none Set.univ) (Set.mem_univ _) () (O := owed c 0 0) (W := W) (R := 0) (m := 0) (T := ∅)
      (by rw [expect_bar])) $$ [Hc HO Hat]
  · isplitr; · iexact HI
    isplitl [Hc]; · iexact Hc
    isplitl [HO]; · iexact HO
    isplitr
    · iapply (mayWait_owed c (.reg barS) 0 0 (fun k _ => by rw [lv_bar]; omega) (fun k _ => by rw [lv_bar]; omega)); iexact Hlev
    iexact Hat
  iintro ⟨HO, -, -, Hpay⟩
  ihave Hp := (Entails.of_eq (rest_bar m c)) $$ Hpay
  icases Hp with ⟨HX, HY⟩
  iapply Hk
  isplitl [HO]; · iexact HO
  isplitl [HX] <;> iassumption

/-! ## The sends -/

/-- Partial product `j` sent across the contraction split: the lent share of the send slot goes out (it comes back with the
    read-out), the partner's receive slot is rewritten and goes to the partner with the landing. -/
theorem send1_step (c n' : Dev nD) (hn' : n' = xn c) (j : Fin 16) (κ₁ κ₂ : ℕ)
    {hsc : ((slotM prM j : Memref sig (Dev.tc n' : Thread nD τ).2.kind .vmem S1024x128 .bf16)).view.ref.isScScratch = false}
    {hsrc : (slotM psM j).view.WordExact} {hdst : (slotM prM j).view.WordExact}
    {hsem : DmaTarget.Typed .vmem (.dma (r1S j)) (.remote (Dev.tc n' : Thread nD τ) (slotM prM j) (.dma (s1S j)) hsc)}
    {α : Type} {k : PUnit → Prog (TpuEff nD τ sig (Elt F) Λ₀ .tc) α} {Q : α → sProp 𝕄}
    (fs : Buf (Elt F) ((slotM psM j).view.loc (c : Thread nD τ))) (hfs : ∀ i ∈ (slotM psM j).view.set, fs i = psFull m c i)
    (fd : Buf (Elt F) ((slotM prM j).view.loc (xn c : Thread nD τ))) (O : CellTallies nD τ sig Unit) (W : Waits sig Unit) :
    iprop(cellInv ER (meshRd m) κ₁ (s1Cell j c) ∗ cellInv ER (meshRd m) κ₂ (r1Cell j (xn c))
        ∗ slotPts psM c j lentQ fs ∗ slotPts prM (xn c) j fullShare fd
        ∗ owes (c : Thread nD τ) (O + tallyAt (r1Cell j (xn c)) () Ncr) W
        ∗ dutyTok ER (s1Cell j c) 0 false ∗ reached ER (s1Cell j c) 0
        ∗ dutyTok ER (r1Cell j (xn c)) 0 false ∗ reached ER (r1Cell j (xn c)) 0)
      ⊢ iprop(((cred (tallyAt (s1Cell j c) () Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM psM j) (.remote (Dev.tc n' : Thread nD τ) (slotM prM j) (.dma (s1S j)) hsc) (.dma (r1S j)) hsrc hdst hsem) k) Q) := by
  subst hn'
  exact Rounds.wp_send_pointsTo 𝒱₀ ER (meshRd m) (c : Thread nD τ) none (κ₁ := κ₁) (κ₂ := κ₂)
    (src := slotM psM j) (dst := slotM prM j) (q := lentQ) (fs := fs) (fd := fd) (c' := (xn c : Thread nD τ))
    (r₁ := 0) (r₂ := 0) (d₁ := false) (d₂ := false)
    (by rw [duties_s1]; exact Finset.mem_singleton_self _) (by rw [duties_r1]; exact Finset.mem_singleton_self _)
    () () Ncr rfl (amount_s1 m c j false) (amount_r1 m (xn c) j false) O rfl (W := W)
    (by rw [payload_s1]; unfold s1Pay slotPts; rw [pointsTo_congr hfs])
    (by rw [payload_r1]; unfold r1Pay slotPts; rw [pointsTo_congr (land1 m c j fs hfs fd)])

/-- Finished chunk `j` sent across the row split, into the block of the partner's result array that holds this device's rows —
    the block's offsets however spelt. -/
theorem send2_step (c n' : Dev nD) (hn' : n' = yn c) (j : Fin 16) (κ₁ κ₂ : ℕ)
    {off : Fin 2 → Nat} (hoff : off = outOff c j) (inb : ∀ a, off a + S1024x128.size a ≤ S2048x2048.size a)
    {hsc : ((oM.slice (Rect.unit (s := S2048x2048) off S1024x128.size inb) (fun _ => rfl) : Memref sig (Dev.tc n' : Thread nD τ).2.kind .hbm S1024x128 .bf16)).view.ref.isScScratch = false}
    {hsrc : (slotM cvM j).view.WordExact} {hdst : (oM.slice (Rect.unit (s := S2048x2048) off S1024x128.size inb) (fun _ => rfl)).view.WordExact}
    {hsem : DmaTarget.Typed .vmem (.dma (r2S j)) (.remote (Dev.tc n' : Thread nD τ) (oM.slice (Rect.unit (s := S2048x2048) off S1024x128.size inb) (fun _ => rfl)) (.dma (s2S j)) hsc)}
    {α : Type} {k : PUnit → Prog (TpuEff nD τ sig (Elt F) Λ₀ .tc) α} {Q : α → sProp 𝕄}
    (cv : Buf (Elt F) ((slotM cvM j).view.loc (c : Thread nD τ))) (hcv : ∀ i ∈ (slotM cvM j).view.set, cv i = cvFull m c i)
    (fd : Buf (Elt F) ((outM c j).view.loc (yn c : Thread nD τ))) (O : CellTallies nD τ sig Unit) (W : Waits sig Unit) :
    iprop(cellInv ER (meshRd m) κ₁ (s2Cell j c) ∗ cellInv ER (meshRd m) κ₂ (r2Cell j (yn c))
        ∗ slotPts cvM c j lentQ cv ∗ outPts (yn c) c j fd
        ∗ owes (c : Thread nD τ) (O + tallyAt (r2Cell j (yn c)) () Ncr) W
        ∗ dutyTok ER (s2Cell j c) 0 false ∗ reached ER (s2Cell j c) 0
        ∗ dutyTok ER (r2Cell j (yn c)) 0 false ∗ reached ER (r2Cell j (yn c)) 0)
      ⊢ iprop(((cred (tallyAt (s2Cell j c) () Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM cvM j) (.remote (Dev.tc n' : Thread nD τ) (oM.slice (Rect.unit (s := S2048x2048) off S1024x128.size inb) (fun _ => rfl)) (.dma (s2S j)) hsc) (.dma (r2S j)) hsrc hdst hsem) k) Q) := by
  subst hn'; subst hoff
  exact Rounds.wp_send_pointsTo 𝒱₀ ER (meshRd m) (c : Thread nD τ) none (κ₁ := κ₁) (κ₂ := κ₂)
    (src := slotM cvM j) (dst := outM c j) (q := lentQ) (fs := cv) (fd := fd) (c' := (yn c : Thread nD τ))
    (r₁ := 0) (r₂ := 0) (d₁ := false) (d₂ := false)
    (by rw [duties_s2]; exact Finset.mem_singleton_self _) (by rw [duties_r2]; exact Finset.mem_singleton_self _)
    () () Ncr rfl (amount_s2 m c j false) (amount_r2 m (yn c) j false) O rfl (W := W)
    (by rw [payload_s2]; unfold s2Pay slotPts; rw [pointsTo_congr hcv])
    (by rw [payload_r2]; unfold r2Pay outPts; rw [yn_yn, pointsTo_congr (land2 m c j cv hcv fd)])

/-! ## The waits -/

/-- A wait for the one round of one of the device's exchange cells — the cell's expected units a slot's credit, the round's
    payloads `pay`, the awaited destination a slot-sized view —, while the device owes `O` and may wait there: the payload
    comes with it, the cell is closed, and its counter is the device's again, at zero. -/
theorem dmaWait_step (c : Dev nD) (q : DmaSem sig) (κ : ℕ) (pay : sProp 𝕄)
    (hexp : (meshRd (F := F) m).expect ((c : Thread nD τ), .dma q) 0 = Ncr)
    (hrest : bigSep ((meshRd (F := F) m).duties ((c : Thread nD τ), .dma q) 0 \ ∅)
        (fun d => (meshRd (F := F) m).payload ((c : Thread nD τ), .dma q) 0 d) = pay)
    {sp sp' : Space} {s s' : Shape} {e e' : EltTy} {src : Memref sig Kind.tc sp' s' e'} {κ' : Kind} (dst : Memref sig κ' sp s e)
    {hsrc : src.view.WordExact} {hdst : dst.view.WordExact} (hcr : dst.view.dmaCredit = Ncr)
    {α : Type} {k : PUnit → Prog (TpuEff nD τ sig (Elt F) Λ₀ .tc) α} {Q : α → sProp 𝕄}
    (O : CellTallies nD τ sig Unit) (W : Waits sig Unit) :
    iprop(cellInv ER (meshRd m) κ ((c : Thread nD τ), .dma q) ∗ cred (tallyAt ((c : Thread nD τ), .dma q) () Ncr)
        ∗ owes (c : Thread nD τ) O W ∗ MayWait (c : Thread nD τ) (.dma q) () O ∗ atPos ER ((c : Thread nD τ), .dma q) 0 ∅ 0)
      ⊢ iprop(((owes (c : Thread nD τ) O (insert (SemLoc.dma q, ()) W) ∗ semVal ((c : Thread nD τ), .dma q) 0 ∗ pay)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hw : ∀ K : PUnit → sProp 𝕄, wpE (defs₀ (F := F)) 𝒱₀ (c : Thread nD τ) none Set.univ (.waitDma2 q src dst hsrc hdst) K
      = waitSpec (c : Thread nD τ) Set.univ (.dma q) Ncr K := fun K => by
    rw [← hcr]; exact wpE_waitDma2_eq 𝒱₀ (c : Thread nD τ) none Set.univ K
  iintro ⟨#HI, Hc, HO, Hmw, Hat⟩ Hk
  iapply (Rounds.wp_wait_rest_token 𝒱₀ ER (meshRd m) (c : Thread nD τ) none (κ := κ) hw (Set.mem_univ _) ()
      (O := O) (W := W) (R := 0) (m := 0) (T := ∅) (by rw [Nat.zero_add, hexp])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (meshRd m) (Set.mem_univ κ) (fun h => h) (R := 0 + 1) (duties_later m ((c : Thread nD τ), .dma q))) $$ [Hat] with Hz
  · isplitr; · iexact HI
    iexact Hat
  iapply Hk
  isplitl [HO]; · iexact HO
  isplitl [Hz]; · iexact Hz
  rw [← hrest]; iexact Hpay

end Cert.KernelIdeal.DM

end
-- ==== Proof.IdealSide.Geom.lean ====
/-
  The geometry of the buffers. A buffer of sixteen [1024, 128] slots is the disjoint union of its slots, the right
  factor's double buffer of its two, the result array of the two row halves, and a row half of its sixteen column
  blocks of width 128. Each statement is the same argument: the parts are rectangles separated on one axis, so they are
  pairwise disjoint, and every index lies in the part its coordinate on that axis names, so they cover; a points-to over
  a disjoint union is the separating conjunction of the points-tos over the parts.
-/
import proofs.«900449_g7700000000000450_dist_matmul_k_x_m2048_n2048_k1024_v7x_xy2x2_bf16_1_alg».proof.Proof.IdealSide.Sched
import Idealize.ShloMosaic.Rules.PointsTo
import Idealize.ShloMosaic.Signature.View
import Idealize.ShloMosaic.Lib.Memref

noncomputable section

namespace Cert.KernelIdeal.DM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Sixteen conjuncts, written out -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## A slot's two shares -/

/-- A slot held at the full share is the lent share and the kept share of it: the two halves of the full share. -/
theorem slot_shares (M : Memref sig .tc .vmem S16x1024x128 .bf16) (c : Dev nD) (j : Fin 16)
    (f : Buf (Elt F) ((slotM M j).view.loc (c : Thread nD τ))) :
    (slotPts M c j fullShare f : sProp 𝕄) ⊣⊢ iprop(slotPts M c j lentQ f ∗ slotPts M c j keptQ f) :=
  pointsTo_share (PosShare.mem_left_op_right fullShare)

/-! ## The printed offsets of the result's blocks -/

theorem off_eq_2 (c : Dev nD) : k0_off2 c = outOff c 0 := (k0_off2_eq c).trans rfl
theorem off_eq_3 (c : Dev nD) : k0_off3 c = outOff c 1 := (k0_off3_eq c).trans rfl
theorem off_eq_4 (c : Dev nD) : k0_off4 c = outOff c 2 := (k0_off4_eq c).trans rfl
theorem off_eq_5 (c : Dev nD) : k0_off5 c = outOff c 3 := (k0_off5_eq c).trans rfl
theorem off_eq_6 (c : Dev nD) : k0_off6 c = outOff c 4 := (k0_off6_eq c).trans rfl
theorem off_eq_7 (c : Dev nD) : k0_off7 c = outOff c 5 := (k0_off7_eq c).trans rfl
theorem off_eq_8 (c : Dev nD) : k0_off8 c = outOff c 6 := (k0_off8_eq c).trans rfl
theorem off_eq_9 (c : Dev nD) : k0_off9 c = outOff c 7 := (k0_off9_eq c).trans rfl
theorem off_eq_10 (c : Dev nD) : k0_off10 c = outOff c 8 := (k0_off10_eq c).trans rfl
theorem off_eq_11 (c : Dev nD) : k0_off11 c = outOff c 9 := (k0_off11_eq c).trans rfl
theorem off_eq_12 (c : Dev nD) : k0_off12 c = outOff c 10 := (k0_off12_eq c).trans rfl
theorem off_eq_13 (c : Dev nD) : k0_off13 c = outOff c 11 := (k0_off13_eq c).trans rfl
theorem off_eq_14 (c : Dev nD) : k0_off14 c = outOff c 12 := (k0_off14_eq c).trans rfl
theorem off_eq_15 (c : Dev nD) : k0_off15 c = outOff c 13 := (k0_off15_eq c).trans rfl
theorem off_eq_16 (c : Dev nD) : k0_off16 c = outOff c 14 := (k0_off16_eq c).trans rfl
theorem off_eq_17 (c : Dev nD) : k0_off17 c = outOff c 15 := (k0_off17_eq c).trans rfl

/-! ## The sixteen slots of a buffer -/

/-- The slots' rectangles are separated on the leading axis. -/
theorem slotR_disjoint {j j' : Fin 16} (h : j ≠ j') : Disjoint (slotR j).set (slotR j').set := by
  refine Rect.unit_disjoint (0 : Fin 3) ?_
  have : j.val ≠ j'.val := fun e => h (Fin.ext e)
  show j.val + 1 ≤ j'.val ∨ j'.val + 1 ≤ j.val
  omega

/-- An index lies in the slot its leading coordinate names. -/
theorem mem_slotR_self (i : S16x1024x128.Idx) : i ∈ (slotR ⟨(i 0).val, (i 0).isLt⟩).set := by
  rw [Rect.mem_set_unit]
  intro a
  fin_cases a
  · exact ⟨le_rfl, Nat.lt_succ_self _⟩
  · exact ⟨Nat.zero_le _, by have := (i 1).isLt; simpa using this⟩
  · exact ⟨Nat.zero_le _, by have := (i 2).isLt; simpa using this⟩

/-- The elements of slot `j`: the slot's rectangle, placed by the buffer's view. -/
theorem slot_set (M : Memref sig .tc .vmem S16x1024x128 .bf16) (j : Fin 16) :
    (slotM M j).view.set = (slotR j).set.map M.view.emb := by
  show ((M.view.slice (slotR j)).reshape S1024x128 _).set = _
  rw [View.set_reshape, View.set_slice]

/-- The elements of slot `j`, as a set of the buffer's elements (one type for all sixteen). -/
abbrev slotSet (M : Memref sig .tc .vmem S16x1024x128 .bf16) (j : Fin 16) : Finset M.view.ty.Idx := (slotM M j).view.set

/-- A sixteen-slot buffer held whole is its sixteen slots, each held by its own elements, at the same contents. -/
theorem split16 (M : Memref sig .tc .vmem S16x1024x128 .bf16) (hM : M.IsWhole) (c : Dev nD) (q : PosShare TreeShare)
    (f : Buf (Elt F) (M.view.loc (c : Thread nD τ))) :
    (M.view.loc (c : Thread nD τ) ↦{q} f : sProp 𝕄) = bigSep Finset.univ fun j : Fin 16 => slotPts M c j q f := by
  have hcov : (Finset.univ : Finset (Fin 16)).biUnion (slotSet M) = Finset.univ := by
    refine Finset.eq_univ_iff_forall.mpr fun x => ?_
    have hx : x ∈ M.view.set := hM.set_eq_univ ▸ Finset.mem_univ x
    obtain ⟨i, -, rfl⟩ := Finset.mem_map.mp hx
    refine Finset.mem_biUnion.mpr ⟨⟨(i 0).val, (i 0).isLt⟩, Finset.mem_univ _, ?_⟩
    have hmem := Finset.mem_map_of_mem M.view.emb (mem_slotR_self i)
    rw [← slot_set] at hmem
    exact hmem
  have hdis : ∀ j ∈ (Finset.univ : Finset (Fin 16)), ∀ j' ∈ (Finset.univ : Finset (Fin 16)), j ≠ j' →
      Disjoint (slotSet M j) (slotSet M j') := fun j _ j' _ h => by
    show Disjoint (slotM M j).view.set (slotM M j').view.set
    rw [slot_set, slot_set, Finset.disjoint_map]; exact slotR_disjoint h
  have key : (M.view.loc (c : Thread nD τ) ↦[(Finset.univ : Finset (Fin 16)).biUnion (slotSet M)]{q} f : sProp 𝕄)
      = bigSep Finset.univ fun j : Fin 16 => M.view.loc (c : Thread nD τ) ↦[slotSet M j]{q} f :=
    pointsTo_biUnion (ℓ := M.view.loc (c : Thread nD τ)) Finset.univ (slotSet M) hdis
  rw [hcov] at key
  exact key

/-! ## The two slots of the right factor's double buffer -/

theorem bvR_disjoint : Disjoint (bvR 0).set (bvR 1).set :=
  Rect.unit_disjoint (0 : Fin 3) (Or.inl (show (0 : ℕ) + 1 ≤ 1 from le_rfl))

theorem bvR_cover : (bvR 0).set ∪ (bvR 1).set = Finset.univ := by
  ext i
  simp only [Finset.mem_union, Finset.mem_univ, iff_true, Rect.mem_set_unit]
  have h0 : (i 0).val < 2 := (i 0).isLt
  have h1 : (i 1).val < 1024 := (i 1).isLt
  have h2 : (i 2).val < 128 := (i 2).isLt
  rcases Nat.lt_or_ge (i 0).val 1 with h | h
  · refine Or.inl fun a => ?_
    fin_cases a
    · show 0 ≤ (i 0).val ∧ (i 0).val < 0 + 1; omega
    · show 0 ≤ (i 1).val ∧ (i 1).val < 0 + 1024; omega
    · show 0 ≤ (i 2).val ∧ (i 2).val < 0 + 128; omega
  · refine Or.inr fun a => ?_
    fin_cases a
    · show 1 ≤ (i 0).val ∧ (i 0).val < 1 + 1; omega
    · show 0 ≤ (i 1).val ∧ (i 1).val < 0 + 1024; omega
    · show 0 ≤ (i 2).val ∧ (i 2).val < 0 + 128; omega

theorem bvSlot_set (p : Fin 2) : (bvSlot p).view.set = (bvR p).set := by
  show ((bvM.view.slice (bvR p)).reshape S1024x128 _).set = _
  rw [View.set_reshape]; exact View.set_slice_whole _ _

/-- The right factor's double buffer held whole is its two slots. -/
theorem split2 (c : Dev nD) (f : Buf (Elt F) (bvM.view.loc (c : Thread nD τ))) :
    (bvM.view.loc (c : Thread nD τ) ↦{fullShare} f : sProp 𝕄)
      = iprop(((bvSlot 0).view.loc (c : Thread nD τ) ↦[(bvSlot 0).view.set]{fullShare} f)
          ∗ ((bvSlot 1).view.loc (c : Thread nD τ) ↦[(bvSlot 1).view.set]{fullShare} f)) := by
  have hu : (bvM.view.loc (c : Thread nD τ) ↦[(bvR 0).set ∪ (bvR 1).set]{fullShare} f : sProp 𝕄)
      ⊣⊢ iprop((bvM.view.loc (c : Thread nD τ) ↦[(bvR 0).set]{fullShare} f) ∗ bvM.view.loc (c : Thread nD τ) ↦[(bvR 1).set]{fullShare} f) :=
    pointsTo_union bvR_disjoint
  rw [bvSlot_set, bvSlot_set]
  refine Eq.trans ?_ (BI.equiv_iff.mp ⟨hu.1, hu.2⟩)
  rw [bvR_cover]

/-! ## The result array: two row halves, sixteen column blocks each -/

/-- The rectangle of the rows device `d` computes. -/
abbrev rowsR (d : Dev nD) : Rect S2048x2048 := Rect.unit (s := S2048x2048) (rowsOff d) S1024x2048.size (rows_inb d)

theorem mem_rowsR {d : Dev nD} {i : S2048x2048.Idx} : i ∈ (rowsR d).set ↔ (i 0).val / 1024 = d.val % 2 := by
  rw [Rect.mem_set_unit]
  have hi0 : (i 0).val < 2048 := (i 0).isLt
  have hi1 : (i 1).val < 2048 := (i 1).isLt
  constructor
  · intro h
    have h0 : 1024 * (d.val % 2) ≤ (i 0).val ∧ (i 0).val < 1024 * (d.val % 2) + 1024 := h 0
    omega
  · intro h a
    fin_cases a
    · show 1024 * (d.val % 2) ≤ (i 0).val ∧ (i 0).val < 1024 * (d.val % 2) + 1024; omega
    · show 0 ≤ (i 1).val ∧ (i 1).val < 0 + 2048; omega

theorem mem_outR {d : Dev nD} {j : Fin 16} {i : S2048x2048.Idx} :
    i ∈ (outR d j).set ↔ (i 0).val / 1024 = d.val % 2 ∧ (i 1).val / 128 = j.val := by
  rw [Rect.mem_set_unit]
  have hi0 : (i 0).val < 2048 := (i 0).isLt
  have hi1 : (i 1).val < 2048 := (i 1).isLt
  have hj : j.val < 16 := j.isLt
  constructor
  · intro h
    have h0 : 1024 * (d.val % 2) ≤ (i 0).val ∧ (i 0).val < 1024 * (d.val % 2) + 1024 := h 0
    have h1 : 128 * j.val ≤ (i 1).val ∧ (i 1).val < 128 * j.val + 128 := h 1
    omega
  · intro h a
    fin_cases a
    · show 1024 * (d.val % 2) ≤ (i 0).val ∧ (i 0).val < 1024 * (d.val % 2) + 1024; omega
    · show 128 * j.val ≤ (i 1).val ∧ (i 1).val < 128 * j.val + 128; omega

theorem rowsM_set (d : Dev nD) : (rowsM d).view.set = (rowsR d).set := View.set_slice_whole _ _
theorem outM_set (d : Dev nD) (j : Fin 16) : (outM d j).view.set = (outR d j).set := View.set_slice_whole _ _

/-- The result array held whole is the rows one device of a row pair computes and the rows its partner computes. -/
theorem splitOut (c d : Dev nD) (f : Buf (Elt F) (oM.view.loc (c : Thread nD τ))) :
    (oM.view.loc (c : Thread nD τ) ↦{fullShare} f : sProp 𝕄)
      = iprop(((rowsM d).view.loc (c : Thread nD τ) ↦[(rowsM d).view.set]{fullShare} f)
          ∗ ((rowsM (yn d)).view.loc (c : Thread nD τ) ↦[(rowsM (yn d)).view.set]{fullShare} f)) := by
  have hy := yn_row d
  have hd : d.val % 2 < 2 := Nat.mod_lt _ (by decide)
  have hdis : Disjoint (rowsR d).set (rowsR (yn d)).set := by
    rw [Finset.disjoint_left]
    intro i hi hi'
    have := mem_rowsR.mp hi; have := mem_rowsR.mp hi'
    omega
  have hcov : (rowsR d).set ∪ (rowsR (yn d)).set = Finset.univ := by
    ext i
    simp only [Finset.mem_union, Finset.mem_univ, iff_true, mem_rowsR]
    have hi0 : (i 0).val < 2048 := (i 0).isLt
    omega
  have hu : (oM.view.loc (c : Thread nD τ) ↦[(rowsR d).set ∪ (rowsR (yn d)).set]{fullShare} f : sProp 𝕄)
      ⊣⊢ iprop((oM.view.loc (c : Thread nD τ) ↦[(rowsR d).set]{fullShare} f) ∗ oM.view.loc (c : Thread nD τ) ↦[(rowsR (yn d)).set]{fullShare} f) :=
    pointsTo_union hdis
  rw [rowsM_set, rowsM_set]
  refine Eq.trans ?_ (BI.equiv_iff.mp ⟨hu.1, hu.2⟩)
  rw [hcov]

/-- The rows device `d` computes, on device `c`'s array, are the sixteen column blocks of those rows. -/
theorem splitRows (c d : Dev nD) (f : Buf (Elt F) ((rowsM d).view.loc (c : Thread nD τ))) :
    ((rowsM d).view.loc (c : Thread nD τ) ↦[(rowsM d).view.set]{fullShare} f : sProp 𝕄)
      = bigSep Finset.univ fun j : Fin 16 => outPts c d j f := by
  have hcov : (rowsR d).set = (Finset.univ : Finset (Fin 16)).biUnion (fun j => (outR d j).set) := by
    ext i
    simp only [Finset.mem_biUnion, Finset.mem_univ, true_and, mem_rowsR, mem_outR]
    have hi1 : (i 1).val < 2048 := (i 1).isLt
    constructor
    · intro h; exact ⟨⟨(i 1).val / 128, by omega⟩, h, rfl⟩
    · rintro ⟨j, h, -⟩; exact h
  have hdis : ∀ j ∈ (Finset.univ : Finset (Fin 16)), ∀ j' ∈ (Finset.univ : Finset (Fin 16)), j ≠ j' →
      Disjoint (outR d j).set (outR d j').set := fun j _ j' _ h => by
    rw [Finset.disjoint_left]
    intro i hi hi'
    exact h (Fin.ext ((mem_outR.mp hi).2.symm.trans (mem_outR.mp hi').2))
  rw [rowsM_set, hcov]
  refine (pointsTo_biUnion (ℓ := oM.view.loc (c : Thread nD τ)) Finset.univ (fun j => (outR d j).set) hdis).trans
    (bigSep_congr fun j _ => ?_)
  show (oM.view.loc (c : Thread nD τ) ↦[(outR d j).set]{fullShare} f : sProp 𝕄)
    = ((outM d j).view.loc (c : Thread nD τ) ↦[(outM d j).view.set]{fullShare} f)
  rw [outM_set]

/-- The two slots of the double buffer, held at different contents, are the whole buffer at some contents: the second
    slot's on the second slot, the first's elsewhere. -/
theorem join2 (c : Dev nD) (g0 : Buf (Elt F) ((bvSlot 0).view.loc (c : Thread nD τ))) (g1 : Buf (Elt F) ((bvSlot 1).view.loc (c : Thread nD τ))) :
    iprop(((bvSlot 0).view.loc (c : Thread nD τ) ↦[(bvSlot 0).view.set]{fullShare} g0) ∗ ((bvSlot 1).view.loc (c : Thread nD τ) ↦[(bvSlot 1).view.set]{fullShare} g1))
      ⊢ (iprop(∃ f, bvM.view.loc (c : Thread nD τ) ↦{fullShare} f) : sProp 𝕄) := by
  rw [bvSlot_set, bvSlot_set]
  have hj : iprop((bvM.view.loc (c : Thread nD τ) ↦[(bvR 0).set]{fullShare} g0) ∗ bvM.view.loc (c : Thread nD τ) ↦[(bvR 1).set]{fullShare} g1)
      ⊢ (bvM.view.loc (c : Thread nD τ) ↦[(bvR 0).set ∪ (bvR 1).set]{fullShare} _ : sProp 𝕄) := pointsTo_join bvR_disjoint
  rw [bvR_cover] at hj
  refine hj.trans ?_
  iintro H
  iexists _
  iexact H

/-- info: 'Cert.KernelIdeal.DM.split16' depends on axioms: [propext, Classical.choice, Quot.sound] -/
#guard_msgs in #print axioms split16

end Cert.KernelIdeal.DM

end
-- ==== Proof.IdealSide.Pieces.lean ====
/-
  Small pieces the body's proof uses at every chunk: what a device owes before and after one more send; a stored slot as the
  run leaves it, read as the buffer's contents function; looking one cell's invariant up in the records; and an assertion
  set aside for a stretch.
-/
import proofs.«900449_g7700000000000450_dist_matmul_k_x_m2048_n2048_k1024_v7x_xy2x2_bf16_1_alg».proof.Proof.IdealSide.Steps
import proofs.«900449_g7700000000000450_dist_matmul_k_x_m2048_n2048_k1024_v7x_xy2x2_bf16_1_alg».proof.Proof.IdealSide.Geom

noncomputable section

namespace Cert.KernelIdeal.DM

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

omit [FloatOps F] in
theorem owed_succ1 (c : Dev nD) (n : ℕ) (hn : n < 16) (n₂ : ℕ) :
    owed c n n₂ = owed c (n + 1) n₂ + tallyAt (r1Cell ⟨n, hn⟩ (xn c)) () Ncr := by
  unfold owed; rw [show owe1 c n = _ from owe1_succ c ⟨n, hn⟩]; exact add_right_comm _ _ _
omit [FloatOps F] in
theorem owed_succ2 (c : Dev nD) (n₁ : ℕ) (n : ℕ) (hn : n < 16) :
    owed c n₁ n = owed c n₁ (n + 1) + tallyAt (r2Cell ⟨n, hn⟩ (yn c)) () Ncr := by
  unfold owed; rw [show owe2 c n = _ from owe2_succ c ⟨n, hn⟩]; exact (add_assoc _ _ _).symm

/-- A slot of the send buffer as the run leaves it — the product of the loaded left rows and the loaded right chunk, stored —
    is the send buffer's contents there. -/
theorem ps_run (c : Dev nD) (j : Fin 16) (p : Fin 2) (f0 : Buf (Elt F) (avM.view.loc (c : Thread nD τ)))
    (fp : Buf (Elt F) ((slotM psM j).view.loc (c : Thread nD τ))) (base : Buf (Elt F) ((bvSlot p).view.loc (c : Thread nD τ)))
    (older : List (View.Piece (Elt F) S1024x128 .f32)) :
    ∀ i ∈ (slotM psM j).view.set,
      View.write (Elt F) (psM.access (slotR j)) fp
        (k0_pay3 (k0_pay1 (View.readAt (Elt F) avM.view (Rect.unit (s := S1024x1024) ![0, 0] S1024x1024.size inb_S1024x1024_S1024x1024_0_0).toLoadRect
            (View.write (Elt F) avM.view f0 (ReadAs.same.apply ((aSrc c).view.read (Elt F) (m ((c : Thread nD τ).loc main_arg0)))) Finset.univ)))
          (View.readAt (Elt F) bvM.view (bvR p).toLoadRect
            ((bvSlot p).view.writes (Elt F) base
              (⟨Rect.whole S1024x128, ReadAs.same.apply ((bSrc j).view.read (Elt F) (m ((c : Thread nD τ).loc main_arg1)))⟩ :: older))))
        Finset.univ i = psFull m c i := by
  rw [a_load, b_load]; exact ps_store m c j fp

/-- A slot of the sum buffer as the run leaves it — the loaded send slot plus the loaded receive slot, stored — is the sum
    buffer's contents there, when the two slots hold the device's and the partner's product. -/
theorem cv_run (c : Dev nD) (j : Fin 16) (fc : Buf (Elt F) ((slotM cvM j).view.loc (c : Thread nD τ)))
    (fs : Buf (Elt F) (psM.view.loc (c : Thread nD τ))) (hfs : ∀ i ∈ (slotM psM j).view.set, fs i = psFull m c i)
    (fr : Buf (Elt F) (prM.view.loc (c : Thread nD τ))) (hfr : ∀ i ∈ (slotM prM j).view.set, fr i = prFull m c i) :
    ∀ i ∈ (slotM cvM j).view.set,
      View.write (Elt F) (cvM.access (slotR j)) fc
        (k0_pay4 (View.readAt (Elt F) psM.view (slotR j).toLoadRect fs) (View.readAt (Elt F) prM.view (slotR j).toLoadRect fr))
        Finset.univ i = cvFull m c i := by
  rw [ps_load m c j fs hfs, pr_load m c j fr hfr]; exact cv_store m c j fc

/-- An assertion set aside: the same assertion, kept out of the run's sight for a stretch. -/
@[irreducible] def Aside (P : sProp 𝕄) : sProp 𝕄 := P
omit [FloatOps F] in
theorem aside_eq (P : sProp 𝕄) : Aside P = P := by unfold Aside; rfl

omit [FloatOps F] in
/-- A block of the result array spelt through any offsets equal to the block's own is the same assertion. -/
theorem outPts_printed (c d : Dev nD) (j : Fin 16) {off : Fin 2 → Nat} (hoff : off = outOff d j)
    (inb : ∀ a, off a + S1024x128.size a ≤ S2048x2048.size a) (f : Buf (Elt F) (oM.view.loc (c : Thread nD τ))) :
    ((oM.slice (Rect.unit (s := S2048x2048) off S1024x128.size inb) (fun _ => rfl)).view.loc (c : Thread nD τ)
        ↦[(oM.slice (Rect.unit (s := S2048x2048) off S1024x128.size inb) (fun _ => rfl)).view.set]{fullShare} f : sProp 𝕄)
      = outPts c d j f := by
  subst hoff; rfl

omit [FloatOps F] in
theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_option' {α : Type} [Fintype α] [DecidableEq α] (Φ : Option α → sProp 𝕄) :
    bigSep Finset.univ Φ = iprop(Φ none ∗ bigSep Finset.univ fun a => Φ (some a)) := by
  rw [bigSep_univ_at Φ none, show (Finset.univ.erase none : Finset (Option α)) = Finset.univ.map ⟨some, Option.some_injective α⟩ from by
    ext x; cases x <;> simp, bigSep_map]
  rfl

/-- One cell's invariant, and that its round is open, out of the records. -/
theorem inv_at (K : Dev nD × CIx → ℕ) (ck : Dev nD × CIx) :
    (bigSep Finset.univ fun ck : Dev nD × CIx => (cellInv ER (meshRd m) (K ck) (kcell ck) : sProp 𝕄)) ⊢ cellInv ER (meshRd m) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
/-- The sixty-four exchange semaphores at zero, from the four groups of sixteen. -/
theorem exchSems_intro (c : Dev nD) :
    iprop((bigSep Finset.univ fun j : Fin 16 => semVal (s1Cell j c) 0) ∗ (bigSep Finset.univ fun j : Fin 16 => semVal (r1Cell j c) 0)
        ∗ (bigSep Finset.univ fun j : Fin 16 => semVal (s2Cell j c) 0) ∗ (bigSep Finset.univ fun j : Fin 16 => semVal (r2Cell j c) 0))
      ⊢ (exchSems0 c : sProp 𝕄) := by
  unfold exchSems0
  rw [bigSep_univ_prod, bigSep_fin4']

/-- After the point a device owes nothing: what it still owed after every send, with whatever waits were recorded. -/
theorem owesAt_done (c : Dev nD) (W₀ : Waits sig Unit) :
    (owes (c : Thread nD τ) (owed c 16 16) W₀ : sProp 𝕄) ⊢ (dats (F := F) m 0 c).owesAt () (t0_0 : Fin cfg0.N).succ := by
  unfold Dat.owesAt Pipeline.owesWithin
  rw [show (dats (F := F) m 0 c).owed (t0_0 : Fin cfg0.N).succ = owed c 16 16 from (owed_done c).symm]
  iintro HO
  iexists W₀
  isplitr; · ipureintro; exact fun _ _ => Or.inl trivial
  iexact HO

end Cert.KernelIdeal.DM

end
-- ==== Proof.IdealSide.Body.lean ====
/-
  The body of the kernel on one device, from what the launch deals it to what it hands back.
  The device copies its 1024 rows of its half of the left factor into scratch, and streams the sixteen column chunks of its
  half of the right factor through a double buffer. For each chunk it multiplies, stores the partial product in its send
  buffer and sends it to its partner across the contraction split; when the partner's partial product of the same chunk has
  landed in its receive buffer it adds the two, stores the finished chunk in its sum buffer, copies it into its own rows of
  its result array and sends it into the same rows of the result array of its partner across the row split. A last round of
  waits collects every landing and every read-out. A copy's source is cut in two shares while the copy is pending: the lent
  share travels with the copy and comes back with the read-out, the kept share serves the reads in between. Every buffer has
  one contents function; a slot or block is always held at that function, so at the end the parts join into whole buffers,
  and the result array holds, on every device, the whole product.
-/
import proofs.«900449_g7700000000000450_dist_matmul_k_x_m2048_n2048_k1024_v7x_xy2x2_bf16_1_alg».proof.Proof.IdealSide.Pieces

noncomputable section

namespace Cert.KernelIdeal.DM

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)
set_option maxHeartbeats 0 in
set_option maxRecDepth 16384 in
theorem sound_body (c : Dev nD) (Kt : PUnit → sProp 𝕄) :
    iprop((Φ₀ m c ∗ (dats (F := F) m 0 c).owesAt () (t0_0 : Fin cfg0.N).castSucc)
        ∗ ((Φ₁ m c ∗ (dats (F := F) m 0 c).owesAt () (t0_0 : Fin cfg0.N).succ) -∗ Kt ⟨⟩))
      ⊢ wp frame (wpE (defs₀ (F := F)) 𝒱₀ (c : Thread nD τ) none) Set.univ (bodyAt0 (F := F) t0_0) Kt := by
  unfold bodyAt0
  sl_unfold [cc0_body]
  unfold Φ₀ start arrays0 scratch
  iintro ⟨⟨⟨⟨⟨%K, Hghost⟩, Hcreds, #Hlev⟩, ⟨HA, HB, ⟨%fo, HOut⟩⟩, ⟨%f0, Hav⟩, ⟨%f1, Hbv⟩, ⟨%f2, Hps⟩, ⟨%f3, Hpr⟩, ⟨%f4, Hcv⟩⟩, Ho⟩, Hk⟩
  unfold ghost records payToks localSems0
  icases Hghost with ⟨⟨#HI, #HR⟩, Hpos, ⟨HtBX, HtBY, Htoks⟩, Hsa, Hsb0, Hsb1, Hsos⟩
  unfold creds
  icases Hcreds with ⟨HcB, Hcrs⟩
  unfold Dat.owesAt Pipeline.owesWithin
  icases Ho with ⟨%W, %hW, HO⟩
  rw [show (dats (F := F) m 0 c).owed (t0_0 : Fin cfg0.N).castSucc = O₀ c from rfl]
  -- the sixteen-fold groups, written out
  ihave Htoks := (Entails.of_eq (bigSep_fin16 (chunkToks (F := F) c))) $$ Htoks
  unfold chunkToks
  icases Htoks with ⟨⟨Hts1_0, Htr1_0, Hts2_0, Htr2_0⟩, ⟨Hts1_1, Htr1_1, Hts2_1, Htr2_1⟩, ⟨Hts1_2, Htr1_2, Hts2_2, Htr2_2⟩, ⟨Hts1_3, Htr1_3, Hts2_3, Htr2_3⟩, ⟨Hts1_4, Htr1_4, Hts2_4, Htr2_4⟩, ⟨Hts1_5, Htr1_5, Hts2_5, Htr2_5⟩, ⟨Hts1_6, Htr1_6, Hts2_6, Htr2_6⟩, ⟨Hts1_7, Htr1_7, Hts2_7, Htr2_7⟩, ⟨Hts1_8, Htr1_8, Hts2_8, Htr2_8⟩, ⟨Hts1_9, Htr1_9, Hts2_9, Htr2_9⟩, ⟨Hts1_10, Htr1_10, Hts2_10, Htr2_10⟩, ⟨Hts1_11, Htr1_11, Hts2_11, Htr2_11⟩, ⟨Hts1_12, Htr1_12, Hts2_12, Htr2_12⟩, ⟨Hts1_13, Htr1_13, Hts2_13, Htr2_13⟩, ⟨Hts1_14, Htr1_14, Hts2_14, Htr2_14⟩, ⟨Hts1_15, Htr1_15, Hts2_15, Htr2_15⟩⟩
  ihave Hsos := (Entails.of_eq (bigSep_fin16 fun j : Fin 16 => (semVal ((c : Thread nD τ), .dma (oS j)) 0 : sProp 𝕄))) $$ Hsos
  icases Hsos with ⟨Hso0, Hso1, Hso2, Hso3, Hso4, Hso5, Hso6, Hso7, Hso8, Hso9, Hso10, Hso11, Hso12, Hso13, Hso14, Hso15⟩
  ihave Hcrs := (Entails.of_eq (bigSep_fin16 fun j : Fin 16 => (iprop(cred (tallyAt (r1Cell j c) () Ncr) ∗ cred (tallyAt (r2Cell j c) () Ncr)) : sProp 𝕄))) $$ Hcrs
  icases Hcrs with ⟨⟨Hcr1_0, Hcr2_0⟩, ⟨Hcr1_1, Hcr2_1⟩, ⟨Hcr1_2, Hcr2_2⟩, ⟨Hcr1_3, Hcr2_3⟩, ⟨Hcr1_4, Hcr2_4⟩, ⟨Hcr1_5, Hcr2_5⟩, ⟨Hcr1_6, Hcr2_6⟩, ⟨Hcr1_7, Hcr2_7⟩, ⟨Hcr1_8, Hcr2_8⟩, ⟨Hcr1_9, Hcr2_9⟩, ⟨Hcr1_10, Hcr2_10⟩, ⟨Hcr1_11, Hcr2_11⟩, ⟨Hcr1_12, Hcr2_12⟩, ⟨Hcr1_13, Hcr2_13⟩, ⟨Hcr1_14, Hcr2_14⟩, ⟨Hcr1_15, Hcr2_15⟩⟩
  -- the positions: the barrier cell's, then kind by kind
  unfold positions
  ihave Hpos := (Entails.of_eq ((bigSep_option' fun x : CIx => (atPos ER (kcell (c, x)) 0 ∅ 0 : sProp 𝕄)).trans
      (congrArg _ (bigSep_univ_prod fun kj : Fin 4 × Fin 16 => (atPos ER (kcell (c, some kj)) 0 ∅ 0 : sProp 𝕄))))) $$ Hpos
  icases Hpos with ⟨HpB, Hpos⟩
  ihave Hpos := (Entails.of_eq (bigSep_fin4' fun k : Fin 4 => bigSep Finset.univ fun j : Fin 16 => (atPos ER (kcell (c, some (k, j))) 0 ∅ 0 : sProp 𝕄))) $$ Hpos
  icases Hpos with ⟨Hp0, Hp1, Hp2, Hp3⟩
  ihave Hp0 := (Entails.of_eq (bigSep_fin16 fun j : Fin 16 => (atPos ER (s1Cell j c) 0 ∅ 0 : sProp 𝕄))) $$ Hp0
  icases Hp0 with ⟨Hps1_0, Hps1_1, Hps1_2, Hps1_3, Hps1_4, Hps1_5, Hps1_6, Hps1_7, Hps1_8, Hps1_9, Hps1_10, Hps1_11, Hps1_12, Hps1_13, Hps1_14, Hps1_15⟩
  ihave Hp1 := (Entails.of_eq (bigSep_fin16 fun j : Fin 16 => (atPos ER (r1Cell j c) 0 ∅ 0 : sProp 𝕄))) $$ Hp1
  icases Hp1 with ⟨Hpr1_0, Hpr1_1, Hpr1_2, Hpr1_3, Hpr1_4, Hpr1_5, Hpr1_6, Hpr1_7, Hpr1_8, Hpr1_9, Hpr1_10, Hpr1_11, Hpr1_12, Hpr1_13, Hpr1_14, Hpr1_15⟩
  ihave Hp2 := (Entails.of_eq (bigSep_fin16 fun j : Fin 16 => (atPos ER (s2Cell j c) 0 ∅ 0 : sProp 𝕄))) $$ Hp2
  icases Hp2 with ⟨Hps2_0, Hps2_1, Hps2_2, Hps2_3, Hps2_4, Hps2_5, Hps2_6, Hps2_7, Hps2_8, Hps2_9, Hps2_10, Hps2_11, Hps2_12, Hps2_13, Hps2_14, Hps2_15⟩
  ihave Hp3 := (Entails.of_eq (bigSep_fin16 fun j : Fin 16 => (atPos ER (r2Cell j c) 0 ∅ 0 : sProp 𝕄))) $$ Hp3
  icases Hp3 with ⟨Hpr2_0, Hpr2_1, Hpr2_2, Hpr2_3, Hpr2_4, Hpr2_5, Hpr2_6, Hpr2_7, Hpr2_8, Hpr2_9, Hpr2_10, Hpr2_11, Hpr2_12, Hpr2_13, Hpr2_14, Hpr2_15⟩
  -- the buffers, cut: the double buffer in two, the send and sum buffers in sixteen, the result array in the partner's rows
  -- and sixteen blocks of the device's own
  ihave Hbv := (Entails.of_eq (split2 (F := F) c f1)) $$ Hbv
  icases Hbv with ⟨Hbv0, Hbv1⟩
  ihave Hps := (Entails.of_eq ((split16 (F := F) psM (Memref.isWhole_whole _) c fullShare f2).trans (bigSep_fin16 _))) $$ Hps
  icases Hps with ⟨Hps0, Hps1, Hps2, Hps3, Hps4, Hps5, Hps6, Hps7, Hps8, Hps9, Hps10, Hps11, Hps12, Hps13, Hps14, Hps15⟩
  ihave Hcv := (Entails.of_eq ((split16 (F := F) cvM (Memref.isWhole_whole _) c fullShare f4).trans (bigSep_fin16 _))) $$ Hcv
  icases Hcv with ⟨Hcv0, Hcv1, Hcv2, Hcv3, Hcv4, Hcv5, Hcv6, Hcv7, Hcv8, Hcv9, Hcv10, Hcv11, Hcv12, Hcv13, Hcv14, Hcv15⟩
  ihave HOut := (Entails.of_eq (splitOut (F := F) c c fo)) $$ HOut
  icases HOut with ⟨HOutC, HOutY⟩
  ihave HOutC := (Entails.of_eq ((splitRows (F := F) c c fo).trans (bigSep_fin16 _))) $$ HOutC
  icases HOutC with ⟨Hout0, Hout1, Hout2, Hout3, Hout4, Hout5, Hout6, Hout7, Hout8, Hout9, Hout10, Hout11, Hout12, Hout13, Hout14, Hout15⟩

  -- what lets a local wait pass while landings are owed: the local semaphores lie below every landing cell
  have hledger : ∀ (q : DmaSem sig) (n₁ n₂ : ℕ), kindOf (.dma q : SemLoc sig) = .other →
      (levAts L lv : sProp 𝕄) ⊢ MayWait (c : Thread nD τ) (.dma q) () (owed c n₁ n₂) := fun q n₁ n₂ hq => mayWait_local c q hq n₁ n₂
  sl_exec_parts
  -- the signal across the contraction split: the whole receive buffer goes with it
  iapply (sigX_step m c _ (dev1_eq c _) (K (xn c, none)) _ (by decide) (owed c 0 0 + tallyAt (barCell (yn c)) () 1) W f3) $$ [HO HtBX Hpr]
  · isplitr; · iapply (inv_at m K (xn c, none)); iexact HI
    isplitl [HO]; · unfold O₀; iexact HO
    isplitl [HtBX]; · iexact HtBX
    isplitl [Hpr]; · iexact Hpr
    iapply (reached_at (F := F) (xn c, none)); iexact HR
  iintro HO
  sl_exec_parts
  -- the signal across the row split: the partner's rows of the result array go with it
  iapply (sigY_step m c _ (dev2_eq c _) (K (yn c, none)) _ (by decide) (owed c 0 0) W fo) $$ [HO HtBY HOutY]
  · isplitr; · iapply (inv_at m K (yn c, none)); iexact HI
    isplitl [HO]; · iexact HO
    isplitl [HtBY]; · iexact HtBY
    isplitl [HOutY]; · iexact HOutY
    iapply (reached_at (F := F) (yn c, none)); iexact HR
  iintro HO
  sl_exec_parts
  -- the wait for both partners
  iapply (bar_wait m c (K (c, none)) _ (by decide) W) $$ [HcB HO HpB]
  · isplitr; · iapply (inv_at m K (c, none)); iexact HI
    isplitl [HcB]; · iexact HcB
    isplitl [HO]; · iexact HO
    isplitr; · iexact Hlev
    iexact HpB
  iintro ⟨HO, HX, HY⟩
  unfold barPayX barPayY
  icases HX with ⟨%fx, HprX⟩
  icases HY with ⟨%fy, HoutYn⟩
  ihave HprX := (Entails.of_eq ((split16 (F := F) prM (Memref.isWhole_whole _) (xn c) fullShare fx).trans (bigSep_fin16 _))) $$ HprX
  icases HprX with ⟨HprX0, HprX1, HprX2, HprX3, HprX4, HprX5, HprX6, HprX7, HprX8, HprX9, HprX10, HprX11, HprX12, HprX13, HprX14, HprX15⟩
  ihave HoutYn := (Entails.of_eq ((splitRows (F := F) (yn c) c fy).trans (bigSep_fin16 _))) $$ HoutYn
  icases HoutYn with ⟨HoutYn0, HoutYn1, HoutYn2, HoutYn3, HoutYn4, HoutYn5, HoutYn6, HoutYn7, HoutYn8, HoutYn9, HoutYn10, HoutYn11, HoutYn12, HoutYn13, HoutYn14, HoutYn15⟩
  -- the device's own blocks of the result array, spelt as the program spells them
  ihave Hout0 := (Entails.of_eq (outPts_printed (F := F) c c 0 (off_eq_2 c) (k0_off2_inb c) fo).symm) $$ Hout0
  ihave Hout1 := (Entails.of_eq (outPts_printed (F := F) c c 1 (off_eq_3 c) (k0_off3_inb c) fo).symm) $$ Hout1
  ihave Hout2 := (Entails.of_eq (outPts_printed (F := F) c c 2 (off_eq_4 c) (k0_off4_inb c) fo).symm) $$ Hout2
  ihave Hout3 := (Entails.of_eq (outPts_printed (F := F) c c 3 (off_eq_5 c) (k0_off5_inb c) fo).symm) $$ Hout3
  ihave Hout4 := (Entails.of_eq (outPts_printed (F := F) c c 4 (off_eq_6 c) (k0_off6_inb c) fo).symm) $$ Hout4
  ihave Hout5 := (Entails.of_eq (outPts_printed (F := F) c c 5 (off_eq_7 c) (k0_off7_inb c) fo).symm) $$ Hout5
  ihave Hout6 := (Entails.of_eq (outPts_printed (F := F) c c 6 (off_eq_8 c) (k0_off8_inb c) fo).symm) $$ Hout6
  ihave Hout7 := (Entails.of_eq (outPts_printed (F := F) c c 7 (off_eq_9 c) (k0_off9_inb c) fo).symm) $$ Hout7
  ihave Hout8 := (Entails.of_eq (outPts_printed (F := F) c c 8 (off_eq_10 c) (k0_off10_inb c) fo).symm) $$ Hout8
  ihave Hout9 := (Entails.of_eq (outPts_printed (F := F) c c 9 (off_eq_11 c) (k0_off11_inb c) fo).symm) $$ Hout9
  ihave Hout10 := (Entails.of_eq (outPts_printed (F := F) c c 10 (off_eq_12 c) (k0_off12_inb c) fo).symm) $$ Hout10
  ihave Hout11 := (Entails.of_eq (outPts_printed (F := F) c c 11 (off_eq_13 c) (k0_off13_inb c) fo).symm) $$ Hout11
  ihave Hout12 := (Entails.of_eq (outPts_printed (F := F) c c 12 (off_eq_14 c) (k0_off14_inb c) fo).symm) $$ Hout12
  ihave Hout13 := (Entails.of_eq (outPts_printed (F := F) c c 13 (off_eq_15 c) (k0_off15_inb c) fo).symm) $$ Hout13
  ihave Hout14 := (Entails.of_eq (outPts_printed (F := F) c c 14 (off_eq_16 c) (k0_off16_inb c) fo).symm) $$ Hout14
  ihave Hout15 := (Entails.of_eq (outPts_printed (F := F) c c 15 (off_eq_17 c) (k0_off17_inb c) fo).symm) $$ Hout15
  -- chunk 0: the left rows and the first right chunk land, the product is stored
  sl_exec_parts

  -- chunk 0: the stored slot is the send buffer's contents there; its lent share goes out with the product, the kept share
  -- stays for the read before the sum
  ihave Hps0 := (Entails.of_eq (pointsTo_congr (ps_run m c 0 0 f0 f2 _ _))) $$ Hps0
  ihave Hps0 := (slot_shares (F := F) psM c 0 (psFull m c)).1 $$ Hps0
  icases Hps0 with ⟨Hps0L, Hps0K⟩
  rw [owed_succ1 c 0 (by decide) _]
  iapply (send1_step m c _ (dev3_eq c _) 0 (K (c, some (0, 0))) (K (xn c, some (1, 0))) (psFull m c) (fun _ _ => rfl) fx _ _) $$ [Hps0L HprX0 HO Hts1_0 Htr1_0]
  · isplitr; · iapply (inv_at m K (c, some (0, 0))); iexact HI
    isplitr; · iapply (inv_at m K (xn c, some (1, 0))); iexact HI
    isplitl [Hps0L]; · iexact Hps0L
    isplitl [HprX0]; · iexact HprX0
    isplitl [HO]; · iexact HO
    isplitl [Hts1_0]; · iexact Hts1_0
    isplitr; · iapply (reached_at (F := F) (c, some (0, 0))); iexact HR
    isplitl [Htr1_0]; · iexact Htr1_0
    iapply (reached_at (F := F) (xn c, some (1, 0))); iexact HR
  iintro ⟨Hcs1_0, HO⟩
  sl_exec_parts

  -- chunk 1: the stored slot is the send buffer's contents there; its lent share goes out with the product, the kept share
  -- stays for the read before the sum
  ihave Hps1 := (Entails.of_eq (pointsTo_congr (ps_run m c 1 1 f0 f2 _ _))) $$ Hps1
  ihave Hps1 := (slot_shares (F := F) psM c 1 (psFull m c)).1 $$ Hps1
  icases Hps1 with ⟨Hps1L, Hps1K⟩
  rw [owed_succ1 c 1 (by decide) _]
  iapply (send1_step m c _ (dev4_eq c _) 1 (K (c, some (0, 1))) (K (xn c, some (1, 1))) (psFull m c) (fun _ _ => rfl) fx _ _) $$ [Hps1L HprX1 HO Hts1_1 Htr1_1]
  · isplitr; · iapply (inv_at m K (c, some (0, 1))); iexact HI
    isplitr; · iapply (inv_at m K (xn c, some (1, 1))); iexact HI
    isplitl [Hps1L]; · iexact Hps1L
    isplitl [HprX1]; · iexact HprX1
    isplitl [HO]; · iexact HO
    isplitl [Hts1_1]; · iexact Hts1_1
    isplitr; · iapply (reached_at (F := F) (c, some (0, 1))); iexact HR
    isplitl [Htr1_1]; · iexact Htr1_1
    iapply (reached_at (F := F) (xn c, some (1, 1))); iexact HR
  iintro ⟨Hcs1_1, HO⟩
  sl_exec_parts

  -- the partner's partial product of chunk 0 has landed: the receive slot comes with the wait, and the cell is closed

  iapply (dmaWait_step m c _ (K (c, some (1, 0))) (r1Pay m 0 c) (expect_r1 m c 0) (rest_r1 m c 0) (slotM prM 0) rfl (owed c 2 0) _) $$ [Hcr1_0 HO Hpr1_0]
  · isplitr; · iapply (inv_at m K (c, some (1, 0))); iexact HI
    isplitl [Hcr1_0]; · iexact Hcr1_0
    isplitl [HO]; · iexact HO
    isplitr
    · iapply (mayWait_owed c (.dma (r1S 0)) 2 0 (fun k hk => by have := k.isLt; rw [lv_r1]; omega) (fun k hk => by have := k.isLt; rw [lv_r1]; omega)); iexact Hlev
    iexact Hpr1_0
  iintro ⟨HO, Hzr1_0, Hpr0⟩
  unfold r1Pay

  -- the local copy of the sum into the result array waits until the sum slot is cut: its counter is set aside
  ihave Hso0 := (Entails.of_eq (aside_eq _).symm) $$ Hso0
  sl_exec_parts
  -- the stored sum slot is the sum buffer's contents there; the kept share feeds the local copy, the lent share the send
  ihave Hcv0 := (Entails.of_eq (pointsTo_congr (cv_run m c 0 f4 (psFull m c) (fun _ _ => rfl) (prFull m c) (fun _ _ => rfl)))) $$ Hcv0
  ihave Hcv0 := (slot_shares (F := F) cvM c 0 (cvFull m c)).1 $$ Hcv0
  icases Hcv0 with ⟨Hcv0L, Hcv0K⟩
  ihave Hcv0L := (Entails.of_eq (aside_eq _).symm) $$ Hcv0L
  ihave Hso0 := (Entails.of_eq (aside_eq _)) $$ Hso0
  sl_exec_parts
  ihave Hcv0L := (Entails.of_eq (aside_eq _)) $$ Hcv0L
  rw [owed_succ2 c _ 0 (by decide)]
  iapply (send2_step m c _ (dev5_eq c _) 0 (K (c, some (2, 0))) (K (yn c, some (3, 0))) (off_eq_2 c) (k0_off2_inb c) (cvFull m c) (fun _ _ => rfl) fy _ _) $$ [Hcv0L HoutYn0 HO Hts2_0 Htr2_0]
  · isplitr; · iapply (inv_at m K (c, some (2, 0))); iexact HI
    isplitr; · iapply (inv_at m K (yn c, some (3, 0))); iexact HI
    isplitl [Hcv0L]; · iexact Hcv0L
    isplitl [HoutYn0]; · iexact HoutYn0
    isplitl [HO]; · iexact HO
    isplitl [Hts2_0]; · iexact Hts2_0
    isplitr; · iapply (reached_at (F := F) (c, some (2, 0))); iexact HR
    isplitl [Htr2_0]; · iexact Htr2_0
    iapply (reached_at (F := F) (yn c, some (3, 0))); iexact HR
  iintro ⟨Hcs2_0, HO⟩
  sl_exec_parts

  -- chunk 2: the stored slot is the send buffer's contents there; its lent share goes out with the product, the kept share
  -- stays for the read before the sum
  ihave Hps2 := (Entails.of_eq (pointsTo_congr (ps_run m c 2 0 f0 f2 _ _))) $$ Hps2
  ihave Hps2 := (slot_shares (F := F) psM c 2 (psFull m c)).1 $$ Hps2
  icases Hps2 with ⟨Hps2L, Hps2K⟩
  rw [owed_succ1 c 2 (by decide) _]
  iapply (send1_step m c _ (dev6_eq c _) 2 (K (c, some (0, 2))) (K (xn c, some (1, 2))) (psFull m c) (fun _ _ => rfl) fx _ _) $$ [Hps2L HprX2 HO Hts1_2 Htr1_2]
  · isplitr; · iapply (inv_at m K (c, some (0, 2))); iexact HI
    isplitr; · iapply (inv_at m K (xn c, some (1, 2))); iexact HI
    isplitl [Hps2L]; · iexact Hps2L
    isplitl [HprX2]; · iexact HprX2
    isplitl [HO]; · iexact HO
    isplitl [Hts1_2]; · iexact Hts1_2
    isplitr; · iapply (reached_at (F := F) (c, some (0, 2))); iexact HR
    isplitl [Htr1_2]; · iexact Htr1_2
    iapply (reached_at (F := F) (xn c, some (1, 2))); iexact HR
  iintro ⟨Hcs1_2, HO⟩
  sl_exec_parts

  -- the partner's partial product of chunk 1 has landed: the receive slot comes with the wait, and the cell is closed

  iapply (dmaWait_step m c _ (K (c, some (1, 1))) (r1Pay m 1 c) (expect_r1 m c 1) (rest_r1 m c 1) (slotM prM 1) rfl (owed c 3 1) _) $$ [Hcr1_1 HO Hpr1_1]
  · isplitr; · iapply (inv_at m K (c, some (1, 1))); iexact HI
    isplitl [Hcr1_1]; · iexact Hcr1_1
    isplitl [HO]; · iexact HO
    isplitr
    · iapply (mayWait_owed c (.dma (r1S 1)) 3 1 (fun k hk => by have := k.isLt; rw [lv_r1]; omega) (fun k hk => by have := k.isLt; rw [lv_r1]; omega)); iexact Hlev
    iexact Hpr1_1
  iintro ⟨HO, Hzr1_1, Hpr1⟩
  unfold r1Pay

  -- the local copy of the sum into the result array waits until the sum slot is cut: its counter is set aside
  ihave Hso1 := (Entails.of_eq (aside_eq _).symm) $$ Hso1
  sl_exec_parts
  -- the stored sum slot is the sum buffer's contents there; the kept share feeds the local copy, the lent share the send
  ihave Hcv1 := (Entails.of_eq (pointsTo_congr (cv_run m c 1 f4 (psFull m c) (fun _ _ => rfl) (prFull m c) (fun _ _ => rfl)))) $$ Hcv1
  ihave Hcv1 := (slot_shares (F := F) cvM c 1 (cvFull m c)).1 $$ Hcv1
  icases Hcv1 with ⟨Hcv1L, Hcv1K⟩
  ihave Hcv1L := (Entails.of_eq (aside_eq _).symm) $$ Hcv1L
  ihave Hso1 := (Entails.of_eq (aside_eq _)) $$ Hso1
  sl_exec_parts
  ihave Hcv1L := (Entails.of_eq (aside_eq _)) $$ Hcv1L
  rw [owed_succ2 c _ 1 (by decide)]
  iapply (send2_step m c _ (dev7_eq c _) 1 (K (c, some (2, 1))) (K (yn c, some (3, 1))) (off_eq_3 c) (k0_off3_inb c) (cvFull m c) (fun _ _ => rfl) fy _ _) $$ [Hcv1L HoutYn1 HO Hts2_1 Htr2_1]
  · isplitr; · iapply (inv_at m K (c, some (2, 1))); iexact HI
    isplitr; · iapply (inv_at m K (yn c, some (3, 1))); iexact HI
    isplitl [Hcv1L]; · iexact Hcv1L
    isplitl [HoutYn1]; · iexact HoutYn1
    isplitl [HO]; · iexact HO
    isplitl [Hts2_1]; · iexact Hts2_1
    isplitr; · iapply (reached_at (F := F) (c, some (2, 1))); iexact HR
    isplitl [Htr2_1]; · iexact Htr2_1
    iapply (reached_at (F := F) (yn c, some (3, 1))); iexact HR
  iintro ⟨Hcs2_1, HO⟩
  sl_exec_parts

  -- chunk 3: the stored slot is the send buffer's contents there; its lent share goes out with the product, the kept share
  -- stays for the read before the sum
  ihave Hps3 := (Entails.of_eq (pointsTo_congr (ps_run m c 3 1 f0 f2 _ _))) $$ Hps3
  ihave Hps3 := (slot_shares (F := F) psM c 3 (psFull m c)).1 $$ Hps3
  icases Hps3 with ⟨Hps3L, Hps3K⟩
  rw [owed_succ1 c 3 (by decide) _]
  iapply (send1_step m c _ (dev8_eq c _) 3 (K (c, some (0, 3))) (K (xn c, some (1, 3))) (psFull m c) (fun _ _ => rfl) fx _ _) $$ [Hps3L HprX3 HO Hts1_3 Htr1_3]
  · isplitr; · iapply (inv_at m K (c, some (0, 3))); iexact HI
    isplitr; · iapply (inv_at m K (xn c, some (1, 3))); iexact HI
    isplitl [Hps3L]; · iexact Hps3L
    isplitl [HprX3]; · iexact HprX3
    isplitl [HO]; · iexact HO
    isplitl [Hts1_3]; · iexact Hts1_3
    isplitr; · iapply (reached_at (F := F) (c, some (0, 3))); iexact HR
    isplitl [Htr1_3]; · iexact Htr1_3
    iapply (reached_at (F := F) (xn c, some (1, 3))); iexact HR
  iintro ⟨Hcs1_3, HO⟩
  sl_exec_parts

  -- the partner's partial product of chunk 2 has landed: the receive slot comes with the wait, and the cell is closed

  iapply (dmaWait_step m c _ (K (c, some (1, 2))) (r1Pay m 2 c) (expect_r1 m c 2) (rest_r1 m c 2) (slotM prM 2) rfl (owed c 4 2) _) $$ [Hcr1_2 HO Hpr1_2]
  · isplitr; · iapply (inv_at m K (c, some (1, 2))); iexact HI
    isplitl [Hcr1_2]; · iexact Hcr1_2
    isplitl [HO]; · iexact HO
    isplitr
    · iapply (mayWait_owed c (.dma (r1S 2)) 4 2 (fun k hk => by have := k.isLt; rw [lv_r1]; omega) (fun k hk => by have := k.isLt; rw [lv_r1]; omega)); iexact Hlev
    iexact Hpr1_2
  iintro ⟨HO, Hzr1_2, Hpr2⟩
  unfold r1Pay

  -- the local copy of the sum into the result array waits until the sum slot is cut: its counter is set aside
  ihave Hso2 := (Entails.of_eq (aside_eq _).symm) $$ Hso2
  sl_exec_parts
  -- the stored sum slot is the sum buffer's contents there; the kept share feeds the local copy, the lent share the send
  ihave Hcv2 := (Entails.of_eq (pointsTo_congr (cv_run m c 2 f4 (psFull m c) (fun _ _ => rfl) (prFull m c) (fun _ _ => rfl)))) $$ Hcv2
  ihave Hcv2 := (slot_shares (F := F) cvM c 2 (cvFull m c)).1 $$ Hcv2
  icases Hcv2 with ⟨Hcv2L, Hcv2K⟩
  ihave Hcv2L := (Entails.of_eq (aside_eq _).symm) $$ Hcv2L
  ihave Hso2 := (Entails.of_eq (aside_eq _)) $$ Hso2
  sl_exec_parts
  ihave Hcv2L := (Entails.of_eq (aside_eq _)) $$ Hcv2L
  rw [owed_succ2 c _ 2 (by decide)]
  iapply (send2_step m c _ (dev9_eq c _) 2 (K (c, some (2, 2))) (K (yn c, some (3, 2))) (off_eq_4 c) (k0_off4_inb c) (cvFull m c) (fun _ _ => rfl) fy _ _) $$ [Hcv2L HoutYn2 HO Hts2_2 Htr2_2]
  · isplitr; · iapply (inv_at m K (c, some (2, 2))); iexact HI
    isplitr; · iapply (inv_at m K (yn c, some (3, 2))); iexact HI
    isplitl [Hcv2L]; · iexact Hcv2L
    isplitl [HoutYn2]; · iexact HoutYn2
    isplitl [HO]; · iexact HO
    isplitl [Hts2_2]; · iexact Hts2_2
    isplitr; · iapply (reached_at (F := F) (c, some (2, 2))); iexact HR
    isplitl [Htr2_2]; · iexact Htr2_2
    iapply (reached_at (F := F) (yn c, some (3, 2))); iexact HR
  iintro ⟨Hcs2_2, HO⟩
  sl_exec_parts

  -- chunk 4: the stored slot is the send buffer's contents there; its lent share goes out with the product, the kept share
  -- stays for the read before the sum
  ihave Hps4 := (Entails.of_eq (pointsTo_congr (ps_run m c 4 0 f0 f2 _ _))) $$ Hps4
  ihave Hps4 := (slot_shares (F := F) psM c 4 (psFull m c)).1 $$ Hps4
  icases Hps4 with ⟨Hps4L, Hps4K⟩
  rw [owed_succ1 c 4 (by decide) _]
  iapply (send1_step m c _ (dev10_eq c _) 4 (K (c, some (0, 4))) (K (xn c, some (1, 4))) (psFull m c) (fun _ _ => rfl) fx _ _) $$ [Hps4L HprX4 HO Hts1_4 Htr1_4]
  · isplitr; · iapply (inv_at m K (c, some (0, 4))); iexact HI
    isplitr; · iapply (inv_at m K (xn c, some (1, 4))); iexact HI
    isplitl [Hps4L]; · iexact Hps4L
    isplitl [HprX4]; · iexact HprX4
    isplitl [HO]; · iexact HO
    isplitl [Hts1_4]; · iexact Hts1_4
    isplitr; · iapply (reached_at (F := F) (c, some (0, 4))); iexact HR
    isplitl [Htr1_4]; · iexact Htr1_4
    iapply (reached_at (F := F) (xn c, some (1, 4))); iexact HR
  iintro ⟨Hcs1_4, HO⟩
  sl_exec_parts

  -- the partner's partial product of chunk 3 has landed: the receive slot comes with the wait, and the cell is closed

  iapply (dmaWait_step m c _ (K (c, some (1, 3))) (r1Pay m 3 c) (expect_r1 m c 3) (rest_r1 m c 3) (slotM prM 3) rfl (owed c 5 3) _) $$ [Hcr1_3 HO Hpr1_3]
  · isplitr; · iapply (inv_at m K (c, some (1, 3))); iexact HI
    isplitl [Hcr1_3]; · iexact Hcr1_3
    isplitl [HO]; · iexact HO
    isplitr
    · iapply (mayWait_owed c (.dma (r1S 3)) 5 3 (fun k hk => by have := k.isLt; rw [lv_r1]; omega) (fun k hk => by have := k.isLt; rw [lv_r1]; omega)); iexact Hlev
    iexact Hpr1_3
  iintro ⟨HO, Hzr1_3, Hpr3⟩
  unfold r1Pay

  -- the local copy of the sum into the result array waits until the sum slot is cut: its counter is set aside
  ihave Hso3 := (Entails.of_eq (aside_eq _).symm) $$ Hso3
  sl_exec_parts
  -- the stored sum slot is the sum buffer's contents there; the kept share feeds the local copy, the lent share the send
  ihave Hcv3 := (Entails.of_eq (pointsTo_congr (cv_run m c 3 f4 (psFull m c) (fun _ _ => rfl) (prFull m c) (fun _ _ => rfl)))) $$ Hcv3
  ihave Hcv3 := (slot_shares (F := F) cvM c 3 (cvFull m c)).1 $$ Hcv3
  icases Hcv3 with ⟨Hcv3L, Hcv3K⟩
  ihave Hcv3L := (Entails.of_eq (aside_eq _).symm) $$ Hcv3L
  ihave Hso3 := (Entails.of_eq (aside_eq _)) $$ Hso3
  sl_exec_parts
  ihave Hcv3L := (Entails.of_eq (aside_eq _)) $$ Hcv3L
  rw [owed_succ2 c _ 3 (by decide)]
  iapply (send2_step m c _ (dev11_eq c _) 3 (K (c, some (2, 3))) (K (yn c, some (3, 3))) (off_eq_5 c) (k0_off5_inb c) (cvFull m c) (fun _ _ => rfl) fy _ _) $$ [Hcv3L HoutYn3 HO Hts2_3 Htr2_3]
  · isplitr; · iapply (inv_at m K (c, some (2, 3))); iexact HI
    isplitr; · iapply (inv_at m K (yn c, some (3, 3))); iexact HI
    isplitl [Hcv3L]; · iexact Hcv3L
    isplitl [HoutYn3]; · iexact HoutYn3
    isplitl [HO]; · iexact HO
    isplitl [Hts2_3]; · iexact Hts2_3
    isplitr; · iapply (reached_at (F := F) (c, some (2, 3))); iexact HR
    isplitl [Htr2_3]; · iexact Htr2_3
    iapply (reached_at (F := F) (yn c, some (3, 3))); iexact HR
  iintro ⟨Hcs2_3, HO⟩
  sl_exec_parts

  -- chunk 5: the stored slot is the send buffer's contents there; its lent share goes out with the product, the kept share
  -- stays for the read before the sum
  ihave Hps5 := (Entails.of_eq (pointsTo_congr (ps_run m c 5 1 f0 f2 _ _))) $$ Hps5
  ihave Hps5 := (slot_shares (F := F) psM c 5 (psFull m c)).1 $$ Hps5
  icases Hps5 with ⟨Hps5L, Hps5K⟩
  rw [owed_succ1 c 5 (by decide) _]
  iapply (send1_step m c _ (dev12_eq c _) 5 (K (c, some (0, 5))) (K (xn c, some (1, 5))) (psFull m c) (fun _ _ => rfl) fx _ _) $$ [Hps5L HprX5 HO Hts1_5 Htr1_5]
  · isplitr; · iapply (inv_at m K (c, some (0, 5))); iexact HI
    isplitr; · iapply (inv_at m K (xn c, some (1, 5))); iexact HI
    isplitl [Hps5L]; · iexact Hps5L
    isplitl [HprX5]; · iexact HprX5
    isplitl [HO]; · iexact HO
    isplitl [Hts1_5]; · iexact Hts1_5
    isplitr; · iapply (reached_at (F := F) (c, some (0, 5))); iexact HR
    isplitl [Htr1_5]; · iexact Htr1_5
    iapply (reached_at (F := F) (xn c, some (1, 5))); iexact HR
  iintro ⟨Hcs1_5, HO⟩
  sl_exec_parts

  -- the partner's partial product of chunk 4 has landed: the receive slot comes with the wait, and the cell is closed

  iapply (dmaWait_step m c _ (K (c, some (1, 4))) (r1Pay m 4 c) (expect_r1 m c 4) (rest_r1 m c 4) (slotM prM 4) rfl (owed c 6 4) _) $$ [Hcr1_4 HO Hpr1_4]
  · isplitr; · iapply (inv_at m K (c, some (1, 4))); iexact HI
    isplitl [Hcr1_4]; · iexact Hcr1_4
    isplitl [HO]; · iexact HO
    isplitr
    · iapply (mayWait_owed c (.dma (r1S 4)) 6 4 (fun k hk => by have := k.isLt; rw [lv_r1]; omega) (fun k hk => by have := k.isLt; rw [lv_r1]; omega)); iexact Hlev
    iexact Hpr1_4
  iintro ⟨HO, Hzr1_4, Hpr4⟩
  unfold r1Pay

  -- the local copy of the sum into the result array waits until the sum slot is cut: its counter is set aside
  ihave Hso4 := (Entails.of_eq (aside_eq _).symm) $$ Hso4
  sl_exec_parts
  -- the stored sum slot is the sum buffer's contents there; the kept share feeds the local copy, the lent share the send
  ihave Hcv4 := (Entails.of_eq (pointsTo_congr (cv_run m c 4 f4 (psFull m c) (fun _ _ => rfl) (prFull m c) (fun _ _ => rfl)))) $$ Hcv4
  ihave Hcv4 := (slot_shares (F := F) cvM c 4 (cvFull m c)).1 $$ Hcv4
  icases Hcv4 with ⟨Hcv4L, Hcv4K⟩
  ihave Hcv4L := (Entails.of_eq (aside_eq _).symm) $$ Hcv4L
  ihave Hso4 := (Entails.of_eq (aside_eq _)) $$ Hso4
  sl_exec_parts
  ihave Hcv4L := (Entails.of_eq (aside_eq _)) $$ Hcv4L
  rw [owed_succ2 c _ 4 (by decide)]
  iapply (send2_step m c _ (dev13_eq c _) 4 (K (c, some (2, 4))) (K (yn c, some (3, 4))) (off_eq_6 c) (k0_off6_inb c) (cvFull m c) (fun _ _ => rfl) fy _ _) $$ [Hcv4L HoutYn4 HO Hts2_4 Htr2_4]
  · isplitr; · iapply (inv_at m K (c, some (2, 4))); iexact HI
    isplitr; · iapply (inv_at m K (yn c, some (3, 4))); iexact HI
    isplitl [Hcv4L]; · iexact Hcv4L
    isplitl [HoutYn4]; · iexact HoutYn4
    isplitl [HO]; · iexact HO
    isplitl [Hts2_4]; · iexact Hts2_4
    isplitr; · iapply (reached_at (F := F) (c, some (2, 4))); iexact HR
    isplitl [Htr2_4]; · iexact Htr2_4
    iapply (reached_at (F := F) (yn c, some (3, 4))); iexact HR
  iintro ⟨Hcs2_4, HO⟩
  sl_exec_parts

  -- chunk 6: the stored slot is the send buffer's contents there; its lent share goes out with the product, the kept share
  -- stays for the read before the sum
  ihave Hps6 := (Entails.of_eq (pointsTo_congr (ps_run m c 6 0 f0 f2 _ _))) $$ Hps6
  ihave Hps6 := (slot_shares (F := F) psM c 6 (psFull m c)).1 $$ Hps6
  icases Hps6 with ⟨Hps6L, Hps6K⟩
  rw [owed_succ1 c 6 (by decide) _]
  iapply (send1_step m c _ (dev14_eq c _) 6 (K (c, some (0, 6))) (K (xn c, some (1, 6))) (psFull m c) (fun _ _ => rfl) fx _ _) $$ [Hps6L HprX6 HO Hts1_6 Htr1_6]
  · isplitr; · iapply (inv_at m K (c, some (0, 6))); iexact HI
    isplitr; · iapply (inv_at m K (xn c, some (1, 6))); iexact HI
    isplitl [Hps6L]; · iexact Hps6L
    isplitl [HprX6]; · iexact HprX6
    isplitl [HO]; · iexact HO
    isplitl [Hts1_6]; · iexact Hts1_6
    isplitr; · iapply (reached_at (F := F) (c, some (0, 6))); iexact HR
    isplitl [Htr1_6]; · iexact Htr1_6
    iapply (reached_at (F := F) (xn c, some (1, 6))); iexact HR
  iintro ⟨Hcs1_6, HO⟩
  sl_exec_parts

  -- the partner's partial product of chunk 5 has landed: the receive slot comes with the wait, and the cell is closed

  iapply (dmaWait_step m c _ (K (c, some (1, 5))) (r1Pay m 5 c) (expect_r1 m c 5) (rest_r1 m c 5) (slotM prM 5) rfl (owed c 7 5) _) $$ [Hcr1_5 HO Hpr1_5]
  · isplitr; · iapply (inv_at m K (c, some (1, 5))); iexact HI
    isplitl [Hcr1_5]; · iexact Hcr1_5
    isplitl [HO]; · iexact HO
    isplitr
    · iapply (mayWait_owed c (.dma (r1S 5)) 7 5 (fun k hk => by have := k.isLt; rw [lv_r1]; omega) (fun k hk => by have := k.isLt; rw [lv_r1]; omega)); iexact Hlev
    iexact Hpr1_5
  iintro ⟨HO, Hzr1_5, Hpr5⟩
  unfold r1Pay

  -- the local copy of the sum into the result array waits until the sum slot is cut: its counter is set aside
  ihave Hso5 := (Entails.of_eq (aside_eq _).symm) $$ Hso5
  sl_exec_parts
  -- the stored sum slot is the sum buffer's contents there; the kept share feeds the local copy, the lent share the send
  ihave Hcv5 := (Entails.of_eq (pointsTo_congr (cv_run m c 5 f4 (psFull m c) (fun _ _ => rfl) (prFull m c) (fun _ _ => rfl)))) $$ Hcv5
  ihave Hcv5 := (slot_shares (F := F) cvM c 5 (cvFull m c)).1 $$ Hcv5
  icases Hcv5 with ⟨Hcv5L, Hcv5K⟩
  ihave Hcv5L := (Entails.of_eq (aside_eq _).symm) $$ Hcv5L
  ihave Hso5 := (Entails.of_eq (aside_eq _)) $$ Hso5
  sl_exec_parts
  ihave Hcv5L := (Entails.of_eq (aside_eq _)) $$ Hcv5L
  rw [owed_succ2 c _ 5 (by decide)]
  iapply (send2_step m c _ (dev15_eq c _) 5 (K (c, some (2, 5))) (K (yn c, some (3, 5))) (off_eq_7 c) (k0_off7_inb c) (cvFull m c) (fun _ _ => rfl) fy _ _) $$ [Hcv5L HoutYn5 HO Hts2_5 Htr2_5]
  · isplitr; · iapply (inv_at m K (c, some (2, 5))); iexact HI
    isplitr; · iapply (inv_at m K (yn c, some (3, 5))); iexact HI
    isplitl [Hcv5L]; · iexact Hcv5L
    isplitl [HoutYn5]; · iexact HoutYn5
    isplitl [HO]; · iexact HO
    isplitl [Hts2_5]; · iexact Hts2_5
    isplitr; · iapply (reached_at (F := F) (c, some (2, 5))); iexact HR
    isplitl [Htr2_5]; · iexact Htr2_5
    iapply (reached_at (F := F) (yn c, some (3, 5))); iexact HR
  iintro ⟨Hcs2_5, HO⟩
  sl_exec_parts

  -- chunk 7: the stored slot is the send buffer's contents there; its lent share goes out with the product, the kept share
  -- stays for the read before the sum
  ihave Hps7 := (Entails.of_eq (pointsTo_congr (ps_run m c 7 1 f0 f2 _ _))) $$ Hps7
  ihave Hps7 := (slot_shares (F := F) psM c 7 (psFull m c)).1 $$ Hps7
  icases Hps7 with ⟨Hps7L, Hps7K⟩
  rw [owed_succ1 c 7 (by decide) _]
  iapply (send1_step m c _ (dev16_eq c _) 7 (K (c, some (0, 7))) (K (xn c, some (1, 7))) (psFull m c) (fun _ _ => rfl) fx _ _) $$ [Hps7L HprX7 HO Hts1_7 Htr1_7]
  · isplitr; · iapply (inv_at m K (c, some (0, 7))); iexact HI
    isplitr; · iapply (inv_at m K (xn c, some (1, 7))); iexact HI
    isplitl [Hps7L]; · iexact Hps7L
    isplitl [HprX7]; · iexact HprX7
    isplitl [HO]; · iexact HO
    isplitl [Hts1_7]; · iexact Hts1_7
    isplitr; · iapply (reached_at (F := F) (c, some (0, 7))); iexact HR
    isplitl [Htr1_7]; · iexact Htr1_7
    iapply (reached_at (F := F) (xn c, some (1, 7))); iexact HR
  iintro ⟨Hcs1_7, HO⟩
  sl_exec_parts

  -- the partner's partial product of chunk 6 has landed: the receive slot comes with the wait, and the cell is closed

  iapply (dmaWait_step m c _ (K (c, some (1, 6))) (r1Pay m 6 c) (expect_r1 m c 6) (rest_r1 m c 6) (slotM prM 6) rfl (owed c 8 6) _) $$ [Hcr1_6 HO Hpr1_6]
  · isplitr; · iapply (inv_at m K (c, some (1, 6))); iexact HI
    isplitl [Hcr1_6]; · iexact Hcr1_6
    isplitl [HO]; · iexact HO
    isplitr
    · iapply (mayWait_owed c (.dma (r1S 6)) 8 6 (fun k hk => by have := k.isLt; rw [lv_r1]; omega) (fun k hk => by have := k.isLt; rw [lv_r1]; omega)); iexact Hlev
    iexact Hpr1_6
  iintro ⟨HO, Hzr1_6, Hpr6⟩
  unfold r1Pay

  -- the local copy of the sum into the result array waits until the sum slot is cut: its counter is set aside
  ihave Hso6 := (Entails.of_eq (aside_eq _).symm) $$ Hso6
  sl_exec_parts
  -- the stored sum slot is the sum buffer's contents there; the kept share feeds the local copy, the lent share the send
  ihave Hcv6 := (Entails.of_eq (pointsTo_congr (cv_run m c 6 f4 (psFull m c) (fun _ _ => rfl) (prFull m c) (fun _ _ => rfl)))) $$ Hcv6
  ihave Hcv6 := (slot_shares (F := F) cvM c 6 (cvFull m c)).1 $$ Hcv6
  icases Hcv6 with ⟨Hcv6L, Hcv6K⟩
  ihave Hcv6L := (Entails.of_eq (aside_eq _).symm) $$ Hcv6L
  ihave Hso6 := (Entails.of_eq (aside_eq _)) $$ Hso6
  sl_exec_parts
  ihave Hcv6L := (Entails.of_eq (aside_eq _)) $$ Hcv6L
  rw [owed_succ2 c _ 6 (by decide)]
  iapply (send2_step m c _ (dev17_eq c _) 6 (K (c, some (2, 6))) (K (yn c, some (3, 6))) (off_eq_8 c) (k0_off8_inb c) (cvFull m c) (fun _ _ => rfl) fy _ _) $$ [Hcv6L HoutYn6 HO Hts2_6 Htr2_6]
  · isplitr; · iapply (inv_at m K (c, some (2, 6))); iexact HI
    isplitr; · iapply (inv_at m K (yn c, some (3, 6))); iexact HI
    isplitl [Hcv6L]; · iexact Hcv6L
    isplitl [HoutYn6]; · iexact HoutYn6
    isplitl [HO]; · iexact HO
    isplitl [Hts2_6]; · iexact Hts2_6
    isplitr; · iapply (reached_at (F := F) (c, some (2, 6))); iexact HR
    isplitl [Htr2_6]; · iexact Htr2_6
    iapply (reached_at (F := F) (yn c, some (3, 6))); iexact HR
  iintro ⟨Hcs2_6, HO⟩
  sl_exec_parts

  -- chunk 8: the stored slot is the send buffer's contents there; its lent share goes out with the product, the kept share
  -- stays for the read before the sum
  ihave Hps8 := (Entails.of_eq (pointsTo_congr (ps_run m c 8 0 f0 f2 _ _))) $$ Hps8
  ihave Hps8 := (slot_shares (F := F) psM c 8 (psFull m c)).1 $$ Hps8
  icases Hps8 with ⟨Hps8L, Hps8K⟩
  rw [owed_succ1 c 8 (by decide) _]
  iapply (send1_step m c _ (dev18_eq c _) 8 (K (c, some (0, 8))) (K (xn c, some (1, 8))) (psFull m c) (fun _ _ => rfl) fx _ _) $$ [Hps8L HprX8 HO Hts1_8 Htr1_8]
  · isplitr; · iapply (inv_at m K (c, some (0, 8))); iexact HI
    isplitr; · iapply (inv_at m K (xn c, some (1, 8))); iexact HI
    isplitl [Hps8L]; · iexact Hps8L
    isplitl [HprX8]; · iexact HprX8
    isplitl [HO]; · iexact HO
    isplitl [Hts1_8]; · iexact Hts1_8
    isplitr; · iapply (reached_at (F := F) (c, some (0, 8))); iexact HR
    isplitl [Htr1_8]; · iexact Htr1_8
    iapply (reached_at (F := F) (xn c, some (1, 8))); iexact HR
  iintro ⟨Hcs1_8, HO⟩
  sl_exec_parts

  -- the partner's partial product of chunk 7 has landed: the receive slot comes with the wait, and the cell is closed

  iapply (dmaWait_step m c _ (K (c, some (1, 7))) (r1Pay m 7 c) (expect_r1 m c 7) (rest_r1 m c 7) (slotM prM 7) rfl (owed c 9 7) _) $$ [Hcr1_7 HO Hpr1_7]
  · isplitr; · iapply (inv_at m K (c, some (1, 7))); iexact HI
    isplitl [Hcr1_7]; · iexact Hcr1_7
    isplitl [HO]; · iexact HO
    isplitr
    · iapply (mayWait_owed c (.dma (r1S 7)) 9 7 (fun k hk => by have := k.isLt; rw [lv_r1]; omega) (fun k hk => by have := k.isLt; rw [lv_r1]; omega)); iexact Hlev
    iexact Hpr1_7
  iintro ⟨HO, Hzr1_7, Hpr7⟩
  unfold r1Pay

  -- the local copy of the sum into the result array waits until the sum slot is cut: its counter is set aside
  ihave Hso7 := (Entails.of_eq (aside_eq _).symm) $$ Hso7
  sl_exec_parts
  -- the stored sum slot is the sum buffer's contents there; the kept share feeds the local copy, the lent share the send
  ihave Hcv7 := (Entails.of_eq (pointsTo_congr (cv_run m c 7 f4 (psFull m c) (fun _ _ => rfl) (prFull m c) (fun _ _ => rfl)))) $$ Hcv7
  ihave Hcv7 := (slot_shares (F := F) cvM c 7 (cvFull m c)).1 $$ Hcv7
  icases Hcv7 with ⟨Hcv7L, Hcv7K⟩
  ihave Hcv7L := (Entails.of_eq (aside_eq _).symm) $$ Hcv7L
  ihave Hso7 := (Entails.of_eq (aside_eq _)) $$ Hso7
  sl_exec_parts
  ihave Hcv7L := (Entails.of_eq (aside_eq _)) $$ Hcv7L
  rw [owed_succ2 c _ 7 (by decide)]
  iapply (send2_step m c _ (dev19_eq c _) 7 (K (c, some (2, 7))) (K (yn c, some (3, 7))) (off_eq_9 c) (k0_off9_inb c) (cvFull m c) (fun _ _ => rfl) fy _ _) $$ [Hcv7L HoutYn7 HO Hts2_7 Htr2_7]
  · isplitr; · iapply (inv_at m K (c, some (2, 7))); iexact HI
    isplitr; · iapply (inv_at m K (yn c, some (3, 7))); iexact HI
    isplitl [Hcv7L]; · iexact Hcv7L
    isplitl [HoutYn7]; · iexact HoutYn7
    isplitl [HO]; · iexact HO
    isplitl [Hts2_7]; · iexact Hts2_7
    isplitr; · iapply (reached_at (F := F) (c, some (2, 7))); iexact HR
    isplitl [Htr2_7]; · iexact Htr2_7
    iapply (reached_at (F := F) (yn c, some (3, 7))); iexact HR
  iintro ⟨Hcs2_7, HO⟩
  sl_exec_parts

  -- chunk 9: the stored slot is the send buffer's contents there; its lent share goes out with the product, the kept share
  -- stays for the read before the sum
  ihave Hps9 := (Entails.of_eq (pointsTo_congr (ps_run m c 9 1 f0 f2 _ _))) $$ Hps9
  ihave Hps9 := (slot_shares (F := F) psM c 9 (psFull m c)).1 $$ Hps9
  icases Hps9 with ⟨Hps9L, Hps9K⟩
  rw [owed_succ1 c 9 (by decide) _]
  iapply (send1_step m c _ (dev20_eq c _) 9 (K (c, some (0, 9))) (K (xn c, some (1, 9))) (psFull m c) (fun _ _ => rfl) fx _ _) $$ [Hps9L HprX9 HO Hts1_9 Htr1_9]
  · isplitr; · iapply (inv_at m K (c, some (0, 9))); iexact HI
    isplitr; · iapply (inv_at m K (xn c, some (1, 9))); iexact HI
    isplitl [Hps9L]; · iexact Hps9L
    isplitl [HprX9]; · iexact HprX9
    isplitl [HO]; · iexact HO
    isplitl [Hts1_9]; · iexact Hts1_9
    isplitr; · iapply (reached_at (F := F) (c, some (0, 9))); iexact HR
    isplitl [Htr1_9]; · iexact Htr1_9
    iapply (reached_at (F := F) (xn c, some (1, 9))); iexact HR
  iintro ⟨Hcs1_9, HO⟩
  sl_exec_parts

  -- the partner's partial product of chunk 8 has landed: the receive slot comes with the wait, and the cell is closed

  iapply (dmaWait_step m c _ (K (c, some (1, 8))) (r1Pay m 8 c) (expect_r1 m c 8) (rest_r1 m c 8) (slotM prM 8) rfl (owed c 10 8) _) $$ [Hcr1_8 HO Hpr1_8]
  · isplitr; · iapply (inv_at m K (c, some (1, 8))); iexact HI
    isplitl [Hcr1_8]; · iexact Hcr1_8
    isplitl [HO]; · iexact HO
    isplitr
    · iapply (mayWait_owed c (.dma (r1S 8)) 10 8 (fun k hk => by have := k.isLt; rw [lv_r1]; omega) (fun k hk => by have := k.isLt; rw [lv_r1]; omega)); iexact Hlev
    iexact Hpr1_8
  iintro ⟨HO, Hzr1_8, Hpr8⟩
  unfold r1Pay

  -- the local copy of the sum into the result array waits until the sum slot is cut: its counter is set aside
  ihave Hso8 := (Entails.of_eq (aside_eq _).symm) $$ Hso8
  sl_exec_parts
  -- the stored sum slot is the sum buffer's contents there; the kept share feeds the local copy, the lent share the send
  ihave Hcv8 := (Entails.of_eq (pointsTo_congr (cv_run m c 8 f4 (psFull m c) (fun _ _ => rfl) (prFull m c) (fun _ _ => rfl)))) $$ Hcv8
  ihave Hcv8 := (slot_shares (F := F) cvM c 8 (cvFull m c)).1 $$ Hcv8
  icases Hcv8 with ⟨Hcv8L, Hcv8K⟩
  ihave Hcv8L := (Entails.of_eq (aside_eq _).symm) $$ Hcv8L
  ihave Hso8 := (Entails.of_eq (aside_eq _)) $$ Hso8
  sl_exec_parts
  ihave Hcv8L := (Entails.of_eq (aside_eq _)) $$ Hcv8L
  rw [owed_succ2 c _ 8 (by decide)]
  iapply (send2_step m c _ (dev21_eq c _) 8 (K (c, some (2, 8))) (K (yn c, some (3, 8))) (off_eq_10 c) (k0_off10_inb c) (cvFull m c) (fun _ _ => rfl) fy _ _) $$ [Hcv8L HoutYn8 HO Hts2_8 Htr2_8]
  · isplitr; · iapply (inv_at m K (c, some (2, 8))); iexact HI
    isplitr; · iapply (inv_at m K (yn c, some (3, 8))); iexact HI
    isplitl [Hcv8L]; · iexact Hcv8L
    isplitl [HoutYn8]; · iexact HoutYn8
    isplitl [HO]; · iexact HO
    isplitl [Hts2_8]; · iexact Hts2_8
    isplitr; · iapply (reached_at (F := F) (c, some (2, 8))); iexact HR
    isplitl [Htr2_8]; · iexact Htr2_8
    iapply (reached_at (F := F) (yn c, some (3, 8))); iexact HR
  iintro ⟨Hcs2_8, HO⟩
  sl_exec_parts

  -- chunk 10: the stored slot is the send buffer's contents there; its lent share goes out with the product, the kept share
  -- stays for the read before the sum
  ihave Hps10 := (Entails.of_eq (pointsTo_congr (ps_run m c 10 0 f0 f2 _ _))) $$ Hps10
  ihave Hps10 := (slot_shares (F := F) psM c 10 (psFull m c)).1 $$ Hps10
  icases Hps10 with ⟨Hps10L, Hps10K⟩
  rw [owed_succ1 c 10 (by decide) _]
  iapply (send1_step m c _ (dev22_eq c _) 10 (K (c, some (0, 10))) (K (xn c, some (1, 10))) (psFull m c) (fun _ _ => rfl) fx _ _) $$ [Hps10L HprX10 HO Hts1_10 Htr1_10]
  · isplitr; · iapply (inv_at m K (c, some (0, 10))); iexact HI
    isplitr; · iapply (inv_at m K (xn c, some (1, 10))); iexact HI
    isplitl [Hps10L]; · iexact Hps10L
    isplitl [HprX10]; · iexact HprX10
    isplitl [HO]; · iexact HO
    isplitl [Hts1_10]; · iexact Hts1_10
    isplitr; · iapply (reached_at (F := F) (c, some (0, 10))); iexact HR
    isplitl [Htr1_10]; · iexact Htr1_10
    iapply (reached_at (F := F) (xn c, some (1, 10))); iexact HR
  iintro ⟨Hcs1_10, HO⟩
  sl_exec_parts

  -- the partner's partial product of chunk 9 has landed: the receive slot comes with the wait, and the cell is closed

  iapply (dmaWait_step m c _ (K (c, some (1, 9))) (r1Pay m 9 c) (expect_r1 m c 9) (rest_r1 m c 9) (slotM prM 9) rfl (owed c 11 9) _) $$ [Hcr1_9 HO Hpr1_9]
  · isplitr; · iapply (inv_at m K (c, some (1, 9))); iexact HI
    isplitl [Hcr1_9]; · iexact Hcr1_9
    isplitl [HO]; · iexact HO
    isplitr
    · iapply (mayWait_owed c (.dma (r1S 9)) 11 9 (fun k hk => by have := k.isLt; rw [lv_r1]; omega) (fun k hk => by have := k.isLt; rw [lv_r1]; omega)); iexact Hlev
    iexact Hpr1_9
  iintro ⟨HO, Hzr1_9, Hpr9⟩
  unfold r1Pay

  -- the local copy of the sum into the result array waits until the sum slot is cut: its counter is set aside
  ihave Hso9 := (Entails.of_eq (aside_eq _).symm) $$ Hso9
  sl_exec_parts
  -- the stored sum slot is the sum buffer's contents there; the kept share feeds the local copy, the lent share the send
  ihave Hcv9 := (Entails.of_eq (pointsTo_congr (cv_run m c 9 f4 (psFull m c) (fun _ _ => rfl) (prFull m c) (fun _ _ => rfl)))) $$ Hcv9
  ihave Hcv9 := (slot_shares (F := F) cvM c 9 (cvFull m c)).1 $$ Hcv9
  icases Hcv9 with ⟨Hcv9L, Hcv9K⟩
  ihave Hcv9L := (Entails.of_eq (aside_eq _).symm) $$ Hcv9L
  ihave Hso9 := (Entails.of_eq (aside_eq _)) $$ Hso9
  sl_exec_parts
  ihave Hcv9L := (Entails.of_eq (aside_eq _)) $$ Hcv9L
  rw [owed_succ2 c _ 9 (by decide)]
  iapply (send2_step m c _ (dev23_eq c _) 9 (K (c, some (2, 9))) (K (yn c, some (3, 9))) (off_eq_11 c) (k0_off11_inb c) (cvFull m c) (fun _ _ => rfl) fy _ _) $$ [Hcv9L HoutYn9 HO Hts2_9 Htr2_9]
  · isplitr; · iapply (inv_at m K (c, some (2, 9))); iexact HI
    isplitr; · iapply (inv_at m K (yn c, some (3, 9))); iexact HI
    isplitl [Hcv9L]; · iexact Hcv9L
    isplitl [HoutYn9]; · iexact HoutYn9
    isplitl [HO]; · iexact HO
    isplitl [Hts2_9]; · iexact Hts2_9
    isplitr; · iapply (reached_at (F := F) (c, some (2, 9))); iexact HR
    isplitl [Htr2_9]; · iexact Htr2_9
    iapply (reached_at (F := F) (yn c, some (3, 9))); iexact HR
  iintro ⟨Hcs2_9, HO⟩
  sl_exec_parts

  -- chunk 11: the stored slot is the send buffer's contents there; its lent share goes out with the product, the kept share
  -- stays for the read before the sum
  ihave Hps11 := (Entails.of_eq (pointsTo_congr (ps_run m c 11 1 f0 f2 _ _))) $$ Hps11
  ihave Hps11 := (slot_shares (F := F) psM c 11 (psFull m c)).1 $$ Hps11
  icases Hps11 with ⟨Hps11L, Hps11K⟩
  rw [owed_succ1 c 11 (by decide) _]
  iapply (send1_step m c _ (dev24_eq c _) 11 (K (c, some (0, 11))) (K (xn c, some (1, 11))) (psFull m c) (fun _ _ => rfl) fx _ _) $$ [Hps11L HprX11 HO Hts1_11 Htr1_11]
  · isplitr; · iapply (inv_at m K (c, some (0, 11))); iexact HI
    isplitr; · iapply (inv_at m K (xn c, some (1, 11))); iexact HI
    isplitl [Hps11L]; · iexact Hps11L
    isplitl [HprX11]; · iexact HprX11
    isplitl [HO]; · iexact HO
    isplitl [Hts1_11]; · iexact Hts1_11
    isplitr; · iapply (reached_at (F := F) (c, some (0, 11))); iexact HR
    isplitl [Htr1_11]; · iexact Htr1_11
    iapply (reached_at (F := F) (xn c, some (1, 11))); iexact HR
  iintro ⟨Hcs1_11, HO⟩
  sl_exec_parts

  -- the partner's partial product of chunk 10 has landed: the receive slot comes with the wait, and the cell is closed

  iapply (dmaWait_step m c _ (K (c, some (1, 10))) (r1Pay m 10 c) (expect_r1 m c 10) (rest_r1 m c 10) (slotM prM 10) rfl (owed c 12 10) _) $$ [Hcr1_10 HO Hpr1_10]
  · isplitr; · iapply (inv_at m K (c, some (1, 10))); iexact HI
    isplitl [Hcr1_10]; · iexact Hcr1_10
    isplitl [HO]; · iexact HO
    isplitr
    · iapply (mayWait_owed c (.dma (r1S 10)) 12 10 (fun k hk => by have := k.isLt; rw [lv_r1]; omega) (fun k hk => by have := k.isLt; rw [lv_r1]; omega)); iexact Hlev
    iexact Hpr1_10
  iintro ⟨HO, Hzr1_10, Hpr10⟩
  unfold r1Pay

  -- the local copy of the sum into the result array waits until the sum slot is cut: its counter is set aside
  ihave Hso10 := (Entails.of_eq (aside_eq _).symm) $$ Hso10
  sl_exec_parts
  -- the stored sum slot is the sum buffer's contents there; the kept share feeds the local copy, the lent share the send
  ihave Hcv10 := (Entails.of_eq (pointsTo_congr (cv_run m c 10 f4 (psFull m c) (fun _ _ => rfl) (prFull m c) (fun _ _ => rfl)))) $$ Hcv10
  ihave Hcv10 := (slot_shares (F := F) cvM c 10 (cvFull m c)).1 $$ Hcv10
  icases Hcv10 with ⟨Hcv10L, Hcv10K⟩
  ihave Hcv10L := (Entails.of_eq (aside_eq _).symm) $$ Hcv10L
  ihave Hso10 := (Entails.of_eq (aside_eq _)) $$ Hso10
  sl_exec_parts
  ihave Hcv10L := (Entails.of_eq (aside_eq _)) $$ Hcv10L
  rw [owed_succ2 c _ 10 (by decide)]
  iapply (send2_step m c _ (dev25_eq c _) 10 (K (c, some (2, 10))) (K (yn c, some (3, 10))) (off_eq_12 c) (k0_off12_inb c) (cvFull m c) (fun _ _ => rfl) fy _ _) $$ [Hcv10L HoutYn10 HO Hts2_10 Htr2_10]
  · isplitr; · iapply (inv_at m K (c, some (2, 10))); iexact HI
    isplitr; · iapply (inv_at m K (yn c, some (3, 10))); iexact HI
    isplitl [Hcv10L]; · iexact Hcv10L
    isplitl [HoutYn10]; · iexact HoutYn10
    isplitl [HO]; · iexact HO
    isplitl [Hts2_10]; · iexact Hts2_10
    isplitr; · iapply (reached_at (F := F) (c, some (2, 10))); iexact HR
    isplitl [Htr2_10]; · iexact Htr2_10
    iapply (reached_at (F := F) (yn c, some (3, 10))); iexact HR
  iintro ⟨Hcs2_10, HO⟩
  sl_exec_parts

  -- chunk 12: the stored slot is the send buffer's contents there; its lent share goes out with the product, the kept share
  -- stays for the read before the sum
  ihave Hps12 := (Entails.of_eq (pointsTo_congr (ps_run m c 12 0 f0 f2 _ _))) $$ Hps12
  ihave Hps12 := (slot_shares (F := F) psM c 12 (psFull m c)).1 $$ Hps12
  icases Hps12 with ⟨Hps12L, Hps12K⟩
  rw [owed_succ1 c 12 (by decide) _]
  iapply (send1_step m c _ (dev26_eq c _) 12 (K (c, some (0, 12))) (K (xn c, some (1, 12))) (psFull m c) (fun _ _ => rfl) fx _ _) $$ [Hps12L HprX12 HO Hts1_12 Htr1_12]
  · isplitr; · iapply (inv_at m K (c, some (0, 12))); iexact HI
    isplitr; · iapply (inv_at m K (xn c, some (1, 12))); iexact HI
    isplitl [Hps12L]; · iexact Hps12L
    isplitl [HprX12]; · iexact HprX12
    isplitl [HO]; · iexact HO
    isplitl [Hts1_12]; · iexact Hts1_12
    isplitr; · iapply (reached_at (F := F) (c, some (0, 12))); iexact HR
    isplitl [Htr1_12]; · iexact Htr1_12
    iapply (reached_at (F := F) (xn c, some (1, 12))); iexact HR
  iintro ⟨Hcs1_12, HO⟩
  sl_exec_parts

  -- the partner's partial product of chunk 11 has landed: the receive slot comes with the wait, and the cell is closed

  iapply (dmaWait_step m c _ (K (c, some (1, 11))) (r1Pay m 11 c) (expect_r1 m c 11) (rest_r1 m c 11) (slotM prM 11) rfl (owed c 13 11) _) $$ [Hcr1_11 HO Hpr1_11]
  · isplitr; · iapply (inv_at m K (c, some (1, 11))); iexact HI
    isplitl [Hcr1_11]; · iexact Hcr1_11
    isplitl [HO]; · iexact HO
    isplitr
    · iapply (mayWait_owed c (.dma (r1S 11)) 13 11 (fun k hk => by have := k.isLt; rw [lv_r1]; omega) (fun k hk => by have := k.isLt; rw [lv_r1]; omega)); iexact Hlev
    iexact Hpr1_11
  iintro ⟨HO, Hzr1_11, Hpr11⟩
  unfold r1Pay

  -- the local copy of the sum into the result array waits until the sum slot is cut: its counter is set aside
  ihave Hso11 := (Entails.of_eq (aside_eq _).symm) $$ Hso11
  sl_exec_parts
  -- the stored sum slot is the sum buffer's contents there; the kept share feeds the local copy, the lent share the send
  ihave Hcv11 := (Entails.of_eq (pointsTo_congr (cv_run m c 11 f4 (psFull m c) (fun _ _ => rfl) (prFull m c) (fun _ _ => rfl)))) $$ Hcv11
  ihave Hcv11 := (slot_shares (F := F) cvM c 11 (cvFull m c)).1 $$ Hcv11
  icases Hcv11 with ⟨Hcv11L, Hcv11K⟩
  ihave Hcv11L := (Entails.of_eq (aside_eq _).symm) $$ Hcv11L
  ihave Hso11 := (Entails.of_eq (aside_eq _)) $$ Hso11
  sl_exec_parts
  ihave Hcv11L := (Entails.of_eq (aside_eq _)) $$ Hcv11L
  rw [owed_succ2 c _ 11 (by decide)]
  iapply (send2_step m c _ (dev27_eq c _) 11 (K (c, some (2, 11))) (K (yn c, some (3, 11))) (off_eq_13 c) (k0_off13_inb c) (cvFull m c) (fun _ _ => rfl) fy _ _) $$ [Hcv11L HoutYn11 HO Hts2_11 Htr2_11]
  · isplitr; · iapply (inv_at m K (c, some (2, 11))); iexact HI
    isplitr; · iapply (inv_at m K (yn c, some (3, 11))); iexact HI
    isplitl [Hcv11L]; · iexact Hcv11L
    isplitl [HoutYn11]; · iexact HoutYn11
    isplitl [HO]; · iexact HO
    isplitl [Hts2_11]; · iexact Hts2_11
    isplitr; · iapply (reached_at (F := F) (c, some (2, 11))); iexact HR
    isplitl [Htr2_11]; · iexact Htr2_11
    iapply (reached_at (F := F) (yn c, some (3, 11))); iexact HR
  iintro ⟨Hcs2_11, HO⟩
  sl_exec_parts

  -- chunk 13: the stored slot is the send buffer's contents there; its lent share goes out with the product, the kept share
  -- stays for the read before the sum
  ihave Hps13 := (Entails.of_eq (pointsTo_congr (ps_run m c 13 1 f0 f2 _ _))) $$ Hps13
  ihave Hps13 := (slot_shares (F := F) psM c 13 (psFull m c)).1 $$ Hps13
  icases Hps13 with ⟨Hps13L, Hps13K⟩
  rw [owed_succ1 c 13 (by decide) _]
  iapply (send1_step m c _ (dev28_eq c _) 13 (K (c, some (0, 13))) (K (xn c, some (1, 13))) (psFull m c) (fun _ _ => rfl) fx _ _) $$ [Hps13L HprX13 HO Hts1_13 Htr1_13]
  · isplitr; · iapply (inv_at m K (c, some (0, 13))); iexact HI
    isplitr; · iapply (inv_at m K (xn c, some (1, 13))); iexact HI
    isplitl [Hps13L]; · iexact Hps13L
    isplitl [HprX13]; · iexact HprX13
    isplitl [HO]; · iexact HO
    isplitl [Hts1_13]; · iexact Hts1_13
    isplitr; · iapply (reached_at (F := F) (c, some (0, 13))); iexact HR
    isplitl [Htr1_13]; · iexact Htr1_13
    iapply (reached_at (F := F) (xn c, some (1, 13))); iexact HR
  iintro ⟨Hcs1_13, HO⟩
  sl_exec_parts

  -- the partner's partial product of chunk 12 has landed: the receive slot comes with the wait, and the cell is closed

  iapply (dmaWait_step m c _ (K (c, some (1, 12))) (r1Pay m 12 c) (expect_r1 m c 12) (rest_r1 m c 12) (slotM prM 12) rfl (owed c 14 12) _) $$ [Hcr1_12 HO Hpr1_12]
  · isplitr; · iapply (inv_at m K (c, some (1, 12))); iexact HI
    isplitl [Hcr1_12]; · iexact Hcr1_12
    isplitl [HO]; · iexact HO
    isplitr
    · iapply (mayWait_owed c (.dma (r1S 12)) 14 12 (fun k hk => by have := k.isLt; rw [lv_r1]; omega) (fun k hk => by have := k.isLt; rw [lv_r1]; omega)); iexact Hlev
    iexact Hpr1_12
  iintro ⟨HO, Hzr1_12, Hpr12⟩
  unfold r1Pay

  -- the local copy of the sum into the result array waits until the sum slot is cut: its counter is set aside
  ihave Hso12 := (Entails.of_eq (aside_eq _).symm) $$ Hso12
  sl_exec_parts
  -- the stored sum slot is the sum buffer's contents there; the kept share feeds the local copy, the lent share the send
  ihave Hcv12 := (Entails.of_eq (pointsTo_congr (cv_run m c 12 f4 (psFull m c) (fun _ _ => rfl) (prFull m c) (fun _ _ => rfl)))) $$ Hcv12
  ihave Hcv12 := (slot_shares (F := F) cvM c 12 (cvFull m c)).1 $$ Hcv12
  icases Hcv12 with ⟨Hcv12L, Hcv12K⟩
  ihave Hcv12L := (Entails.of_eq (aside_eq _).symm) $$ Hcv12L
  ihave Hso12 := (Entails.of_eq (aside_eq _)) $$ Hso12
  sl_exec_parts
  ihave Hcv12L := (Entails.of_eq (aside_eq _)) $$ Hcv12L
  rw [owed_succ2 c _ 12 (by decide)]
  iapply (send2_step m c _ (dev29_eq c _) 12 (K (c, some (2, 12))) (K (yn c, some (3, 12))) (off_eq_14 c) (k0_off14_inb c) (cvFull m c) (fun _ _ => rfl) fy _ _) $$ [Hcv12L HoutYn12 HO Hts2_12 Htr2_12]
  · isplitr; · iapply (inv_at m K (c, some (2, 12))); iexact HI
    isplitr; · iapply (inv_at m K (yn c, some (3, 12))); iexact HI
    isplitl [Hcv12L]; · iexact Hcv12L
    isplitl [HoutYn12]; · iexact HoutYn12
    isplitl [HO]; · iexact HO
    isplitl [Hts2_12]; · iexact Hts2_12
    isplitr; · iapply (reached_at (F := F) (c, some (2, 12))); iexact HR
    isplitl [Htr2_12]; · iexact Htr2_12
    iapply (reached_at (F := F) (yn c, some (3, 12))); iexact HR
  iintro ⟨Hcs2_12, HO⟩
  sl_exec_parts

  -- chunk 14: the stored slot is the send buffer's contents there; its lent share goes out with the product, the kept share
  -- stays for the read before the sum
  ihave Hps14 := (Entails.of_eq (pointsTo_congr (ps_run m c 14 0 f0 f2 _ _))) $$ Hps14
  ihave Hps14 := (slot_shares (F := F) psM c 14 (psFull m c)).1 $$ Hps14
  icases Hps14 with ⟨Hps14L, Hps14K⟩
  rw [owed_succ1 c 14 (by decide) _]
  iapply (send1_step m c _ (dev30_eq c _) 14 (K (c, some (0, 14))) (K (xn c, some (1, 14))) (psFull m c) (fun _ _ => rfl) fx _ _) $$ [Hps14L HprX14 HO Hts1_14 Htr1_14]
  · isplitr; · iapply (inv_at m K (c, some (0, 14))); iexact HI
    isplitr; · iapply (inv_at m K (xn c, some (1, 14))); iexact HI
    isplitl [Hps14L]; · iexact Hps14L
    isplitl [HprX14]; · iexact HprX14
    isplitl [HO]; · iexact HO
    isplitl [Hts1_14]; · iexact Hts1_14
    isplitr; · iapply (reached_at (F := F) (c, some (0, 14))); iexact HR
    isplitl [Htr1_14]; · iexact Htr1_14
    iapply (reached_at (F := F) (xn c, some (1, 14))); iexact HR
  iintro ⟨Hcs1_14, HO⟩
  sl_exec_parts

  -- the partner's partial product of chunk 13 has landed: the receive slot comes with the wait, and the cell is closed

  iapply (dmaWait_step m c _ (K (c, some (1, 13))) (r1Pay m 13 c) (expect_r1 m c 13) (rest_r1 m c 13) (slotM prM 13) rfl (owed c 15 13) _) $$ [Hcr1_13 HO Hpr1_13]
  · isplitr; · iapply (inv_at m K (c, some (1, 13))); iexact HI
    isplitl [Hcr1_13]; · iexact Hcr1_13
    isplitl [HO]; · iexact HO
    isplitr
    · iapply (mayWait_owed c (.dma (r1S 13)) 15 13 (fun k hk => by have := k.isLt; rw [lv_r1]; omega) (fun k hk => by have := k.isLt; rw [lv_r1]; omega)); iexact Hlev
    iexact Hpr1_13
  iintro ⟨HO, Hzr1_13, Hpr13⟩
  unfold r1Pay

  -- the local copy of the sum into the result array waits until the sum slot is cut: its counter is set aside
  ihave Hso13 := (Entails.of_eq (aside_eq _).symm) $$ Hso13
  sl_exec_parts
  -- the stored sum slot is the sum buffer's contents there; the kept share feeds the local copy, the lent share the send
  ihave Hcv13 := (Entails.of_eq (pointsTo_congr (cv_run m c 13 f4 (psFull m c) (fun _ _ => rfl) (prFull m c) (fun _ _ => rfl)))) $$ Hcv13
  ihave Hcv13 := (slot_shares (F := F) cvM c 13 (cvFull m c)).1 $$ Hcv13
  icases Hcv13 with ⟨Hcv13L, Hcv13K⟩
  ihave Hcv13L := (Entails.of_eq (aside_eq _).symm) $$ Hcv13L
  ihave Hso13 := (Entails.of_eq (aside_eq _)) $$ Hso13
  sl_exec_parts
  ihave Hcv13L := (Entails.of_eq (aside_eq _)) $$ Hcv13L
  rw [owed_succ2 c _ 13 (by decide)]
  iapply (send2_step m c _ (dev31_eq c _) 13 (K (c, some (2, 13))) (K (yn c, some (3, 13))) (off_eq_15 c) (k0_off15_inb c) (cvFull m c) (fun _ _ => rfl) fy _ _) $$ [Hcv13L HoutYn13 HO Hts2_13 Htr2_13]
  · isplitr; · iapply (inv_at m K (c, some (2, 13))); iexact HI
    isplitr; · iapply (inv_at m K (yn c, some (3, 13))); iexact HI
    isplitl [Hcv13L]; · iexact Hcv13L
    isplitl [HoutYn13]; · iexact HoutYn13
    isplitl [HO]; · iexact HO
    isplitl [Hts2_13]; · iexact Hts2_13
    isplitr; · iapply (reached_at (F := F) (c, some (2, 13))); iexact HR
    isplitl [Htr2_13]; · iexact Htr2_13
    iapply (reached_at (F := F) (yn c, some (3, 13))); iexact HR
  iintro ⟨Hcs2_13, HO⟩
  sl_exec_parts

  -- chunk 15: the stored slot is the send buffer's contents there; its lent share goes out with the product, the kept share
  -- stays for the read before the sum
  ihave Hps15 := (Entails.of_eq (pointsTo_congr (ps_run m c 15 1 f0 f2 _ _))) $$ Hps15
  ihave Hps15 := (slot_shares (F := F) psM c 15 (psFull m c)).1 $$ Hps15
  icases Hps15 with ⟨Hps15L, Hps15K⟩
  rw [owed_succ1 c 15 (by decide) _]
  iapply (send1_step m c _ (dev32_eq c _) 15 (K (c, some (0, 15))) (K (xn c, some (1, 15))) (psFull m c) (fun _ _ => rfl) fx _ _) $$ [Hps15L HprX15 HO Hts1_15 Htr1_15]
  · isplitr; · iapply (inv_at m K (c, some (0, 15))); iexact HI
    isplitr; · iapply (inv_at m K (xn c, some (1, 15))); iexact HI
    isplitl [Hps15L]; · iexact Hps15L
    isplitl [HprX15]; · iexact HprX15
    isplitl [HO]; · iexact HO
    isplitl [Hts1_15]; · iexact Hts1_15
    isplitr; · iapply (reached_at (F := F) (c, some (0, 15))); iexact HR
    isplitl [Htr1_15]; · iexact Htr1_15
    iapply (reached_at (F := F) (xn c, some (1, 15))); iexact HR
  iintro ⟨Hcs1_15, HO⟩
  sl_exec_parts

  -- the partner's partial product of chunk 14 has landed: the receive slot comes with the wait, and the cell is closed

  iapply (dmaWait_step m c _ (K (c, some (1, 14))) (r1Pay m 14 c) (expect_r1 m c 14) (rest_r1 m c 14) (slotM prM 14) rfl (owed c 16 14) _) $$ [Hcr1_14 HO Hpr1_14]
  · isplitr; · iapply (inv_at m K (c, some (1, 14))); iexact HI
    isplitl [Hcr1_14]; · iexact Hcr1_14
    isplitl [HO]; · iexact HO
    isplitr
    · iapply (mayWait_owed c (.dma (r1S 14)) 16 14 (fun k hk => by have := k.isLt; rw [lv_r1]; omega) (fun k hk => by have := k.isLt; rw [lv_r1]; omega)); iexact Hlev
    iexact Hpr1_14
  iintro ⟨HO, Hzr1_14, Hpr14⟩
  unfold r1Pay

  -- the local copy of the sum into the result array waits until the sum slot is cut: its counter is set aside
  ihave Hso14 := (Entails.of_eq (aside_eq _).symm) $$ Hso14
  sl_exec_parts
  -- the stored sum slot is the sum buffer's contents there; the kept share feeds the local copy, the lent share the send
  ihave Hcv14 := (Entails.of_eq (pointsTo_congr (cv_run m c 14 f4 (psFull m c) (fun _ _ => rfl) (prFull m c) (fun _ _ => rfl)))) $$ Hcv14
  ihave Hcv14 := (slot_shares (F := F) cvM c 14 (cvFull m c)).1 $$ Hcv14
  icases Hcv14 with ⟨Hcv14L, Hcv14K⟩
  ihave Hcv14L := (Entails.of_eq (aside_eq _).symm) $$ Hcv14L
  ihave Hso14 := (Entails.of_eq (aside_eq _)) $$ Hso14
  sl_exec_parts
  ihave Hcv14L := (Entails.of_eq (aside_eq _)) $$ Hcv14L
  rw [owed_succ2 c _ 14 (by decide)]
  iapply (send2_step m c _ (dev33_eq c _) 14 (K (c, some (2, 14))) (K (yn c, some (3, 14))) (off_eq_16 c) (k0_off16_inb c) (cvFull m c) (fun _ _ => rfl) fy _ _) $$ [Hcv14L HoutYn14 HO Hts2_14 Htr2_14]
  · isplitr; · iapply (inv_at m K (c, some (2, 14))); iexact HI
    isplitr; · iapply (inv_at m K (yn c, some (3, 14))); iexact HI
    isplitl [Hcv14L]; · iexact Hcv14L
    isplitl [HoutYn14]; · iexact HoutYn14
    isplitl [HO]; · iexact HO
    isplitl [Hts2_14]; · iexact Hts2_14
    isplitr; · iapply (reached_at (F := F) (c, some (2, 14))); iexact HR
    isplitl [Htr2_14]; · iexact Htr2_14
    iapply (reached_at (F := F) (yn c, some (3, 14))); iexact HR
  iintro ⟨Hcs2_14, HO⟩
  sl_exec_parts

  -- the partner's partial product of chunk 15 has landed: the receive slot comes with the wait, and the cell is closed

  iapply (dmaWait_step m c _ (K (c, some (1, 15))) (r1Pay m 15 c) (expect_r1 m c 15) (rest_r1 m c 15) (slotM prM 15) rfl (owed c 16 15) _) $$ [Hcr1_15 HO Hpr1_15]
  · isplitr; · iapply (inv_at m K (c, some (1, 15))); iexact HI
    isplitl [Hcr1_15]; · iexact Hcr1_15
    isplitl [HO]; · iexact HO
    isplitr
    · iapply (mayWait_owed c (.dma (r1S 15)) 16 15 (fun k hk => by have := k.isLt; rw [lv_r1]; omega) (fun k hk => by have := k.isLt; rw [lv_r1]; omega)); iexact Hlev
    iexact Hpr1_15
  iintro ⟨HO, Hzr1_15, Hpr15⟩
  unfold r1Pay

  -- the local copy of the sum into the result array waits until the sum slot is cut: its counter is set aside
  ihave Hso15 := (Entails.of_eq (aside_eq _).symm) $$ Hso15
  sl_exec_parts
  -- the stored sum slot is the sum buffer's contents there; the kept share feeds the local copy, the lent share the send
  ihave Hcv15 := (Entails.of_eq (pointsTo_congr (cv_run m c 15 f4 (psFull m c) (fun _ _ => rfl) (prFull m c) (fun _ _ => rfl)))) $$ Hcv15
  ihave Hcv15 := (slot_shares (F := F) cvM c 15 (cvFull m c)).1 $$ Hcv15
  icases Hcv15 with ⟨Hcv15L, Hcv15K⟩
  ihave Hcv15L := (Entails.of_eq (aside_eq _).symm) $$ Hcv15L
  ihave Hso15 := (Entails.of_eq (aside_eq _)) $$ Hso15
  sl_exec_parts
  ihave Hcv15L := (Entails.of_eq (aside_eq _)) $$ Hcv15L
  rw [owed_succ2 c _ 15 (by decide)]
  iapply (send2_step m c _ (dev34_eq c _) 15 (K (c, some (2, 15))) (K (yn c, some (3, 15))) (off_eq_17 c) (k0_off17_inb c) (cvFull m c) (fun _ _ => rfl) fy _ _) $$ [Hcv15L HoutYn15 HO Hts2_15 Htr2_15]
  · isplitr; · iapply (inv_at m K (c, some (2, 15))); iexact HI
    isplitr; · iapply (inv_at m K (yn c, some (3, 15))); iexact HI
    isplitl [Hcv15L]; · iexact Hcv15L
    isplitl [HoutYn15]; · iexact HoutYn15
    isplitl [HO]; · iexact HO
    isplitl [Hts2_15]; · iexact Hts2_15
    isplitr; · iapply (reached_at (F := F) (c, some (2, 15))); iexact HR
    isplitl [Htr2_15]; · iexact Htr2_15
    iapply (reached_at (F := F) (yn c, some (3, 15))); iexact HR
  iintro ⟨Hcs2_15, HO⟩
  sl_exec_parts

  -- chunk 0, the last round: the partner's finished chunk has landed in the result array; the local copy is waited for; the
  -- two read-outs give the lent shares back

  iapply (dmaWait_step m c _ (K (c, some (3, 0))) (r2Pay m 0 c) (expect_r2 m c 0) (rest_r2 m c 0) (oM.slice (Rect.unit (s := S2048x2048) (k0_off2 c) S1024x128.size (k0_off2_inb c)) (fun _ => rfl)) rfl (owed c 16 16) _) $$ [Hcr2_0 HO Hpr2_0]
  · isplitr; · iapply (inv_at m K (c, some (3, 0))); iexact HI
    isplitl [Hcr2_0]; · iexact Hcr2_0
    isplitl [HO]; · iexact HO
    isplitr
    · iapply (mayWait_owed c (.dma (r2S 0)) 16 16 (fun k hk => by have := k.isLt; rw [lv_r2]; omega) (fun k hk => by have := k.isLt; rw [lv_r2]; omega)); iexact Hlev
    iexact Hpr2_0
  iintro ⟨HO, Hzr2_0, HoutR0⟩
  unfold r2Pay

  sl_exec_parts

  iapply (dmaWait_step m c _ (K (c, some (0, 0))) (s1Pay m 0 c) (expect_s1 m c 0) (rest_s1 m c 0) (slotM psM 0) rfl (owed c 16 16) _) $$ [Hcs1_0 HO Hps1_0]
  · isplitr; · iapply (inv_at m K (c, some (0, 0))); iexact HI
    isplitl [Hcs1_0]; · iexact Hcs1_0
    isplitl [HO]; · iexact HO
    isplitr
    · iapply (mayWait_owed c (.dma (s1S 0)) 16 16 (fun k hk => by have := k.isLt; rw [lv_s1]; omega) (fun k hk => by have := k.isLt; rw [lv_s1]; omega)); iexact Hlev
    iexact Hps1_0
  iintro ⟨HO, Hzs1_0, Hps0L⟩
  unfold s1Pay

  sl_exec_parts

  iapply (dmaWait_step m c _ (K (c, some (2, 0))) (s2Pay m 0 c) (expect_s2 m c 0) (rest_s2 m c 0) (slotM cvM 0) rfl (owed c 16 16) _) $$ [Hcs2_0 HO Hps2_0]
  · isplitr; · iapply (inv_at m K (c, some (2, 0))); iexact HI
    isplitl [Hcs2_0]; · iexact Hcs2_0
    isplitl [HO]; · iexact HO
    isplitr
    · iapply (mayWait_owed c (.dma (s2S 0)) 16 16 (fun k hk => by have := k.isLt; rw [lv_s2]; omega) (fun k hk => by have := k.isLt; rw [lv_s2]; omega)); iexact Hlev
    iexact Hps2_0
  iintro ⟨HO, Hzs2_0, Hcv0L⟩
  unfold s2Pay

  sl_exec_parts

  -- chunk 1, the last round: the partner's finished chunk has landed in the result array; the local copy is waited for; the
  -- two read-outs give the lent shares back

  iapply (dmaWait_step m c _ (K (c, some (3, 1))) (r2Pay m 1 c) (expect_r2 m c 1) (rest_r2 m c 1) (oM.slice (Rect.unit (s := S2048x2048) (k0_off3 c) S1024x128.size (k0_off3_inb c)) (fun _ => rfl)) rfl (owed c 16 16) _) $$ [Hcr2_1 HO Hpr2_1]
  · isplitr; · iapply (inv_at m K (c, some (3, 1))); iexact HI
    isplitl [Hcr2_1]; · iexact Hcr2_1
    isplitl [HO]; · iexact HO
    isplitr
    · iapply (mayWait_owed c (.dma (r2S 1)) 16 16 (fun k hk => by have := k.isLt; rw [lv_r2]; omega) (fun k hk => by have := k.isLt; rw [lv_r2]; omega)); iexact Hlev
    iexact Hpr2_1
  iintro ⟨HO, Hzr2_1, HoutR1⟩
  unfold r2Pay

  sl_exec_parts

  iapply (dmaWait_step m c _ (K (c, some (0, 1))) (s1Pay m 1 c) (expect_s1 m c 1) (rest_s1 m c 1) (slotM psM 1) rfl (owed c 16 16) _) $$ [Hcs1_1 HO Hps1_1]
  · isplitr; · iapply (inv_at m K (c, some (0, 1))); iexact HI
    isplitl [Hcs1_1]; · iexact Hcs1_1
    isplitl [HO]; · iexact HO
    isplitr
    · iapply (mayWait_owed c (.dma (s1S 1)) 16 16 (fun k hk => by have := k.isLt; rw [lv_s1]; omega) (fun k hk => by have := k.isLt; rw [lv_s1]; omega)); iexact Hlev
    iexact Hps1_1
  iintro ⟨HO, Hzs1_1, Hps1L⟩
  unfold s1Pay

  sl_exec_parts

  iapply (dmaWait_step m c _ (K (c, some (2, 1))) (s2Pay m 1 c) (expect_s2 m c 1) (rest_s2 m c 1) (slotM cvM 1) rfl (owed c 16 16) _) $$ [Hcs2_1 HO Hps2_1]
  · isplitr; · iapply (inv_at m K (c, some (2, 1))); iexact HI
    isplitl [Hcs2_1]; · iexact Hcs2_1
    isplitl [HO]; · iexact HO
    isplitr
    · iapply (mayWait_owed c (.dma (s2S 1)) 16 16 (fun k hk => by have := k.isLt; rw [lv_s2]; omega) (fun k hk => by have := k.isLt; rw [lv_s2]; omega)); iexact Hlev
    iexact Hps2_1
  iintro ⟨HO, Hzs2_1, Hcv1L⟩
  unfold s2Pay

  sl_exec_parts

  -- chunk 2, the last round: the partner's finished chunk has landed in the result array; the local copy is waited for; the
  -- two read-outs give the lent shares back

  iapply (dmaWait_step m c _ (K (c, some (3, 2))) (r2Pay m 2 c) (expect_r2 m c 2) (rest_r2 m c 2) (oM.slice (Rect.unit (s := S2048x2048) (k0_off4 c) S1024x128.size (k0_off4_inb c)) (fun _ => rfl)) rfl (owed c 16 16) _) $$ [Hcr2_2 HO Hpr2_2]
  · isplitr; · iapply (inv_at m K (c, some (3, 2))); iexact HI
    isplitl [Hcr2_2]; · iexact Hcr2_2
    isplitl [HO]; · iexact HO
    isplitr
    · iapply (mayWait_owed c (.dma (r2S 2)) 16 16 (fun k hk => by have := k.isLt; rw [lv_r2]; omega) (fun k hk => by have := k.isLt; rw [lv_r2]; omega)); iexact Hlev
    iexact Hpr2_2
  iintro ⟨HO, Hzr2_2, HoutR2⟩
  unfold r2Pay

  sl_exec_parts

  iapply (dmaWait_step m c _ (K (c, some (0, 2))) (s1Pay m 2 c) (expect_s1 m c 2) (rest_s1 m c 2) (slotM psM 2) rfl (owed c 16 16) _) $$ [Hcs1_2 HO Hps1_2]
  · isplitr; · iapply (inv_at m K (c, some (0, 2))); iexact HI
    isplitl [Hcs1_2]; · iexact Hcs1_2
    isplitl [HO]; · iexact HO
    isplitr
    · iapply (mayWait_owed c (.dma (s1S 2)) 16 16 (fun k hk => by have := k.isLt; rw [lv_s1]; omega) (fun k hk => by have := k.isLt; rw [lv_s1]; omega)); iexact Hlev
    iexact Hps1_2
  iintro ⟨HO, Hzs1_2, Hps2L⟩
  unfold s1Pay

  sl_exec_parts

  iapply (dmaWait_step m c _ (K (c, some (2, 2))) (s2Pay m 2 c) (expect_s2 m c 2) (rest_s2 m c 2) (slotM cvM 2) rfl (owed c 16 16) _) $$ [Hcs2_2 HO Hps2_2]
  · isplitr; · iapply (inv_at m K (c, some (2, 2))); iexact HI
    isplitl [Hcs2_2]; · iexact Hcs2_2
    isplitl [HO]; · iexact HO
    isplitr
    · iapply (mayWait_owed c (.dma (s2S 2)) 16 16 (fun k hk => by have := k.isLt; rw [lv_s2]; omega) (fun k hk => by have := k.isLt; rw [lv_s2]; omega)); iexact Hlev
    iexact Hps2_2
  iintro ⟨HO, Hzs2_2, Hcv2L⟩
  unfold s2Pay

  sl_exec_parts

  -- chunk 3, the last round: the partner's finished chunk has landed in the result array; the local copy is waited for; the
  -- two read-outs give the lent shares back

  iapply (dmaWait_step m c _ (K (c, some (3, 3))) (r2Pay m 3 c) (expect_r2 m c 3) (rest_r2 m c 3) (oM.slice (Rect.unit (s := S2048x2048) (k0_off5 c) S1024x128.size (k0_off5_inb c)) (fun _ => rfl)) rfl (owed c 16 16) _) $$ [Hcr2_3 HO Hpr2_3]
  · isplitr; · iapply (inv_at m K (c, some (3, 3))); iexact HI
    isplitl [Hcr2_3]; · iexact Hcr2_3
    isplitl [HO]; · iexact HO
    isplitr
    · iapply (mayWait_owed c (.dma (r2S 3)) 16 16 (fun k hk => by have := k.isLt; rw [lv_r2]; omega) (fun k hk => by have := k.isLt; rw [lv_r2]; omega)); iexact Hlev
    iexact Hpr2_3
  iintro ⟨HO, Hzr2_3, HoutR3⟩
  unfold r2Pay

  sl_exec_parts

  iapply (dmaWait_step m c _ (K (c, some (0, 3))) (s1Pay m 3 c) (expect_s1 m c 3) (rest_s1 m c 3) (slotM psM 3) rfl (owed c 16 16) _) $$ [Hcs1_3 HO Hps1_3]
  · isplitr; · iapply (inv_at m K (c, some (0, 3))); iexact HI
    isplitl [Hcs1_3]; · iexact Hcs1_3
    isplitl [HO]; · iexact HO
    isplitr
    · iapply (mayWait_owed c (.dma (s1S 3)) 16 16 (fun k hk => by have := k.isLt; rw [lv_s1]; omega) (fun k hk => by have := k.isLt; rw [lv_s1]; omega)); iexact Hlev
    iexact Hps1_3
  iintro ⟨HO, Hzs1_3, Hps3L⟩
  unfold s1Pay

  sl_exec_parts

  iapply (dmaWait_step m c _ (K (c, some (2, 3))) (s2Pay m 3 c) (expect_s2 m c 3) (rest_s2 m c 3) (slotM cvM 3) rfl (owed c 16 16) _) $$ [Hcs2_3 HO Hps2_3]
  · isplitr; · iapply (inv_at m K (c, some (2, 3))); iexact HI
    isplitl [Hcs2_3]; · iexact Hcs2_3
    isplitl [HO]; · iexact HO
    isplitr
    · iapply (mayWait_owed c (.dma (s2S 3)) 16 16 (fun k hk => by have := k.isLt; rw [lv_s2]; omega) (fun k hk => by have := k.isLt; rw [lv_s2]; omega)); iexact Hlev
    iexact Hps2_3
  iintro ⟨HO, Hzs2_3, Hcv3L⟩
  unfold s2Pay

  sl_exec_parts

  -- chunk 4, the last round: the partner's finished chunk has landed in the result array; the local copy is waited for; the
  -- two read-outs give the lent shares back

  iapply (dmaWait_step m c _ (K (c, some (3, 4))) (r2Pay m 4 c) (expect_r2 m c 4) (rest_r2 m c 4) (oM.slice (Rect.unit (s := S2048x2048) (k0_off6 c) S1024x128.size (k0_off6_inb c)) (fun _ => rfl)) rfl (owed c 16 16) _) $$ [Hcr2_4 HO Hpr2_4]
  · isplitr; · iapply (inv_at m K (c, some (3, 4))); iexact HI
    isplitl [Hcr2_4]; · iexact Hcr2_4
    isplitl [HO]; · iexact HO
    isplitr
    · iapply (mayWait_owed c (.dma (r2S 4)) 16 16 (fun k hk => by have := k.isLt; rw [lv_r2]; omega) (fun k hk => by have := k.isLt; rw [lv_r2]; omega)); iexact Hlev
    iexact Hpr2_4
  iintro ⟨HO, Hzr2_4, HoutR4⟩
  unfold r2Pay

  sl_exec_parts

  iapply (dmaWait_step m c _ (K (c, some (0, 4))) (s1Pay m 4 c) (expect_s1 m c 4) (rest_s1 m c 4) (slotM psM 4) rfl (owed c 16 16) _) $$ [Hcs1_4 HO Hps1_4]
  · isplitr; · iapply (inv_at m K (c, some (0, 4))); iexact HI
    isplitl [Hcs1_4]; · iexact Hcs1_4
    isplitl [HO]; · iexact HO
    isplitr
    · iapply (mayWait_owed c (.dma (s1S 4)) 16 16 (fun k hk => by have := k.isLt; rw [lv_s1]; omega) (fun k hk => by have := k.isLt; rw [lv_s1]; omega)); iexact Hlev
    iexact Hps1_4
  iintro ⟨HO, Hzs1_4, Hps4L⟩
  unfold s1Pay

  sl_exec_parts

  iapply (dmaWait_step m c _ (K (c, some (2, 4))) (s2Pay m 4 c) (expect_s2 m c 4) (rest_s2 m c 4) (slotM cvM 4) rfl (owed c 16 16) _) $$ [Hcs2_4 HO Hps2_4]
  · isplitr; · iapply (inv_at m K (c, some (2, 4))); iexact HI
    isplitl [Hcs2_4]; · iexact Hcs2_4
    isplitl [HO]; · iexact HO
    isplitr
    · iapply (mayWait_owed c (.dma (s2S 4)) 16 16 (fun k hk => by have := k.isLt; rw [lv_s2]; omega) (fun k hk => by have := k.isLt; rw [lv_s2]; omega)); iexact Hlev
    iexact Hps2_4
  iintro ⟨HO, Hzs2_4, Hcv4L⟩
  unfold s2Pay

  sl_exec_parts

  -- chunk 5, the last round: the partner's finished chunk has landed in the result array; the local copy is waited for; the
  -- two read-outs give the lent shares back

  iapply (dmaWait_step m c _ (K (c, some (3, 5))) (r2Pay m 5 c) (expect_r2 m c 5) (rest_r2 m c 5) (oM.slice (Rect.unit (s := S2048x2048) (k0_off7 c) S1024x128.size (k0_off7_inb c)) (fun _ => rfl)) rfl (owed c 16 16) _) $$ [Hcr2_5 HO Hpr2_5]
  · isplitr; · iapply (inv_at m K (c, some (3, 5))); iexact HI
    isplitl [Hcr2_5]; · iexact Hcr2_5
    isplitl [HO]; · iexact HO
    isplitr
    · iapply (mayWait_owed c (.dma (r2S 5)) 16 16 (fun k hk => by have := k.isLt; rw [lv_r2]; omega) (fun k hk => by have := k.isLt; rw [lv_r2]; omega)); iexact Hlev
    iexact Hpr2_5
  iintro ⟨HO, Hzr2_5, HoutR5⟩
  unfold r2Pay

  sl_exec_parts

  iapply (dmaWait_step m c _ (K (c, some (0, 5))) (s1Pay m 5 c) (expect_s1 m c 5) (rest_s1 m c 5) (slotM psM 5) rfl (owed c 16 16) _) $$ [Hcs1_5 HO Hps1_5]
  · isplitr; · iapply (inv_at m K (c, some (0, 5))); iexact HI
    isplitl [Hcs1_5]; · iexact Hcs1_5
    isplitl [HO]; · iexact HO
    isplitr
    · iapply (mayWait_owed c (.dma (s1S 5)) 16 16 (fun k hk => by have := k.isLt; rw [lv_s1]; omega) (fun k hk => by have := k.isLt; rw [lv_s1]; omega)); iexact Hlev
    iexact Hps1_5
  iintro ⟨HO, Hzs1_5, Hps5L⟩
  unfold s1Pay

  sl_exec_parts

  iapply (dmaWait_step m c _ (K (c, some (2, 5))) (s2Pay m 5 c) (expect_s2 m c 5) (rest_s2 m c 5) (slotM cvM 5) rfl (owed c 16 16) _) $$ [Hcs2_5 HO Hps2_5]
  · isplitr; · iapply (inv_at m K (c, some (2, 5))); iexact HI
    isplitl [Hcs2_5]; · iexact Hcs2_5
    isplitl [HO]; · iexact HO
    isplitr
    · iapply (mayWait_owed c (.dma (s2S 5)) 16 16 (fun k hk => by have := k.isLt; rw [lv_s2]; omega) (fun k hk => by have := k.isLt; rw [lv_s2]; omega)); iexact Hlev
    iexact Hps2_5
  iintro ⟨HO, Hzs2_5, Hcv5L⟩
  unfold s2Pay

  sl_exec_parts

  -- chunk 6, the last round: the partner's finished chunk has landed in the result array; the local copy is waited for; the
  -- two read-outs give the lent shares back

  iapply (dmaWait_step m c _ (K (c, some (3, 6))) (r2Pay m 6 c) (expect_r2 m c 6) (rest_r2 m c 6) (oM.slice (Rect.unit (s := S2048x2048) (k0_off8 c) S1024x128.size (k0_off8_inb c)) (fun _ => rfl)) rfl (owed c 16 16) _) $$ [Hcr2_6 HO Hpr2_6]
  · isplitr; · iapply (inv_at m K (c, some (3, 6))); iexact HI
    isplitl [Hcr2_6]; · iexact Hcr2_6
    isplitl [HO]; · iexact HO
    isplitr
    · iapply (mayWait_owed c (.dma (r2S 6)) 16 16 (fun k hk => by have := k.isLt; rw [lv_r2]; omega) (fun k hk => by have := k.isLt; rw [lv_r2]; omega)); iexact Hlev
    iexact Hpr2_6
  iintro ⟨HO, Hzr2_6, HoutR6⟩
  unfold r2Pay

  sl_exec_parts

  iapply (dmaWait_step m c _ (K (c, some (0, 6))) (s1Pay m 6 c) (expect_s1 m c 6) (rest_s1 m c 6) (slotM psM 6) rfl (owed c 16 16) _) $$ [Hcs1_6 HO Hps1_6]
  · isplitr; · iapply (inv_at m K (c, some (0, 6))); iexact HI
    isplitl [Hcs1_6]; · iexact Hcs1_6
    isplitl [HO]; · iexact HO
    isplitr
    · iapply (mayWait_owed c (.dma (s1S 6)) 16 16 (fun k hk => by have := k.isLt; rw [lv_s1]; omega) (fun k hk => by have := k.isLt; rw [lv_s1]; omega)); iexact Hlev
    iexact Hps1_6
  iintro ⟨HO, Hzs1_6, Hps6L⟩
  unfold s1Pay

  sl_exec_parts

  iapply (dmaWait_step m c _ (K (c, some (2, 6))) (s2Pay m 6 c) (expect_s2 m c 6) (rest_s2 m c 6) (slotM cvM 6) rfl (owed c 16 16) _) $$ [Hcs2_6 HO Hps2_6]
  · isplitr; · iapply (inv_at m K (c, some (2, 6))); iexact HI
    isplitl [Hcs2_6]; · iexact Hcs2_6
    isplitl [HO]; · iexact HO
    isplitr
    · iapply (mayWait_owed c (.dma (s2S 6)) 16 16 (fun k hk => by have := k.isLt; rw [lv_s2]; omega) (fun k hk => by have := k.isLt; rw [lv_s2]; omega)); iexact Hlev
    iexact Hps2_6
  iintro ⟨HO, Hzs2_6, Hcv6L⟩
  unfold s2Pay

  sl_exec_parts

  -- chunk 7, the last round: the partner's finished chunk has landed in the result array; the local copy is waited for; the
  -- two read-outs give the lent shares back

  iapply (dmaWait_step m c _ (K (c, some (3, 7))) (r2Pay m 7 c) (expect_r2 m c 7) (rest_r2 m c 7) (oM.slice (Rect.unit (s := S2048x2048) (k0_off9 c) S1024x128.size (k0_off9_inb c)) (fun _ => rfl)) rfl (owed c 16 16) _) $$ [Hcr2_7 HO Hpr2_7]
  · isplitr; · iapply (inv_at m K (c, some (3, 7))); iexact HI
    isplitl [Hcr2_7]; · iexact Hcr2_7
    isplitl [HO]; · iexact HO
    isplitr
    · iapply (mayWait_owed c (.dma (r2S 7)) 16 16 (fun k hk => by have := k.isLt; rw [lv_r2]; omega) (fun k hk => by have := k.isLt; rw [lv_r2]; omega)); iexact Hlev
    iexact Hpr2_7
  iintro ⟨HO, Hzr2_7, HoutR7⟩
  unfold r2Pay

  sl_exec_parts

  iapply (dmaWait_step m c _ (K (c, some (0, 7))) (s1Pay m 7 c) (expect_s1 m c 7) (rest_s1 m c 7) (slotM psM 7) rfl (owed c 16 16) _) $$ [Hcs1_7 HO Hps1_7]
  · isplitr; · iapply (inv_at m K (c, some (0, 7))); iexact HI
    isplitl [Hcs1_7]; · iexact Hcs1_7
    isplitl [HO]; · iexact HO
    isplitr
    · iapply (mayWait_owed c (.dma (s1S 7)) 16 16 (fun k hk => by have := k.isLt; rw [lv_s1]; omega) (fun k hk => by have := k.isLt; rw [lv_s1]; omega)); iexact Hlev
    iexact Hps1_7
  iintro ⟨HO, Hzs1_7, Hps7L⟩
  unfold s1Pay

  sl_exec_parts

  iapply (dmaWait_step m c _ (K (c, some (2, 7))) (s2Pay m 7 c) (expect_s2 m c 7) (rest_s2 m c 7) (slotM cvM 7) rfl (owed c 16 16) _) $$ [Hcs2_7 HO Hps2_7]
  · isplitr; · iapply (inv_at m K (c, some (2, 7))); iexact HI
    isplitl [Hcs2_7]; · iexact Hcs2_7
    isplitl [HO]; · iexact HO
    isplitr
    · iapply (mayWait_owed c (.dma (s2S 7)) 16 16 (fun k hk => by have := k.isLt; rw [lv_s2]; omega) (fun k hk => by have := k.isLt; rw [lv_s2]; omega)); iexact Hlev
    iexact Hps2_7
  iintro ⟨HO, Hzs2_7, Hcv7L⟩
  unfold s2Pay

  sl_exec_parts

  -- chunk 8, the last round: the partner's finished chunk has landed in the result array; the local copy is waited for; the
  -- two read-outs give the lent shares back

  iapply (dmaWait_step m c _ (K (c, some (3, 8))) (r2Pay m 8 c) (expect_r2 m c 8) (rest_r2 m c 8) (oM.slice (Rect.unit (s := S2048x2048) (k0_off10 c) S1024x128.size (k0_off10_inb c)) (fun _ => rfl)) rfl (owed c 16 16) _) $$ [Hcr2_8 HO Hpr2_8]
  · isplitr; · iapply (inv_at m K (c, some (3, 8))); iexact HI
    isplitl [Hcr2_8]; · iexact Hcr2_8
    isplitl [HO]; · iexact HO
    isplitr
    · iapply (mayWait_owed c (.dma (r2S 8)) 16 16 (fun k hk => by have := k.isLt; rw [lv_r2]; omega) (fun k hk => by have := k.isLt; rw [lv_r2]; omega)); iexact Hlev
    iexact Hpr2_8
  iintro ⟨HO, Hzr2_8, HoutR8⟩
  unfold r2Pay

  sl_exec_parts

  iapply (dmaWait_step m c _ (K (c, some (0, 8))) (s1Pay m 8 c) (expect_s1 m c 8) (rest_s1 m c 8) (slotM psM 8) rfl (owed c 16 16) _) $$ [Hcs1_8 HO Hps1_8]
  · isplitr; · iapply (inv_at m K (c, some (0, 8))); iexact HI
    isplitl [Hcs1_8]; · iexact Hcs1_8
    isplitl [HO]; · iexact HO
    isplitr
    · iapply (mayWait_owed c (.dma (s1S 8)) 16 16 (fun k hk => by have := k.isLt; rw [lv_s1]; omega) (fun k hk => by have := k.isLt; rw [lv_s1]; omega)); iexact Hlev
    iexact Hps1_8
  iintro ⟨HO, Hzs1_8, Hps8L⟩
  unfold s1Pay

  sl_exec_parts

  iapply (dmaWait_step m c _ (K (c, some (2, 8))) (s2Pay m 8 c) (expect_s2 m c 8) (rest_s2 m c 8) (slotM cvM 8) rfl (owed c 16 16) _) $$ [Hcs2_8 HO Hps2_8]
  · isplitr; · iapply (inv_at m K (c, some (2, 8))); iexact HI
    isplitl [Hcs2_8]; · iexact Hcs2_8
    isplitl [HO]; · iexact HO
    isplitr
    · iapply (mayWait_owed c (.dma (s2S 8)) 16 16 (fun k hk => by have := k.isLt; rw [lv_s2]; omega) (fun k hk => by have := k.isLt; rw [lv_s2]; omega)); iexact Hlev
    iexact Hps2_8
  iintro ⟨HO, Hzs2_8, Hcv8L⟩
  unfold s2Pay

  sl_exec_parts

  -- chunk 9, the last round: the partner's finished chunk has landed in the result array; the local copy is waited for; the
  -- two read-outs give the lent shares back

  iapply (dmaWait_step m c _ (K (c, some (3, 9))) (r2Pay m 9 c) (expect_r2 m c 9) (rest_r2 m c 9) (oM.slice (Rect.unit (s := S2048x2048) (k0_off11 c) S1024x128.size (k0_off11_inb c)) (fun _ => rfl)) rfl (owed c 16 16) _) $$ [Hcr2_9 HO Hpr2_9]
  · isplitr; · iapply (inv_at m K (c, some (3, 9))); iexact HI
    isplitl [Hcr2_9]; · iexact Hcr2_9
    isplitl [HO]; · iexact HO
    isplitr
    · iapply (mayWait_owed c (.dma (r2S 9)) 16 16 (fun k hk => by have := k.isLt; rw [lv_r2]; omega) (fun k hk => by have := k.isLt; rw [lv_r2]; omega)); iexact Hlev
    iexact Hpr2_9
  iintro ⟨HO, Hzr2_9, HoutR9⟩
  unfold r2Pay

  sl_exec_parts

  iapply (dmaWait_step m c _ (K (c, some (0, 9))) (s1Pay m 9 c) (expect_s1 m c 9) (rest_s1 m c 9) (slotM psM 9) rfl (owed c 16 16) _) $$ [Hcs1_9 HO Hps1_9]
  · isplitr; · iapply (inv_at m K (c, some (0, 9))); iexact HI
    isplitl [Hcs1_9]; · iexact Hcs1_9
    isplitl [HO]; · iexact HO
    isplitr
    · iapply (mayWait_owed c (.dma (s1S 9)) 16 16 (fun k hk => by have := k.isLt; rw [lv_s1]; omega) (fun k hk => by have := k.isLt; rw [lv_s1]; omega)); iexact Hlev
    iexact Hps1_9
  iintro ⟨HO, Hzs1_9, Hps9L⟩
  unfold s1Pay

  sl_exec_parts

  iapply (dmaWait_step m c _ (K (c, some (2, 9))) (s2Pay m 9 c) (expect_s2 m c 9) (rest_s2 m c 9) (slotM cvM 9) rfl (owed c 16 16) _) $$ [Hcs2_9 HO Hps2_9]
  · isplitr; · iapply (inv_at m K (c, some (2, 9))); iexact HI
    isplitl [Hcs2_9]; · iexact Hcs2_9
    isplitl [HO]; · iexact HO
    isplitr
    · iapply (mayWait_owed c (.dma (s2S 9)) 16 16 (fun k hk => by have := k.isLt; rw [lv_s2]; omega) (fun k hk => by have := k.isLt; rw [lv_s2]; omega)); iexact Hlev
    iexact Hps2_9
  iintro ⟨HO, Hzs2_9, Hcv9L⟩
  unfold s2Pay

  sl_exec_parts

  -- chunk 10, the last round: the partner's finished chunk has landed in the result array; the local copy is waited for; the
  -- two read-outs give the lent shares back

  iapply (dmaWait_step m c _ (K (c, some (3, 10))) (r2Pay m 10 c) (expect_r2 m c 10) (rest_r2 m c 10) (oM.slice (Rect.unit (s := S2048x2048) (k0_off12 c) S1024x128.size (k0_off12_inb c)) (fun _ => rfl)) rfl (owed c 16 16) _) $$ [Hcr2_10 HO Hpr2_10]
  · isplitr; · iapply (inv_at m K (c, some (3, 10))); iexact HI
    isplitl [Hcr2_10]; · iexact Hcr2_10
    isplitl [HO]; · iexact HO
    isplitr
    · iapply (mayWait_owed c (.dma (r2S 10)) 16 16 (fun k hk => by have := k.isLt; rw [lv_r2]; omega) (fun k hk => by have := k.isLt; rw [lv_r2]; omega)); iexact Hlev
    iexact Hpr2_10
  iintro ⟨HO, Hzr2_10, HoutR10⟩
  unfold r2Pay

  sl_exec_parts

  iapply (dmaWait_step m c _ (K (c, some (0, 10))) (s1Pay m 10 c) (expect_s1 m c 10) (rest_s1 m c 10) (slotM psM 10) rfl (owed c 16 16) _) $$ [Hcs1_10 HO Hps1_10]
  · isplitr; · iapply (inv_at m K (c, some (0, 10))); iexact HI
    isplitl [Hcs1_10]; · iexact Hcs1_10
    isplitl [HO]; · iexact HO
    isplitr
    · iapply (mayWait_owed c (.dma (s1S 10)) 16 16 (fun k hk => by have := k.isLt; rw [lv_s1]; omega) (fun k hk => by have := k.isLt; rw [lv_s1]; omega)); iexact Hlev
    iexact Hps1_10
  iintro ⟨HO, Hzs1_10, Hps10L⟩
  unfold s1Pay

  sl_exec_parts

  iapply (dmaWait_step m c _ (K (c, some (2, 10))) (s2Pay m 10 c) (expect_s2 m c 10) (rest_s2 m c 10) (slotM cvM 10) rfl (owed c 16 16) _) $$ [Hcs2_10 HO Hps2_10]
  · isplitr; · iapply (inv_at m K (c, some (2, 10))); iexact HI
    isplitl [Hcs2_10]; · iexact Hcs2_10
    isplitl [HO]; · iexact HO
    isplitr
    · iapply (mayWait_owed c (.dma (s2S 10)) 16 16 (fun k hk => by have := k.isLt; rw [lv_s2]; omega) (fun k hk => by have := k.isLt; rw [lv_s2]; omega)); iexact Hlev
    iexact Hps2_10
  iintro ⟨HO, Hzs2_10, Hcv10L⟩
  unfold s2Pay

  sl_exec_parts

  -- chunk 11, the last round: the partner's finished chunk has landed in the result array; the local copy is waited for; the
  -- two read-outs give the lent shares back

  iapply (dmaWait_step m c _ (K (c, some (3, 11))) (r2Pay m 11 c) (expect_r2 m c 11) (rest_r2 m c 11) (oM.slice (Rect.unit (s := S2048x2048) (k0_off13 c) S1024x128.size (k0_off13_inb c)) (fun _ => rfl)) rfl (owed c 16 16) _) $$ [Hcr2_11 HO Hpr2_11]
  · isplitr; · iapply (inv_at m K (c, some (3, 11))); iexact HI
    isplitl [Hcr2_11]; · iexact Hcr2_11
    isplitl [HO]; · iexact HO
    isplitr
    · iapply (mayWait_owed c (.dma (r2S 11)) 16 16 (fun k hk => by have := k.isLt; rw [lv_r2]; omega) (fun k hk => by have := k.isLt; rw [lv_r2]; omega)); iexact Hlev
    iexact Hpr2_11
  iintro ⟨HO, Hzr2_11, HoutR11⟩
  unfold r2Pay

  sl_exec_parts

  iapply (dmaWait_step m c _ (K (c, some (0, 11))) (s1Pay m 11 c) (expect_s1 m c 11) (rest_s1 m c 11) (slotM psM 11) rfl (owed c 16 16) _) $$ [Hcs1_11 HO Hps1_11]
  · isplitr; · iapply (inv_at m K (c, some (0, 11))); iexact HI
    isplitl [Hcs1_11]; · iexact Hcs1_11
    isplitl [HO]; · iexact HO
    isplitr
    · iapply (mayWait_owed c (.dma (s1S 11)) 16 16 (fun k hk => by have := k.isLt; rw [lv_s1]; omega) (fun k hk => by have := k.isLt; rw [lv_s1]; omega)); iexact Hlev
    iexact Hps1_11
  iintro ⟨HO, Hzs1_11, Hps11L⟩
  unfold s1Pay

  sl_exec_parts

  iapply (dmaWait_step m c _ (K (c, some (2, 11))) (s2Pay m 11 c) (expect_s2 m c 11) (rest_s2 m c 11) (slotM cvM 11) rfl (owed c 16 16) _) $$ [Hcs2_11 HO Hps2_11]
  · isplitr; · iapply (inv_at m K (c, some (2, 11))); iexact HI
    isplitl [Hcs2_11]; · iexact Hcs2_11
    isplitl [HO]; · iexact HO
    isplitr
    · iapply (mayWait_owed c (.dma (s2S 11)) 16 16 (fun k hk => by have := k.isLt; rw [lv_s2]; omega) (fun k hk => by have := k.isLt; rw [lv_s2]; omega)); iexact Hlev
    iexact Hps2_11
  iintro ⟨HO, Hzs2_11, Hcv11L⟩
  unfold s2Pay

  sl_exec_parts

  -- chunk 12, the last round: the partner's finished chunk has landed in the result array; the local copy is waited for; the
  -- two read-outs give the lent shares back

  iapply (dmaWait_step m c _ (K (c, some (3, 12))) (r2Pay m 12 c) (expect_r2 m c 12) (rest_r2 m c 12) (oM.slice (Rect.unit (s := S2048x2048) (k0_off14 c) S1024x128.size (k0_off14_inb c)) (fun _ => rfl)) rfl (owed c 16 16) _) $$ [Hcr2_12 HO Hpr2_12]
  · isplitr; · iapply (inv_at m K (c, some (3, 12))); iexact HI
    isplitl [Hcr2_12]; · iexact Hcr2_12
    isplitl [HO]; · iexact HO
    isplitr
    · iapply (mayWait_owed c (.dma (r2S 12)) 16 16 (fun k hk => by have := k.isLt; rw [lv_r2]; omega) (fun k hk => by have := k.isLt; rw [lv_r2]; omega)); iexact Hlev
    iexact Hpr2_12
  iintro ⟨HO, Hzr2_12, HoutR12⟩
  unfold r2Pay

  sl_exec_parts

  iapply (dmaWait_step m c _ (K (c, some (0, 12))) (s1Pay m 12 c) (expect_s1 m c 12) (rest_s1 m c 12) (slotM psM 12) rfl (owed c 16 16) _) $$ [Hcs1_12 HO Hps1_12]
  · isplitr; · iapply (inv_at m K (c, some (0, 12))); iexact HI
    isplitl [Hcs1_12]; · iexact Hcs1_12
    isplitl [HO]; · iexact HO
    isplitr
    · iapply (mayWait_owed c (.dma (s1S 12)) 16 16 (fun k hk => by have := k.isLt; rw [lv_s1]; omega) (fun k hk => by have := k.isLt; rw [lv_s1]; omega)); iexact Hlev
    iexact Hps1_12
  iintro ⟨HO, Hzs1_12, Hps12L⟩
  unfold s1Pay

  sl_exec_parts

  iapply (dmaWait_step m c _ (K (c, some (2, 12))) (s2Pay m 12 c) (expect_s2 m c 12) (rest_s2 m c 12) (slotM cvM 12) rfl (owed c 16 16) _) $$ [Hcs2_12 HO Hps2_12]
  · isplitr; · iapply (inv_at m K (c, some (2, 12))); iexact HI
    isplitl [Hcs2_12]; · iexact Hcs2_12
    isplitl [HO]; · iexact HO
    isplitr
    · iapply (mayWait_owed c (.dma (s2S 12)) 16 16 (fun k hk => by have := k.isLt; rw [lv_s2]; omega) (fun k hk => by have := k.isLt; rw [lv_s2]; omega)); iexact Hlev
    iexact Hps2_12
  iintro ⟨HO, Hzs2_12, Hcv12L⟩
  unfold s2Pay

  sl_exec_parts

  -- chunk 13, the last round: the partner's finished chunk has landed in the result array; the local copy is waited for; the
  -- two read-outs give the lent shares back

  iapply (dmaWait_step m c _ (K (c, some (3, 13))) (r2Pay m 13 c) (expect_r2 m c 13) (rest_r2 m c 13) (oM.slice (Rect.unit (s := S2048x2048) (k0_off15 c) S1024x128.size (k0_off15_inb c)) (fun _ => rfl)) rfl (owed c 16 16) _) $$ [Hcr2_13 HO Hpr2_13]
  · isplitr; · iapply (inv_at m K (c, some (3, 13))); iexact HI
    isplitl [Hcr2_13]; · iexact Hcr2_13
    isplitl [HO]; · iexact HO
    isplitr
    · iapply (mayWait_owed c (.dma (r2S 13)) 16 16 (fun k hk => by have := k.isLt; rw [lv_r2]; omega) (fun k hk => by have := k.isLt; rw [lv_r2]; omega)); iexact Hlev
    iexact Hpr2_13
  iintro ⟨HO, Hzr2_13, HoutR13⟩
  unfold r2Pay

  sl_exec_parts

  iapply (dmaWait_step m c _ (K (c, some (0, 13))) (s1Pay m 13 c) (expect_s1 m c 13) (rest_s1 m c 13) (slotM psM 13) rfl (owed c 16 16) _) $$ [Hcs1_13 HO Hps1_13]
  · isplitr; · iapply (inv_at m K (c, some (0, 13))); iexact HI
    isplitl [Hcs1_13]; · iexact Hcs1_13
    isplitl [HO]; · iexact HO
    isplitr
    · iapply (mayWait_owed c (.dma (s1S 13)) 16 16 (fun k hk => by have := k.isLt; rw [lv_s1]; omega) (fun k hk => by have := k.isLt; rw [lv_s1]; omega)); iexact Hlev
    iexact Hps1_13
  iintro ⟨HO, Hzs1_13, Hps13L⟩
  unfold s1Pay

  sl_exec_parts

  iapply (dmaWait_step m c _ (K (c, some (2, 13))) (s2Pay m 13 c) (expect_s2 m c 13) (rest_s2 m c 13) (slotM cvM 13) rfl (owed c 16 16) _) $$ [Hcs2_13 HO Hps2_13]
  · isplitr; · iapply (inv_at m K (c, some (2, 13))); iexact HI
    isplitl [Hcs2_13]; · iexact Hcs2_13
    isplitl [HO]; · iexact HO
    isplitr
    · iapply (mayWait_owed c (.dma (s2S 13)) 16 16 (fun k hk => by have := k.isLt; rw [lv_s2]; omega) (fun k hk => by have := k.isLt; rw [lv_s2]; omega)); iexact Hlev
    iexact Hps2_13
  iintro ⟨HO, Hzs2_13, Hcv13L⟩
  unfold s2Pay

  sl_exec_parts

  -- chunk 14, the last round: the partner's finished chunk has landed in the result array; the local copy is waited for; the
  -- two read-outs give the lent shares back

  iapply (dmaWait_step m c _ (K (c, some (3, 14))) (r2Pay m 14 c) (expect_r2 m c 14) (rest_r2 m c 14) (oM.slice (Rect.unit (s := S2048x2048) (k0_off16 c) S1024x128.size (k0_off16_inb c)) (fun _ => rfl)) rfl (owed c 16 16) _) $$ [Hcr2_14 HO Hpr2_14]
  · isplitr; · iapply (inv_at m K (c, some (3, 14))); iexact HI
    isplitl [Hcr2_14]; · iexact Hcr2_14
    isplitl [HO]; · iexact HO
    isplitr
    · iapply (mayWait_owed c (.dma (r2S 14)) 16 16 (fun k hk => by have := k.isLt; rw [lv_r2]; omega) (fun k hk => by have := k.isLt; rw [lv_r2]; omega)); iexact Hlev
    iexact Hpr2_14
  iintro ⟨HO, Hzr2_14, HoutR14⟩
  unfold r2Pay

  sl_exec_parts

  iapply (dmaWait_step m c _ (K (c, some (0, 14))) (s1Pay m 14 c) (expect_s1 m c 14) (rest_s1 m c 14) (slotM psM 14) rfl (owed c 16 16) _) $$ [Hcs1_14 HO Hps1_14]
  · isplitr; · iapply (inv_at m K (c, some (0, 14))); iexact HI
    isplitl [Hcs1_14]; · iexact Hcs1_14
    isplitl [HO]; · iexact HO
    isplitr
    · iapply (mayWait_owed c (.dma (s1S 14)) 16 16 (fun k hk => by have := k.isLt; rw [lv_s1]; omega) (fun k hk => by have := k.isLt; rw [lv_s1]; omega)); iexact Hlev
    iexact Hps1_14
  iintro ⟨HO, Hzs1_14, Hps14L⟩
  unfold s1Pay

  sl_exec_parts

  iapply (dmaWait_step m c _ (K (c, some (2, 14))) (s2Pay m 14 c) (expect_s2 m c 14) (rest_s2 m c 14) (slotM cvM 14) rfl (owed c 16 16) _) $$ [Hcs2_14 HO Hps2_14]
  · isplitr; · iapply (inv_at m K (c, some (2, 14))); iexact HI
    isplitl [Hcs2_14]; · iexact Hcs2_14
    isplitl [HO]; · iexact HO
    isplitr
    · iapply (mayWait_owed c (.dma (s2S 14)) 16 16 (fun k hk => by have := k.isLt; rw [lv_s2]; omega) (fun k hk => by have := k.isLt; rw [lv_s2]; omega)); iexact Hlev
    iexact Hps2_14
  iintro ⟨HO, Hzs2_14, Hcv14L⟩
  unfold s2Pay

  sl_exec_parts

  -- chunk 15, the last round: the partner's finished chunk has landed in the result array; the local copy is waited for; the
  -- two read-outs give the lent shares back

  iapply (dmaWait_step m c _ (K (c, some (3, 15))) (r2Pay m 15 c) (expect_r2 m c 15) (rest_r2 m c 15) (oM.slice (Rect.unit (s := S2048x2048) (k0_off17 c) S1024x128.size (k0_off17_inb c)) (fun _ => rfl)) rfl (owed c 16 16) _) $$ [Hcr2_15 HO Hpr2_15]
  · isplitr; · iapply (inv_at m K (c, some (3, 15))); iexact HI
    isplitl [Hcr2_15]; · iexact Hcr2_15
    isplitl [HO]; · iexact HO
    isplitr
    · iapply (mayWait_owed c (.dma (r2S 15)) 16 16 (fun k hk => by have := k.isLt; rw [lv_r2]; omega) (fun k hk => by have := k.isLt; rw [lv_r2]; omega)); iexact Hlev
    iexact Hpr2_15
  iintro ⟨HO, Hzr2_15, HoutR15⟩
  unfold r2Pay

  sl_exec_parts

  iapply (dmaWait_step m c _ (K (c, some (0, 15))) (s1Pay m 15 c) (expect_s1 m c 15) (rest_s1 m c 15) (slotM psM 15) rfl (owed c 16 16) _) $$ [Hcs1_15 HO Hps1_15]
  · isplitr; · iapply (inv_at m K (c, some (0, 15))); iexact HI
    isplitl [Hcs1_15]; · iexact Hcs1_15
    isplitl [HO]; · iexact HO
    isplitr
    · iapply (mayWait_owed c (.dma (s1S 15)) 16 16 (fun k hk => by have := k.isLt; rw [lv_s1]; omega) (fun k hk => by have := k.isLt; rw [lv_s1]; omega)); iexact Hlev
    iexact Hps1_15
  iintro ⟨HO, Hzs1_15, Hps15L⟩
  unfold s1Pay

  sl_exec_parts

  iapply (dmaWait_step m c _ (K (c, some (2, 15))) (s2Pay m 15 c) (expect_s2 m c 15) (rest_s2 m c 15) (slotM cvM 15) rfl (owed c 16 16) _) $$ [Hcs2_15 HO Hps2_15]
  · isplitr; · iapply (inv_at m K (c, some (2, 15))); iexact HI
    isplitl [Hcs2_15]; · iexact Hcs2_15
    isplitl [HO]; · iexact HO
    isplitr
    · iapply (mayWait_owed c (.dma (s2S 15)) 16 16 (fun k hk => by have := k.isLt; rw [lv_s2]; omega) (fun k hk => by have := k.isLt; rw [lv_s2]; omega)); iexact Hlev
    iexact Hps2_15
  iintro ⟨HO, Hzs2_15, Hcv15L⟩
  unfold s2Pay

  sl_exec_parts

  -- the end: every share and slot is put back, and the invariant after the point is handed over
  sl_step
  iapply Hk
  ihave Hps0 := (slot_shares (F := F) psM c 0 (psFull m c)).2 $$ [Hps0L Hps0K]
  · isplitl [Hps0L]; · iexact Hps0L
    iexact Hps0K
  ihave Hcv0 := (slot_shares (F := F) cvM c 0 (cvFull m c)).2 $$ [Hcv0L Hcv0K]
  · isplitl [Hcv0L]; · iexact Hcv0L
    iexact Hcv0K
  ihave Hout0 := (Entails.of_eq (outPts_printed (F := F) c c 0 (off_eq_2 c) (k0_off2_inb c) _)) $$ Hout0
  unfold outPts
  ihave Hout0 := (Entails.of_eq (pointsTo_congr (out_local m c 0 (off_eq_2 c) (k0_off2_inb c) (cvFull m c) (fun _ _ => rfl) fo []))) $$ Hout0
  ihave Hps1 := (slot_shares (F := F) psM c 1 (psFull m c)).2 $$ [Hps1L Hps1K]
  · isplitl [Hps1L]; · iexact Hps1L
    iexact Hps1K
  ihave Hcv1 := (slot_shares (F := F) cvM c 1 (cvFull m c)).2 $$ [Hcv1L Hcv1K]
  · isplitl [Hcv1L]; · iexact Hcv1L
    iexact Hcv1K
  ihave Hout1 := (Entails.of_eq (outPts_printed (F := F) c c 1 (off_eq_3 c) (k0_off3_inb c) _)) $$ Hout1
  unfold outPts
  ihave Hout1 := (Entails.of_eq (pointsTo_congr (out_local m c 1 (off_eq_3 c) (k0_off3_inb c) (cvFull m c) (fun _ _ => rfl) fo []))) $$ Hout1
  ihave Hps2 := (slot_shares (F := F) psM c 2 (psFull m c)).2 $$ [Hps2L Hps2K]
  · isplitl [Hps2L]; · iexact Hps2L
    iexact Hps2K
  ihave Hcv2 := (slot_shares (F := F) cvM c 2 (cvFull m c)).2 $$ [Hcv2L Hcv2K]
  · isplitl [Hcv2L]; · iexact Hcv2L
    iexact Hcv2K
  ihave Hout2 := (Entails.of_eq (outPts_printed (F := F) c c 2 (off_eq_4 c) (k0_off4_inb c) _)) $$ Hout2
  unfold outPts
  ihave Hout2 := (Entails.of_eq (pointsTo_congr (out_local m c 2 (off_eq_4 c) (k0_off4_inb c) (cvFull m c) (fun _ _ => rfl) fo []))) $$ Hout2
  ihave Hps3 := (slot_shares (F := F) psM c 3 (psFull m c)).2 $$ [Hps3L Hps3K]
  · isplitl [Hps3L]; · iexact Hps3L
    iexact Hps3K
  ihave Hcv3 := (slot_shares (F := F) cvM c 3 (cvFull m c)).2 $$ [Hcv3L Hcv3K]
  · isplitl [Hcv3L]; · iexact Hcv3L
    iexact Hcv3K
  ihave Hout3 := (Entails.of_eq (outPts_printed (F := F) c c 3 (off_eq_5 c) (k0_off5_inb c) _)) $$ Hout3
  unfold outPts
  ihave Hout3 := (Entails.of_eq (pointsTo_congr (out_local m c 3 (off_eq_5 c) (k0_off5_inb c) (cvFull m c) (fun _ _ => rfl) fo []))) $$ Hout3
  ihave Hps4 := (slot_shares (F := F) psM c 4 (psFull m c)).2 $$ [Hps4L Hps4K]
  · isplitl [Hps4L]; · iexact Hps4L
    iexact Hps4K
  ihave Hcv4 := (slot_shares (F := F) cvM c 4 (cvFull m c)).2 $$ [Hcv4L Hcv4K]
  · isplitl [Hcv4L]; · iexact Hcv4L
    iexact Hcv4K
  ihave Hout4 := (Entails.of_eq (outPts_printed (F := F) c c 4 (off_eq_6 c) (k0_off6_inb c) _)) $$ Hout4
  unfold outPts
  ihave Hout4 := (Entails.of_eq (pointsTo_congr (out_local m c 4 (off_eq_6 c) (k0_off6_inb c) (cvFull m c) (fun _ _ => rfl) fo []))) $$ Hout4
  ihave Hps5 := (slot_shares (F := F) psM c 5 (psFull m c)).2 $$ [Hps5L Hps5K]
  · isplitl [Hps5L]; · iexact Hps5L
    iexact Hps5K
  ihave Hcv5 := (slot_shares (F := F) cvM c 5 (cvFull m c)).2 $$ [Hcv5L Hcv5K]
  · isplitl [Hcv5L]; · iexact Hcv5L
    iexact Hcv5K
  ihave Hout5 := (Entails.of_eq (outPts_printed (F := F) c c 5 (off_eq_7 c) (k0_off7_inb c) _)) $$ Hout5
  unfold outPts
  ihave Hout5 := (Entails.of_eq (pointsTo_congr (out_local m c 5 (off_eq_7 c) (k0_off7_inb c) (cvFull m c) (fun _ _ => rfl) fo []))) $$ Hout5
  ihave Hps6 := (slot_shares (F := F) psM c 6 (psFull m c)).2 $$ [Hps6L Hps6K]
  · isplitl [Hps6L]; · iexact Hps6L
    iexact Hps6K
  ihave Hcv6 := (slot_shares (F := F) cvM c 6 (cvFull m c)).2 $$ [Hcv6L Hcv6K]
  · isplitl [Hcv6L]; · iexact Hcv6L
    iexact Hcv6K
  ihave Hout6 := (Entails.of_eq (outPts_printed (F := F) c c 6 (off_eq_8 c) (k0_off8_inb c) _)) $$ Hout6
  unfold outPts
  ihave Hout6 := (Entails.of_eq (pointsTo_congr (out_local m c 6 (off_eq_8 c) (k0_off8_inb c) (cvFull m c) (fun _ _ => rfl) fo []))) $$ Hout6
  ihave Hps7 := (slot_shares (F := F) psM c 7 (psFull m c)).2 $$ [Hps7L Hps7K]
  · isplitl [Hps7L]; · iexact Hps7L
    iexact Hps7K
  ihave Hcv7 := (slot_shares (F := F) cvM c 7 (cvFull m c)).2 $$ [Hcv7L Hcv7K]
  · isplitl [Hcv7L]; · iexact Hcv7L
    iexact Hcv7K
  ihave Hout7 := (Entails.of_eq (outPts_printed (F := F) c c 7 (off_eq_9 c) (k0_off9_inb c) _)) $$ Hout7
  unfold outPts
  ihave Hout7 := (Entails.of_eq (pointsTo_congr (out_local m c 7 (off_eq_9 c) (k0_off9_inb c) (cvFull m c) (fun _ _ => rfl) fo []))) $$ Hout7
  ihave Hps8 := (slot_shares (F := F) psM c 8 (psFull m c)).2 $$ [Hps8L Hps8K]
  · isplitl [Hps8L]; · iexact Hps8L
    iexact Hps8K
  ihave Hcv8 := (slot_shares (F := F) cvM c 8 (cvFull m c)).2 $$ [Hcv8L Hcv8K]
  · isplitl [Hcv8L]; · iexact Hcv8L
    iexact Hcv8K
  ihave Hout8 := (Entails.of_eq (outPts_printed (F := F) c c 8 (off_eq_10 c) (k0_off10_inb c) _)) $$ Hout8
  unfold outPts
  ihave Hout8 := (Entails.of_eq (pointsTo_congr (out_local m c 8 (off_eq_10 c) (k0_off10_inb c) (cvFull m c) (fun _ _ => rfl) fo []))) $$ Hout8
  ihave Hps9 := (slot_shares (F := F) psM c 9 (psFull m c)).2 $$ [Hps9L Hps9K]
  · isplitl [Hps9L]; · iexact Hps9L
    iexact Hps9K
  ihave Hcv9 := (slot_shares (F := F) cvM c 9 (cvFull m c)).2 $$ [Hcv9L Hcv9K]
  · isplitl [Hcv9L]; · iexact Hcv9L
    iexact Hcv9K
  ihave Hout9 := (Entails.of_eq (outPts_printed (F := F) c c 9 (off_eq_11 c) (k0_off11_inb c) _)) $$ Hout9
  unfold outPts
  ihave Hout9 := (Entails.of_eq (pointsTo_congr (out_local m c 9 (off_eq_11 c) (k0_off11_inb c) (cvFull m c) (fun _ _ => rfl) fo []))) $$ Hout9
  ihave Hps10 := (slot_shares (F := F) psM c 10 (psFull m c)).2 $$ [Hps10L Hps10K]
  · isplitl [Hps10L]; · iexact Hps10L
    iexact Hps10K
  ihave Hcv10 := (slot_shares (F := F) cvM c 10 (cvFull m c)).2 $$ [Hcv10L Hcv10K]
  · isplitl [Hcv10L]; · iexact Hcv10L
    iexact Hcv10K
  ihave Hout10 := (Entails.of_eq (outPts_printed (F := F) c c 10 (off_eq_12 c) (k0_off12_inb c) _)) $$ Hout10
  unfold outPts
  ihave Hout10 := (Entails.of_eq (pointsTo_congr (out_local m c 10 (off_eq_12 c) (k0_off12_inb c) (cvFull m c) (fun _ _ => rfl) fo []))) $$ Hout10
  ihave Hps11 := (slot_shares (F := F) psM c 11 (psFull m c)).2 $$ [Hps11L Hps11K]
  · isplitl [Hps11L]; · iexact Hps11L
    iexact Hps11K
  ihave Hcv11 := (slot_shares (F := F) cvM c 11 (cvFull m c)).2 $$ [Hcv11L Hcv11K]
  · isplitl [Hcv11L]; · iexact Hcv11L
    iexact Hcv11K
  ihave Hout11 := (Entails.of_eq (outPts_printed (F := F) c c 11 (off_eq_13 c) (k0_off13_inb c) _)) $$ Hout11
  unfold outPts
  ihave Hout11 := (Entails.of_eq (pointsTo_congr (out_local m c 11 (off_eq_13 c) (k0_off13_inb c) (cvFull m c) (fun _ _ => rfl) fo []))) $$ Hout11
  ihave Hps12 := (slot_shares (F := F) psM c 12 (psFull m c)).2 $$ [Hps12L Hps12K]
  · isplitl [Hps12L]; · iexact Hps12L
    iexact Hps12K
  ihave Hcv12 := (slot_shares (F := F) cvM c 12 (cvFull m c)).2 $$ [Hcv12L Hcv12K]
  · isplitl [Hcv12L]; · iexact Hcv12L
    iexact Hcv12K
  ihave Hout12 := (Entails.of_eq (outPts_printed (F := F) c c 12 (off_eq_14 c) (k0_off14_inb c) _)) $$ Hout12
  unfold outPts
  ihave Hout12 := (Entails.of_eq (pointsTo_congr (out_local m c 12 (off_eq_14 c) (k0_off14_inb c) (cvFull m c) (fun _ _ => rfl) fo []))) $$ Hout12
  ihave Hps13 := (slot_shares (F := F) psM c 13 (psFull m c)).2 $$ [Hps13L Hps13K]
  · isplitl [Hps13L]; · iexact Hps13L
    iexact Hps13K
  ihave Hcv13 := (slot_shares (F := F) cvM c 13 (cvFull m c)).2 $$ [Hcv13L Hcv13K]
  · isplitl [Hcv13L]; · iexact Hcv13L
    iexact Hcv13K
  ihave Hout13 := (Entails.of_eq (outPts_printed (F := F) c c 13 (off_eq_15 c) (k0_off15_inb c) _)) $$ Hout13
  unfold outPts
  ihave Hout13 := (Entails.of_eq (pointsTo_congr (out_local m c 13 (off_eq_15 c) (k0_off15_inb c) (cvFull m c) (fun _ _ => rfl) fo []))) $$ Hout13
  ihave Hps14 := (slot_shares (F := F) psM c 14 (psFull m c)).2 $$ [Hps14L Hps14K]
  · isplitl [Hps14L]; · iexact Hps14L
    iexact Hps14K
  ihave Hcv14 := (slot_shares (F := F) cvM c 14 (cvFull m c)).2 $$ [Hcv14L Hcv14K]
  · isplitl [Hcv14L]; · iexact Hcv14L
    iexact Hcv14K
  ihave Hout14 := (Entails.of_eq (outPts_printed (F := F) c c 14 (off_eq_16 c) (k0_off16_inb c) _)) $$ Hout14
  unfold outPts
  ihave Hout14 := (Entails.of_eq (pointsTo_congr (out_local m c 14 (off_eq_16 c) (k0_off16_inb c) (cvFull m c) (fun _ _ => rfl) fo []))) $$ Hout14
  ihave Hps15 := (slot_shares (F := F) psM c 15 (psFull m c)).2 $$ [Hps15L Hps15K]
  · isplitl [Hps15L]; · iexact Hps15L
    iexact Hps15K
  ihave Hcv15 := (slot_shares (F := F) cvM c 15 (cvFull m c)).2 $$ [Hcv15L Hcv15K]
  · isplitl [Hcv15L]; · iexact Hcv15L
    iexact Hcv15K
  ihave Hout15 := (Entails.of_eq (outPts_printed (F := F) c c 15 (off_eq_17 c) (k0_off17_inb c) _)) $$ Hout15
  unfold outPts
  ihave Hout15 := (Entails.of_eq (pointsTo_congr (out_local m c 15 (off_eq_17 c) (k0_off17_inb c) (cvFull m c) (fun _ _ => rfl) fo []))) $$ Hout15
  ihave Hps := (Entails.of_eq ((split16 (F := F) psM (Memref.isWhole_whole _) c fullShare (psFull m c)).trans (bigSep_fin16 _)).symm) $$ [Hps0 Hps1 Hps2 Hps3 Hps4 Hps5 Hps6 Hps7 Hps8 Hps9 Hps10 Hps11 Hps12 Hps13 Hps14 Hps15]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    isplitl [Hps7]; · iexact Hps7
    isplitl [Hps8]; · iexact Hps8
    isplitl [Hps9]; · iexact Hps9
    isplitl [Hps10]; · iexact Hps10
    isplitl [Hps11]; · iexact Hps11
    isplitl [Hps12]; · iexact Hps12
    isplitl [Hps13]; · iexact Hps13
    isplitl [Hps14]; · iexact Hps14
    iexact Hps15
  ihave Hcv := (Entails.of_eq ((split16 (F := F) cvM (Memref.isWhole_whole _) c fullShare (cvFull m c)).trans (bigSep_fin16 _)).symm) $$ [Hcv0 Hcv1 Hcv2 Hcv3 Hcv4 Hcv5 Hcv6 Hcv7 Hcv8 Hcv9 Hcv10 Hcv11 Hcv12 Hcv13 Hcv14 Hcv15]
  · isplitl [Hcv0]; · iexact Hcv0
    isplitl [Hcv1]; · iexact Hcv1
    isplitl [Hcv2]; · iexact Hcv2
    isplitl [Hcv3]; · iexact Hcv3
    isplitl [Hcv4]; · iexact Hcv4
    isplitl [Hcv5]; · iexact Hcv5
    isplitl [Hcv6]; · iexact Hcv6
    isplitl [Hcv7]; · iexact Hcv7
    isplitl [Hcv8]; · iexact Hcv8
    isplitl [Hcv9]; · iexact Hcv9
    isplitl [Hcv10]; · iexact Hcv10
    isplitl [Hcv11]; · iexact Hcv11
    isplitl [Hcv12]; · iexact Hcv12
    isplitl [Hcv13]; · iexact Hcv13
    isplitl [Hcv14]; · iexact Hcv14
    iexact Hcv15
  ihave Hpr := (Entails.of_eq ((split16 (F := F) prM (Memref.isWhole_whole _) c fullShare (prFull m c)).trans (bigSep_fin16 _)).symm) $$ [Hpr0 Hpr1 Hpr2 Hpr3 Hpr4 Hpr5 Hpr6 Hpr7 Hpr8 Hpr9 Hpr10 Hpr11 Hpr12 Hpr13 Hpr14 Hpr15]
  · isplitl [Hpr0]; · iexact Hpr0
    isplitl [Hpr1]; · iexact Hpr1
    isplitl [Hpr2]; · iexact Hpr2
    isplitl [Hpr3]; · iexact Hpr3
    isplitl [Hpr4]; · iexact Hpr4
    isplitl [Hpr5]; · iexact Hpr5
    isplitl [Hpr6]; · iexact Hpr6
    isplitl [Hpr7]; · iexact Hpr7
    isplitl [Hpr8]; · iexact Hpr8
    isplitl [Hpr9]; · iexact Hpr9
    isplitl [Hpr10]; · iexact Hpr10
    isplitl [Hpr11]; · iexact Hpr11
    isplitl [Hpr12]; · iexact Hpr12
    isplitl [Hpr13]; · iexact Hpr13
    isplitl [Hpr14]; · iexact Hpr14
    iexact Hpr15
  ihave Hbv := (join2 (F := F) c _ _) $$ [Hbv0 Hbv1]
  · isplitl [Hbv0] <;> iassumption
  ihave HOutC := (Entails.of_eq ((splitRows (F := F) c c (outFull m c)).trans (bigSep_fin16 _)).symm) $$ [Hout0 Hout1 Hout2 Hout3 Hout4 Hout5 Hout6 Hout7 Hout8 Hout9 Hout10 Hout11 Hout12 Hout13 Hout14 Hout15]
  · isplitl [Hout0]; · iexact Hout0
    isplitl [Hout1]; · iexact Hout1
    isplitl [Hout2]; · iexact Hout2
    isplitl [Hout3]; · iexact Hout3
    isplitl [Hout4]; · iexact Hout4
    isplitl [Hout5]; · iexact Hout5
    isplitl [Hout6]; · iexact Hout6
    isplitl [Hout7]; · iexact Hout7
    isplitl [Hout8]; · iexact Hout8
    isplitl [Hout9]; · iexact Hout9
    isplitl [Hout10]; · iexact Hout10
    isplitl [Hout11]; · iexact Hout11
    isplitl [Hout12]; · iexact Hout12
    isplitl [Hout13]; · iexact Hout13
    isplitl [Hout14]; · iexact Hout14
    iexact Hout15
  ihave HOutY := (Entails.of_eq ((splitRows (F := F) c (yn c) (outFull m c)).trans (bigSep_fin16 _)).symm) $$ [HoutR0 HoutR1 HoutR2 HoutR3 HoutR4 HoutR5 HoutR6 HoutR7 HoutR8 HoutR9 HoutR10 HoutR11 HoutR12 HoutR13 HoutR14 HoutR15]
  · isplitl [HoutR0]; · iexact HoutR0
    isplitl [HoutR1]; · iexact HoutR1
    isplitl [HoutR2]; · iexact HoutR2
    isplitl [HoutR3]; · iexact HoutR3
    isplitl [HoutR4]; · iexact HoutR4
    isplitl [HoutR5]; · iexact HoutR5
    isplitl [HoutR6]; · iexact HoutR6
    isplitl [HoutR7]; · iexact HoutR7
    isplitl [HoutR8]; · iexact HoutR8
    isplitl [HoutR9]; · iexact HoutR9
    isplitl [HoutR10]; · iexact HoutR10
    isplitl [HoutR11]; · iexact HoutR11
    isplitl [HoutR12]; · iexact HoutR12
    isplitl [HoutR13]; · iexact HoutR13
    isplitl [HoutR14]; · iexact HoutR14
    iexact HoutR15
  ihave HOut := (Entails.of_eq (splitOut (F := F) c c (outFull m c)).symm) $$ [HOutC HOutY]
  · isplitl [HOutC] <;> iassumption
  ihave Hz0 := (Entails.of_eq (bigSep_fin16 fun j : Fin 16 => (semVal (s1Cell j c) 0 : sProp 𝕄)).symm) $$ [Hzs1_0 Hzs1_1 Hzs1_2 Hzs1_3 Hzs1_4 Hzs1_5 Hzs1_6 Hzs1_7 Hzs1_8 Hzs1_9 Hzs1_10 Hzs1_11 Hzs1_12 Hzs1_13 Hzs1_14 Hzs1_15]
  · isplitl [Hzs1_0]; · iexact Hzs1_0
    isplitl [Hzs1_1]; · iexact Hzs1_1
    isplitl [Hzs1_2]; · iexact Hzs1_2
    isplitl [Hzs1_3]; · iexact Hzs1_3
    isplitl [Hzs1_4]; · iexact Hzs1_4
    isplitl [Hzs1_5]; · iexact Hzs1_5
    isplitl [Hzs1_6]; · iexact Hzs1_6
    isplitl [Hzs1_7]; · iexact Hzs1_7
    isplitl [Hzs1_8]; · iexact Hzs1_8
    isplitl [Hzs1_9]; · iexact Hzs1_9
    isplitl [Hzs1_10]; · iexact Hzs1_10
    isplitl [Hzs1_11]; · iexact Hzs1_11
    isplitl [Hzs1_12]; · iexact Hzs1_12
    isplitl [Hzs1_13]; · iexact Hzs1_13
    isplitl [Hzs1_14]; · iexact Hzs1_14
    iexact Hzs1_15
  ihave Hz1 := (Entails.of_eq (bigSep_fin16 fun j : Fin 16 => (semVal (r1Cell j c) 0 : sProp 𝕄)).symm) $$ [Hzr1_0 Hzr1_1 Hzr1_2 Hzr1_3 Hzr1_4 Hzr1_5 Hzr1_6 Hzr1_7 Hzr1_8 Hzr1_9 Hzr1_10 Hzr1_11 Hzr1_12 Hzr1_13 Hzr1_14 Hzr1_15]
  · isplitl [Hzr1_0]; · iexact Hzr1_0
    isplitl [Hzr1_1]; · iexact Hzr1_1
    isplitl [Hzr1_2]; · iexact Hzr1_2
    isplitl [Hzr1_3]; · iexact Hzr1_3
    isplitl [Hzr1_4]; · iexact Hzr1_4
    isplitl [Hzr1_5]; · iexact Hzr1_5
    isplitl [Hzr1_6]; · iexact Hzr1_6
    isplitl [Hzr1_7]; · iexact Hzr1_7
    isplitl [Hzr1_8]; · iexact Hzr1_8
    isplitl [Hzr1_9]; · iexact Hzr1_9
    isplitl [Hzr1_10]; · iexact Hzr1_10
    isplitl [Hzr1_11]; · iexact Hzr1_11
    isplitl [Hzr1_12]; · iexact Hzr1_12
    isplitl [Hzr1_13]; · iexact Hzr1_13
    isplitl [Hzr1_14]; · iexact Hzr1_14
    iexact Hzr1_15
  ihave Hz2 := (Entails.of_eq (bigSep_fin16 fun j : Fin 16 => (semVal (s2Cell j c) 0 : sProp 𝕄)).symm) $$ [Hzs2_0 Hzs2_1 Hzs2_2 Hzs2_3 Hzs2_4 Hzs2_5 Hzs2_6 Hzs2_7 Hzs2_8 Hzs2_9 Hzs2_10 Hzs2_11 Hzs2_12 Hzs2_13 Hzs2_14 Hzs2_15]
  · isplitl [Hzs2_0]; · iexact Hzs2_0
    isplitl [Hzs2_1]; · iexact Hzs2_1
    isplitl [Hzs2_2]; · iexact Hzs2_2
    isplitl [Hzs2_3]; · iexact Hzs2_3
    isplitl [Hzs2_4]; · iexact Hzs2_4
    isplitl [Hzs2_5]; · iexact Hzs2_5
    isplitl [Hzs2_6]; · iexact Hzs2_6
    isplitl [Hzs2_7]; · iexact Hzs2_7
    isplitl [Hzs2_8]; · iexact Hzs2_8
    isplitl [Hzs2_9]; · iexact Hzs2_9
    isplitl [Hzs2_10]; · iexact Hzs2_10
    isplitl [Hzs2_11]; · iexact Hzs2_11
    isplitl [Hzs2_12]; · iexact Hzs2_12
    isplitl [Hzs2_13]; · iexact Hzs2_13
    isplitl [Hzs2_14]; · iexact Hzs2_14
    iexact Hzs2_15
  ihave Hz3 := (Entails.of_eq (bigSep_fin16 fun j : Fin 16 => (semVal (r2Cell j c) 0 : sProp 𝕄)).symm) $$ [Hzr2_0 Hzr2_1 Hzr2_2 Hzr2_3 Hzr2_4 Hzr2_5 Hzr2_6 Hzr2_7 Hzr2_8 Hzr2_9 Hzr2_10 Hzr2_11 Hzr2_12 Hzr2_13 Hzr2_14 Hzr2_15]
  · isplitl [Hzr2_0]; · iexact Hzr2_0
    isplitl [Hzr2_1]; · iexact Hzr2_1
    isplitl [Hzr2_2]; · iexact Hzr2_2
    isplitl [Hzr2_3]; · iexact Hzr2_3
    isplitl [Hzr2_4]; · iexact Hzr2_4
    isplitl [Hzr2_5]; · iexact Hzr2_5
    isplitl [Hzr2_6]; · iexact Hzr2_6
    isplitl [Hzr2_7]; · iexact Hzr2_7
    isplitl [Hzr2_8]; · iexact Hzr2_8
    isplitl [Hzr2_9]; · iexact Hzr2_9
    isplitl [Hzr2_10]; · iexact Hzr2_10
    isplitl [Hzr2_11]; · iexact Hzr2_11
    isplitl [Hzr2_12]; · iexact Hzr2_12
    isplitl [Hzr2_13]; · iexact Hzr2_13
    isplitl [Hzr2_14]; · iexact Hzr2_14
    iexact Hzr2_15
  ihave Hz := (exchSems_intro (F := F) c) $$ [Hz0 Hz1 Hz2 Hz3]
  · isplitl [Hz0]; · iexact Hz0
    isplitl [Hz1]; · iexact Hz1
    isplitl [Hz2]; · iexact Hz2
    iexact Hz3
  unfold Φ₁ arrays1 scratch localSems0
  isplitr [HO]
  · isplitl [HA HB HOut]
    · isplitl [HA]; · iexact HA
      isplitl [HB]; · iexact HB
      iexact HOut
    isplitl [Hav Hbv Hps Hpr Hcv]
    · isplitl [Hav]; · iexists _; iexact Hav
      isplitl [Hbv]; · iexact Hbv
      isplitl [Hps]; · iexists _; iexact Hps
      isplitl [Hpr]; · iexists _; iexact Hpr
      iexists _; iexact Hcv
    isplitl [Hsa Hsb0 Hsb1 Hso0 Hso1 Hso2 Hso3 Hso4 Hso5 Hso6 Hso7 Hso8 Hso9 Hso10 Hso11 Hso12 Hso13 Hso14 Hso15]
    · isplitl [Hsa]; · iexact Hsa
      isplitl [Hsb0]; · iexact Hsb0
      isplitl [Hsb1]; · iexact Hsb1
      rw [bigSep_fin16]
      isplitl [Hso0]; · iexact Hso0
      isplitl [Hso1]; · iexact Hso1
      isplitl [Hso2]; · iexact Hso2
      isplitl [Hso3]; · iexact Hso3
      isplitl [Hso4]; · iexact Hso4
      isplitl [Hso5]; · iexact Hso5
      isplitl [Hso6]; · iexact Hso6
      isplitl [Hso7]; · iexact Hso7
      isplitl [Hso8]; · iexact Hso8
      isplitl [Hso9]; · iexact Hso9
      isplitl [Hso10]; · iexact Hso10
      isplitl [Hso11]; · iexact Hso11
      isplitl [Hso12]; · iexact Hso12
      isplitl [Hso13]; · iexact Hso13
      isplitl [Hso14]; · iexact Hso14
      iexact Hso15
    iexact Hz
  · iapply (owesAt_done m c _)
    iexact HO

/-- The library's body obligation on device `c`: no window, one point; before it the device holds `Φ₀` and owes everything,
    after it `Φ₁` and nothing. -/
theorem body_obligation (c : Dev nD) :
    BodyObligation (dats (F := F) m 0 c) (defs₀ (F := F)) 𝒱₀ () Set.univ := fun t => by
  rw [fin_N0 t]
  have e0 : ∀ Ψ : Fin cfg0.W → sProp 𝕄, bigSep Finset.univ Ψ = iprop(emp) := fun Ψ => by
    rw [show (Finset.univ : Finset (Fin cfg0.W)) = ∅ from Finset.univ_eq_empty]; exact bigSep_empty
  rw [e0, e0]
  show iprop((dats (F := F) m 0 c).Φ (t0_0 : Fin cfg0.N).castSucc ∗ (dats (F := F) m 0 c).owesAt () (t0_0 : Fin cfg0.N).castSucc ∗ emp)
    ⊢ wp frame (wpE (defs₀ (F := F)) 𝒱₀ (c : Thread nD τ) none) Set.univ (bodyAt0 (F := F) t0_0)
        (fun _ => iprop((dats (F := F) m 0 c).Φ (t0_0 : Fin cfg0.N).succ ∗ (dats (F := F) m 0 c).owesAt () (t0_0 : Fin cfg0.N).succ ∗ emp))
  rw [show (dats (F := F) m 0 c).Φ (t0_0 : Fin cfg0.N).castSucc = Φ₀ m c from rfl, show (dats (F := F) m 0 c).Φ (t0_0 : Fin cfg0.N).succ = Φ₁ m c from rfl]
  iintro ⟨HΦ, Ho, -⟩
  iapply (sound_body m c fun _ => iprop(Φ₁ m c ∗ (dats (F := F) m 0 c).owesAt () (t0_0 : Fin cfg0.N).succ ∗ emp))
  isplitl [HΦ Ho]
  · isplitl [HΦ]
    · iexact HΦ
    · iexact Ho
  · iintro ⟨H1, H2⟩
    isplitl [H1]; · iexact H1
    isplitl [H2]; · iexact H2
    iempintro

/-- info: 'Cert.KernelIdeal.DM.body_obligation' depends on axioms: [propext, Classical.choice, Quot.sound] -/
#guard_msgs in #print axioms Cert.KernelIdeal.DM.body_obligation

end Cert.KernelIdeal.DM

end
-- ==== Proof.IdealSide.Launch.lean ====
/-
  The launch of the mesh kernel: from every device's body proved to the run of the whole program.

  At launch each device is dealt, for every one of its own sixty-five traffic cells (its barrier cell and the four
  exchange cells of each of the sixteen chunks), the cell's round state, its position at the start of round 0 and the
  tokens of the cell's duties. One update over all four devices turns the counters at zero and the round states into the
  cells' invariants, known to every device, and passes each token to the device that PAYS the duty: a barrier cell's
  first duty and the landing of partial product `j` to the partner across the contraction split, its second duty and the
  landing of sum `j` to the partner across the row split, the two read-outs to the device itself. What the devices owe
  each other at launch comes back as credit: two units on a device's barrier cell, a slot's credit on each of its
  thirty-two landing cells. The nineteen local semaphores stay plain counters at zero. At exit a device hands back its
  eighty-three counters at zero and its five scratch buffers, and its three arrays are read off the final state: the two
  factors as launched, the result the whole product.
-/
import proofs.«900449_g7700000000000450_dist_matmul_k_x_m2048_n2048_k1024_v7x_xy2x2_bf16_1_alg».proof.Proof.IdealSide.Inv
import proofs.«900449_g7700000000000450_dist_matmul_k_x_m2048_n2048_k1024_v7x_xy2x2_bf16_1_alg».proof.Proof.Gen.KernelIdeal.Frame
import Idealize.ShloMosaic.Lib.Pipeline.Launch
import Idealize.ShloMosaic.Lib.Pipeline.Kit
import Idealize.ShloMosaic.Lib.Rounds

noncomputable section

namespace Cert.KernelIdeal.DM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores

The eighty-three scoped DMA semaphores, indexed so that they fall apart as they are used: the sixty-four of the two
exchanges, then the left factor's, the right factor's two, and the result's sixteen. -/

abbrev OIx : Type := (Fin 4 × Fin 16) ⊕ (Unit ⊕ (Unit ⊕ (Unit ⊕ Fin 16)))

def osem : OIx → SemLoc sig
  | .inl kj => csem (some kj)
  | .inr (.inl _) => .dma aS
  | .inr (.inr (.inl _)) => .dma (bS 0)
  | .inr (.inr (.inr (.inl _))) => .dma (bS 1)
  | .inr (.inr (.inr (.inr j))) => .dma (oS j)

set_option maxRecDepth 100000 in
theorem osem_scoped : ∀ k : OIx, (osem k).isScoped .tc = true := by decide
set_option maxRecDepth 100000 in
theorem osem_injective : Function.Injective osem := by decide

/-- They are scoped, pairwise distinct, and there is no staging semaphore to meet. -/
theorem ownSemFacts : Pipeline.OwnSemFacts cfg0.spec osem := ⟨osem_scoped, osem_injective, fun _ w => w.elim0⟩

/-! ## The cells and the duty tokens, enumerated -/

set_option maxRecDepth 100000 in
theorem csem_some_ne_bar : ∀ kj : Fin 4 × Fin 16, csem (some kj) ≠ (.reg barS : SemLoc sig) := by decide

theorem csem_injective : Function.Injective (csem : CIx → SemLoc sig) := by
  rintro (_ | kj) (_ | kj') h
  · rfl
  · exact absurd h.symm (csem_some_ne_bar kj')
  · exact absurd h (csem_some_ne_bar kj)
  · exact congrArg some (Sum.inl.inj (osem_injective (a₁ := .inl kj) (a₂ := .inl kj') h))

theorem kcell_injective : Function.Injective (kcell : Dev nD × CIx → GSem nD τ sig) := by
  rintro ⟨c, x⟩ ⟨c', x'⟩ h
  have h1 : c = c' := congrArg (fun g : GSem nD τ sig => g.1.1) h
  subst h1
  have h2 : x = x' := csem_injective (congrArg Prod.snd h)
  subst h2; rfl

/-- Every device's sixty-five cells. -/
def meshCells : Finset (GSem nD τ sig) := Finset.univ.map ⟨kcell, kcell_injective⟩

/-- A device's own cells' duties: its barrier cell's two, and one per exchange cell. -/
abbrev TIx : Type := Bool ⊕ (Fin 4 × Fin 16)
abbrev tokOf (x : Dev nD × TIx) : GSem nD τ sig × ℕ × Bool := match x.2 with
  | .inl b => (kcell (x.1, none), 0, b)
  | .inr kj => (kcell (x.1, some kj), 0, false)

theorem tokOf_injective : Function.Injective (tokOf : Dev nD × TIx → GSem nD τ sig × ℕ × Bool) := by
  rintro ⟨d, b | kj⟩ ⟨d', b' | kj'⟩ h
  · have h1 : (d, (none : CIx)) = (d', none) := kcell_injective (congrArg (fun x : GSem nD τ sig × ℕ × Bool => x.1) h)
    have h2 : b = b' := congrArg (fun x : GSem nD τ sig × ℕ × Bool => x.2.2) h
    cases h1; cases h2; rfl
  · have h1 : (d, (none : CIx)) = (d', some kj') := kcell_injective (congrArg (fun x : GSem nD τ sig × ℕ × Bool => x.1) h)
    cases h1
  · have h1 : (d, (some kj : CIx)) = (d', none) := kcell_injective (congrArg (fun x : GSem nD τ sig × ℕ × Bool => x.1) h)
    cases h1
  · have h1 : (d, (some kj : CIx)) = (d', some kj') := kcell_injective (congrArg (fun x : GSem nD τ sig × ℕ × Bool => x.1) h)
    cases h1; rfl

def meshToks : Finset (GSem nD τ sig × ℕ × Bool) := Finset.univ.map ⟨tokOf, tokOf_injective⟩

/-- The launch element: the pipeline library's (no staging cell here), the mesh traffic's, and the counters' unit. -/
def u₀ : UU :=
  (initOf (Pipeline.cells cfgs cellOf_inj) (Pipeline.launchToks cfgs cellOf_inj), (initOf meshCells meshToks, 1))

/-! ## What the launch element deals a device -/

/-- The tokens of a device's own cells, grouped by who will pay: the partner across the contraction split (the barrier
    cell's first duty, the landings of the partial products), the partner across the row split (the second duty, the
    landings of the sums), the device itself (the read-outs). -/
def toksX (c : Dev nD) : sProp 𝕄 :=
  iprop(dutyTok ER (barCell c) 0 false ∗ bigSep Finset.univ fun j : Fin 16 => dutyTok ER (r1Cell j c) 0 false)
def toksY (c : Dev nD) : sProp 𝕄 :=
  iprop(dutyTok ER (barCell c) 0 true ∗ bigSep Finset.univ fun j : Fin 16 => dutyTok ER (r2Cell j c) 0 false)
def toksZ (c : Dev nD) : sProp 𝕄 :=
  iprop((bigSep Finset.univ fun j : Fin 16 => dutyTok ER (s1Cell j c) 0 false) ∗ bigSep Finset.univ fun j : Fin 16 => dutyTok ER (s2Cell j c) 0 false)
def toks (c : Dev nD) : sProp 𝕄 := iprop(toksX c ∗ toksY c ∗ toksZ c)

/-- What the launch element deals device `c`: its cells' round states, positions and reached-marks, and its cells' tokens. -/
def G (m : Mem F) (c : Dev nD) : sProp 𝕄 :=
  iprop((bigSep Finset.univ fun x : CIx => roundState ER (meshRd m) (kcell (c, x)) 0)
    ∗ (bigSep Finset.univ fun x : CIx => iprop(atPos ER (kcell (c, x)) 0 ∅ 0 ∗ reached ER (kcell (c, x)) 0)) ∗ toks c)

/-- What the global step makes of it. -/
def G' (m : Mem F) (c : Dev nD) : sProp 𝕄 := iprop(∃ K, ghost m K c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ
theorem bigSep_unit (Φ : Unit → sProp 𝕄) : bigSep Finset.univ Φ = Φ () := by
  rw [Finset.univ_unique, bigSep_singleton]
theorem bigSep_sum {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ
/-- Over an optional index: the summand at no index, and the rest. -/
theorem bigSep_option {α : Type} [Fintype α] [DecidableEq α] (Φ : Option α → sProp 𝕄) :
    bigSep Finset.univ Φ = iprop(Φ none ∗ bigSep Finset.univ fun a => Φ (some a)) := by
  rw [bigSep_univ_at Φ none, show (Finset.univ.erase none : Finset (Option α)) = Finset.univ.map ⟨some, Option.some_injective α⟩ from by
    ext x; cases x <;> simp, bigSep_map]
  rfl

/-- One device's tokens as minted, sorted by payer. -/
theorem toks_minted_at (c : Dev nD) :
    (bigSep Finset.univ fun x : TIx => (dutyTok ER (tokOf (c, x)).1 (tokOf (c, x)).2.1 (tokOf (c, x)).2.2 : sProp 𝕄)) ⊢ toks c := by
  rw [bigSep_sum, bigSep_bool, bigSep_univ_prod, bigSep_fin4]
  unfold toks toksX toksY toksZ
  iintro ⟨⟨Hf, Ht⟩, H0, H1, H2, H3⟩
  isplitl [Hf H1]
  · isplitl [Hf]; · iexact Hf
    iexact H1
  isplitl [Ht H3]
  · isplitl [Ht]; · iexact Ht
    iexact H3
  isplitl [H0]; · iexact H0
  iexact H2

/-- The tokens as minted, device by device. -/
theorem toks_minted : (bigSep meshToks fun x => (dutyTok ER x.1 x.2.1 x.2.2 : sProp 𝕄)) ⊢ bigSep Finset.univ fun c : Dev nD => (toks c : sProp 𝕄) := by
  unfold meshToks
  rw [bigSep_map, bigSep_univ_prod]
  exact bigSep_mono fun c _ => toks_minted_at c

theorem fund_mesh (m : Mem F) : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun x : CIx => Φ (kcell (c, x)) := by
    unfold meshCells; rw [bigSep_map, bigSep_univ_prod]; rfl
  iintro HX
  imod (Rounds.fund ER (meshRd m) meshCells meshToks) $$ HX with ⟨Hst, Hr, Hat, Htok⟩
  imodintro
  ihave Hst' := (Entails.of_eq (hX fun g => roundState ER (meshRd m) g 0)) $$ Hst
  ihave Hat' := (Entails.of_eq (hX fun g => atPos ER g 0 ∅ 0)) $$ Hat
  ihave Hr' := (Entails.of_eq (hX fun g => reached ER g 0)) $$ Hr
  ihave Htok' := (toks_minted (F := F)) $$ Htok
  unfold G; simp only [bigSep_sep']
  isplitl [Hst']; · iexact Hst'
  isplitl [Hat' Hr']
  · isplitl [Hat'] <;> iassumption
  iexact Htok'

/-! ## The global step: every cell's invariant, and the tokens to their payers -/

/-- The own counters at zero are the exchange cells' and the local ones'. -/
theorem ownSems0_eq (c : Dev nD) : (Pipeline.ownSems0 (Ix := Unit) (Name := ℕ) (U := UU) (Lvl := ℕ) (Val := Elt F) (τ := τ) osem c : sProp 𝕄)
    = iprop(exchSems0 c ∗ localSems0 c) := by
  unfold Pipeline.ownSems0 exchSems0 localSems0
  rw [bigSep_sum, bigSep_sum, bigSep_sum, bigSep_sum, bigSep_unit, bigSep_unit, bigSep_unit]
  rfl

set_option maxRecDepth 100000 in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's sixty-five traffic counters at zero, and the nineteen local ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun x : CIx => semVal (kcell (c, x)) 0) ∗ localSems0 c) : sProp 𝕄) := by
  rw [ownSems0_eq, unscopedSems0_eq, bigSep_option]
  unfold exchSems0
  iintro ⟨⟨HE, HL⟩, HB⟩
  isplitr [HL]
  · isplitl [HB]; · iexact HB
    iexact HE
  · iexact HL

/-- One device: its counters and round states become its cells' invariants. -/
theorem core_alloc (m : Mem F) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CIx => iprop(∃ κ : ℕ, cellInv ER (meshRd m) κ (kcell (c, x))))
          ∗ (bigSep Finset.univ fun x : CIx => iprop(atPos ER (kcell (c, x)) 0 ∅ 0 ∗ reached ER (kcell (c, x)) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun x : CIx => semVal (kcell (c, x)) 0) ∗ bigSep Finset.univ fun x : CIx => roundState ER (meshRd m) (kcell (c, x)) 0)
      ⊢ (|={Set.univ}=> bigSep Finset.univ fun x : CIx => iprop(∃ κ : ℕ, cellInv ER (meshRd m) κ (kcell (c, x))) : sProp 𝕄) from by
        rw [← bigSep_sep']
        exact (bigSep_mono fun x _ => (Rounds.body_intro ER (meshRd m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- With the records in hand, a device's positions, the tokens it pays with and its local counters are its ghost state. -/
theorem ghost_intro (m : Mem F) (K : Dev nD × CIx → ℕ) (c : Dev nD) :
    iprop(records m K ∗ (positions c ∗ payToks c ∗ localSems0 c)) ⊢ G' m c := by
  unfold G' ghost
  iintro ⟨#HR, HP, HT, HL⟩
  iexists K
  isplitr; · iexact HR
  isplitl [HP]; · iexact HP
  isplitl [HT]; · iexact HT
  iexact HL

/-- What a device pays with, out of what its two partners and itself were dealt. -/
theorem pay_intro (c : Dev nD) : iprop(toksX (xn c) ∗ toksY (yn c) ∗ toksZ c) ⊢ (payToks c : sProp 𝕄) := by
  unfold toksX toksY toksZ payToks chunkToks
  rw [bigSep_sep', bigSep_sep', bigSep_sep']
  iintro ⟨⟨HbX, HR1⟩, ⟨HbY, HR2⟩, HS1, HS2⟩
  isplitl [HbX]; · iexact HbX
  isplitl [HbY]; · iexact HbY
  isplitl [HS1]; · iexact HS1
  isplitl [HR1]; · iexact HR1
  isplitl [HS2]; · iexact HS2
  iexact HR2

/-- The tokens dealt across the mesh: each partner's share goes to that partner. -/
theorem toks_around : (bigSep Finset.univ fun c : Dev nD => (toks c : sProp 𝕄)) ⊢ bigSep Finset.univ fun c : Dev nD => payToks c := by
  unfold toks
  rw [bigSep_sep', bigSep_sep', bigSep_univ_equiv xnEquiv (fun c : Dev nD => (toksX c : sProp 𝕄)),
    bigSep_univ_equiv ynEquiv (fun c : Dev nD => (toksY c : sProp 𝕄)), ← bigSep_sep', ← bigSep_sep']
  exact bigSep_mono fun c _ => pay_intro c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : Mem F) :
    (bigSep Finset.univ fun c : Dev nD => iprop((bigSep Finset.univ fun x : CIx => iprop(∃ κ : ℕ, cellInv ER (meshRd m) κ (kcell (c, x))))
          ∗ (bigSep Finset.univ fun x : CIx => iprop(atPos ER (kcell (c, x)) 0 ∅ 0 ∗ reached ER (kcell (c, x)) 0)) ∗ toks c ∗ localSems0 c) : sProp 𝕄)
      ⊢ bigSep Finset.univ (G' m) := by
  rw [bigSep_sep', bigSep_sep', bigSep_sep', ← bigSep_univ_prod (fun ck : Dev nD × CIx => iprop(∃ κ : ℕ, cellInv ER (meshRd m) κ (kcell ck))),
    bigSep_congr (s := Finset.univ) (fun (c : Dev nD) _ => bigSep_sep' Finset.univ (fun x : CIx => (atPos ER (kcell (c, x)) 0 ∅ 0 : sProp 𝕄)) (fun x => reached ER (kcell (c, x)) 0)),
    bigSep_sep', ← bigSep_univ_prod (fun ck : Dev nD × CIx => (reached ER (kcell ck) 0 : sProp 𝕄))]
  iintro ⟨HI, ⟨Hat, #HR⟩, Htok, Hloc⟩
  ihave HK := (BI.bigSep_exists_pi Finset.univ (fun (ck : Dev nD × CIx) (κ : ℕ) => (cellInv ER (meshRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => positions c) ∗ (bigSep Finset.univ fun c : Dev nD => payToks c) ∗ bigSep Finset.univ fun c : Dev nD => localSems0 c)
        ⊢ (bigSep Finset.univ fun c : Dev nD => iprop(positions c ∗ payToks c ∗ localSems0 c) : sProp 𝕄) from by rw [← bigSep_sep', ← bigSep_sep'])
    isplitl [Hat]; · iexact Hat
    isplitl [Htk]; · iexact Htk
    iexact Hloc

/-- The global step: own and unscoped counters of every device at once. -/
theorem glob (m : Mem F) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe a device's cells at launch, as its credit: two units on its barrier cell (one from each partner)
    and a slot's credit on each landing cell (the partial products' from across the contraction split, the sums' from across
    the row split). -/
theorem creds_intro (c : Dev nD) : (Pipeline.launchCred O₀ c : sProp 𝕄) ⊢ creds c := by
  have hO : (O₀ : Dev nD → CellTallies nD τ sig Unit) = fun d =>
      ((∑ j : Fin 16, tallyAt (r1Cell j (xn d)) () Ncr) + (∑ j : Fin 16, tallyAt (r2Cell j (yn d)) () Ncr)
        + tallyAt (barCell (yn d)) () 1) + tallyAt (barCell (xn d)) () 1 := by
    funext d; unfold O₀ owed owe1 owe2
    rw [Finset.filter_true_of_mem (fun j _ => Nat.zero_le _)]
  have hland : iprop((bigSep Finset.univ fun j : Fin 16 => Pipeline.launchCred (fun d => tallyAt (r1Cell j (xn d)) () Ncr) c)
        ∗ (bigSep Finset.univ fun j : Fin 16 => Pipeline.launchCred (fun d => tallyAt (r2Cell j (yn d)) () Ncr) c))
      ⊢ (bigSep Finset.univ fun j : Fin 16 => iprop(cred (tallyAt (r1Cell j c) () Ncr) ∗ cred (tallyAt (r2Cell j c) () Ncr)) : sProp 𝕄) := by
    rw [← bigSep_sep']
    exact bigSep_mono fun j _ => BIClass.sep_mono (Pipeline.launchCred_tallyAt (.dma (r1S j)) xn xn xn_xn xn_xn () Ncr c)
      (Pipeline.launchCred_tallyAt (.dma (r2S j)) yn yn yn_yn yn_yn () Ncr c)
  have hbar : iprop(cred (tallyAt (barCell c) () 1) ∗ cred (tallyAt (barCell c) () 1)) ⊢ (cred (tallyAt (barCell c) () 2) : sProp 𝕄) :=
    (cred_add _ _).2.trans (Entails.of_eq (congrArg cred (tallyAt_add (barCell c) () 1 1)))
  rw [hO, Pipeline.launchCred_add, Pipeline.launchCred_add, Pipeline.launchCred_add, Pipeline.launchCred_sum, Pipeline.launchCred_sum]
  unfold creds
  iintro ⟨⟨⟨H1, H2⟩, HbY⟩, HbX⟩
  ihave HY := (Pipeline.launchCred_tallyAt (.reg barS) yn yn yn_yn yn_yn () 1 c) $$ HbY
  ihave HX := (Pipeline.launchCred_tallyAt (.reg barS) xn xn xn_xn xn_xn () 1 c) $$ HbX
  isplitl [HX HY]
  · iapply hbar
    isplitl [HX] <;> iassumption
  · iapply hland
    isplitl [H1] <;> iassumption

/-! ## The launch theorem's side conditions -/

/-- What a device enters its kernel with, the scratch buffers apart: the ghost state, its credit, the levels, and the three
    arrays as launched. -/
def entry (m : Mem F) (c : Dev nD) : sProp 𝕄 := iprop(start m c ∗ arrays0 m c)

theorem start_intro (m : Mem F) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  rw [Pipeline.unscopedRestP_none, unscopedRest0_eq]
  unfold entry start arrays0 G'
  iintro ⟨⟨Ha, Hb, Ho⟩, Hlev, Hcr, -, HG⟩
  ihave Hc := (creds_intro (F := F) c) $$ Hcr
  imodintro
  isplitl
  · isplitl [HG Hc Hlev]
    · isplitl [HG]; · iexact HG
      isplitl [Hc]; · iexact Hc
      iexact Hlev
    · isplitl [Ha]; · iexact Ha
      isplitl [Hb]; · iexact Hb
      iexists _; iexact Ho
  · iempintro

/-- With the five scratch buffers at whatever they hold, that is the body's precondition. -/
theorem phi0_intro (m : Mem F) (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ entry scratch
  iintro ⟨⟨Hs, Ha⟩, -, H0, H1, H2, H3, H4⟩
  isplitl [Hs]; · iexact Hs
  isplitl [Ha]; · iexact Ha
  isplitl [H0]; · iexact H0
  isplitl [H1]; · iexact H1
  isplitl [H2]; · iexact H2
  isplitl [H3]; · iexact H3
  iexact H4

/-- At exit: the three arrays stay with the device; its eighty-three counters, back at zero, and its scratch buffers go back. -/
theorem phi1_exit (m : Mem F) (c : Dev nD) :
    (dats m 0 c).Φ (Fin.last cfg0.N) ⊢ iprop(arrays1 m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch
  iintro ⟨Ha, ⟨H0, H1, H2, H3, H4⟩, Hl, He⟩
  isplitl [Ha]; · iexact Ha
  isplitl [Hl He]
  · isplitl [He] <;> iassumption
  isplitl [H0]; · iexact H0
  isplitl [H1]; · iexact H1
  isplitl [H2]; · iexact H2
  isplitl [H3]; · iexact H3
  iexact H4

/-- No window, so no staging cell to wait on. -/
theorem waits (m : Mem F) (c : Dev nD) : (levAts L lv : sProp 𝕄) ⊢ Pipeline.cellsWaits cfgs (dats m) () 0 c :=
  Pipeline.cellsWaits_intro cfgs (dats m) () 0 c fun w _ _ => w.elim0

/-! ## The run -/

/-- The traffic's launch element sits in the second component beside the counters' unit. -/
theorem own_mesh : (BI.own ((embR : Emb (UB × Counters) 𝕄) (initOf meshCells meshToks, 1)) : sProp 𝕄)
    ⊢ BI.own (ER (initOf meshCells meshToks)) := BI.Entails.refl _

set_option maxRecDepth 8000 in
/-- On the four devices, at any float values, from any memory with every counter at zero: if each device's body meets its
    obligation, every weakly fair execution of the program terminates, and every final state has, on each device, the
    result array holding the whole product and the two factors what they held. -/
theorem run_main (m : Mem F) (ρ : Dev nD → PrngReg)
    (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outFull m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_mesh (F := F)) $$ HX
      imod (fund_mesh m) $$ HX' with HG
      imodintro
      isplitl [HP] <;> iassumption)
    (hglob := glob m)
    (hA := fun _ w => w.elim0) (hpf := fun _ k => k.elim0)
    (X := entry m) (Y := arrays1 m) (Z := fun _ => iprop(emp))
    (hX := start_intro m ρ) (hin := phi0_intro m) (hout := phi1_exit m)
    (QY := fun c s => s.mem ((c.tc : Thread nD τ).loc main_v1) = outFull m c
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold arrays1
      iintro ⟨⟨Ha, Hb, Ho⟩, -, HSI⟩
      icombine HSI Ha gives %ha
      icombine HSI Hb gives %hb
      icombine HSI Ho gives %ho
      imodintro
      isplitr
      · ipureintro; exact ⟨Buf.eq_of_forall_mem_univ ho, Buf.eq_of_forall_mem_univ ha, Buf.eq_of_forall_mem_univ hb⟩
      iexact HSI)
    (hQ := fun _ h c => (h c).2.2)

/-- info: 'Cert.KernelIdeal.DM.run_main' depends on axioms: [propext, Classical.choice, Quot.sound] -/
#guard_msgs in #print axioms Cert.KernelIdeal.DM.run_main

end Cert.KernelIdeal.DM

end
-- ==== Proof.IdealSide.Value.lean ====
/-
  The value bridge: what the four devices compute is the product of the whole factors.

  The whole left factor `A` and right factor `B` are [2048, 2048]. Device `c` of the 2 × 2 mesh holds columns
  `1024 (c / 2) …` of `A` and rows `1024 (c / 2) …` of `B`: its half of the contraction. Of its block of `A` it
  multiplies rows `1024 (c % 2) …`, so its partial product of column chunk `j` is, at row `p` and column `q` of the
  chunk, the sum over `k < 1024` of `A[1024 (c % 2) + p, 1024 (c / 2) + k] · B[1024 (c / 2) + k, 128 j + q]`
  (over the extended reals a change of format is the identity and the accumulator starts at zero). The finished
  chunk adds the partial product of the partner across the contraction split, which has the same row half and the
  other contraction half. The result array reads, at row `r` and column `s`, chunk `s / 128` of the device whose
  row half is `r / 1024`, at `(r % 1024, s % 128)`: the sum over one half of the 2048 contraction indices plus the
  sum over the other half, in one of the two orders. A sum over `Fin 2048` is the sum over its lower half plus the
  sum over its upper half, and addition of extended reals commutes, so that is entry `(r, s)` of `A · B` as the
  reference computes it: the sum over all 2048 contraction indices. Nothing here needs the entries finite.
-/
import proofs.«900449_g7700000000000450_dist_matmul_k_x_m2048_n2048_k1024_v7x_xy2x2_bf16_1_alg».proof.Proof.IdealSide.Spec
import proofs.«900449_g7700000000000450_dist_matmul_k_x_m2048_n2048_k1024_v7x_xy2x2_bf16_1_alg».proof.Proof.Gen.ReferenceIdeal.Read
import proofs.«900449_g7700000000000450_dist_matmul_k_x_m2048_n2048_k1024_v7x_xy2x2_bf16_1_alg».proof.Defs
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DM

open Cert.KernelIdeal Cert.KernelIdeal.Gen
open Idealize.ShloMosaic Idealize.ShloMosaic.TcCoe Idealize.SL.Sem
open Idealize.ShloMosaic.ValueIdx

/-! ## The two operands of a chunk's product, read off the device's argument buffers -/

/-- The rows a device multiplies: row `p`, column `k` is row `1024 (c % 2) + p`, column `k` of its block of the
    left factor. -/
theorem aRows_raw (m : Mem Ideal) (c : Dev nD) (p k : Fin 1024) :
    aRows (F := Ideal) m c (ix2 p k)
      = m ((c : Thread nD τ).loc main_arg0) (ix2 ⟨1024 * (c.val % 2) + p.val, by omega⟩ ⟨k.val, by omega⟩) := by
  unfold aRows
  rw [View.read_apply]
  refine (cast_eq _ _).trans ?_
  refine congrArg (m ((c : Thread nD τ).loc main_arg0)) (funext fun a => Fin.ext ?_)
  have e := k0_off1_eq c
  match a with
  | ⟨0, _⟩ =>
    show k0_off1 c 0 + 1 * p.val = 1024 * (c.val % 2) + p.val
    rw [e]; show 1024 * (c.val % 2) + 1 * p.val = _; omega
  | ⟨1, _⟩ =>
    show k0_off1 c 1 + 1 * k.val = k.val
    rw [e]; show 0 + 1 * k.val = _; omega

/-- Column chunk `j`: row `k`, column `q` is row `k`, column `128 j + q` of the device's block of the right factor. -/
theorem bCols_raw (m : Mem Ideal) (c : Dev nD) (j : Fin 16) (k : Fin 1024) (q : Fin 128) :
    bCols (F := Ideal) m c j (ix2 k q)
      = m ((c : Thread nD τ).loc main_arg1) (ix2 ⟨k.val, by omega⟩ ⟨128 * j.val + q.val, by omega⟩) := by
  unfold bCols
  rw [View.read_apply]
  refine (cast_eq _ _).trans ?_
  refine congrArg (m ((c : Thread nD τ).loc main_arg1)) (funext fun a => Fin.ext ?_)
  match a with
  | ⟨0, _⟩ => show 0 + 1 * k.val = k.val; omega
  | ⟨1, _⟩ => show 128 * j.val + 1 * q.val = 128 * j.val + q.val; omega

/-! ## A device's blocks of the whole factors, by coordinates -/

/-- On the 2 × 2 mesh a dimension cut along the first mesh axis gives device `c` block `c / 2`. -/
theorem lin_cut0 (c : Dev nD) : Layout.meshLin [2, 2] c.val [0] = c.val / 2 := by revert c; decide

/-- The left factor is cut along its columns: row `r`, column `k` of device `c`'s block is row `r`, column
    `1024 (c / 2) + k` of the whole. -/
theorem blockA_apply {α : Type} (x : (⟨2, ![2048, 2048]⟩ : Shape).Idx → α) (c : Dev nD) (r : Fin 2048) (k : Fin 1024) :
    (Layout.blockN ⟨2, ![2048, 1024]⟩ ⟨2, ![2048, 2048]⟩ (Layout.meshBlock [2, 2] ![[], [0]] c) x) (ix2 r k)
      = x (ix2 r ⟨1024 * (c.val / 2) + k.val, by have : c.val < 4 := c.isLt; omega⟩) := by
  rw [Layout.blockN_apply]
  refine congrArg x (funext fun a => Fin.ext ?_)
  match a with
  | ⟨0, _⟩ => show Layout.meshLin [2, 2] c.val [] * 2048 + r.val = r.val; show 0 * 2048 + r.val = r.val; omega
  | ⟨1, _⟩ => show Layout.meshLin [2, 2] c.val [0] * 1024 + k.val = 1024 * (c.val / 2) + k.val; rw [lin_cut0]; omega

/-- The right factor is cut along its rows: row `k`, column `r` of device `c`'s block is row `1024 (c / 2) + k`,
    column `r` of the whole. -/
theorem blockB_apply {α : Type} (x : (⟨2, ![2048, 2048]⟩ : Shape).Idx → α) (c : Dev nD) (k : Fin 1024) (r : Fin 2048) :
    (Layout.blockN ⟨2, ![1024, 2048]⟩ ⟨2, ![2048, 2048]⟩ (Layout.meshBlock [2, 2] ![[0], []] c) x) (ix2 k r)
      = x (ix2 ⟨1024 * (c.val / 2) + k.val, by have : c.val < 4 := c.isLt; omega⟩ r) := by
  rw [Layout.blockN_apply]
  refine congrArg x (funext fun a => Fin.ext ?_)
  match a with
  | ⟨0, _⟩ => show Layout.meshLin [2, 2] c.val [0] * 1024 + k.val = 1024 * (c.val / 2) + k.val; rw [lin_cut0]; omega
  | ⟨1, _⟩ => show Layout.meshLin [2, 2] c.val [] * 2048 + r.val = r.val; show 0 * 2048 + r.val = r.val; omega

/-! ## A chunk's product as a sum over the device's contraction half -/

/-- The dot of one chunk: [1024, 1024] times [1024, 128], contracting the left operand's columns with the right
    operand's rows. -/
abbrev dotK : DotDims S1024x1024 S1024x128 S1024x128 := dot_S1024x1024_S1024x128_S1024x128_1_0_0_1_n_n

/-- The left operand's index at output index `i` and contraction index `t`: row `i 0`, -/
theorem dotK_lhs0 (i : S1024x128.Idx) (t : dotK.contr.Idx) : (dotK.lhsIdx i t 0).val = (i 0).val := by
  unfold DotDims.lhsIdx
  rw [dif_neg (show ¬(0 : Fin S1024x1024.rank) ∈ dotK.lhsBatch by decide), dif_pos (show (0 : Fin S1024x1024.rank) ∈ dotK.lhsNonContracting by decide)]
  rfl
/-- column `t`; -/
theorem dotK_lhs1 (i : S1024x128.Idx) (t : dotK.contr.Idx) : (dotK.lhsIdx i t 1).val = (t ⟨0, by decide⟩).val :=
  dotK.lhsIdx_val_of_single rfl i t
/-- the right operand's: row `t`, -/
theorem dotK_rhs0 (i : S1024x128.Idx) (t : dotK.contr.Idx) : (dotK.rhsIdx i t 0).val = (t ⟨0, by decide⟩).val :=
  dotK.rhsIdx_val_of_single rfl i t
/-- column `i 1`. -/
theorem dotK_rhs1 (i : S1024x128.Idx) (t : dotK.contr.Idx) : (dotK.rhsIdx i t 1).val = (i 1).val := by
  unfold DotDims.rhsIdx
  rw [dif_neg (show ¬(1 : Fin S1024x128.rank) ∈ dotK.rhsBatch by decide), dif_pos (show (1 : Fin S1024x128.rank) ∈ dotK.rhsNonContracting by decide)]
  rfl

/-- A device's partial product of chunk `j` at row `p`, column `q`: the sum over its 1024 contraction indices of the
    products of its rows' and its column chunk's entries. -/
theorem pCh_apply (m : Mem Ideal) (c : Dev nD) (j : Fin 16) (p : Fin 1024) (q : Fin 128) :
    pCh (F := Ideal) m c j (ix3 (0 : Fin 1) p q)
      = ∑ k : Fin 1024, aRows (F := Ideal) m c (ix2 p k) * bCols (F := Ideal) m c j (ix2 k q) := by
  unfold pCh k0_pay3 k0_pay1
  dsimp only
  rw [shapeCast_shapeCast, shapeCast_ab_1ab_apply, truncf_apply]
  simp only [matmul]
  rw [Ideal.matmul_constant_zero_apply, ← Equiv.sum_comp (contrEquiv1 dotK 1024 rfl rfl).symm]
  refine Finset.sum_congr rfl fun k _ => ?_
  have hk := contrEquiv1_symm_val dotK 1024 rfl rfl k
  have el : dotK.lhsIdx (ix2 p q) ((contrEquiv1 dotK 1024 rfl rfl).symm k) = ix2 p k := funext fun a => Fin.ext (by
    match a with
    | ⟨0, _⟩ => exact dotK_lhs0 _ _
    | ⟨1, _⟩ => exact (dotK_lhs1 _ _).trans hk)
  have er : dotK.rhsIdx (ix2 p q) ((contrEquiv1 dotK 1024 rfl rfl).symm k) = ix2 k q := funext fun a => Fin.ext (by
    match a with
    | ⟨0, _⟩ => exact (dotK_rhs0 _ _).trans hk
    | ⟨1, _⟩ => exact dotK_rhs1 _ _)
  rw [el, er, truncf_apply, truncf_apply]

/-- A device's finished chunk at row `p`, column `q`: its own partial product there plus its partner's across the
    contraction split. -/
theorem sCh_apply (m : Mem Ideal) (c : Dev nD) (j : Fin 16) (p : Fin 1024) (q : Fin 128) :
    sCh (F := Ideal) m c j (ix3 (0 : Fin 1) p q)
      = (show EReal from pCh (F := Ideal) m c j (ix3 (0 : Fin 1) p q)) + (show EReal from pCh (F := Ideal) m (xn c) j (ix3 (0 : Fin 1) p q)) := by
  unfold sCh k0_pay4
  dsimp only
  rw [shapeCast_ab_1ab_apply, addf_apply, shapeCast_1ab_ab_apply, shapeCast_1ab_ab_apply]

/-! ## The device that computes a row, and the two halves of the contraction -/

/-- The device that computes row `r` holds row half `r / 1024`. -/
theorem rowDev_row (c : Dev nD) (r : ℕ) (hr : r < 2048) : (rowDev c r).val % 2 = r / 1024 := by
  unfold rowDev
  split
  · next h => exact h.symm
  · next h =>
    rw [yn_row]
    have h1 : c.val % 2 < 2 := Nat.mod_lt _ (by decide)
    have h2 : r / 1024 < 2 := by omega
    omega

/-- A function of a contraction index takes equal values at equal indices. -/
theorem fin_congr {a b : ℕ} (f : Fin 2048 → EReal) (ha : a < 2048) (hb : b < 2048) (e : a = b) : f ⟨a, ha⟩ = f ⟨b, hb⟩ := by
  subst e; rfl

/-- A sum over the 2048 contraction indices is the sum over half `h` plus the sum over the other half, whichever
    half comes first: the sum splits at 1024, and addition of extended reals commutes. -/
theorem sum_halves (f : Fin 2048 → EReal) (h : ℕ) (hh : h < 2) :
    (∑ k : Fin 1024, f ⟨1024 * h + k.val, by omega⟩) + (∑ k : Fin 1024, f ⟨1024 * (1 - h) + k.val, by omega⟩)
      = ∑ k : Fin 2048, f k := by
  have hs : ∑ k : Fin 2048, f k = (∑ k : Fin 1024, f ⟨k.val, by omega⟩) + (∑ k : Fin 1024, f ⟨1024 + k.val, by omega⟩) :=
    Fin.sum_univ_add (a := 1024) (b := 1024) f
  rw [hs]
  interval_cases h
  · exact congrArg₂ (· + ·) (Finset.sum_congr rfl fun k _ => fin_congr f _ _ (by omega))
      (Finset.sum_congr rfl fun k _ => fin_congr f _ _ (by omega))
  · rw [add_comm (G := EReal)]
    exact congrArg₂ (· + ·) (Finset.sum_congr rfl fun k _ => fin_congr f _ _ (by omega))
      (Finset.sum_congr rfl fun k _ => fin_congr f _ _ (by omega))

/-- One term of the contraction: the whole factors at row `r`, contraction index `k` and column `q` are the
    reference's two operands of entry `i` = `(r, q)` at contraction index `k`. -/
theorem term_whole (X0 X1 : (⟨2, ![2048, 2048]⟩ : Shape).Idx → EReal) (i : (⟨2, ![2048, 2048]⟩ : Shape).Idx)
    (r k k' q : ℕ) (hr : r < 2048) (hk : k < 2048) (hk' : k' < 2048) (hq : q < 2048)
    (er : r = (i 0).val) (ek : k = k') (eq : q = (i 1).val) :
    X0 (ix2 (⟨r, hr⟩ : Fin 2048) (⟨k, hk⟩ : Fin 2048)) * X1 (ix2 (⟨k, hk⟩ : Fin 2048) (⟨q, hq⟩ : Fin 2048))
      = X0 (Cert.ReferenceIdeal.Read.lidx_main_v0 i ⟨k', hk'⟩) * X1 (Cert.ReferenceIdeal.Read.ridx_main_v0 i ⟨k', hk'⟩) := by
  subst er ek eq
  refine congrArg₂ (· * ·) (congrArg X0 (funext fun a => ?_)) (congrArg X1 (funext fun a => ?_))
  · match a with
    | ⟨0, _⟩ => rfl
    | ⟨1, _⟩ => rfl
  · match a with
    | ⟨0, _⟩ => rfl
    | ⟨1, _⟩ => rfl

/-! ## Against the whole factors -/

section Whole

variable (m : Mem Ideal) (X0 X1 : (⟨2, ![2048, 2048]⟩ : Shape).Idx → EReal)
  (hA : ∀ c : Dev nD, m ((c : Thread nD τ).loc main_arg0)
      = Layout.blockN ⟨2, ![2048, 1024]⟩ ⟨2, ![2048, 2048]⟩ (Layout.meshBlock [2, 2] ![[], [0]] c) X0)
  (hB : ∀ c : Dev nD, m ((c : Thread nD τ).loc main_arg1)
      = Layout.blockN ⟨2, ![1024, 2048]⟩ ⟨2, ![2048, 2048]⟩ (Layout.meshBlock [2, 2] ![[0], []] c) X1)

include hA hB

/-- A device's partial product over the whole factors `X0`, `X1` its blocks are cut from: at row `p`, column `q` of
    chunk `j`, the sum over `k < 1024` of `X0[1024 (c % 2) + p, 1024 (c / 2) + k] · X1[1024 (c / 2) + k, 128 j + q]`. -/
theorem pCh_whole (c : Dev nD) (j : Fin 16) (p : Fin 1024) (q : Fin 128) :
    pCh (F := Ideal) m c j (ix3 (0 : Fin 1) p q)
      = ∑ k : Fin 1024,
          X0 (ix2 (⟨1024 * (c.val % 2) + p.val, by omega⟩ : Fin 2048) (⟨1024 * (c.val / 2) + k.val, by have : c.val < 4 := c.isLt; omega⟩ : Fin 2048))
            * X1 (ix2 (⟨1024 * (c.val / 2) + k.val, by have : c.val < 4 := c.isLt; omega⟩ : Fin 2048) (⟨128 * j.val + q.val, by omega⟩ : Fin 2048)) := by
  rw [pCh_apply]
  refine Finset.sum_congr rfl fun k _ => ?_
  rw [aRows_raw, bCols_raw, hA c, hB c, blockA_apply, blockB_apply]

/-- Every device's result array is the product of the whole factors as the reference computes it: at each entry
    the two halves of the contraction, added in the order the computing device's position gives, are the sum over
    all 2048 contraction indices. -/
theorem outSpec_whole (c : Dev nD) :
    outSpec (F := Ideal) m c = Cert.ReferenceIdeal.Read.val_main_v1 (F := Ideal) X0 X1 := by
  funext i
  rw [Cert.ReferenceIdeal.Read.val_main_v1_apply]
  show outSpec (F := Ideal) m c i = Cert.ReferenceIdeal.Read.val_main_v0 (F := Ideal) X0 X1 i
  rw [Cert.ReferenceIdeal.Read.val_main_v0_apply]
  have h0 : (i 0).val < 2048 := idx2_lt0 i
  have h1 : (i 1).val < 2048 := idx2_lt1 i
  have hd := rowDev_row c (i 0).val h0
  have hlt : (rowDev c (i 0).val).val < 4 := (rowDev c (i 0).val).isLt
  have hx0 := xn_row (rowDev c (i 0).val)
  have hx1 := xn_col (rowDev c (i 0).val)
  unfold outSpec
  rw [sCh_apply, pCh_whole m X0 X1 hA hB, pCh_whole m X0 X1 hA hB,
    ← sum_halves (fun k => X0 (Cert.ReferenceIdeal.Read.lidx_main_v0 i k) * X1 (Cert.ReferenceIdeal.Read.ridx_main_v0 i k))
      ((rowDev c (i 0).val).val / 2) (by omega)]
  refine congrArg₂ (· + ·) (Finset.sum_congr rfl fun k _ => ?_) (Finset.sum_congr rfl fun k _ => ?_)
  · exact term_whole X0 X1 i _ _ _ _ _ _ _ _ (by dsimp only; omega) rfl (by dsimp only; omega)
  · exact term_whole X0 X1 i _ _ _ _ _ _ _ _ (by dsimp only; omega) (by omega) (by dsimp only; omega)

end Whole

/-- The bridge as the claim states its hypothesis: from memories where each device's argument buffers hold its
    blocks of the reference's whole arrays, every device's result array is the reference's result. -/
theorem outSpec_eq_ref (m : Mem Ideal)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1)))
    (c : Dev nD) :
    outSpec (F := Ideal) m c
      = Cert.ReferenceIdeal.Read.val_main_v1 (F := Ideal)
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)) :=
  outSpec_whole m _ _ (fun c => (hagree c).1) (fun c => (hagree c).2) c

/-- info: 'Cert.KernelIdeal.DM.outSpec_eq_ref' depends on axioms: [propext, Classical.choice, Quot.sound] -/
#guard_msgs in #print axioms Cert.KernelIdeal.DM.outSpec_eq_ref

end Cert.KernelIdeal.DM

end
-- ==== Proof.BitsSide.Cells.lean ====
/-
  The mesh is 2 × 2: device `c` sits at row `c / 2` of the contraction split and holds row half `c % 2` of the
  result. Its partner across the contraction split (`xn c`) holds the other half of the columns of the left factor
  and of the rows of the right factor; its partner across the row split (`yn c`) computes the other half of the rows.
  A device's sixteen column chunks of width 128 each travel twice: the partial product to `xn c`, the finished sum to
  `yn c`. This module names the partners, the buffers' sixteen slots and the semaphore cells of that traffic.
-/
import proofs.«900449_g7700000000000450_dist_matmul_k_x_m2048_n2048_k1024_v7x_xy2x2_bf16_1_alg».proof.Proof.Gen.Kernel.Skeleton
import proofs.«900449_g7700000000000450_dist_matmul_k_x_m2048_n2048_k1024_v7x_xy2x2_bf16_1_alg».proof.Proof.Gen.Kernel.Launch
import proofs.«900449_g7700000000000450_dist_matmul_k_x_m2048_n2048_k1024_v7x_xy2x2_bf16_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Tactic

noncomputable section

namespace Cert.Kernel.DM

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, one for the mesh traffic (duty names `Bool`), and the counters
    the local copies' invariants draw on -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-- A memory of the four devices. -/
abbrev Mem (F : FTy → Type) [FloatOps F] : Type := (ℓ : Loc nD τ sig) → Buf (Elt F) ℓ

/-! ## The partners -/

/-- The partner across the contraction split: the same row half, the other half of the contraction. -/
def xn (c : Dev nD) : Dev nD := ⟨((c.val % 2) + 2) - 2 * (c.val / 2), by revert c; decide⟩
/-- The partner across the row split: the same contraction half, the other row half. -/
def yn (c : Dev nD) : Dev nD := ⟨(2 * (c.val / 2) + 1) - (c.val % 2), by revert c; decide⟩

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide
theorem xn_yn (c : Dev nD) : xn (yn c) = yn (xn c) := by revert c; decide
/-- The partners keep what they should: `xn` the row half, `yn` the contraction half. -/
theorem xn_row (c : Dev nD) : (xn c).val % 2 = c.val % 2 := by revert c; decide
theorem yn_col (c : Dev nD) : (yn c).val / 2 = c.val / 2 := by revert c; decide
theorem yn_row (c : Dev nD) : (yn c).val % 2 = 1 - c.val % 2 := by revert c; decide
theorem xn_col (c : Dev nD) : (xn c).val / 2 = 1 - c.val / 2 := by revert c; decide

def xnEquiv : Dev nD ≃ Dev nD := ⟨xn, xn, xn_xn, xn_xn⟩
def ynEquiv : Dev nD ≃ Dev nD := ⟨yn, yn, yn_yn, yn_yn⟩

/-! The kernel's device chains: each names one of the two partners. -/
theorem dev1_eq (c : Dev nD) (h : k0_dev1 c < nD) : (⟨k0_dev1 c, h⟩ : Dev nD) = xn c := Fin.ext (k0_dev1_eq c)
theorem dev3_eq (c : Dev nD) (h : k0_dev3 c < nD) : (⟨k0_dev3 c, h⟩ : Dev nD) = xn c := Fin.ext (k0_dev3_eq c)
theorem dev4_eq (c : Dev nD) (h : k0_dev4 c < nD) : (⟨k0_dev4 c, h⟩ : Dev nD) = xn c := Fin.ext (k0_dev4_eq c)
theorem dev6_eq (c : Dev nD) (h : k0_dev6 c < nD) : (⟨k0_dev6 c, h⟩ : Dev nD) = xn c := Fin.ext (k0_dev6_eq c)
theorem dev8_eq (c : Dev nD) (h : k0_dev8 c < nD) : (⟨k0_dev8 c, h⟩ : Dev nD) = xn c := Fin.ext (k0_dev8_eq c)
theorem dev10_eq (c : Dev nD) (h : k0_dev10 c < nD) : (⟨k0_dev10 c, h⟩ : Dev nD) = xn c := Fin.ext (k0_dev10_eq c)
theorem dev12_eq (c : Dev nD) (h : k0_dev12 c < nD) : (⟨k0_dev12 c, h⟩ : Dev nD) = xn c := Fin.ext (k0_dev12_eq c)
theorem dev14_eq (c : Dev nD) (h : k0_dev14 c < nD) : (⟨k0_dev14 c, h⟩ : Dev nD) = xn c := Fin.ext (k0_dev14_eq c)
theorem dev16_eq (c : Dev nD) (h : k0_dev16 c < nD) : (⟨k0_dev16 c, h⟩ : Dev nD) = xn c := Fin.ext (k0_dev16_eq c)
theorem dev18_eq (c : Dev nD) (h : k0_dev18 c < nD) : (⟨k0_dev18 c, h⟩ : Dev nD) = xn c := Fin.ext (k0_dev18_eq c)
theorem dev20_eq (c : Dev nD) (h : k0_dev20 c < nD) : (⟨k0_dev20 c, h⟩ : Dev nD) = xn c := Fin.ext (k0_dev20_eq c)
theorem dev22_eq (c : Dev nD) (h : k0_dev22 c < nD) : (⟨k0_dev22 c, h⟩ : Dev nD) = xn c := Fin.ext (k0_dev22_eq c)
theorem dev24_eq (c : Dev nD) (h : k0_dev24 c < nD) : (⟨k0_dev24 c, h⟩ : Dev nD) = xn c := Fin.ext (k0_dev24_eq c)
theorem dev26_eq (c : Dev nD) (h : k0_dev26 c < nD) : (⟨k0_dev26 c, h⟩ : Dev nD) = xn c := Fin.ext (k0_dev26_eq c)
theorem dev28_eq (c : Dev nD) (h : k0_dev28 c < nD) : (⟨k0_dev28 c, h⟩ : Dev nD) = xn c := Fin.ext (k0_dev28_eq c)
theorem dev30_eq (c : Dev nD) (h : k0_dev30 c < nD) : (⟨k0_dev30 c, h⟩ : Dev nD) = xn c := Fin.ext (k0_dev30_eq c)
theorem dev32_eq (c : Dev nD) (h : k0_dev32 c < nD) : (⟨k0_dev32 c, h⟩ : Dev nD) = xn c := Fin.ext (k0_dev32_eq c)
theorem dev2_eq (c : Dev nD) (h : k0_dev2 c < nD) : (⟨k0_dev2 c, h⟩ : Dev nD) = yn c := Fin.ext (k0_dev2_eq c)
theorem dev5_eq (c : Dev nD) (h : k0_dev5 c < nD) : (⟨k0_dev5 c, h⟩ : Dev nD) = yn c := Fin.ext (k0_dev5_eq c)
theorem dev7_eq (c : Dev nD) (h : k0_dev7 c < nD) : (⟨k0_dev7 c, h⟩ : Dev nD) = yn c := Fin.ext (k0_dev7_eq c)
theorem dev9_eq (c : Dev nD) (h : k0_dev9 c < nD) : (⟨k0_dev9 c, h⟩ : Dev nD) = yn c := Fin.ext (k0_dev9_eq c)
theorem dev11_eq (c : Dev nD) (h : k0_dev11 c < nD) : (⟨k0_dev11 c, h⟩ : Dev nD) = yn c := Fin.ext (k0_dev11_eq c)
theorem dev13_eq (c : Dev nD) (h : k0_dev13 c < nD) : (⟨k0_dev13 c, h⟩ : Dev nD) = yn c := Fin.ext (k0_dev13_eq c)
theorem dev15_eq (c : Dev nD) (h : k0_dev15 c < nD) : (⟨k0_dev15 c, h⟩ : Dev nD) = yn c := Fin.ext (k0_dev15_eq c)
theorem dev17_eq (c : Dev nD) (h : k0_dev17 c < nD) : (⟨k0_dev17 c, h⟩ : Dev nD) = yn c := Fin.ext (k0_dev17_eq c)
theorem dev19_eq (c : Dev nD) (h : k0_dev19 c < nD) : (⟨k0_dev19 c, h⟩ : Dev nD) = yn c := Fin.ext (k0_dev19_eq c)
theorem dev21_eq (c : Dev nD) (h : k0_dev21 c < nD) : (⟨k0_dev21 c, h⟩ : Dev nD) = yn c := Fin.ext (k0_dev21_eq c)
theorem dev23_eq (c : Dev nD) (h : k0_dev23 c < nD) : (⟨k0_dev23 c, h⟩ : Dev nD) = yn c := Fin.ext (k0_dev23_eq c)
theorem dev25_eq (c : Dev nD) (h : k0_dev25 c < nD) : (⟨k0_dev25 c, h⟩ : Dev nD) = yn c := Fin.ext (k0_dev25_eq c)
theorem dev27_eq (c : Dev nD) (h : k0_dev27 c < nD) : (⟨k0_dev27 c, h⟩ : Dev nD) = yn c := Fin.ext (k0_dev27_eq c)
theorem dev29_eq (c : Dev nD) (h : k0_dev29 c < nD) : (⟨k0_dev29 c, h⟩ : Dev nD) = yn c := Fin.ext (k0_dev29_eq c)
theorem dev31_eq (c : Dev nD) (h : k0_dev31 c < nD) : (⟨k0_dev31 c, h⟩ : Dev nD) = yn c := Fin.ext (k0_dev31_eq c)
theorem dev33_eq (c : Dev nD) (h : k0_dev33 c < nD) : (⟨k0_dev33 c, h⟩ : Dev nD) = yn c := Fin.ext (k0_dev33_eq c)
theorem dev34_eq (c : Dev nD) (h : k0_dev34 c < nD) : (⟨k0_dev34 c, h⟩ : Dev nD) = yn c := Fin.ext (k0_dev34_eq c)

/-! ## The buffers and their sixteen slots -/

abbrev aM : Memref sig .tc .hbm S2048x1024 .f32 := Memref.whole main_arg0
abbrev bM : Memref sig .tc .hbm S1024x2048 .f32 := Memref.whole main_arg1
abbrev oM : Memref sig .tc .hbm S2048x2048 .bf16 := Memref.whole main_v1
abbrev avM : Memref sig .tc .vmem S1024x1024 .f32 := Memref.whole cc0_scratch0
abbrev bvM : Memref sig .tc .vmem S2x1024x128 .f32 := Memref.whole cc0_scratch1
abbrev psM : Memref sig .tc .vmem S16x1024x128 .bf16 := Memref.whole cc0_scratch2
abbrev prM : Memref sig .tc .vmem S16x1024x128 .bf16 := Memref.whole cc0_scratch3
abbrev cvM : Memref sig .tc .vmem S16x1024x128 .bf16 := Memref.whole cc0_scratch4

/-- Offsets of slot `j` in a buffer of sixteen [1024, 128] slots. -/
abbrev slotOff (j : Fin 16) : Fin 3 → Nat := ![j.val, 0, 0]
theorem slot_inb : ∀ (j : Fin 16) a, slotOff j a + S1x1024x128.size a ≤ S16x1024x128.size a := by decide
abbrev slotR (j : Fin 16) : Rect S16x1024x128 := Rect.unit (s := S16x1024x128) (slotOff j) S1x1024x128.size (slot_inb j)
/-- Slot `j` of a sixteen-slot buffer as the transfers name it: the slice, squeezed to [1024, 128]. -/
abbrev slotM (M : Memref sig .tc .vmem S16x1024x128 .bf16) (j : Fin 16) : Memref sig .tc .vmem S1024x128 .bf16 :=
  (M.slice (slotR j) (fun _ => rfl)).squeeze S1024x128 squeezes_S1x1024x128_S1024x128

/-- The two slots of the right factor's double buffer. -/
abbrev bvOff (p : Fin 2) : Fin 3 → Nat := ![p.val, 0, 0]
theorem bv_inb : ∀ (p : Fin 2) a, bvOff p a + S1x1024x128.size a ≤ S2x1024x128.size a := by decide
abbrev bvR (p : Fin 2) : Rect S2x1024x128 := Rect.unit (s := S2x1024x128) (bvOff p) S1x1024x128.size (bv_inb p)
abbrev bvSlot (p : Fin 2) : Memref sig .tc .vmem S1024x128 .f32 :=
  (bvM.slice (bvR p) (fun _ => rfl)).squeeze S1024x128 squeezes_S1x1024x128_S1024x128

/-- The rows of the result a device computes, at column chunk `j`: offsets into the [2048, 2048] array. -/
abbrev outOff (c : Dev nD) (j : Fin 16) : Fin 2 → Nat := ![1024 * (c.val % 2), 128 * j.val]
theorem out_inb : ∀ (c : Dev nD) (j : Fin 16) a, outOff c j a + S1024x128.size a ≤ S2048x2048.size a := by decide
abbrev outR (c : Dev nD) (j : Fin 16) : Rect S2048x2048 := Rect.unit (s := S2048x2048) (outOff c j) S1024x128.size (out_inb c j)
/-- The block of the result array device `c`'s rows fill at chunk `j` (on whichever device the array lives). -/
abbrev outM (c : Dev nD) (j : Fin 16) : Memref sig .tc .hbm S1024x128 .bf16 := oM.slice (outR c j) (fun _ => rfl)

/-- What a transfer of one slot credits. -/
abbrev Ncr : ℕ := (slotM psM 0).view.dmaCredit
theorem Ncr_pos : 0 < Ncr := View.dmaCredit_pos _ (by decide)

/-! ## The cells -/

/-- The runtime's barrier semaphore of collective id 0 (not scoped). -/
abbrev barS : Sem sig := (SemArray.scalar (sig.barrier 0 rfl) : Sems sig S_).sem
/-! The four arrays of sixteen DMA semaphores of the two exchanges: partial products out and in, sums out and in. -/
abbrev s1S (j : Fin 16) : DmaSem sig := ⟨j.val, Nat.lt_of_lt_of_le j.isLt (by decide)⟩
abbrev r1S (j : Fin 16) : DmaSem sig := ⟨16 + j.val, Nat.lt_of_lt_of_le (Nat.add_lt_add_left j.isLt 16) (by decide)⟩
abbrev s2S (j : Fin 16) : DmaSem sig := ⟨32 + j.val, Nat.lt_of_lt_of_le (Nat.add_lt_add_left j.isLt 32) (by decide)⟩
abbrev r2S (j : Fin 16) : DmaSem sig := ⟨48 + j.val, Nat.lt_of_lt_of_le (Nat.add_lt_add_left j.isLt 48) (by decide)⟩

abbrev barCell (c : Dev nD) : GSem nD τ sig := ((c : Thread nD τ), .reg barS)
abbrev s1Cell (j : Fin 16) (c : Dev nD) : GSem nD τ sig := ((c : Thread nD τ), .dma (s1S j))
abbrev r1Cell (j : Fin 16) (c : Dev nD) : GSem nD τ sig := ((c : Thread nD τ), .dma (r1S j))
abbrev s2Cell (j : Fin 16) (c : Dev nD) : GSem nD τ sig := ((c : Thread nD τ), .dma (s2S j))
abbrev r2Cell (j : Fin 16) (c : Dev nD) : GSem nD τ sig := ((c : Thread nD τ), .dma (r2S j))

end Cert.Kernel.DM

end
-- ==== Proof.BitsSide.Spec.lean ====
/-
  What the kernel computes, as pure functions of the four devices' argument arrays.
  Device `c` multiplies its 1024 rows of its half of the left factor (`aRows`) with column chunk `j` of its half of the
  right factor (`bCols`): the partial product `pCh`, a sum over the device's 1024 contraction indices. The finished chunk
  `sCh` adds the partner's partial product — the other 1024 contraction indices — and the result array `outSpec` holds,
  at row `r` and column `q`, chunk `q / 128` of the device that owns row half `r / 1024`.
-/
import proofs.«900449_g7700000000000450_dist_matmul_k_x_m2048_n2048_k1024_v7x_xy2x2_bf16_1_alg».proof.Proof.BitsSide.Cells
import Idealize.ShloMosaic.Lib.ValueIdx

noncomputable section

namespace Cert.Kernel.DM

open Cert.Kernel Cert.Kernel.Gen
open Idealize.ShloMosaic Idealize.ShloMosaic.TcCoe Idealize.SL.Sem

variable {F : FTy → Type} [FloatOps F]

/-- The rows of the left factor device `c` copies into its first scratch buffer: rows `1024 (c % 2) …` of its block. -/
abbrev aSrc (c : Dev nD) : Memref sig .tc .hbm S1024x1024 .f32 :=
  aM.slice (Rect.unit (s := S2048x1024) (k0_off1 c) S1024x1024.size (k0_off1_inb c)) (fun _ => rfl)
def aRows (m : Mem F) (c : Dev nD) : Vec F S1024x1024 .f32 :=
  (aSrc c).view.read (Elt F) (m ((c : Thread nD τ).loc main_arg0))

/-- Column chunk `j` of the right factor's block: columns `128 j …`. -/
abbrev bOff (j : Fin 16) : Fin 2 → Nat := ![0, 128 * j.val]
theorem b_inb : ∀ (j : Fin 16) a, bOff j a + S1024x128.size a ≤ S1024x2048.size a := by decide
abbrev bSrc (j : Fin 16) : Memref sig .tc .hbm S1024x128 .f32 :=
  bM.slice (Rect.unit (s := S1024x2048) (bOff j) S1024x128.size (b_inb j)) (fun _ => rfl)
def bCols (m : Mem F) (c : Dev nD) (j : Fin 16) : Vec F S1024x128 .f32 :=
  (bSrc j).view.read (Elt F) (m ((c : Thread nD τ).loc main_arg1))

/-- Device `c`'s partial product of chunk `j`, as the body computes it: the sum over the device's own contraction half. -/
def pCh (m : Mem F) (c : Dev nD) (j : Fin 16) : FVec F S1x1024x128 .bf16 :=
  k0_pay3 (k0_pay1 (aRows m c)) (shapeCast S1x1024x128 (bCols m c j) shapeCasts_S1024x128_S1x1024x128)

/-- Device `c`'s finished chunk `j`: its own partial product plus its partner's across the contraction split. -/
def sCh (m : Mem F) (c : Dev nD) (j : Fin 16) : FVec F S1x1024x128 .bf16 :=
  k0_pay4 (pCh m c j) (pCh m (xn c) j)

/-- The device, of `c` and its partner across the row split, that computes row `r` of the result. -/
def rowDev (c : Dev nD) (r : ℕ) : Dev nD := if r / 1024 = c.val % 2 then c else yn c

/-- The result array on device `c` after the run: every device ends with the same whole array. -/
def outSpec (m : Mem F) (c : Dev nD) : Vec F S2048x2048 .bf16 := fun i =>
  sCh m (rowDev c (i 0).val) ⟨(i 1).val / 128 % 16, Nat.mod_lt _ (by decide)⟩
    (ValueIdx.ix3 (0 : Fin 1) (⟨(i 0).val % 1024, Nat.mod_lt _ (by decide)⟩ : Fin 1024) (⟨(i 1).val % 128, Nat.mod_lt _ (by decide)⟩ : Fin 128))

end Cert.Kernel.DM

end
-- ==== Proof.BitsSide.Sched.lean ====
/-
  The schedule of the mesh traffic. Every cell has one round. A device's barrier cell has two duties of one unit:
  `false`, its partner across the contraction split handing over its whole receive buffer for partial products, and
  `true`, its partner across the row split handing over the rows of its result array this device's rows go to. The
  four exchange cells of chunk `j` have one duty each of a slot's credit: a partial product read out (the source share
  back), a partial product landed (the slot holding the partner's product), a sum read out, and a sum landed (the block
  of the result holding the partner's finished chunk). Contents are named: each buffer has ONE contents function, and a
  payload holds a part of the buffer at that function.
-/
import proofs.«900449_g7700000000000450_dist_matmul_k_x_m2048_n2048_k1024_v7x_xy2x2_bf16_1_alg».proof.Proof.BitsSide.Spec

noncomputable section

namespace Cert.Kernel.DM

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The buffers' contents, whole -/

/-- Coordinates of an index of a sixteen-slot buffer inside its slot. -/
abbrev inSlot (i : S16x1024x128.Idx) : S1x1024x128.Idx :=
  ValueIdx.ix3 (0 : Fin 1) (⟨(i 1).val, (i 1).isLt⟩ : Fin 1024) (⟨(i 2).val, (i 2).isLt⟩ : Fin 128)
abbrev slotOf (i : S16x1024x128.Idx) : Fin 16 := ⟨(i 0).val, (i 0).isLt⟩

variable (m : Mem F)

/-- The send buffer: slot `j` the device's own partial product of chunk `j`. -/
def psFull (c : Dev nD) : Buf (Elt F) (psM.view.loc (c : Thread nD τ)) := fun i => pCh m c (slotOf i) (inSlot i)
/-- The receive buffer: slot `j` the partner's partial product of chunk `j`. -/
def prFull (c : Dev nD) : Buf (Elt F) (prM.view.loc (c : Thread nD τ)) := fun i => pCh m (xn c) (slotOf i) (inSlot i)
/-- The sum buffer: slot `j` the finished chunk `j`. -/
def cvFull (c : Dev nD) : Buf (Elt F) (cvM.view.loc (c : Thread nD τ)) := fun i => sCh m c (slotOf i) (inSlot i)
/-- The result array. -/
def outFull (c : Dev nD) : Buf (Elt F) (oM.view.loc (c : Thread nD τ)) := outSpec m c

/-! ## Parts of buffers, held -/

/-- Slot `j` of sixteen-slot buffer `M` on device `c`, at share `q`, at the buffer's contents `f`. -/
@[reducible] def slotPts (M : Memref sig .tc .vmem S16x1024x128 .bf16) (c : Dev nD) (j : Fin 16) (q : PosShare TreeShare)
    (f : Buf (Elt F) ((slotM M j).view.loc (c : Thread nD τ))) : sProp 𝕄 :=
  (slotM M j).view.loc (c : Thread nD τ) ↦[(slotM M j).view.set]{q} f
/-- The block of the result array on device `c` that device `d`'s rows fill at chunk `j`. -/
@[reducible] def outPts (c d : Dev nD) (j : Fin 16) (f : Buf (Elt F) ((outM d j).view.loc (c : Thread nD τ))) : sProp 𝕄 :=
  (outM d j).view.loc (c : Thread nD τ) ↦[(outM d j).view.set]{fullShare} f

/-- The rows of the result array device `d` computes: 1024 whole rows. -/
abbrev rowsOff (d : Dev nD) : Fin 2 → Nat := ![1024 * (d.val % 2), 0]
theorem rows_inb : ∀ (d : Dev nD) a, rowsOff d a + S1024x2048.size a ≤ S2048x2048.size a := by decide
abbrev rowsM (d : Dev nD) : Memref sig .tc .hbm S1024x2048 .bf16 :=
  oM.slice (Rect.unit (s := S2048x2048) (rowsOff d) S1024x2048.size (rows_inb d)) (fun _ => rfl)

/-! The two shares a source slot is cut into while a transfer from it is pending: one lent, one kept for reading. -/
abbrev lentQ : PosShare TreeShare := fullShare.left
abbrev keptQ : PosShare TreeShare := fullShare.right

/-! ## The payloads -/

/-- From the partner across the contraction split: its whole receive buffer. -/
def barPayX (c : Dev nD) : sProp 𝕄 := iprop(∃ f, prM.view.loc (xn c : Thread nD τ) ↦{fullShare} f)
/-- From the partner across the row split: the rows of ITS result array that THIS device computes. -/
def barPayY (c : Dev nD) : sProp 𝕄 := iprop(∃ f, (rowsM c).view.loc (yn c : Thread nD τ) ↦[(rowsM c).view.set]{fullShare} f)
/-- A partial product read out: the lent share of the slot back. -/
def s1Pay (j : Fin 16) (c : Dev nD) : sProp 𝕄 := slotPts psM c j lentQ (psFull m c)
/-- A partial product landed: the receive slot holding the partner's product. -/
def r1Pay (j : Fin 16) (c : Dev nD) : sProp 𝕄 := slotPts prM c j fullShare (prFull m c)
/-- A sum read out: the lent share of the slot back. -/
def s2Pay (j : Fin 16) (c : Dev nD) : sProp 𝕄 := slotPts cvM c j lentQ (cvFull m c)
/-- A sum landed: the block of the result array of the partner's rows, holding the partner's finished chunk. -/
def r2Pay (j : Fin 16) (c : Dev nD) : sProp 𝕄 := outPts c (yn c) j (outFull m c)

/-! ## The schedule -/

/-- Which of the traffic's cells a semaphore is. -/
inductive CellKind | bar | s1 (j : Fin 16) | r1 (j : Fin 16) | s2 (j : Fin 16) | r2 (j : Fin 16) | other
  deriving DecidableEq

def kindOf : SemLoc sig → CellKind
  | .reg s => if s = barS then .bar else .other
  | .dma q => if h : q.val < 16 then .s1 ⟨q.val, h⟩
      else if h : q.val < 32 then .r1 ⟨q.val - 16, by omega⟩
      else if h : q.val < 48 then .s2 ⟨q.val - 32, by omega⟩
      else if h : q.val < 64 then .r2 ⟨q.val - 48, by omega⟩ else .other

theorem kindOf_bar : kindOf (.reg barS : SemLoc sig) = .bar := by decide
theorem kindOf_s1 (j : Fin 16) : kindOf (.dma (s1S j) : SemLoc sig) = .s1 j := by revert j; decide
theorem kindOf_r1 (j : Fin 16) : kindOf (.dma (r1S j) : SemLoc sig) = .r1 j := by revert j; decide
theorem kindOf_s2 (j : Fin 16) : kindOf (.dma (s2S j) : SemLoc sig) = .s2 j := by revert j; decide
theorem kindOf_r2 (j : Fin 16) : kindOf (.dma (r2S j) : SemLoc sig) = .r2 j := by revert j; decide

def meshRd : Rounds.Schedule (GSem nD τ sig) Bool 𝕄 where
  duties g r :=
    if g.1.2 = .tc ∧ r = 0 then
      match kindOf g.2 with
      | .bar => Finset.univ
      | .s1 _ | .r1 _ | .s2 _ | .r2 _ => {false}
      | .other => ∅
    else ∅
  unitless _ := False
  amount g _ _ := match kindOf g.2 with
    | .bar | .other => 1
    | _ => Ncr
  payload g _ d := match kindOf g.2 with
    | .bar => if d then barPayY g.1.1 else barPayX g.1.1
    | .s1 j => s1Pay m j g.1.1
    | .r1 j => r1Pay m j g.1.1
    | .s2 j => s2Pay m j g.1.1
    | .r2 j => r2Pay m j g.1.1
    | .other => iprop(emp)
  amount_pos g _ _ _ := by
    cases kindOf g.2 <;> first | exact Nat.one_pos | exact Ncr_pos

instance meshRd_payload_storable (g : GSem nD τ sig) (r : ℕ) (d : Bool) :
    BI.Storable (upEmb : UEmb _ 𝕄) ((meshRd (F := F) m).payload g r d) := by
  show BI.Storable upEmb (match kindOf g.2 with
    | .bar => if d then barPayY g.1.1 else barPayX g.1.1
    | .s1 j => s1Pay m j g.1.1
    | .r1 j => r1Pay m j g.1.1
    | .s2 j => s2Pay m j g.1.1
    | .r2 j => r2Pay m j g.1.1
    | .other => iprop(emp))
  unfold barPayX barPayY s1Pay r1Pay s2Pay r2Pay slotPts outPts
  split <;> (try split) <;> infer_instance

/-! ## The tables, computed -/

section Tables
variable (c : Dev nD) (j : Fin 16)

theorem duties_bar : (meshRd (F := F) m).duties (barCell c) 0 = Finset.univ := by
  simp only [meshRd, kindOf_bar, and_self, if_true]
theorem duties_s1 : (meshRd (F := F) m).duties (s1Cell j c) 0 = {false} := by simp only [meshRd, kindOf_s1, and_self, if_true]
theorem duties_r1 : (meshRd (F := F) m).duties (r1Cell j c) 0 = {false} := by simp only [meshRd, kindOf_r1, and_self, if_true]
theorem duties_s2 : (meshRd (F := F) m).duties (s2Cell j c) 0 = {false} := by simp only [meshRd, kindOf_s2, and_self, if_true]
theorem duties_r2 : (meshRd (F := F) m).duties (r2Cell j c) 0 = {false} := by simp only [meshRd, kindOf_r2, and_self, if_true]
/-- No duty from round 1 on: what closing a cell asks. -/
theorem duties_later (g : GSem nD τ sig) : ∀ r, 1 ≤ r → (meshRd (F := F) m).duties g r = ∅ := fun r hr => by
  dsimp only [meshRd]; rw [if_neg (fun h => by omega)]

theorem amount_bar (d : Bool) : (meshRd (F := F) m).amount (barCell c) 0 d = 1 := by simp only [meshRd, kindOf_bar]
theorem amount_s1 (d : Bool) : (meshRd (F := F) m).amount (s1Cell j c) 0 d = Ncr := by simp only [meshRd, kindOf_s1]
theorem amount_r1 (d : Bool) : (meshRd (F := F) m).amount (r1Cell j c) 0 d = Ncr := by simp only [meshRd, kindOf_r1]
theorem amount_s2 (d : Bool) : (meshRd (F := F) m).amount (s2Cell j c) 0 d = Ncr := by simp only [meshRd, kindOf_s2]
theorem amount_r2 (d : Bool) : (meshRd (F := F) m).amount (r2Cell j c) 0 d = Ncr := by simp only [meshRd, kindOf_r2]

theorem expect_bar : (meshRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_s1 : (meshRd (F := F) m).expect (s1Cell j c) 0 = Ncr := by
  unfold Schedule.expect Schedule.amountOf; rw [duties_s1, Finset.sum_singleton, amount_s1]
theorem expect_r1 : (meshRd (F := F) m).expect (r1Cell j c) 0 = Ncr := by
  unfold Schedule.expect Schedule.amountOf; rw [duties_r1, Finset.sum_singleton, amount_r1]
theorem expect_s2 : (meshRd (F := F) m).expect (s2Cell j c) 0 = Ncr := by
  unfold Schedule.expect Schedule.amountOf; rw [duties_s2, Finset.sum_singleton, amount_s2]
theorem expect_r2 : (meshRd (F := F) m).expect (r2Cell j c) 0 = Ncr := by
  unfold Schedule.expect Schedule.amountOf; rw [duties_r2, Finset.sum_singleton, amount_r2]

theorem payload_bar_false : (meshRd (F := F) m).payload (barCell c) 0 false = barPayX c := by
  simp only [meshRd, kindOf_bar, Bool.false_eq_true, if_false]
theorem payload_bar_true : (meshRd (F := F) m).payload (barCell c) 0 true = barPayY c := by
  simp only [meshRd, kindOf_bar, if_true]
theorem payload_s1 (d : Bool) : (meshRd (F := F) m).payload (s1Cell j c) 0 d = s1Pay m j c := by simp only [meshRd, kindOf_s1]
theorem payload_r1 (d : Bool) : (meshRd (F := F) m).payload (r1Cell j c) 0 d = r1Pay m j c := by simp only [meshRd, kindOf_r1]
theorem payload_s2 (d : Bool) : (meshRd (F := F) m).payload (s2Cell j c) 0 d = s2Pay m j c := by simp only [meshRd, kindOf_s2]
theorem payload_r2 (d : Bool) : (meshRd (F := F) m).payload (r2Cell j c) 0 d = r2Pay m j c := by simp only [meshRd, kindOf_r2]

/-! A wait for a whole round, no duty taken, gets the round's payloads. -/
theorem rest_bar : bigSep ((meshRd (F := F) m).duties (barCell c) 0 \ ∅) (fun d => (meshRd (F := F) m).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_s1 : bigSep ((meshRd (F := F) m).duties (s1Cell j c) 0 \ ∅) (fun d => (meshRd (F := F) m).payload (s1Cell j c) 0 d) = s1Pay m j c := by
  rw [Finset.sdiff_empty, duties_s1, bigSep_singleton, payload_s1]
theorem rest_r1 : bigSep ((meshRd (F := F) m).duties (r1Cell j c) 0 \ ∅) (fun d => (meshRd (F := F) m).payload (r1Cell j c) 0 d) = r1Pay m j c := by
  rw [Finset.sdiff_empty, duties_r1, bigSep_singleton, payload_r1]
theorem rest_s2 : bigSep ((meshRd (F := F) m).duties (s2Cell j c) 0 \ ∅) (fun d => (meshRd (F := F) m).payload (s2Cell j c) 0 d) = s2Pay m j c := by
  rw [Finset.sdiff_empty, duties_s2, bigSep_singleton, payload_s2]
theorem rest_r2 : bigSep ((meshRd (F := F) m).duties (r2Cell j c) 0 \ ∅) (fun d => (meshRd (F := F) m).payload (r2Cell j c) 0 d) = r2Pay m j c := by
  rw [Finset.sdiff_empty, duties_r2, bigSep_singleton, payload_r2]

end Tables

end Cert.Kernel.DM

end
-- ==== Proof.BitsSide.Inv.lean ====
/-
  What a device holds while it runs. The levels order the waits: local and read-out cells at 0, a barrier cell at 1,
  the landing cell of partial product `j` at `2 + j`, the landing cell of sum `j` at `18 + j`; a device waits on a cell
  only while everything it still owes lies strictly above it. What it owes is counted by the sends already issued:
  after `n₁` partial products and `n₂` sums it owes the landings of the rest.
-/
import proofs.«900449_g7700000000000450_dist_matmul_k_x_m2048_n2048_k1024_v7x_xy2x2_bf16_1_alg».proof.Proof.BitsSide.Sched

noncomputable section

namespace Cert.Kernel.DM

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

/-! ## Levels -/

def L (g : GSem nD τ sig) : Finset Unit := if g.1.2 = .tc then {()} else ∅
def lv (g : GSem nD τ sig) (_ : Unit) : ℕ := match kindOf g.2 with
  | .bar => 1
  | .r1 j => 2 + j.val
  | .r2 j => 18 + j.val
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## What a device owes -/

/-- The landings of the partial products not yet sent, `n` sent. -/
def owe1 (c : Dev nD) (n : ℕ) : CellTallies nD τ sig Unit :=
  ∑ j ∈ Finset.univ.filter (fun j : Fin 16 => n ≤ j.val), tallyAt (r1Cell j (xn c)) () Ncr
/-- The landings of the sums not yet sent, `n` sent. -/
def owe2 (c : Dev nD) (n : ℕ) : CellTallies nD τ sig Unit :=
  ∑ j ∈ Finset.univ.filter (fun j : Fin 16 => n ≤ j.val), tallyAt (r2Cell j (yn c)) () Ncr
def owed (c : Dev nD) (n₁ n₂ : ℕ) : CellTallies nD τ sig Unit := owe1 c n₁ + owe2 c n₂
/-- At launch: every landing and one unit on each partner's barrier cell — the first signal (across the contraction
    split) peels the last summand, the second the one before. -/
def O₀ (c : Dev nD) : CellTallies nD τ sig Unit :=
  owed c 0 0 + tallyAt (barCell (yn c)) () 1 + tallyAt (barCell (xn c)) () 1

theorem filter_ge_succ (n : Fin 16) :
    (Finset.univ.filter (fun j : Fin 16 => n.val ≤ j.val)) = insert n (Finset.univ.filter (fun j : Fin 16 => n.val + 1 ≤ j.val)) := by
  ext j; simp only [Finset.mem_filter, Finset.mem_univ, true_and, Finset.mem_insert]
  constructor
  · intro h; by_cases hj : j = n
    · exact Or.inl hj
    · exact Or.inr (by have : j.val ≠ n.val := fun h' => hj (Fin.ext h'); omega)
  · rintro (rfl | h)
    · exact Nat.le_refl _
    · omega
theorem owe1_succ (c : Dev nD) (n : Fin 16) : owe1 c n.val = owe1 c (n.val + 1) + tallyAt (r1Cell n (xn c)) () Ncr := by
  unfold owe1; rw [filter_ge_succ, Finset.sum_insert (by simp), add_comm]
theorem owe2_succ (c : Dev nD) (n : Fin 16) : owe2 c n.val = owe2 c (n.val + 1) + tallyAt (r2Cell n (yn c)) () Ncr := by
  unfold owe2; rw [filter_ge_succ, Finset.sum_insert (by simp), add_comm]
theorem owe1_done (c : Dev nD) : owe1 c 16 = 0 := by
  unfold owe1; rw [Finset.filter_false_of_mem (fun j _ => by have := j.isLt; omega), Finset.sum_empty]
theorem owe2_done (c : Dev nD) : owe2 c 16 = 0 := by
  unfold owe2; rw [Finset.filter_false_of_mem (fun j _ => by have := j.isLt; omega), Finset.sum_empty]
theorem owed_done (c : Dev nD) : owed c 16 16 = 0 := by unfold owed; rw [owe1_done, owe2_done, add_zero]

/-! ## The cells, indexed -/

/-- A device's cells: its barrier cell, or exchange cell `(k, j)` — `k` = 0 a partial product read out, 1 landed,
    2 a sum read out, 3 landed. -/
abbrev CIx : Type := Option (Fin 4 × Fin 16)
abbrev csem : CIx → SemLoc sig
  | none => .reg barS
  | some (0, j) => .dma (s1S j)
  | some (1, j) => .dma (r1S j)
  | some (2, j) => .dma (s2S j)
  | some (3, j) => .dma (r2S j)
abbrev kcell (ck : Dev nD × CIx) : GSem nD τ sig := ((ck.1 : Thread nD τ), csem ck.2)

/-- The kernel's local DMA semaphores: the left factor's copy, the right factor's two, the result's sixteen. -/
abbrev aS : DmaSem sig := ⟨64, by decide⟩
abbrev bS (p : Fin 2) : DmaSem sig := ⟨65 + p.val, Nat.lt_of_lt_of_le (Nat.add_lt_add_left p.isLt 65) (by decide)⟩
abbrev oS (j : Fin 16) : DmaSem sig := ⟨67 + j.val, Nat.lt_of_lt_of_le (Nat.add_lt_add_left j.isLt 67) (by decide)⟩
/-- Their counters at zero. -/
def localSems0 (c : Dev nD) : sProp 𝕄 :=
  iprop(semVal ((c : Thread nD τ), .dma aS) 0 ∗ semVal ((c : Thread nD τ), .dma (bS 0)) 0 ∗ semVal ((c : Thread nD τ), .dma (bS 1)) 0
    ∗ bigSep Finset.univ fun j : Fin 16 => semVal ((c : Thread nD τ), .dma (oS j)) 0)

/-! ## The ghost state -/

/-- What every device knows: every cell's invariant, and that its one round is open. -/
def records (K : Dev nD × CIx → ℕ) : sProp 𝕄 :=
  iprop((bigSep Finset.univ fun ck : Dev nD × CIx => cellInv ER (meshRd m) (K ck) (kcell ck))
    ∗ bigSep Finset.univ fun ck : Dev nD × CIx => reached ER (kcell ck) 0)

instance records_persistent (K : Dev nD × CIx → ℕ) : BI.Persistent (records m K) := by unfold records; infer_instance

/-- The tokens of the duties device `c` pays: its partners' barrier cells, and per chunk its two read-outs and its
    partners' two landings. -/
def chunkToks (c : Dev nD) (j : Fin 16) : sProp 𝕄 :=
  iprop(dutyTok ER (s1Cell j c) 0 false ∗ dutyTok ER (r1Cell j (xn c)) 0 false
    ∗ dutyTok ER (s2Cell j c) 0 false ∗ dutyTok ER (r2Cell j (yn c)) 0 false)
def payToks (c : Dev nD) : sProp 𝕄 :=
  iprop(dutyTok ER (barCell (xn c)) 0 false ∗ dutyTok ER (barCell (yn c)) 0 true ∗ bigSep Finset.univ (chunkToks c))
/-- Its positions: every one of its cells at the start of round 0. -/
def positions (c : Dev nD) : sProp 𝕄 := bigSep Finset.univ fun x : CIx => atPos ER (kcell (c, x)) 0 ∅ 0

def ghost (K : Dev nD × CIx → ℕ) (c : Dev nD) : sProp 𝕄 :=
  iprop(records m K ∗ positions c ∗ payToks c ∗ localSems0 c)

/-- The credit a device waits with: two units on its barrier cell, a slot's credit on each landing cell. -/
def creds (c : Dev nD) : sProp 𝕄 :=
  iprop(cred (tallyAt (barCell c) () 2)
    ∗ bigSep Finset.univ fun j : Fin 16 => iprop(cred (tallyAt (r1Cell j c) () Ncr) ∗ cred (tallyAt (r2Cell j c) () Ncr)))

/-- What a device's body starts from, the buffers apart. -/
def start (c : Dev nD) : sProp 𝕄 := iprop((∃ K, ghost m K c) ∗ creds c ∗ levAts L lv)

/-- The three arrays as launched: the two arguments at the memory's contents, the result at some. -/
def arrays0 (c : Dev nD) : sProp 𝕄 :=
  iprop((aM.view.loc (c : Thread nD τ) ↦{fullShare} m ((c : Thread nD τ).loc main_arg0))
    ∗ (bM.view.loc (c : Thread nD τ) ↦{fullShare} m ((c : Thread nD τ).loc main_arg1))
    ∗ ∃ f, oM.view.loc (c : Thread nD τ) ↦{fullShare} f)
/-- After the run: the arguments as they were, the result the whole product. -/
def arrays1 (c : Dev nD) : sProp 𝕄 :=
  iprop((aM.view.loc (c : Thread nD τ) ↦{fullShare} m ((c : Thread nD τ).loc main_arg0))
    ∗ (bM.view.loc (c : Thread nD τ) ↦{fullShare} m ((c : Thread nD τ).loc main_arg1))
    ∗ (oM.view.loc (c : Thread nD τ) ↦{fullShare} outFull m c))
/-- The five scratch buffers, each whole at some contents. -/
def scratch (c : Dev nD) : sProp 𝕄 :=
  iprop((∃ f, avM.view.loc (c : Thread nD τ) ↦{fullShare} f) ∗ (∃ f, bvM.view.loc (c : Thread nD τ) ↦{fullShare} f)
    ∗ (∃ f, psM.view.loc (c : Thread nD τ) ↦{fullShare} f) ∗ (∃ f, prM.view.loc (c : Thread nD τ) ↦{fullShare} f)
    ∗ (∃ f, cvM.view.loc (c : Thread nD τ) ↦{fullShare} f))
/-- The kernel's sixty-four exchange semaphores, back at zero. -/
def exchSems0 (c : Dev nD) : sProp 𝕄 :=
  bigSep Finset.univ fun kj : Fin 4 × Fin 16 => semVal (kcell (c, some kj)) 0

def Φ₀ (c : Dev nD) : sProp 𝕄 := iprop(start m c ∗ arrays0 m c ∗ scratch c)
def Φ₁ (c : Dev nD) : sProp 𝕄 := iprop(arrays1 m c ∗ scratch c ∗ localSems0 c ∗ exchSems0 c)

/-- The pipeline's proof data: no window; before the one point a device owes everything, after it nothing. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

end Cert.Kernel.DM

end
-- ==== Proof.BitsSide.RunValues.lean ====
/-
  What the body's loads read and what its stores and landed copies leave, against the buffers' contents functions.
  A sixteen-slot buffer's slot `j` is the rectangle at offsets `(j, 0, 0)` of extents `[1, 1024, 128]`: an index
  `y` of the slot sits at `(j, y 1, y 2)`, so the buffer's contents function, which reads chunk `i 0` at
  `(0, i 1, i 2)`, reads chunk `j` at `y` there. The copies name a slot squeezed to `[1024, 128]`: index `(a, b)`
  is the slot's `(0, a, b)`, the same element of the buffer whichever of the three sixteen-slot buffers it is. The
  block of the result array at offsets `(1024 (c % 2), 128 j)` of extents `[1024, 128]` holds, at `(a, b)`, row
  `1024 (c % 2) + a` and column `128 j + b` of the array: that row belongs to the device of row half `c % 2` among a
  device and its partner across the row split, the column to chunk `j`, so the result's contents function reads there
  device `c`'s finished chunk `j` at `(0, a, b)`, on `c` and on its partner alike.
-/
import proofs.«900449_g7700000000000450_dist_matmul_k_x_m2048_n2048_k1024_v7x_xy2x2_bf16_1_alg».proof.Proof.BitsSide.Sched
import Idealize.ShloMosaic.Lib.Pipeline.Value
import Idealize.ShloMosaic.Lib.ValueIdx
import Idealize.ShloMosaic.Lib.ValueLayout
import Idealize.ShloMosaic.Lib.Writes

noncomputable section

namespace Cert.Kernel.DM

open Cert.Kernel Cert.Kernel.Gen
open Idealize.ShloMosaic Idealize.ShloMosaic.TcCoe Idealize.SL.Sem
open Idealize.ShloMosaic.ValueIdx

variable {F : FTy → Type} [FloatOps F] (m : Mem F)

/-! ## A slot of a sixteen-slot buffer, by coordinates -/

/-- An index of a slot, placed in the sixteen-slot buffer, lies in slot `j` at its own row and column. -/
theorem slot_coords (j : Fin 16) (y : S1x1024x128.Idx) :
    slotOf ((slotR j).emb y) = j ∧ inSlot ((slotR j).emb y) = y := by
  have h0 : (y 0).val = 0 := by have := (y 0).isLt; simp at this; omega
  refine ⟨Fin.ext ?_, funext fun a => Fin.ext ?_⟩
  · show j.val + 1 * (y 0).val = j.val
    omega
  · match a with
    | ⟨0, _⟩ => show 0 = (y 0).val; rw [h0]
    | ⟨1, _⟩ => show 0 + 1 * (y 1).val = (y 1).val; omega
    | ⟨2, _⟩ => show 0 + 1 * (y 2).val = (y 2).val; omega

/-- The partial product landed in the partner's receive slot (the partner across the contraction split): that
    partner's receive buffer's contents there, the partner's partner being the sender. -/
theorem land1 (c : Dev nD) (j : Fin 16) (fs : Buf (Elt F) ((slotM psM j).view.loc (c : Thread nD τ)))
    (hfs : ∀ i ∈ (slotM psM j).view.set, fs i = psFull m c i) (fd : Buf (Elt F) ((slotM prM j).view.loc (xn c : Thread nD τ))) :
    ∀ i ∈ (slotM prM j).view.set,
      ((slotM prM j).view.write (Elt F) fd ((slotM psM j).view.read (Elt F) fs) Finset.univ) i = prFull m (xn c) i := by
  intro i hi
  obtain ⟨x, -, rfl⟩ := Finset.mem_map.mp hi
  rw [View.write_emb_of_mem _ _ (Finset.mem_univ x), View.read_apply, hfs _ ((slotM psM j).view.emb_mem_set x), cast_cast, cast_eq]
  unfold psFull prFull
  rw [xn_xn]
  rfl

/-- The elements of a slot as the transfers name it are those of the slot's rectangle. -/
theorem slot_set_eq (M : Memref sig .tc .vmem S16x1024x128 .bf16) (j : Fin 16) :
    (slotM M j).view.set = (M.access (slotR j)).set := by
  show ((M.view.slice (slotR j)).reshape S1024x128 _).set = _
  rw [View.set_reshape]

/-- A slot of the send buffer after its store of the device's partial product: the send buffer's contents function there. -/
theorem ps_store (c : Dev nD) (j : Fin 16) (fp : Buf (Elt F) ((slotM psM j).view.loc (c : Thread nD τ))) :
    ∀ i ∈ (slotM psM j).view.set, View.write (Elt F) (psM.access (slotR j)) fp (pCh m c j) Finset.univ i = psFull m c i := by
  intro i hi
  rw [slot_set_eq] at hi
  obtain ⟨y, -, rfl⟩ := Finset.mem_map.mp hi
  rw [View.write_emb_of_mem _ _ (Finset.mem_univ y), cast_eq]
  unfold psFull
  obtain ⟨e1, e2⟩ := slot_coords j y
  show pCh m c j y = pCh m c (slotOf ((slotR j).emb y)) (inSlot ((slotR j).emb y))
  rw [e1, e2]

/-- A slot of the sum buffer after its store of the finished chunk. -/
theorem cv_store (c : Dev nD) (j : Fin 16) (fc : Buf (Elt F) ((slotM cvM j).view.loc (c : Thread nD τ))) :
    ∀ i ∈ (slotM cvM j).view.set, View.write (Elt F) (cvM.access (slotR j)) fc (sCh m c j) Finset.univ i = cvFull m c i := by
  intro i hi
  rw [slot_set_eq] at hi
  obtain ⟨y, -, rfl⟩ := Finset.mem_map.mp hi
  rw [View.write_emb_of_mem _ _ (Finset.mem_univ y), cast_eq]
  unfold cvFull
  obtain ⟨e1, e2⟩ := slot_coords j y
  show sCh m c j y = sCh m c (slotOf ((slotR j).emb y)) (inSlot ((slotR j).emb y))
  rw [e1, e2]

/-! ## The loads -/

/-- After the copy of the device's rows of the left factor has landed whole in the first scratch buffer (whatever it
    held), a load of the whole buffer reads those rows. -/
theorem a_load (c : Dev nD) (f0 : Buf (Elt F) (avM.view.loc (c : Thread nD τ))) :
    View.readAt (Elt F) avM.view (Rect.unit (s := S1024x1024) ![0, 0] S1024x1024.size inb_S1024x1024_S1024x1024_0_0).toLoadRect
        (View.write (Elt F) avM.view f0 (ReadAs.same.apply ((aSrc c).view.read (Elt F) (m ((c : Thread nD τ).loc main_arg0)))) Finset.univ)
      = aRows m c := by
  rw [ReadAs.apply_same]
  refine (Memref.readAt_unit_zero (Elt F) cc0_scratch0 (funext fun a => by fin_cases a <;> rfl) _ _).trans ?_
  exact View.write_whole_univ cc0_scratch0 f0 _

/-- A load of slot `j` of the receive buffer through the whole buffer, from contents that agree with the receive
    buffer's contents function on the slot, reads the partner's partial product. -/
theorem pr_load (c : Dev nD) (j : Fin 16) (fr : Buf (Elt F) (prM.view.loc (c : Thread nD τ)))
    (hfr : ∀ i ∈ (slotM prM j).view.set, fr i = prFull m c i) :
    View.readAt (Elt F) prM.view (slotR j).toLoadRect fr = pCh m (xn c) j := by
  funext y
  have hy : (prM.access (slotR j)).emb y ∈ (slotM prM j).view.set := by
    rw [slot_set_eq]; exact View.emb_mem_set _ y
  obtain ⟨e1, e2⟩ := slot_coords j y
  rw [View.readAt_apply, View.read_apply, cast_eq]
  refine (hfr _ hy).trans ?_
  unfold prFull
  show pCh m (xn c) (slotOf ((slotR j).emb y)) (inSlot ((slotR j).emb y)) = pCh m (xn c) j y
  rw [e1, e2]

/-- A view whose newest listed write is a whole-view piece reads that piece's payload, whatever lies under it. -/
theorem read_writes_whole_cons {sig' : RefSig} {κ : Kind} {sp : Space} {s : Shape} {e : EltTy} {Val : EltTy → Type}
    (v : View sig' κ sp s e) (f : v.ty.Contents Val) (w : s.Idx → Val e) (L : List (View.Piece Val s e)) :
    v.read Val (v.writes Val f (⟨Rect.whole s, w⟩ :: L)) = w := by
  funext y
  have h := View.read_writes_cons_emb v f (Rect.whole s) w L y
  rwa [Rect.emb_whole_apply] at h

/-- A slot of the double buffer whose newest listed write is the whole slot, loaded through the whole double buffer:
    the payload, recast to [1, 1024, 128]. -/
theorem bv_load_whole (c : Dev nD) (p : Fin 2) (w : S1024x128.Idx → Elt F .f32)
    (base : Buf (Elt F) ((bvSlot p).view.loc (c : Thread nD τ))) (older : List (View.Piece (Elt F) S1024x128 .f32)) :
    View.readAt (Elt F) bvM.view (bvR p).toLoadRect ((bvSlot p).view.writes (Elt F) base (⟨Rect.whole S1024x128, w⟩ :: older))
      = shapeCast S1x1024x128 w shapeCasts_S1024x128_S1x1024x128 := by
  have h1 := read_writes_whole_cons (bvSlot p).view base w older
  have h2 := Memref.read_squeeze_slice bvM (bvR p) (fun _ => rfl) squeezes_S1x1024x128_S1024x128 shapeCasts_S1x1024x128_S1024x128
    ((bvSlot p).view.writes (Elt F) base (⟨Rect.whole S1024x128, w⟩ :: older))
  have key : shapeCast S1024x128
      (View.readAt (Elt F) bvM.view (bvR p).toLoadRect ((bvSlot p).view.writes (Elt F) base (⟨Rect.whole S1024x128, w⟩ :: older)))
      shapeCasts_S1x1024x128_S1024x128 = w := h2.symm.trans h1
  refine Eq.trans ?_ (congrArg (fun u => shapeCast S1x1024x128 u shapeCasts_S1024x128_S1x1024x128) key)
  exact (shapeCast_shapeCast _ shapeCasts_S1x1024x128_S1024x128 shapeCasts_S1024x128_S1x1024x128).symm

/-- After column chunk `j` of the right factor has landed whole in slot `p` of the double buffer (the newest of the
    writes listed on that slot, over any base and any older writes), a load of slot `p` through the whole double buffer
    reads that chunk, recast to [1, 1024, 128]. -/
theorem b_load (c : Dev nD) (p : Fin 2) (j : Fin 16) (base : Buf (Elt F) ((bvSlot p).view.loc (c : Thread nD τ)))
    (older : List (View.Piece (Elt F) S1024x128 .f32)) :
    View.readAt (Elt F) bvM.view (bvR p).toLoadRect
        ((bvSlot p).view.writes (Elt F) base
          (⟨Rect.whole S1024x128, ReadAs.same.apply ((bSrc j).view.read (Elt F) (m ((c : Thread nD τ).loc main_arg1)))⟩ :: older))
      = shapeCast S1x1024x128 (bCols m c j) shapeCasts_S1024x128_S1x1024x128 :=
  bv_load_whole c p _ base older

/-! ## The finished chunk, from the sum buffer into the result array -/

/-- A load of slot `j` of the sum buffer through the whole buffer, from contents that agree with the sum buffer's
    contents function on the slot, reads the finished chunk. -/
theorem cv_load (c : Dev nD) (j : Fin 16) (fc : Buf (Elt F) (cvM.view.loc (c : Thread nD τ)))
    (hfc : ∀ i ∈ (slotM cvM j).view.set, fc i = cvFull m c i) :
    View.readAt (Elt F) cvM.view (slotR j).toLoadRect fc = sCh m c j := by
  funext y
  have hy : (cvM.access (slotR j)).emb y ∈ (slotM cvM j).view.set := by
    rw [slot_set_eq]; exact View.emb_mem_set _ y
  obtain ⟨e1, e2⟩ := slot_coords j y
  rw [View.readAt_apply, View.read_apply, cast_eq]
  refine (hfc _ hy).trans ?_
  unfold cvFull
  show sCh m c (slotOf ((slotR j).emb y)) (inSlot ((slotR j).emb y)) = sCh m c j y
  rw [e1, e2]

/-- The same slot read through the view the copies name it by: the finished chunk, recast to [1024, 128]. -/
theorem cv_slot_read (c : Dev nD) (j : Fin 16) (cv : Buf (Elt F) ((slotM cvM j).view.loc (c : Thread nD τ)))
    (hcv : ∀ i ∈ (slotM cvM j).view.set, cv i = cvFull m c i) :
    (slotM cvM j).view.read (Elt F) cv = shapeCast S1024x128 (sCh m c j) shapeCasts_S1x1024x128_S1024x128 := by
  rw [← cv_load m c j cv hcv]
  exact Memref.read_squeeze_slice cvM (slotR j) (fun _ => rfl) squeezes_S1x1024x128_S1024x128 shapeCasts_S1x1024x128_S1024x128 cv

/-- A finished chunk read at equal devices, chunks and indices. -/
theorem sCh_congr {d d' : Dev nD} {j j' : Fin 16} {y y' : S1x1024x128.Idx} (hd : d = d') (hj : j = j') (hy : y = y') :
    sCh m d j y = sCh m d' j' y' := by
  subst hd hj hy; rfl

/-- Among a device and its partner across the row split, the one that computes a row of row half `c % 2` is `c`. -/
theorem rowDev_of (c' c : Dev nD) (hc' : c' = c ∨ c' = yn c) (r : ℕ) (hr : r / 1024 = c.val % 2) : rowDev c' r = c := by
  unfold rowDev
  rcases hc' with rfl | rfl
  · rw [if_pos hr]
  · have h2 : c.val % 2 < 2 := Nat.mod_lt _ (by decide)
    rw [if_neg (by rw [yn_row]; omega), yn_yn]

/-- The result's contents function on the block of device `c`'s rows at chunk `j`, on `c` or on its partner across the
    row split: device `c`'s finished chunk `j`, recast to [1024, 128]. -/
theorem outSpec_block (c' c : Dev nD) (j : Fin 16) (hc' : c' = c ∨ c' = yn c) (x : S1024x128.Idx) :
    outSpec m c' ((outR c j).emb x) = shapeCast S1024x128 (sCh m c j) shapeCasts_S1x1024x128_S1024x128 x := by
  obtain ⟨a, b, rfl⟩ : ∃ a b, x = ix2 a b := ⟨x 0, x 1, eq_ix2 x⟩
  rw [shapeCast_1ab_ab_apply]
  have ha : a.val < 1024 := a.isLt
  have hb : b.val < 128 := b.isLt
  have h2 : c.val % 2 < 2 := Nat.mod_lt _ (by decide)
  unfold outSpec
  refine sCh_congr m ?_ (Fin.ext ?_) (funext fun t => ?_)
  · exact rowDev_of c' c hc' _ (show (1024 * (c.val % 2) + 1 * a.val) / 1024 = c.val % 2 by omega)
  · show (128 * j.val + 1 * b.val) / 128 % 16 = j.val
    omega
  · match t with
    | ⟨0, _⟩ => rfl
    | ⟨1, _⟩ => exact Fin.ext (show (1024 * (c.val % 2) + 1 * a.val) % 1024 = a.val by omega)
    | ⟨2, _⟩ => exact Fin.ext (show (128 * j.val + 1 * b.val) % 128 = b.val by omega)

/-- A view whose newest listed write is a whole-view piece holds that piece's payload at each of its own elements. -/
theorem writes_whole_cons_emb {sig' : RefSig} {κ : Kind} {sp : Space} {s : Shape} {e : EltTy} {Val : EltTy → Type}
    (v : View sig' κ sp s e) (f : v.ty.Contents Val) (w : s.Idx → Val e) (L : List (View.Piece Val s e)) (x : s.Idx) :
    v.writes Val f (⟨Rect.whole s, w⟩ :: L) (v.emb x) = _root_.cast (congrArg Val v.elt_eq.symm) (w x) := by
  have he : v.emb x = (v.slice (Rect.whole s)).emb x := by
    show _ = v.emb ((Rect.whole s).emb x)
    rw [Rect.emb_whole_apply]
  rw [View.writes_cons, he]
  exact View.write_emb_of_mem _ _ (Finset.mem_univ x)

/-- The block of the result array that device `c`'s rows fill at chunk `j`, after the local copy of the finished
    chunk has landed in it (newest write; any base, any older writes; the block's offsets however spelt): the result
    array's contents there. -/
theorem out_local (c : Dev nD) (j : Fin 16) {off : Fin 2 → Nat} (hoff : off = outOff c j) (inb : ∀ a, off a + S1024x128.size a ≤ S2048x2048.size a)
    (cv : Buf (Elt F) ((slotM cvM j).view.loc (c : Thread nD τ))) (hcv : ∀ i ∈ (slotM cvM j).view.set, cv i = cvFull m c i)
    (fo : Buf (Elt F) (oM.view.loc (c : Thread nD τ))) (older : List (View.Piece (Elt F) S1024x128 .bf16)) :
    ∀ i ∈ (outM c j).view.set,
      ((oM.slice (Rect.unit (s := S2048x2048) off S1024x128.size inb) (fun _ => rfl)).view.writes (Elt F) fo
        (⟨Rect.whole S1024x128, ReadAs.same.apply ((slotM cvM j).view.read (Elt F) cv)⟩ :: older)) i = outFull m c i := by
  subst hoff
  intro i hi
  obtain ⟨x, -, rfl⟩ := Finset.mem_map.mp hi
  refine (writes_whole_cons_emb (outM c j).view fo _ older x).trans ?_
  rw [cast_eq, ReadAs.apply_same, cv_slot_read m c j cv hcv]
  exact (outSpec_block m c c j (Or.inl rfl) x).symm

/-- The finished chunk landed in the partner's result array (the partner across the row split), in the block of
    device `c`'s rows: the partner's result array's contents there, the partner's partner across the row split being `c`. -/
theorem land2 (c : Dev nD) (j : Fin 16) (cv : Buf (Elt F) ((slotM cvM j).view.loc (c : Thread nD τ)))
    (hcv : ∀ i ∈ (slotM cvM j).view.set, cv i = cvFull m c i) (fd : Buf (Elt F) ((outM c j).view.loc (yn c : Thread nD τ))) :
    ∀ i ∈ (outM c j).view.set,
      ((outM c j).view.write (Elt F) fd ((slotM cvM j).view.read (Elt F) cv) Finset.univ) i = outFull m (yn c) i := by
  intro i hi
  obtain ⟨x, -, rfl⟩ := Finset.mem_map.mp hi
  rw [View.write_emb_of_mem _ _ (Finset.mem_univ x), cast_eq, cv_slot_read m c j cv hcv]
  exact (outSpec_block m (yn c) c j (Or.inr rfl) x).symm

/-- A load of slot `j` of the send buffer through the whole buffer, from contents that agree with the send buffer's
    contents function on the slot, reads the device's own partial product. -/
theorem ps_load (c : Dev nD) (j : Fin 16) (fs : Buf (Elt F) (psM.view.loc (c : Thread nD τ)))
    (hfs : ∀ i ∈ (slotM psM j).view.set, fs i = psFull m c i) :
    View.readAt (Elt F) psM.view (slotR j).toLoadRect fs = pCh m c j := by
  funext y
  have hy : (psM.access (slotR j)).emb y ∈ (slotM psM j).view.set := by
    rw [slot_set_eq]; exact View.emb_mem_set _ y
  obtain ⟨e1, e2⟩ := slot_coords j y
  rw [View.readAt_apply, View.read_apply, cast_eq]
  refine (hfs _ hy).trans ?_
  unfold psFull
  show pCh m c (slotOf ((slotR j).emb y)) (inSlot ((slotR j).emb y)) = pCh m c j y
  rw [e1, e2]

/-- info: 'Cert.Kernel.DM.land1' depends on axioms: [propext, Classical.choice, Quot.sound] -/
#guard_msgs in #print axioms Cert.Kernel.DM.land1
/-- info: 'Cert.Kernel.DM.out_local' depends on axioms: [propext, Classical.choice, Quot.sound] -/
#guard_msgs in #print axioms Cert.Kernel.DM.out_local

end Cert.Kernel.DM

end
-- ==== Proof.BitsSide.Steps.lean ====
/-
  One lemma per kind of protocol statement, generic in the chunk. A barrier signal pays one unit to a partner and hands it
  a buffer; the barrier wait takes both partners' units and buffers. A send pays two duties at once: the read-out duty on the
  sender's own cell (the lent share of the source comes back with it) and the landing duty on the partner's cell (the
  destination, rewritten, goes to the partner). A wait takes a cell's one round, and the cell is closed: its counter is the
  device's again, at zero. A device may wait on a cell while it owes landings only if the cell lies below all of them.
-/
import proofs.«900449_g7700000000000450_dist_matmul_k_x_m2048_n2048_k1024_v7x_xy2x2_bf16_1_alg».proof.Proof.BitsSide.Inv
import proofs.«900449_g7700000000000450_dist_matmul_k_x_m2048_n2048_k1024_v7x_xy2x2_bf16_1_alg».proof.Proof.BitsSide.RunValues

noncomputable section

namespace Cert.Kernel.DM

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : Mem F)

/-! ## Waiting while owing -/

omit [FloatOps F] in
/-- What a device owes after `n₁` partial products and `n₂` sums sits on the landing cells of the rest. -/
theorem owed_pos {c : Dev nD} {n₁ n₂ : ℕ} {g : GSem nD τ sig} {i : Unit} (h : 0 < owed c n₁ n₂ g i) :
    (∃ k : Fin 16, n₁ ≤ k.val ∧ g = r1Cell k (xn c)) ∨ (∃ k : Fin 16, n₂ ≤ k.val ∧ g = r2Cell k (yn c)) := by
  unfold owed owe1 owe2 at h
  rcases Pipeline.add_pos_cases h with h | h
  · obtain ⟨k, hk, hk'⟩ := Pipeline.sum_pos_exists h
    exact Or.inl ⟨k, (Finset.mem_filter.mp hk).2, (Pipeline.tallyAt_pos hk').1⟩
  · obtain ⟨k, hk, hk'⟩ := Pipeline.sum_pos_exists h
    exact Or.inr ⟨k, (Finset.mem_filter.mp hk).2, (Pipeline.tallyAt_pos hk').1⟩

omit [FloatOps F] in
theorem lv_r1 (k : Fin 16) (d : Dev nD) : lv (r1Cell k d) () = 2 + k.val := by unfold lv; rw [kindOf_r1]
omit [FloatOps F] in
theorem lv_r2 (k : Fin 16) (d : Dev nD) : lv (r2Cell k d) () = 18 + k.val := by unfold lv; rw [kindOf_r2]
omit [FloatOps F] in
theorem lv_bar (d : Dev nD) : lv (barCell d) () = 1 := by unfold lv; rw [kindOf_bar]
omit [FloatOps F] in
theorem lv_s1 (k : Fin 16) (d : Dev nD) : lv (s1Cell k d) () = 0 := by unfold lv; rw [kindOf_s1]
omit [FloatOps F] in
theorem lv_s2 (k : Fin 16) (d : Dev nD) : lv (s2Cell k d) () = 0 := by unfold lv; rw [kindOf_s2]

omit [FloatOps F] in
/-- A wait on a cell of level `ℓ` is allowed while the device owes the landings from `n₁` and `n₂` on, if those all lie above `ℓ`. -/
theorem mayWait_owed (c : Dev nD) (sm : SemLoc sig) (n₁ n₂ : ℕ)
    (h₁ : ∀ k : Fin 16, n₁ ≤ k.val → lv ((c : Thread nD τ), sm) () < 2 + k.val)
    (h₂ : ∀ k : Fin 16, n₂ ≤ k.val → lv ((c : Thread nD τ), sm) () < 18 + k.val) :
    (levAts L lv : sProp 𝕄) ⊢ MayWait (c : Thread nD τ) sm () (owed c n₁ n₂) :=
  Pipeline.mayWait_of_levAts (by rw [L_tc]; exact Finset.mem_singleton_self _) fun g i hg => by
    cases i
    rcases owed_pos hg with ⟨k, hk, rfl⟩ | ⟨k, hk, rfl⟩
    · exact ⟨by rw [L_tc]; exact Finset.mem_singleton_self _, by rw [lv_r1]; exact h₁ k hk⟩
    · exact ⟨by rw [L_tc]; exact Finset.mem_singleton_self _, by rw [lv_r2]; exact h₂ k hk⟩

omit [FloatOps F] in
/-- The local copies' semaphores are at level 0: below every landing. -/
theorem mayWait_local (c : Dev nD) (q : DmaSem sig) (hq : kindOf (.dma q : SemLoc sig) = .other) (n₁ n₂ : ℕ) :
    (levAts L lv : sProp 𝕄) ⊢ MayWait (c : Thread nD τ) (.dma q) () (owed c n₁ n₂) :=
  have h0 : lv ((c : Thread nD τ), SemLoc.dma q) () = 0 := by unfold lv; rw [hq]
  mayWait_owed c (.dma q) n₁ n₂ (fun k _ => by rw [h0]; omega) (fun k _ => by rw [h0]; omega)

/-! ## The barrier -/

/-- The signal across the contraction split: one unit, and the device's whole receive buffer. -/
theorem sigX_step (c n' : Dev nD) (hn' : n' = xn c) (κ : ℕ) {α : Type} {k : PUnit → Prog (TpuEff nD τ sig (Elt F) Λ₀ .tc) α} {Q : α → sProp 𝕄}
    (n : ℕ) (hn : 1 = n) (O : CellTallies nD τ sig Unit) (W : Waits sig Unit) (f : Buf (Elt F) (prM.view.loc (c : Thread nD τ))) :
    iprop(cellInv ER (meshRd m) κ (barCell (xn c)) ∗ owes (c : Thread nD τ) (O + tallyAt (barCell (xn c)) () 1) W
        ∗ dutyTok ER (barCell (xn c)) 0 false ∗ (prM.view.loc (c : Thread nD τ) ↦{fullShare} f) ∗ reached ER (barCell (xn c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS n) k) Q) := by
  subst hn; subst hn'
  iintro ⟨#HI, HO, Ht, Hp, #Hr⟩
  iapply (Rounds.wp_signal 𝒱₀ ER (meshRd m) (c : Thread nD τ) none (dst := (xn c : Thread nD τ)) (κ := κ) (d := false)
      (by rw [duties_bar]; exact Finset.mem_univ _) (amount_bar m (xn c) false) () O rfl) $$ [HO Ht Hp]
  isplitr; · iexact HI
  isplitl [HO]; · iexact HO
  isplitl [Ht]; · iexact Ht
  isplitl [Hp]
  · rw [payload_bar_false]; unfold barPayX; rw [xn_xn]; iexists f; iexact Hp
  · iexact Hr

/-- The signal across the row split: one unit, and the rows of the device's result array its partner computes. -/
theorem sigY_step (c n' : Dev nD) (hn' : n' = yn c) (κ : ℕ) {α : Type} {k : PUnit → Prog (TpuEff nD τ sig (Elt F) Λ₀ .tc) α} {Q : α → sProp 𝕄}
    (n : ℕ) (hn : 1 = n) (O : CellTallies nD τ sig Unit) (W : Waits sig Unit) (f : Buf (Elt F) ((rowsM (yn c)).view.loc (c : Thread nD τ))) :
    iprop(cellInv ER (meshRd m) κ (barCell (yn c)) ∗ owes (c : Thread nD τ) (O + tallyAt (barCell (yn c)) () 1) W
        ∗ dutyTok ER (barCell (yn c)) 0 true ∗ ((rowsM (yn c)).view.loc (c : Thread nD τ) ↦[(rowsM (yn c)).view.set]{fullShare} f)
        ∗ reached ER (barCell (yn c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS n) k) Q) := by
  subst hn; subst hn'
  iintro ⟨#HI, HO, Ht, Hp, #Hr⟩
  iapply (Rounds.wp_signal 𝒱₀ ER (meshRd m) (c : Thread nD τ) none (dst := (yn c : Thread nD τ)) (κ := κ) (d := true)
      (by rw [duties_bar]; exact Finset.mem_univ _) (amount_bar m (yn c) true) () O rfl) $$ [HO Ht Hp]
  isplitr; · iexact HI
  isplitl [HO]; · iexact HO
  isplitl [Ht]; · iexact Ht
  isplitl [Hp]
  · rw [payload_bar_true]; unfold barPayY; rw [yn_yn]; iexists f; iexact Hp
  · iexact Hr

/-- The wait for both partners: the partner's receive buffer across the contraction split, and the rows of the partner's
    result array across the row split that this device computes. -/
theorem bar_wait (c : Dev nD) (κ : ℕ) {α : Type} {k : PUnit → Prog (TpuEff nD τ sig (Elt F) Λ₀ .tc) α} {Q : α → sProp 𝕄}
    (n : ℕ) (hn : 2 = n) (W : Waits sig Unit) :
    iprop(cellInv ER (meshRd m) κ (barCell c) ∗ cred (tallyAt (barCell c) () 2) ∗ owes (c : Thread nD τ) (owed c 0 0) W
        ∗ levAts L lv ∗ atPos ER (barCell c) 0 ∅ 0)
      ⊢ iprop(((owes (c : Thread nD τ) (owed c 0 0) (insert (SemLoc.reg barS, ()) W) ∗ barPayX c ∗ barPayY c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#HI, Hc, HO, #Hlev, Hat⟩ Hk
  iapply (Rounds.wp_wait_rest_token 𝒱₀ ER (meshRd m) (c : Thread nD τ) none (κ := κ)
      (wpE_semWait_eq 𝒱₀ (c : Thread nD τ) none Set.univ) (Set.mem_univ _) () (O := owed c 0 0) (W := W) (R := 0) (m := 0) (T := ∅)
      (by rw [expect_bar])) $$ [Hc HO Hat]
  · isplitr; · iexact HI
    isplitl [Hc]; · iexact Hc
    isplitl [HO]; · iexact HO
    isplitr
    · iapply (mayWait_owed c (.reg barS) 0 0 (fun k _ => by rw [lv_bar]; omega) (fun k _ => by rw [lv_bar]; omega)); iexact Hlev
    iexact Hat
  iintro ⟨HO, -, -, Hpay⟩
  ihave Hp := (Entails.of_eq (rest_bar m c)) $$ Hpay
  icases Hp with ⟨HX, HY⟩
  iapply Hk
  isplitl [HO]; · iexact HO
  isplitl [HX] <;> iassumption

/-! ## The sends -/

/-- Partial product `j` sent across the contraction split: the lent share of the send slot goes out (it comes back with the
    read-out), the partner's receive slot is rewritten and goes to the partner with the landing. -/
theorem send1_step (c n' : Dev nD) (hn' : n' = xn c) (j : Fin 16) (κ₁ κ₂ : ℕ)
    {hsc : ((slotM prM j : Memref sig (Dev.tc n' : Thread nD τ).2.kind .vmem S1024x128 .bf16)).view.ref.isScScratch = false}
    {hsrc : (slotM psM j).view.WordExact} {hdst : (slotM prM j).view.WordExact}
    {hsem : DmaTarget.Typed .vmem (.dma (r1S j)) (.remote (Dev.tc n' : Thread nD τ) (slotM prM j) (.dma (s1S j)) hsc)}
    {α : Type} {k : PUnit → Prog (TpuEff nD τ sig (Elt F) Λ₀ .tc) α} {Q : α → sProp 𝕄}
    (fs : Buf (Elt F) ((slotM psM j).view.loc (c : Thread nD τ))) (hfs : ∀ i ∈ (slotM psM j).view.set, fs i = psFull m c i)
    (fd : Buf (Elt F) ((slotM prM j).view.loc (xn c : Thread nD τ))) (O : CellTallies nD τ sig Unit) (W : Waits sig Unit) :
    iprop(cellInv ER (meshRd m) κ₁ (s1Cell j c) ∗ cellInv ER (meshRd m) κ₂ (r1Cell j (xn c))
        ∗ slotPts psM c j lentQ fs ∗ slotPts prM (xn c) j fullShare fd
        ∗ owes (c : Thread nD τ) (O + tallyAt (r1Cell j (xn c)) () Ncr) W
        ∗ dutyTok ER (s1Cell j c) 0 false ∗ reached ER (s1Cell j c) 0
        ∗ dutyTok ER (r1Cell j (xn c)) 0 false ∗ reached ER (r1Cell j (xn c)) 0)
      ⊢ iprop(((cred (tallyAt (s1Cell j c) () Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM psM j) (.remote (Dev.tc n' : Thread nD τ) (slotM prM j) (.dma (s1S j)) hsc) (.dma (r1S j)) hsrc hdst hsem) k) Q) := by
  subst hn'
  exact Rounds.wp_send_pointsTo 𝒱₀ ER (meshRd m) (c : Thread nD τ) none (κ₁ := κ₁) (κ₂ := κ₂)
    (src := slotM psM j) (dst := slotM prM j) (q := lentQ) (fs := fs) (fd := fd) (c' := (xn c : Thread nD τ))
    (r₁ := 0) (r₂ := 0) (d₁ := false) (d₂ := false)
    (by rw [duties_s1]; exact Finset.mem_singleton_self _) (by rw [duties_r1]; exact Finset.mem_singleton_self _)
    () () Ncr rfl (amount_s1 m c j false) (amount_r1 m (xn c) j false) O rfl (W := W)
    (by rw [payload_s1]; unfold s1Pay slotPts; rw [pointsTo_congr hfs])
    (by rw [payload_r1]; unfold r1Pay slotPts; rw [pointsTo_congr (land1 m c j fs hfs fd)])

/-- Finished chunk `j` sent across the row split, into the block of the partner's result array that holds this device's rows —
    the block's offsets however spelt. -/
theorem send2_step (c n' : Dev nD) (hn' : n' = yn c) (j : Fin 16) (κ₁ κ₂ : ℕ)
    {off : Fin 2 → Nat} (hoff : off = outOff c j) (inb : ∀ a, off a + S1024x128.size a ≤ S2048x2048.size a)
    {hsc : ((oM.slice (Rect.unit (s := S2048x2048) off S1024x128.size inb) (fun _ => rfl) : Memref sig (Dev.tc n' : Thread nD τ).2.kind .hbm S1024x128 .bf16)).view.ref.isScScratch = false}
    {hsrc : (slotM cvM j).view.WordExact} {hdst : (oM.slice (Rect.unit (s := S2048x2048) off S1024x128.size inb) (fun _ => rfl)).view.WordExact}
    {hsem : DmaTarget.Typed .vmem (.dma (r2S j)) (.remote (Dev.tc n' : Thread nD τ) (oM.slice (Rect.unit (s := S2048x2048) off S1024x128.size inb) (fun _ => rfl)) (.dma (s2S j)) hsc)}
    {α : Type} {k : PUnit → Prog (TpuEff nD τ sig (Elt F) Λ₀ .tc) α} {Q : α → sProp 𝕄}
    (cv : Buf (Elt F) ((slotM cvM j).view.loc (c : Thread nD τ))) (hcv : ∀ i ∈ (slotM cvM j).view.set, cv i = cvFull m c i)
    (fd : Buf (Elt F) ((outM c j).view.loc (yn c : Thread nD τ))) (O : CellTallies nD τ sig Unit) (W : Waits sig Unit) :
    iprop(cellInv ER (meshRd m) κ₁ (s2Cell j c) ∗ cellInv ER (meshRd m) κ₂ (r2Cell j (yn c))
        ∗ slotPts cvM c j lentQ cv ∗ outPts (yn c) c j fd
        ∗ owes (c : Thread nD τ) (O + tallyAt (r2Cell j (yn c)) () Ncr) W
        ∗ dutyTok ER (s2Cell j c) 0 false ∗ reached ER (s2Cell j c) 0
        ∗ dutyTok ER (r2Cell j (yn c)) 0 false ∗ reached ER (r2Cell j (yn c)) 0)
      ⊢ iprop(((cred (tallyAt (s2Cell j c) () Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM cvM j) (.remote (Dev.tc n' : Thread nD τ) (oM.slice (Rect.unit (s := S2048x2048) off S1024x128.size inb) (fun _ => rfl)) (.dma (s2S j)) hsc) (.dma (r2S j)) hsrc hdst hsem) k) Q) := by
  subst hn'; subst hoff
  exact Rounds.wp_send_pointsTo 𝒱₀ ER (meshRd m) (c : Thread nD τ) none (κ₁ := κ₁) (κ₂ := κ₂)
    (src := slotM cvM j) (dst := outM c j) (q := lentQ) (fs := cv) (fd := fd) (c' := (yn c : Thread nD τ))
    (r₁ := 0) (r₂ := 0) (d₁ := false) (d₂ := false)
    (by rw [duties_s2]; exact Finset.mem_singleton_self _) (by rw [duties_r2]; exact Finset.mem_singleton_self _)
    () () Ncr rfl (amount_s2 m c j false) (amount_r2 m (yn c) j false) O rfl (W := W)
    (by rw [payload_s2]; unfold s2Pay slotPts; rw [pointsTo_congr hcv])
    (by rw [payload_r2]; unfold r2Pay outPts; rw [yn_yn, pointsTo_congr (land2 m c j cv hcv fd)])

/-! ## The waits -/

/-- A wait for the one round of one of the device's exchange cells — the cell's expected units a slot's credit, the round's
    payloads `pay`, the awaited destination a slot-sized view —, while the device owes `O` and may wait there: the payload
    comes with it, the cell is closed, and its counter is the device's again, at zero. -/
theorem dmaWait_step (c : Dev nD) (q : DmaSem sig) (κ : ℕ) (pay : sProp 𝕄)
    (hexp : (meshRd (F := F) m).expect ((c : Thread nD τ), .dma q) 0 = Ncr)
    (hrest : bigSep ((meshRd (F := F) m).duties ((c : Thread nD τ), .dma q) 0 \ ∅)
        (fun d => (meshRd (F := F) m).payload ((c : Thread nD τ), .dma q) 0 d) = pay)
    {sp sp' : Space} {s s' : Shape} {e e' : EltTy} {src : Memref sig Kind.tc sp' s' e'} {κ' : Kind} (dst : Memref sig κ' sp s e)
    {hsrc : src.view.WordExact} {hdst : dst.view.WordExact} (hcr : dst.view.dmaCredit = Ncr)
    {α : Type} {k : PUnit → Prog (TpuEff nD τ sig (Elt F) Λ₀ .tc) α} {Q : α → sProp 𝕄}
    (O : CellTallies nD τ sig Unit) (W : Waits sig Unit) :
    iprop(cellInv ER (meshRd m) κ ((c : Thread nD τ), .dma q) ∗ cred (tallyAt ((c : Thread nD τ), .dma q) () Ncr)
        ∗ owes (c : Thread nD τ) O W ∗ MayWait (c : Thread nD τ) (.dma q) () O ∗ atPos ER ((c : Thread nD τ), .dma q) 0 ∅ 0)
      ⊢ iprop(((owes (c : Thread nD τ) O (insert (SemLoc.dma q, ()) W) ∗ semVal ((c : Thread nD τ), .dma q) 0 ∗ pay)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hw : ∀ K : PUnit → sProp 𝕄, wpE (defs₀ (F := F)) 𝒱₀ (c : Thread nD τ) none Set.univ (.waitDma2 q src dst hsrc hdst) K
      = waitSpec (c : Thread nD τ) Set.univ (.dma q) Ncr K := fun K => by
    rw [← hcr]; exact wpE_waitDma2_eq 𝒱₀ (c : Thread nD τ) none Set.univ K
  iintro ⟨#HI, Hc, HO, Hmw, Hat⟩ Hk
  iapply (Rounds.wp_wait_rest_token 𝒱₀ ER (meshRd m) (c : Thread nD τ) none (κ := κ) hw (Set.mem_univ _) ()
      (O := O) (W := W) (R := 0) (m := 0) (T := ∅) (by rw [Nat.zero_add, hexp])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (meshRd m) (Set.mem_univ κ) (fun h => h) (R := 0 + 1) (duties_later m ((c : Thread nD τ), .dma q))) $$ [Hat] with Hz
  · isplitr; · iexact HI
    iexact Hat
  iapply Hk
  isplitl [HO]; · iexact HO
  isplitl [Hz]; · iexact Hz
  rw [← hrest]; iexact Hpay

end Cert.Kernel.DM

end
-- ==== Proof.BitsSide.Geom.lean ====
/-
  The geometry of the buffers. A buffer of sixteen [1024, 128] slots is the disjoint union of its slots, the right
  factor's double buffer of its two, the result array of the two row halves, and a row half of its sixteen column
  blocks of width 128. Each statement is the same argument: the parts are rectangles separated on one axis, so they are
  pairwise disjoint, and every index lies in the part its coordinate on that axis names, so they cover; a points-to over
  a disjoint union is the separating conjunction of the points-tos over the parts.
-/
import proofs.«900449_g7700000000000450_dist_matmul_k_x_m2048_n2048_k1024_v7x_xy2x2_bf16_1_alg».proof.Proof.BitsSide.Sched
import Idealize.ShloMosaic.Rules.PointsTo
import Idealize.ShloMosaic.Signature.View
import Idealize.ShloMosaic.Lib.Memref

noncomputable section

namespace Cert.Kernel.DM

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Sixteen conjuncts, written out -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## A slot's two shares -/

/-- A slot held at the full share is the lent share and the kept share of it: the two halves of the full share. -/
theorem slot_shares (M : Memref sig .tc .vmem S16x1024x128 .bf16) (c : Dev nD) (j : Fin 16)
    (f : Buf (Elt F) ((slotM M j).view.loc (c : Thread nD τ))) :
    (slotPts M c j fullShare f : sProp 𝕄) ⊣⊢ iprop(slotPts M c j lentQ f ∗ slotPts M c j keptQ f) :=
  pointsTo_share (PosShare.mem_left_op_right fullShare)

/-! ## The printed offsets of the result's blocks -/

theorem off_eq_2 (c : Dev nD) : k0_off2 c = outOff c 0 := (k0_off2_eq c).trans rfl
theorem off_eq_3 (c : Dev nD) : k0_off3 c = outOff c 1 := (k0_off3_eq c).trans rfl
theorem off_eq_4 (c : Dev nD) : k0_off4 c = outOff c 2 := (k0_off4_eq c).trans rfl
theorem off_eq_5 (c : Dev nD) : k0_off5 c = outOff c 3 := (k0_off5_eq c).trans rfl
theorem off_eq_6 (c : Dev nD) : k0_off6 c = outOff c 4 := (k0_off6_eq c).trans rfl
theorem off_eq_7 (c : Dev nD) : k0_off7 c = outOff c 5 := (k0_off7_eq c).trans rfl
theorem off_eq_8 (c : Dev nD) : k0_off8 c = outOff c 6 := (k0_off8_eq c).trans rfl
theorem off_eq_9 (c : Dev nD) : k0_off9 c = outOff c 7 := (k0_off9_eq c).trans rfl
theorem off_eq_10 (c : Dev nD) : k0_off10 c = outOff c 8 := (k0_off10_eq c).trans rfl
theorem off_eq_11 (c : Dev nD) : k0_off11 c = outOff c 9 := (k0_off11_eq c).trans rfl
theorem off_eq_12 (c : Dev nD) : k0_off12 c = outOff c 10 := (k0_off12_eq c).trans rfl
theorem off_eq_13 (c : Dev nD) : k0_off13 c = outOff c 11 := (k0_off13_eq c).trans rfl
theorem off_eq_14 (c : Dev nD) : k0_off14 c = outOff c 12 := (k0_off14_eq c).trans rfl
theorem off_eq_15 (c : Dev nD) : k0_off15 c = outOff c 13 := (k0_off15_eq c).trans rfl
theorem off_eq_16 (c : Dev nD) : k0_off16 c = outOff c 14 := (k0_off16_eq c).trans rfl
theorem off_eq_17 (c : Dev nD) : k0_off17 c = outOff c 15 := (k0_off17_eq c).trans rfl

/-! ## The sixteen slots of a buffer -/

/-- The slots' rectangles are separated on the leading axis. -/
theorem slotR_disjoint {j j' : Fin 16} (h : j ≠ j') : Disjoint (slotR j).set (slotR j').set := by
  refine Rect.unit_disjoint (0 : Fin 3) ?_
  have : j.val ≠ j'.val := fun e => h (Fin.ext e)
  show j.val + 1 ≤ j'.val ∨ j'.val + 1 ≤ j.val
  omega

/-- An index lies in the slot its leading coordinate names. -/
theorem mem_slotR_self (i : S16x1024x128.Idx) : i ∈ (slotR ⟨(i 0).val, (i 0).isLt⟩).set := by
  rw [Rect.mem_set_unit]
  intro a
  fin_cases a
  · exact ⟨le_rfl, Nat.lt_succ_self _⟩
  · exact ⟨Nat.zero_le _, by have := (i 1).isLt; simpa using this⟩
  · exact ⟨Nat.zero_le _, by have := (i 2).isLt; simpa using this⟩

/-- The elements of slot `j`: the slot's rectangle, placed by the buffer's view. -/
theorem slot_set (M : Memref sig .tc .vmem S16x1024x128 .bf16) (j : Fin 16) :
    (slotM M j).view.set = (slotR j).set.map M.view.emb := by
  show ((M.view.slice (slotR j)).reshape S1024x128 _).set = _
  rw [View.set_reshape, View.set_slice]

/-- The elements of slot `j`, as a set of the buffer's elements (one type for all sixteen). -/
abbrev slotSet (M : Memref sig .tc .vmem S16x1024x128 .bf16) (j : Fin 16) : Finset M.view.ty.Idx := (slotM M j).view.set

/-- A sixteen-slot buffer held whole is its sixteen slots, each held by its own elements, at the same contents. -/
theorem split16 (M : Memref sig .tc .vmem S16x1024x128 .bf16) (hM : M.IsWhole) (c : Dev nD) (q : PosShare TreeShare)
    (f : Buf (Elt F) (M.view.loc (c : Thread nD τ))) :
    (M.view.loc (c : Thread nD τ) ↦{q} f : sProp 𝕄) = bigSep Finset.univ fun j : Fin 16 => slotPts M c j q f := by
  have hcov : (Finset.univ : Finset (Fin 16)).biUnion (slotSet M) = Finset.univ := by
    refine Finset.eq_univ_iff_forall.mpr fun x => ?_
    have hx : x ∈ M.view.set := hM.set_eq_univ ▸ Finset.mem_univ x
    obtain ⟨i, -, rfl⟩ := Finset.mem_map.mp hx
    refine Finset.mem_biUnion.mpr ⟨⟨(i 0).val, (i 0).isLt⟩, Finset.mem_univ _, ?_⟩
    have hmem := Finset.mem_map_of_mem M.view.emb (mem_slotR_self i)
    rw [← slot_set] at hmem
    exact hmem
  have hdis : ∀ j ∈ (Finset.univ : Finset (Fin 16)), ∀ j' ∈ (Finset.univ : Finset (Fin 16)), j ≠ j' →
      Disjoint (slotSet M j) (slotSet M j') := fun j _ j' _ h => by
    show Disjoint (slotM M j).view.set (slotM M j').view.set
    rw [slot_set, slot_set, Finset.disjoint_map]; exact slotR_disjoint h
  have key : (M.view.loc (c : Thread nD τ) ↦[(Finset.univ : Finset (Fin 16)).biUnion (slotSet M)]{q} f : sProp 𝕄)
      = bigSep Finset.univ fun j : Fin 16 => M.view.loc (c : Thread nD τ) ↦[slotSet M j]{q} f :=
    pointsTo_biUnion (ℓ := M.view.loc (c : Thread nD τ)) Finset.univ (slotSet M) hdis
  rw [hcov] at key
  exact key

/-! ## The two slots of the right factor's double buffer -/

theorem bvR_disjoint : Disjoint (bvR 0).set (bvR 1).set :=
  Rect.unit_disjoint (0 : Fin 3) (Or.inl (show (0 : ℕ) + 1 ≤ 1 from le_rfl))

theorem bvR_cover : (bvR 0).set ∪ (bvR 1).set = Finset.univ := by
  ext i
  simp only [Finset.mem_union, Finset.mem_univ, iff_true, Rect.mem_set_unit]
  have h0 : (i 0).val < 2 := (i 0).isLt
  have h1 : (i 1).val < 1024 := (i 1).isLt
  have h2 : (i 2).val < 128 := (i 2).isLt
  rcases Nat.lt_or_ge (i 0).val 1 with h | h
  · refine Or.inl fun a => ?_
    fin_cases a
    · show 0 ≤ (i 0).val ∧ (i 0).val < 0 + 1; omega
    · show 0 ≤ (i 1).val ∧ (i 1).val < 0 + 1024; omega
    · show 0 ≤ (i 2).val ∧ (i 2).val < 0 + 128; omega
  · refine Or.inr fun a => ?_
    fin_cases a
    · show 1 ≤ (i 0).val ∧ (i 0).val < 1 + 1; omega
    · show 0 ≤ (i 1).val ∧ (i 1).val < 0 + 1024; omega
    · show 0 ≤ (i 2).val ∧ (i 2).val < 0 + 128; omega

theorem bvSlot_set (p : Fin 2) : (bvSlot p).view.set = (bvR p).set := by
  show ((bvM.view.slice (bvR p)).reshape S1024x128 _).set = _
  rw [View.set_reshape]; exact View.set_slice_whole _ _

/-- The right factor's double buffer held whole is its two slots. -/
theorem split2 (c : Dev nD) (f : Buf (Elt F) (bvM.view.loc (c : Thread nD τ))) :
    (bvM.view.loc (c : Thread nD τ) ↦{fullShare} f : sProp 𝕄)
      = iprop(((bvSlot 0).view.loc (c : Thread nD τ) ↦[(bvSlot 0).view.set]{fullShare} f)
          ∗ ((bvSlot 1).view.loc (c : Thread nD τ) ↦[(bvSlot 1).view.set]{fullShare} f)) := by
  have hu : (bvM.view.loc (c : Thread nD τ) ↦[(bvR 0).set ∪ (bvR 1).set]{fullShare} f : sProp 𝕄)
      ⊣⊢ iprop((bvM.view.loc (c : Thread nD τ) ↦[(bvR 0).set]{fullShare} f) ∗ bvM.view.loc (c : Thread nD τ) ↦[(bvR 1).set]{fullShare} f) :=
    pointsTo_union bvR_disjoint
  rw [bvSlot_set, bvSlot_set]
  refine Eq.trans ?_ (BI.equiv_iff.mp ⟨hu.1, hu.2⟩)
  rw [bvR_cover]

/-! ## The result array: two row halves, sixteen column blocks each -/

/-- The rectangle of the rows device `d` computes. -/
abbrev rowsR (d : Dev nD) : Rect S2048x2048 := Rect.unit (s := S2048x2048) (rowsOff d) S1024x2048.size (rows_inb d)

theorem mem_rowsR {d : Dev nD} {i : S2048x2048.Idx} : i ∈ (rowsR d).set ↔ (i 0).val / 1024 = d.val % 2 := by
  rw [Rect.mem_set_unit]
  have hi0 : (i 0).val < 2048 := (i 0).isLt
  have hi1 : (i 1).val < 2048 := (i 1).isLt
  constructor
  · intro h
    have h0 : 1024 * (d.val % 2) ≤ (i 0).val ∧ (i 0).val < 1024 * (d.val % 2) + 1024 := h 0
    omega
  · intro h a
    fin_cases a
    · show 1024 * (d.val % 2) ≤ (i 0).val ∧ (i 0).val < 1024 * (d.val % 2) + 1024; omega
    · show 0 ≤ (i 1).val ∧ (i 1).val < 0 + 2048; omega

theorem mem_outR {d : Dev nD} {j : Fin 16} {i : S2048x2048.Idx} :
    i ∈ (outR d j).set ↔ (i 0).val / 1024 = d.val % 2 ∧ (i 1).val / 128 = j.val := by
  rw [Rect.mem_set_unit]
  have hi0 : (i 0).val < 2048 := (i 0).isLt
  have hi1 : (i 1).val < 2048 := (i 1).isLt
  have hj : j.val < 16 := j.isLt
  constructor
  · intro h
    have h0 : 1024 * (d.val % 2) ≤ (i 0).val ∧ (i 0).val < 1024 * (d.val % 2) + 1024 := h 0
    have h1 : 128 * j.val ≤ (i 1).val ∧ (i 1).val < 128 * j.val + 128 := h 1
    omega
  · intro h a
    fin_cases a
    · show 1024 * (d.val % 2) ≤ (i 0).val ∧ (i 0).val < 1024 * (d.val % 2) + 1024; omega
    · show 128 * j.val ≤ (i 1).val ∧ (i 1).val < 128 * j.val + 128; omega

theorem rowsM_set (d : Dev nD) : (rowsM d).view.set = (rowsR d).set := View.set_slice_whole _ _
theorem outM_set (d : Dev nD) (j : Fin 16) : (outM d j).view.set = (outR d j).set := View.set_slice_whole _ _

/-- The result array held whole is the rows one device of a row pair computes and the rows its partner computes. -/
theorem splitOut (c d : Dev nD) (f : Buf (Elt F) (oM.view.loc (c : Thread nD τ))) :
    (oM.view.loc (c : Thread nD τ) ↦{fullShare} f : sProp 𝕄)
      = iprop(((rowsM d).view.loc (c : Thread nD τ) ↦[(rowsM d).view.set]{fullShare} f)
          ∗ ((rowsM (yn d)).view.loc (c : Thread nD τ) ↦[(rowsM (yn d)).view.set]{fullShare} f)) := by
  have hy := yn_row d
  have hd : d.val % 2 < 2 := Nat.mod_lt _ (by decide)
  have hdis : Disjoint (rowsR d).set (rowsR (yn d)).set := by
    rw [Finset.disjoint_left]
    intro i hi hi'
    have := mem_rowsR.mp hi; have := mem_rowsR.mp hi'
    omega
  have hcov : (rowsR d).set ∪ (rowsR (yn d)).set = Finset.univ := by
    ext i
    simp only [Finset.mem_union, Finset.mem_univ, iff_true, mem_rowsR]
    have hi0 : (i 0).val < 2048 := (i 0).isLt
    omega
  have hu : (oM.view.loc (c : Thread nD τ) ↦[(rowsR d).set ∪ (rowsR (yn d)).set]{fullShare} f : sProp 𝕄)
      ⊣⊢ iprop((oM.view.loc (c : Thread nD τ) ↦[(rowsR d).set]{fullShare} f) ∗ oM.view.loc (c : Thread nD τ) ↦[(rowsR (yn d)).set]{fullShare} f) :=
    pointsTo_union hdis
  rw [rowsM_set, rowsM_set]
  refine Eq.trans ?_ (BI.equiv_iff.mp ⟨hu.1, hu.2⟩)
  rw [hcov]

/-- The rows device `d` computes, on device `c`'s array, are the sixteen column blocks of those rows. -/
theorem splitRows (c d : Dev nD) (f : Buf (Elt F) ((rowsM d).view.loc (c : Thread nD τ))) :
    ((rowsM d).view.loc (c : Thread nD τ) ↦[(rowsM d).view.set]{fullShare} f : sProp 𝕄)
      = bigSep Finset.univ fun j : Fin 16 => outPts c d j f := by
  have hcov : (rowsR d).set = (Finset.univ : Finset (Fin 16)).biUnion (fun j => (outR d j).set) := by
    ext i
    simp only [Finset.mem_biUnion, Finset.mem_univ, true_and, mem_rowsR, mem_outR]
    have hi1 : (i 1).val < 2048 := (i 1).isLt
    constructor
    · intro h; exact ⟨⟨(i 1).val / 128, by omega⟩, h, rfl⟩
    · rintro ⟨j, h, -⟩; exact h
  have hdis : ∀ j ∈ (Finset.univ : Finset (Fin 16)), ∀ j' ∈ (Finset.univ : Finset (Fin 16)), j ≠ j' →
      Disjoint (outR d j).set (outR d j').set := fun j _ j' _ h => by
    rw [Finset.disjoint_left]
    intro i hi hi'
    exact h (Fin.ext ((mem_outR.mp hi).2.symm.trans (mem_outR.mp hi').2))
  rw [rowsM_set, hcov]
  refine (pointsTo_biUnion (ℓ := oM.view.loc (c : Thread nD τ)) Finset.univ (fun j => (outR d j).set) hdis).trans
    (bigSep_congr fun j _ => ?_)
  show (oM.view.loc (c : Thread nD τ) ↦[(outR d j).set]{fullShare} f : sProp 𝕄)
    = ((outM d j).view.loc (c : Thread nD τ) ↦[(outM d j).view.set]{fullShare} f)
  rw [outM_set]

/-- The two slots of the double buffer, held at different contents, are the whole buffer at some contents: the second
    slot's on the second slot, the first's elsewhere. -/
theorem join2 (c : Dev nD) (g0 : Buf (Elt F) ((bvSlot 0).view.loc (c : Thread nD τ))) (g1 : Buf (Elt F) ((bvSlot 1).view.loc (c : Thread nD τ))) :
    iprop(((bvSlot 0).view.loc (c : Thread nD τ) ↦[(bvSlot 0).view.set]{fullShare} g0) ∗ ((bvSlot 1).view.loc (c : Thread nD τ) ↦[(bvSlot 1).view.set]{fullShare} g1))
      ⊢ (iprop(∃ f, bvM.view.loc (c : Thread nD τ) ↦{fullShare} f) : sProp 𝕄) := by
  rw [bvSlot_set, bvSlot_set]
  have hj : iprop((bvM.view.loc (c : Thread nD τ) ↦[(bvR 0).set]{fullShare} g0) ∗ bvM.view.loc (c : Thread nD τ) ↦[(bvR 1).set]{fullShare} g1)
      ⊢ (bvM.view.loc (c : Thread nD τ) ↦[(bvR 0).set ∪ (bvR 1).set]{fullShare} _ : sProp 𝕄) := pointsTo_join bvR_disjoint
  rw [bvR_cover] at hj
  refine hj.trans ?_
  iintro H
  iexists _
  iexact H

/-- info: 'Cert.Kernel.DM.split16' depends on axioms: [propext, Classical.choice, Quot.sound] -/
#guard_msgs in #print axioms split16

end Cert.Kernel.DM

end
-- ==== Proof.BitsSide.Pieces.lean ====
/-
  Small pieces the body's proof uses at every chunk: what a device owes before and after one more send; a stored slot as the
  run leaves it, read as the buffer's contents function; looking one cell's invariant up in the records; and an assertion
  set aside for a stretch.
-/
import proofs.«900449_g7700000000000450_dist_matmul_k_x_m2048_n2048_k1024_v7x_xy2x2_bf16_1_alg».proof.Proof.BitsSide.Steps
import proofs.«900449_g7700000000000450_dist_matmul_k_x_m2048_n2048_k1024_v7x_xy2x2_bf16_1_alg».proof.Proof.BitsSide.Geom

noncomputable section

namespace Cert.Kernel.DM

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

omit [FloatOps F] in
theorem owed_succ1 (c : Dev nD) (n : ℕ) (hn : n < 16) (n₂ : ℕ) :
    owed c n n₂ = owed c (n + 1) n₂ + tallyAt (r1Cell ⟨n, hn⟩ (xn c)) () Ncr := by
  unfold owed; rw [show owe1 c n = _ from owe1_succ c ⟨n, hn⟩]; exact add_right_comm _ _ _
omit [FloatOps F] in
theorem owed_succ2 (c : Dev nD) (n₁ : ℕ) (n : ℕ) (hn : n < 16) :
    owed c n₁ n = owed c n₁ (n + 1) + tallyAt (r2Cell ⟨n, hn⟩ (yn c)) () Ncr := by
  unfold owed; rw [show owe2 c n = _ from owe2_succ c ⟨n, hn⟩]; exact (add_assoc _ _ _).symm

/-- A slot of the send buffer as the run leaves it — the product of the loaded left rows and the loaded right chunk, stored —
    is the send buffer's contents there. -/
theorem ps_run (c : Dev nD) (j : Fin 16) (p : Fin 2) (f0 : Buf (Elt F) (avM.view.loc (c : Thread nD τ)))
    (fp : Buf (Elt F) ((slotM psM j).view.loc (c : Thread nD τ))) (base : Buf (Elt F) ((bvSlot p).view.loc (c : Thread nD τ)))
    (older : List (View.Piece (Elt F) S1024x128 .f32)) :
    ∀ i ∈ (slotM psM j).view.set,
      View.write (Elt F) (psM.access (slotR j)) fp
        (k0_pay3 (k0_pay1 (View.readAt (Elt F) avM.view (Rect.unit (s := S1024x1024) ![0, 0] S1024x1024.size inb_S1024x1024_S1024x1024_0_0).toLoadRect
            (View.write (Elt F) avM.view f0 (ReadAs.same.apply ((aSrc c).view.read (Elt F) (m ((c : Thread nD τ).loc main_arg0)))) Finset.univ)))
          (View.readAt (Elt F) bvM.view (bvR p).toLoadRect
            ((bvSlot p).view.writes (Elt F) base
              (⟨Rect.whole S1024x128, ReadAs.same.apply ((bSrc j).view.read (Elt F) (m ((c : Thread nD τ).loc main_arg1)))⟩ :: older))))
        Finset.univ i = psFull m c i := by
  rw [a_load, b_load]; exact ps_store m c j fp

/-- A slot of the sum buffer as the run leaves it — the loaded send slot plus the loaded receive slot, stored — is the sum
    buffer's contents there, when the two slots hold the device's and the partner's product. -/
theorem cv_run (c : Dev nD) (j : Fin 16) (fc : Buf (Elt F) ((slotM cvM j).view.loc (c : Thread nD τ)))
    (fs : Buf (Elt F) (psM.view.loc (c : Thread nD τ))) (hfs : ∀ i ∈ (slotM psM j).view.set, fs i = psFull m c i)
    (fr : Buf (Elt F) (prM.view.loc (c : Thread nD τ))) (hfr : ∀ i ∈ (slotM prM j).view.set, fr i = prFull m c i) :
    ∀ i ∈ (slotM cvM j).view.set,
      View.write (Elt F) (cvM.access (slotR j)) fc
        (k0_pay4 (View.readAt (Elt F) psM.view (slotR j).toLoadRect fs) (View.readAt (Elt F) prM.view (slotR j).toLoadRect fr))
        Finset.univ i = cvFull m c i := by
  rw [ps_load m c j fs hfs, pr_load m c j fr hfr]; exact cv_store m c j fc

/-- An assertion set aside: the same assertion, kept out of the run's sight for a stretch. -/
@[irreducible] def Aside (P : sProp 𝕄) : sProp 𝕄 := P
omit [FloatOps F] in
theorem aside_eq (P : sProp 𝕄) : Aside P = P := by unfold Aside; rfl

omit [FloatOps F] in
/-- A block of the result array spelt through any offsets equal to the block's own is the same assertion. -/
theorem outPts_printed (c d : Dev nD) (j : Fin 16) {off : Fin 2 → Nat} (hoff : off = outOff d j)
    (inb : ∀ a, off a + S1024x128.size a ≤ S2048x2048.size a) (f : Buf (Elt F) (oM.view.loc (c : Thread nD τ))) :
    ((oM.slice (Rect.unit (s := S2048x2048) off S1024x128.size inb) (fun _ => rfl)).view.loc (c : Thread nD τ)
        ↦[(oM.slice (Rect.unit (s := S2048x2048) off S1024x128.size inb) (fun _ => rfl)).view.set]{fullShare} f : sProp 𝕄)
      = outPts c d j f := by
  subst hoff; rfl

omit [FloatOps F] in
theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_option' {α : Type} [Fintype α] [DecidableEq α] (Φ : Option α → sProp 𝕄) :
    bigSep Finset.univ Φ = iprop(Φ none ∗ bigSep Finset.univ fun a => Φ (some a)) := by
  rw [bigSep_univ_at Φ none, show (Finset.univ.erase none : Finset (Option α)) = Finset.univ.map ⟨some, Option.some_injective α⟩ from by
    ext x; cases x <;> simp, bigSep_map]
  rfl

/-- One cell's invariant, and that its round is open, out of the records. -/
theorem inv_at (K : Dev nD × CIx → ℕ) (ck : Dev nD × CIx) :
    (bigSep Finset.univ fun ck : Dev nD × CIx => (cellInv ER (meshRd m) (K ck) (kcell ck) : sProp 𝕄)) ⊢ cellInv ER (meshRd m) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
/-- The sixty-four exchange semaphores at zero, from the four groups of sixteen. -/
theorem exchSems_intro (c : Dev nD) :
    iprop((bigSep Finset.univ fun j : Fin 16 => semVal (s1Cell j c) 0) ∗ (bigSep Finset.univ fun j : Fin 16 => semVal (r1Cell j c) 0)
        ∗ (bigSep Finset.univ fun j : Fin 16 => semVal (s2Cell j c) 0) ∗ (bigSep Finset.univ fun j : Fin 16 => semVal (r2Cell j c) 0))
      ⊢ (exchSems0 c : sProp 𝕄) := by
  unfold exchSems0
  rw [bigSep_univ_prod, bigSep_fin4']

/-- After the point a device owes nothing: what it still owed after every send, with whatever waits were recorded. -/
theorem owesAt_done (c : Dev nD) (W₀ : Waits sig Unit) :
    (owes (c : Thread nD τ) (owed c 16 16) W₀ : sProp 𝕄) ⊢ (dats (F := F) m 0 c).owesAt () (t0_0 : Fin cfg0.N).succ := by
  unfold Dat.owesAt Pipeline.owesWithin
  rw [show (dats (F := F) m 0 c).owed (t0_0 : Fin cfg0.N).succ = owed c 16 16 from (owed_done c).symm]
  iintro HO
  iexists W₀
  isplitr; · ipureintro; exact fun _ _ => Or.inl trivial
  iexact HO

end Cert.Kernel.DM

end
-- ==== Proof.BitsSide.Body.lean ====
/-
  The body of the kernel on one device, from what the launch deals it to what it hands back.
  The device copies its 1024 rows of its half of the left factor into scratch, and streams the sixteen column chunks of its
  half of the right factor through a double buffer. For each chunk it multiplies, stores the partial product in its send
  buffer and sends it to its partner across the contraction split; when the partner's partial product of the same chunk has
  landed in its receive buffer it adds the two, stores the finished chunk in its sum buffer, copies it into its own rows of
  its result array and sends it into the same rows of the result array of its partner across the row split. A last round of
  waits collects every landing and every read-out. A copy's source is cut in two shares while the copy is pending: the lent
  share travels with the copy and comes back with the read-out, the kept share serves the reads in between. Every buffer has
  one contents function; a slot or block is always held at that function, so at the end the parts join into whole buffers,
  and the result array holds, on every device, the whole product.
-/
import proofs.«900449_g7700000000000450_dist_matmul_k_x_m2048_n2048_k1024_v7x_xy2x2_bf16_1_alg».proof.Proof.BitsSide.Pieces

noncomputable section

namespace Cert.Kernel.DM

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)
set_option maxHeartbeats 0 in
set_option maxRecDepth 16384 in
theorem sound_body (c : Dev nD) (Kt : PUnit → sProp 𝕄) :
    iprop((Φ₀ m c ∗ (dats (F := F) m 0 c).owesAt () (t0_0 : Fin cfg0.N).castSucc)
        ∗ ((Φ₁ m c ∗ (dats (F := F) m 0 c).owesAt () (t0_0 : Fin cfg0.N).succ) -∗ Kt ⟨⟩))
      ⊢ wp frame (wpE (defs₀ (F := F)) 𝒱₀ (c : Thread nD τ) none) Set.univ (bodyAt0 (F := F) t0_0) Kt := by
  unfold bodyAt0
  sl_unfold [cc0_body]
  unfold Φ₀ start arrays0 scratch
  iintro ⟨⟨⟨⟨⟨%K, Hghost⟩, Hcreds, #Hlev⟩, ⟨HA, HB, ⟨%fo, HOut⟩⟩, ⟨%f0, Hav⟩, ⟨%f1, Hbv⟩, ⟨%f2, Hps⟩, ⟨%f3, Hpr⟩, ⟨%f4, Hcv⟩⟩, Ho⟩, Hk⟩
  unfold ghost records payToks localSems0
  icases Hghost with ⟨⟨#HI, #HR⟩, Hpos, ⟨HtBX, HtBY, Htoks⟩, Hsa, Hsb0, Hsb1, Hsos⟩
  unfold creds
  icases Hcreds with ⟨HcB, Hcrs⟩
  unfold Dat.owesAt Pipeline.owesWithin
  icases Ho with ⟨%W, %hW, HO⟩
  rw [show (dats (F := F) m 0 c).owed (t0_0 : Fin cfg0.N).castSucc = O₀ c from rfl]
  -- the sixteen-fold groups, written out
  ihave Htoks := (Entails.of_eq (bigSep_fin16 (chunkToks (F := F) c))) $$ Htoks
  unfold chunkToks
  icases Htoks with ⟨⟨Hts1_0, Htr1_0, Hts2_0, Htr2_0⟩, ⟨Hts1_1, Htr1_1, Hts2_1, Htr2_1⟩, ⟨Hts1_2, Htr1_2, Hts2_2, Htr2_2⟩, ⟨Hts1_3, Htr1_3, Hts2_3, Htr2_3⟩, ⟨Hts1_4, Htr1_4, Hts2_4, Htr2_4⟩, ⟨Hts1_5, Htr1_5, Hts2_5, Htr2_5⟩, ⟨Hts1_6, Htr1_6, Hts2_6, Htr2_6⟩, ⟨Hts1_7, Htr1_7, Hts2_7, Htr2_7⟩, ⟨Hts1_8, Htr1_8, Hts2_8, Htr2_8⟩, ⟨Hts1_9, Htr1_9, Hts2_9, Htr2_9⟩, ⟨Hts1_10, Htr1_10, Hts2_10, Htr2_10⟩, ⟨Hts1_11, Htr1_11, Hts2_11, Htr2_11⟩, ⟨Hts1_12, Htr1_12, Hts2_12, Htr2_12⟩, ⟨Hts1_13, Htr1_13, Hts2_13, Htr2_13⟩, ⟨Hts1_14, Htr1_14, Hts2_14, Htr2_14⟩, ⟨Hts1_15, Htr1_15, Hts2_15, Htr2_15⟩⟩
  ihave Hsos := (Entails.of_eq (bigSep_fin16 fun j : Fin 16 => (semVal ((c : Thread nD τ), .dma (oS j)) 0 : sProp 𝕄))) $$ Hsos
  icases Hsos with ⟨Hso0, Hso1, Hso2, Hso3, Hso4, Hso5, Hso6, Hso7, Hso8, Hso9, Hso10, Hso11, Hso12, Hso13, Hso14, Hso15⟩
  ihave Hcrs := (Entails.of_eq (bigSep_fin16 fun j : Fin 16 => (iprop(cred (tallyAt (r1Cell j c) () Ncr) ∗ cred (tallyAt (r2Cell j c) () Ncr)) : sProp 𝕄))) $$ Hcrs
  icases Hcrs with ⟨⟨Hcr1_0, Hcr2_0⟩, ⟨Hcr1_1, Hcr2_1⟩, ⟨Hcr1_2, Hcr2_2⟩, ⟨Hcr1_3, Hcr2_3⟩, ⟨Hcr1_4, Hcr2_4⟩, ⟨Hcr1_5, Hcr2_5⟩, ⟨Hcr1_6, Hcr2_6⟩, ⟨Hcr1_7, Hcr2_7⟩, ⟨Hcr1_8, Hcr2_8⟩, ⟨Hcr1_9, Hcr2_9⟩, ⟨Hcr1_10, Hcr2_10⟩, ⟨Hcr1_11, Hcr2_11⟩, ⟨Hcr1_12, Hcr2_12⟩, ⟨Hcr1_13, Hcr2_13⟩, ⟨Hcr1_14, Hcr2_14⟩, ⟨Hcr1_15, Hcr2_15⟩⟩
  -- the positions: the barrier cell's, then kind by kind
  unfold positions
  ihave Hpos := (Entails.of_eq ((bigSep_option' fun x : CIx => (atPos ER (kcell (c, x)) 0 ∅ 0 : sProp 𝕄)).trans
      (congrArg _ (bigSep_univ_prod fun kj : Fin 4 × Fin 16 => (atPos ER (kcell (c, some kj)) 0 ∅ 0 : sProp 𝕄))))) $$ Hpos
  icases Hpos with ⟨HpB, Hpos⟩
  ihave Hpos := (Entails.of_eq (bigSep_fin4' fun k : Fin 4 => bigSep Finset.univ fun j : Fin 16 => (atPos ER (kcell (c, some (k, j))) 0 ∅ 0 : sProp 𝕄))) $$ Hpos
  icases Hpos with ⟨Hp0, Hp1, Hp2, Hp3⟩
  ihave Hp0 := (Entails.of_eq (bigSep_fin16 fun j : Fin 16 => (atPos ER (s1Cell j c) 0 ∅ 0 : sProp 𝕄))) $$ Hp0
  icases Hp0 with ⟨Hps1_0, Hps1_1, Hps1_2, Hps1_3, Hps1_4, Hps1_5, Hps1_6, Hps1_7, Hps1_8, Hps1_9, Hps1_10, Hps1_11, Hps1_12, Hps1_13, Hps1_14, Hps1_15⟩
  ihave Hp1 := (Entails.of_eq (bigSep_fin16 fun j : Fin 16 => (atPos ER (r1Cell j c) 0 ∅ 0 : sProp 𝕄))) $$ Hp1
  icases Hp1 with ⟨Hpr1_0, Hpr1_1, Hpr1_2, Hpr1_3, Hpr1_4, Hpr1_5, Hpr1_6, Hpr1_7, Hpr1_8, Hpr1_9, Hpr1_10, Hpr1_11, Hpr1_12, Hpr1_13, Hpr1_14, Hpr1_15⟩
  ihave Hp2 := (Entails.of_eq (bigSep_fin16 fun j : Fin 16 => (atPos ER (s2Cell j c) 0 ∅ 0 : sProp 𝕄))) $$ Hp2
  icases Hp2 with ⟨Hps2_0, Hps2_1, Hps2_2, Hps2_3, Hps2_4, Hps2_5, Hps2_6, Hps2_7, Hps2_8, Hps2_9, Hps2_10, Hps2_11, Hps2_12, Hps2_13, Hps2_14, Hps2_15⟩
  ihave Hp3 := (Entails.of_eq (bigSep_fin16 fun j : Fin 16 => (atPos ER (r2Cell j c) 0 ∅ 0 : sProp 𝕄))) $$ Hp3
  icases Hp3 with ⟨Hpr2_0, Hpr2_1, Hpr2_2, Hpr2_3, Hpr2_4, Hpr2_5, Hpr2_6, Hpr2_7, Hpr2_8, Hpr2_9, Hpr2_10, Hpr2_11, Hpr2_12, Hpr2_13, Hpr2_14, Hpr2_15⟩
  -- the buffers, cut: the double buffer in two, the send and sum buffers in sixteen, the result array in the partner's rows
  -- and sixteen blocks of the device's own
  ihave Hbv := (Entails.of_eq (split2 (F := F) c f1)) $$ Hbv
  icases Hbv with ⟨Hbv0, Hbv1⟩
  ihave Hps := (Entails.of_eq ((split16 (F := F) psM (Memref.isWhole_whole _) c fullShare f2).trans (bigSep_fin16 _))) $$ Hps
  icases Hps with ⟨Hps0, Hps1, Hps2, Hps3, Hps4, Hps5, Hps6, Hps7, Hps8, Hps9, Hps10, Hps11, Hps12, Hps13, Hps14, Hps15⟩
  ihave Hcv := (Entails.of_eq ((split16 (F := F) cvM (Memref.isWhole_whole _) c fullShare f4).trans (bigSep_fin16 _))) $$ Hcv
  icases Hcv with ⟨Hcv0, Hcv1, Hcv2, Hcv3, Hcv4, Hcv5, Hcv6, Hcv7, Hcv8, Hcv9, Hcv10, Hcv11, Hcv12, Hcv13, Hcv14, Hcv15⟩
  ihave HOut := (Entails.of_eq (splitOut (F := F) c c fo)) $$ HOut
  icases HOut with ⟨HOutC, HOutY⟩
  ihave HOutC := (Entails.of_eq ((splitRows (F := F) c c fo).trans (bigSep_fin16 _))) $$ HOutC
  icases HOutC with ⟨Hout0, Hout1, Hout2, Hout3, Hout4, Hout5, Hout6, Hout7, Hout8, Hout9, Hout10, Hout11, Hout12, Hout13, Hout14, Hout15⟩

  -- what lets a local wait pass while landings are owed: the local semaphores lie below every landing cell
  have hledger : ∀ (q : DmaSem sig) (n₁ n₂ : ℕ), kindOf (.dma q : SemLoc sig) = .other →
      (levAts L lv : sProp 𝕄) ⊢ MayWait (c : Thread nD τ) (.dma q) () (owed c n₁ n₂) := fun q n₁ n₂ hq => mayWait_local c q hq n₁ n₂
  sl_exec_parts
  -- the signal across the contraction split: the whole receive buffer goes with it
  iapply (sigX_step m c _ (dev1_eq c _) (K (xn c, none)) _ (by decide) (owed c 0 0 + tallyAt (barCell (yn c)) () 1) W f3) $$ [HO HtBX Hpr]
  · isplitr; · iapply (inv_at m K (xn c, none)); iexact HI
    isplitl [HO]; · unfold O₀; iexact HO
    isplitl [HtBX]; · iexact HtBX
    isplitl [Hpr]; · iexact Hpr
    iapply (reached_at (F := F) (xn c, none)); iexact HR
  iintro HO
  sl_exec_parts
  -- the signal across the row split: the partner's rows of the result array go with it
  iapply (sigY_step m c _ (dev2_eq c _) (K (yn c, none)) _ (by decide) (owed c 0 0) W fo) $$ [HO HtBY HOutY]
  · isplitr; · iapply (inv_at m K (yn c, none)); iexact HI
    isplitl [HO]; · iexact HO
    isplitl [HtBY]; · iexact HtBY
    isplitl [HOutY]; · iexact HOutY
    iapply (reached_at (F := F) (yn c, none)); iexact HR
  iintro HO
  sl_exec_parts
  -- the wait for both partners
  iapply (bar_wait m c (K (c, none)) _ (by decide) W) $$ [HcB HO HpB]
  · isplitr; · iapply (inv_at m K (c, none)); iexact HI
    isplitl [HcB]; · iexact HcB
    isplitl [HO]; · iexact HO
    isplitr; · iexact Hlev
    iexact HpB
  iintro ⟨HO, HX, HY⟩
  unfold barPayX barPayY
  icases HX with ⟨%fx, HprX⟩
  icases HY with ⟨%fy, HoutYn⟩
  ihave HprX := (Entails.of_eq ((split16 (F := F) prM (Memref.isWhole_whole _) (xn c) fullShare fx).trans (bigSep_fin16 _))) $$ HprX
  icases HprX with ⟨HprX0, HprX1, HprX2, HprX3, HprX4, HprX5, HprX6, HprX7, HprX8, HprX9, HprX10, HprX11, HprX12, HprX13, HprX14, HprX15⟩
  ihave HoutYn := (Entails.of_eq ((splitRows (F := F) (yn c) c fy).trans (bigSep_fin16 _))) $$ HoutYn
  icases HoutYn with ⟨HoutYn0, HoutYn1, HoutYn2, HoutYn3, HoutYn4, HoutYn5, HoutYn6, HoutYn7, HoutYn8, HoutYn9, HoutYn10, HoutYn11, HoutYn12, HoutYn13, HoutYn14, HoutYn15⟩
  -- the device's own blocks of the result array, spelt as the program spells them
  ihave Hout0 := (Entails.of_eq (outPts_printed (F := F) c c 0 (off_eq_2 c) (k0_off2_inb c) fo).symm) $$ Hout0
  ihave Hout1 := (Entails.of_eq (outPts_printed (F := F) c c 1 (off_eq_3 c) (k0_off3_inb c) fo).symm) $$ Hout1
  ihave Hout2 := (Entails.of_eq (outPts_printed (F := F) c c 2 (off_eq_4 c) (k0_off4_inb c) fo).symm) $$ Hout2
  ihave Hout3 := (Entails.of_eq (outPts_printed (F := F) c c 3 (off_eq_5 c) (k0_off5_inb c) fo).symm) $$ Hout3
  ihave Hout4 := (Entails.of_eq (outPts_printed (F := F) c c 4 (off_eq_6 c) (k0_off6_inb c) fo).symm) $$ Hout4
  ihave Hout5 := (Entails.of_eq (outPts_printed (F := F) c c 5 (off_eq_7 c) (k0_off7_inb c) fo).symm) $$ Hout5
  ihave Hout6 := (Entails.of_eq (outPts_printed (F := F) c c 6 (off_eq_8 c) (k0_off8_inb c) fo).symm) $$ Hout6
  ihave Hout7 := (Entails.of_eq (outPts_printed (F := F) c c 7 (off_eq_9 c) (k0_off9_inb c) fo).symm) $$ Hout7
  ihave Hout8 := (Entails.of_eq (outPts_printed (F := F) c c 8 (off_eq_10 c) (k0_off10_inb c) fo).symm) $$ Hout8
  ihave Hout9 := (Entails.of_eq (outPts_printed (F := F) c c 9 (off_eq_11 c) (k0_off11_inb c) fo).symm) $$ Hout9
  ihave Hout10 := (Entails.of_eq (outPts_printed (F := F) c c 10 (off_eq_12 c) (k0_off12_inb c) fo).symm) $$ Hout10
  ihave Hout11 := (Entails.of_eq (outPts_printed (F := F) c c 11 (off_eq_13 c) (k0_off13_inb c) fo).symm) $$ Hout11
  ihave Hout12 := (Entails.of_eq (outPts_printed (F := F) c c 12 (off_eq_14 c) (k0_off14_inb c) fo).symm) $$ Hout12
  ihave Hout13 := (Entails.of_eq (outPts_printed (F := F) c c 13 (off_eq_15 c) (k0_off15_inb c) fo).symm) $$ Hout13
  ihave Hout14 := (Entails.of_eq (outPts_printed (F := F) c c 14 (off_eq_16 c) (k0_off16_inb c) fo).symm) $$ Hout14
  ihave Hout15 := (Entails.of_eq (outPts_printed (F := F) c c 15 (off_eq_17 c) (k0_off17_inb c) fo).symm) $$ Hout15
  -- chunk 0: the left rows and the first right chunk land, the product is stored
  sl_exec_parts

  -- chunk 0: the stored slot is the send buffer's contents there; its lent share goes out with the product, the kept share
  -- stays for the read before the sum
  ihave Hps0 := (Entails.of_eq (pointsTo_congr (ps_run m c 0 0 f0 f2 _ _))) $$ Hps0
  ihave Hps0 := (slot_shares (F := F) psM c 0 (psFull m c)).1 $$ Hps0
  icases Hps0 with ⟨Hps0L, Hps0K⟩
  rw [owed_succ1 c 0 (by decide) _]
  iapply (send1_step m c _ (dev3_eq c _) 0 (K (c, some (0, 0))) (K (xn c, some (1, 0))) (psFull m c) (fun _ _ => rfl) fx _ _) $$ [Hps0L HprX0 HO Hts1_0 Htr1_0]
  · isplitr; · iapply (inv_at m K (c, some (0, 0))); iexact HI
    isplitr; · iapply (inv_at m K (xn c, some (1, 0))); iexact HI
    isplitl [Hps0L]; · iexact Hps0L
    isplitl [HprX0]; · iexact HprX0
    isplitl [HO]; · iexact HO
    isplitl [Hts1_0]; · iexact Hts1_0
    isplitr; · iapply (reached_at (F := F) (c, some (0, 0))); iexact HR
    isplitl [Htr1_0]; · iexact Htr1_0
    iapply (reached_at (F := F) (xn c, some (1, 0))); iexact HR
  iintro ⟨Hcs1_0, HO⟩
  sl_exec_parts

  -- chunk 1: the stored slot is the send buffer's contents there; its lent share goes out with the product, the kept share
  -- stays for the read before the sum
  ihave Hps1 := (Entails.of_eq (pointsTo_congr (ps_run m c 1 1 f0 f2 _ _))) $$ Hps1
  ihave Hps1 := (slot_shares (F := F) psM c 1 (psFull m c)).1 $$ Hps1
  icases Hps1 with ⟨Hps1L, Hps1K⟩
  rw [owed_succ1 c 1 (by decide) _]
  iapply (send1_step m c _ (dev4_eq c _) 1 (K (c, some (0, 1))) (K (xn c, some (1, 1))) (psFull m c) (fun _ _ => rfl) fx _ _) $$ [Hps1L HprX1 HO Hts1_1 Htr1_1]
  · isplitr; · iapply (inv_at m K (c, some (0, 1))); iexact HI
    isplitr; · iapply (inv_at m K (xn c, some (1, 1))); iexact HI
    isplitl [Hps1L]; · iexact Hps1L
    isplitl [HprX1]; · iexact HprX1
    isplitl [HO]; · iexact HO
    isplitl [Hts1_1]; · iexact Hts1_1
    isplitr; · iapply (reached_at (F := F) (c, some (0, 1))); iexact HR
    isplitl [Htr1_1]; · iexact Htr1_1
    iapply (reached_at (F := F) (xn c, some (1, 1))); iexact HR
  iintro ⟨Hcs1_1, HO⟩
  sl_exec_parts

  -- the partner's partial product of chunk 0 has landed: the receive slot comes with the wait, and the cell is closed

  iapply (dmaWait_step m c _ (K (c, some (1, 0))) (r1Pay m 0 c) (expect_r1 m c 0) (rest_r1 m c 0) (slotM prM 0) rfl (owed c 2 0) _) $$ [Hcr1_0 HO Hpr1_0]
  · isplitr; · iapply (inv_at m K (c, some (1, 0))); iexact HI
    isplitl [Hcr1_0]; · iexact Hcr1_0
    isplitl [HO]; · iexact HO
    isplitr
    · iapply (mayWait_owed c (.dma (r1S 0)) 2 0 (fun k hk => by have := k.isLt; rw [lv_r1]; omega) (fun k hk => by have := k.isLt; rw [lv_r1]; omega)); iexact Hlev
    iexact Hpr1_0
  iintro ⟨HO, Hzr1_0, Hpr0⟩
  unfold r1Pay

  -- the local copy of the sum into the result array waits until the sum slot is cut: its counter is set aside
  ihave Hso0 := (Entails.of_eq (aside_eq _).symm) $$ Hso0
  sl_exec_parts
  -- the stored sum slot is the sum buffer's contents there; the kept share feeds the local copy, the lent share the send
  ihave Hcv0 := (Entails.of_eq (pointsTo_congr (cv_run m c 0 f4 (psFull m c) (fun _ _ => rfl) (prFull m c) (fun _ _ => rfl)))) $$ Hcv0
  ihave Hcv0 := (slot_shares (F := F) cvM c 0 (cvFull m c)).1 $$ Hcv0
  icases Hcv0 with ⟨Hcv0L, Hcv0K⟩
  ihave Hcv0L := (Entails.of_eq (aside_eq _).symm) $$ Hcv0L
  ihave Hso0 := (Entails.of_eq (aside_eq _)) $$ Hso0
  sl_exec_parts
  ihave Hcv0L := (Entails.of_eq (aside_eq _)) $$ Hcv0L
  rw [owed_succ2 c _ 0 (by decide)]
  iapply (send2_step m c _ (dev5_eq c _) 0 (K (c, some (2, 0))) (K (yn c, some (3, 0))) (off_eq_2 c) (k0_off2_inb c) (cvFull m c) (fun _ _ => rfl) fy _ _) $$ [Hcv0L HoutYn0 HO Hts2_0 Htr2_0]
  · isplitr; · iapply (inv_at m K (c, some (2, 0))); iexact HI
    isplitr; · iapply (inv_at m K (yn c, some (3, 0))); iexact HI
    isplitl [Hcv0L]; · iexact Hcv0L
    isplitl [HoutYn0]; · iexact HoutYn0
    isplitl [HO]; · iexact HO
    isplitl [Hts2_0]; · iexact Hts2_0
    isplitr; · iapply (reached_at (F := F) (c, some (2, 0))); iexact HR
    isplitl [Htr2_0]; · iexact Htr2_0
    iapply (reached_at (F := F) (yn c, some (3, 0))); iexact HR
  iintro ⟨Hcs2_0, HO⟩
  sl_exec_parts

  -- chunk 2: the stored slot is the send buffer's contents there; its lent share goes out with the product, the kept share
  -- stays for the read before the sum
  ihave Hps2 := (Entails.of_eq (pointsTo_congr (ps_run m c 2 0 f0 f2 _ _))) $$ Hps2
  ihave Hps2 := (slot_shares (F := F) psM c 2 (psFull m c)).1 $$ Hps2
  icases Hps2 with ⟨Hps2L, Hps2K⟩
  rw [owed_succ1 c 2 (by decide) _]
  iapply (send1_step m c _ (dev6_eq c _) 2 (K (c, some (0, 2))) (K (xn c, some (1, 2))) (psFull m c) (fun _ _ => rfl) fx _ _) $$ [Hps2L HprX2 HO Hts1_2 Htr1_2]
  · isplitr; · iapply (inv_at m K (c, some (0, 2))); iexact HI
    isplitr; · iapply (inv_at m K (xn c, some (1, 2))); iexact HI
    isplitl [Hps2L]; · iexact Hps2L
    isplitl [HprX2]; · iexact HprX2
    isplitl [HO]; · iexact HO
    isplitl [Hts1_2]; · iexact Hts1_2
    isplitr; · iapply (reached_at (F := F) (c, some (0, 2))); iexact HR
    isplitl [Htr1_2]; · iexact Htr1_2
    iapply (reached_at (F := F) (xn c, some (1, 2))); iexact HR
  iintro ⟨Hcs1_2, HO⟩
  sl_exec_parts

  -- the partner's partial product of chunk 1 has landed: the receive slot comes with the wait, and the cell is closed

  iapply (dmaWait_step m c _ (K (c, some (1, 1))) (r1Pay m 1 c) (expect_r1 m c 1) (rest_r1 m c 1) (slotM prM 1) rfl (owed c 3 1) _) $$ [Hcr1_1 HO Hpr1_1]
  · isplitr; · iapply (inv_at m K (c, some (1, 1))); iexact HI
    isplitl [Hcr1_1]; · iexact Hcr1_1
    isplitl [HO]; · iexact HO
    isplitr
    · iapply (mayWait_owed c (.dma (r1S 1)) 3 1 (fun k hk => by have := k.isLt; rw [lv_r1]; omega) (fun k hk => by have := k.isLt; rw [lv_r1]; omega)); iexact Hlev
    iexact Hpr1_1
  iintro ⟨HO, Hzr1_1, Hpr1⟩
  unfold r1Pay

  -- the local copy of the sum into the result array waits until the sum slot is cut: its counter is set aside
  ihave Hso1 := (Entails.of_eq (aside_eq _).symm) $$ Hso1
  sl_exec_parts
  -- the stored sum slot is the sum buffer's contents there; the kept share feeds the local copy, the lent share the send
  ihave Hcv1 := (Entails.of_eq (pointsTo_congr (cv_run m c 1 f4 (psFull m c) (fun _ _ => rfl) (prFull m c) (fun _ _ => rfl)))) $$ Hcv1
  ihave Hcv1 := (slot_shares (F := F) cvM c 1 (cvFull m c)).1 $$ Hcv1
  icases Hcv1 with ⟨Hcv1L, Hcv1K⟩
  ihave Hcv1L := (Entails.of_eq (aside_eq _).symm) $$ Hcv1L
  ihave Hso1 := (Entails.of_eq (aside_eq _)) $$ Hso1
  sl_exec_parts
  ihave Hcv1L := (Entails.of_eq (aside_eq _)) $$ Hcv1L
  rw [owed_succ2 c _ 1 (by decide)]
  iapply (send2_step m c _ (dev7_eq c _) 1 (K (c, some (2, 1))) (K (yn c, some (3, 1))) (off_eq_3 c) (k0_off3_inb c) (cvFull m c) (fun _ _ => rfl) fy _ _) $$ [Hcv1L HoutYn1 HO Hts2_1 Htr2_1]
  · isplitr; · iapply (inv_at m K (c, some (2, 1))); iexact HI
    isplitr; · iapply (inv_at m K (yn c, some (3, 1))); iexact HI
    isplitl [Hcv1L]; · iexact Hcv1L
    isplitl [HoutYn1]; · iexact HoutYn1
    isplitl [HO]; · iexact HO
    isplitl [Hts2_1]; · iexact Hts2_1
    isplitr; · iapply (reached_at (F := F) (c, some (2, 1))); iexact HR
    isplitl [Htr2_1]; · iexact Htr2_1
    iapply (reached_at (F := F) (yn c, some (3, 1))); iexact HR
  iintro ⟨Hcs2_1, HO⟩
  sl_exec_parts

  -- chunk 3: the stored slot is the send buffer's contents there; its lent share goes out with the product, the kept share
  -- stays for the read before the sum
  ihave Hps3 := (Entails.of_eq (pointsTo_congr (ps_run m c 3 1 f0 f2 _ _))) $$ Hps3
  ihave Hps3 := (slot_shares (F := F) psM c 3 (psFull m c)).1 $$ Hps3
  icases Hps3 with ⟨Hps3L, Hps3K⟩
  rw [owed_succ1 c 3 (by decide) _]
  iapply (send1_step m c _ (dev8_eq c _) 3 (K (c, some (0, 3))) (K (xn c, some (1, 3))) (psFull m c) (fun _ _ => rfl) fx _ _) $$ [Hps3L HprX3 HO Hts1_3 Htr1_3]
  · isplitr; · iapply (inv_at m K (c, some (0, 3))); iexact HI
    isplitr; · iapply (inv_at m K (xn c, some (1, 3))); iexact HI
    isplitl [Hps3L]; · iexact Hps3L
    isplitl [HprX3]; · iexact HprX3
    isplitl [HO]; · iexact HO
    isplitl [Hts1_3]; · iexact Hts1_3
    isplitr; · iapply (reached_at (F := F) (c, some (0, 3))); iexact HR
    isplitl [Htr1_3]; · iexact Htr1_3
    iapply (reached_at (F := F) (xn c, some (1, 3))); iexact HR
  iintro ⟨Hcs1_3, HO⟩
  sl_exec_parts

  -- the partner's partial product of chunk 2 has landed: the receive slot comes with the wait, and the cell is closed

  iapply (dmaWait_step m c _ (K (c, some (1, 2))) (r1Pay m 2 c) (expect_r1 m c 2) (rest_r1 m c 2) (slotM prM 2) rfl (owed c 4 2) _) $$ [Hcr1_2 HO Hpr1_2]
  · isplitr; · iapply (inv_at m K (c, some (1, 2))); iexact HI
    isplitl [Hcr1_2]; · iexact Hcr1_2
    isplitl [HO]; · iexact HO
    isplitr
    · iapply (mayWait_owed c (.dma (r1S 2)) 4 2 (fun k hk => by have := k.isLt; rw [lv_r1]; omega) (fun k hk => by have := k.isLt; rw [lv_r1]; omega)); iexact Hlev
    iexact Hpr1_2
  iintro ⟨HO, Hzr1_2, Hpr2⟩
  unfold r1Pay

  -- the local copy of the sum into the result array waits until the sum slot is cut: its counter is set aside
  ihave Hso2 := (Entails.of_eq (aside_eq _).symm) $$ Hso2
  sl_exec_parts
  -- the stored sum slot is the sum buffer's contents there; the kept share feeds the local copy, the lent share the send
  ihave Hcv2 := (Entails.of_eq (pointsTo_congr (cv_run m c 2 f4 (psFull m c) (fun _ _ => rfl) (prFull m c) (fun _ _ => rfl)))) $$ Hcv2
  ihave Hcv2 := (slot_shares (F := F) cvM c 2 (cvFull m c)).1 $$ Hcv2
  icases Hcv2 with ⟨Hcv2L, Hcv2K⟩
  ihave Hcv2L := (Entails.of_eq (aside_eq _).symm) $$ Hcv2L
  ihave Hso2 := (Entails.of_eq (aside_eq _)) $$ Hso2
  sl_exec_parts
  ihave Hcv2L := (Entails.of_eq (aside_eq _)) $$ Hcv2L
  rw [owed_succ2 c _ 2 (by decide)]
  iapply (send2_step m c _ (dev9_eq c _) 2 (K (c, some (2, 2))) (K (yn c, some (3, 2))) (off_eq_4 c) (k0_off4_inb c) (cvFull m c) (fun _ _ => rfl) fy _ _) $$ [Hcv2L HoutYn2 HO Hts2_2 Htr2_2]
  · isplitr; · iapply (inv_at m K (c, some (2, 2))); iexact HI
    isplitr; · iapply (inv_at m K (yn c, some (3, 2))); iexact HI
    isplitl [Hcv2L]; · iexact Hcv2L
    isplitl [HoutYn2]; · iexact HoutYn2
    isplitl [HO]; · iexact HO
    isplitl [Hts2_2]; · iexact Hts2_2
    isplitr; · iapply (reached_at (F := F) (c, some (2, 2))); iexact HR
    isplitl [Htr2_2]; · iexact Htr2_2
    iapply (reached_at (F := F) (yn c, some (3, 2))); iexact HR
  iintro ⟨Hcs2_2, HO⟩
  sl_exec_parts

  -- chunk 4: the stored slot is the send buffer's contents there; its lent share goes out with the product, the kept share
  -- stays for the read before the sum
  ihave Hps4 := (Entails.of_eq (pointsTo_congr (ps_run m c 4 0 f0 f2 _ _))) $$ Hps4
  ihave Hps4 := (slot_shares (F := F) psM c 4 (psFull m c)).1 $$ Hps4
  icases Hps4 with ⟨Hps4L, Hps4K⟩
  rw [owed_succ1 c 4 (by decide) _]
  iapply (send1_step m c _ (dev10_eq c _) 4 (K (c, some (0, 4))) (K (xn c, some (1, 4))) (psFull m c) (fun _ _ => rfl) fx _ _) $$ [Hps4L HprX4 HO Hts1_4 Htr1_4]
  · isplitr; · iapply (inv_at m K (c, some (0, 4))); iexact HI
    isplitr; · iapply (inv_at m K (xn c, some (1, 4))); iexact HI
    isplitl [Hps4L]; · iexact Hps4L
    isplitl [HprX4]; · iexact HprX4
    isplitl [HO]; · iexact HO
    isplitl [Hts1_4]; · iexact Hts1_4
    isplitr; · iapply (reached_at (F := F) (c, some (0, 4))); iexact HR
    isplitl [Htr1_4]; · iexact Htr1_4
    iapply (reached_at (F := F) (xn c, some (1, 4))); iexact HR
  iintro ⟨Hcs1_4, HO⟩
  sl_exec_parts

  -- the partner's partial product of chunk 3 has landed: the receive slot comes with the wait, and the cell is closed

  iapply (dmaWait_step m c _ (K (c, some (1, 3))) (r1Pay m 3 c) (expect_r1 m c 3) (rest_r1 m c 3) (slotM prM 3) rfl (owed c 5 3) _) $$ [Hcr1_3 HO Hpr1_3]
  · isplitr; · iapply (inv_at m K (c, some (1, 3))); iexact HI
    isplitl [Hcr1_3]; · iexact Hcr1_3
    isplitl [HO]; · iexact HO
    isplitr
    · iapply (mayWait_owed c (.dma (r1S 3)) 5 3 (fun k hk => by have := k.isLt; rw [lv_r1]; omega) (fun k hk => by have := k.isLt; rw [lv_r1]; omega)); iexact Hlev
    iexact Hpr1_3
  iintro ⟨HO, Hzr1_3, Hpr3⟩
  unfold r1Pay

  -- the local copy of the sum into the result array waits until the sum slot is cut: its counter is set aside
  ihave Hso3 := (Entails.of_eq (aside_eq _).symm) $$ Hso3
  sl_exec_parts
  -- the stored sum slot is the sum buffer's contents there; the kept share feeds the local copy, the lent share the send
  ihave Hcv3 := (Entails.of_eq (pointsTo_congr (cv_run m c 3 f4 (psFull m c) (fun _ _ => rfl) (prFull m c) (fun _ _ => rfl)))) $$ Hcv3
  ihave Hcv3 := (slot_shares (F := F) cvM c 3 (cvFull m c)).1 $$ Hcv3
  icases Hcv3 with ⟨Hcv3L, Hcv3K⟩
  ihave Hcv3L := (Entails.of_eq (aside_eq _).symm) $$ Hcv3L
  ihave Hso3 := (Entails.of_eq (aside_eq _)) $$ Hso3
  sl_exec_parts
  ihave Hcv3L := (Entails.of_eq (aside_eq _)) $$ Hcv3L
  rw [owed_succ2 c _ 3 (by decide)]
  iapply (send2_step m c _ (dev11_eq c _) 3 (K (c, some (2, 3))) (K (yn c, some (3, 3))) (off_eq_5 c) (k0_off5_inb c) (cvFull m c) (fun _ _ => rfl) fy _ _) $$ [Hcv3L HoutYn3 HO Hts2_3 Htr2_3]
  · isplitr; · iapply (inv_at m K (c, some (2, 3))); iexact HI
    isplitr; · iapply (inv_at m K (yn c, some (3, 3))); iexact HI
    isplitl [Hcv3L]; · iexact Hcv3L
    isplitl [HoutYn3]; · iexact HoutYn3
    isplitl [HO]; · iexact HO
    isplitl [Hts2_3]; · iexact Hts2_3
    isplitr; · iapply (reached_at (F := F) (c, some (2, 3))); iexact HR
    isplitl [Htr2_3]; · iexact Htr2_3
    iapply (reached_at (F := F) (yn c, some (3, 3))); iexact HR
  iintro ⟨Hcs2_3, HO⟩
  sl_exec_parts

  -- chunk 5: the stored slot is the send buffer's contents there; its lent share goes out with the product, the kept share
  -- stays for the read before the sum
  ihave Hps5 := (Entails.of_eq (pointsTo_congr (ps_run m c 5 1 f0 f2 _ _))) $$ Hps5
  ihave Hps5 := (slot_shares (F := F) psM c 5 (psFull m c)).1 $$ Hps5
  icases Hps5 with ⟨Hps5L, Hps5K⟩
  rw [owed_succ1 c 5 (by decide) _]
  iapply (send1_step m c _ (dev12_eq c _) 5 (K (c, some (0, 5))) (K (xn c, some (1, 5))) (psFull m c) (fun _ _ => rfl) fx _ _) $$ [Hps5L HprX5 HO Hts1_5 Htr1_5]
  · isplitr; · iapply (inv_at m K (c, some (0, 5))); iexact HI
    isplitr; · iapply (inv_at m K (xn c, some (1, 5))); iexact HI
    isplitl [Hps5L]; · iexact Hps5L
    isplitl [HprX5]; · iexact HprX5
    isplitl [HO]; · iexact HO
    isplitl [Hts1_5]; · iexact Hts1_5
    isplitr; · iapply (reached_at (F := F) (c, some (0, 5))); iexact HR
    isplitl [Htr1_5]; · iexact Htr1_5
    iapply (reached_at (F := F) (xn c, some (1, 5))); iexact HR
  iintro ⟨Hcs1_5, HO⟩
  sl_exec_parts

  -- the partner's partial product of chunk 4 has landed: the receive slot comes with the wait, and the cell is closed

  iapply (dmaWait_step m c _ (K (c, some (1, 4))) (r1Pay m 4 c) (expect_r1 m c 4) (rest_r1 m c 4) (slotM prM 4) rfl (owed c 6 4) _) $$ [Hcr1_4 HO Hpr1_4]
  · isplitr; · iapply (inv_at m K (c, some (1, 4))); iexact HI
    isplitl [Hcr1_4]; · iexact Hcr1_4
    isplitl [HO]; · iexact HO
    isplitr
    · iapply (mayWait_owed c (.dma (r1S 4)) 6 4 (fun k hk => by have := k.isLt; rw [lv_r1]; omega) (fun k hk => by have := k.isLt; rw [lv_r1]; omega)); iexact Hlev
    iexact Hpr1_4
  iintro ⟨HO, Hzr1_4, Hpr4⟩
  unfold r1Pay

  -- the local copy of the sum into the result array waits until the sum slot is cut: its counter is set aside
  ihave Hso4 := (Entails.of_eq (aside_eq _).symm) $$ Hso4
  sl_exec_parts
  -- the stored sum slot is the sum buffer's contents there; the kept share feeds the local copy, the lent share the send
  ihave Hcv4 := (Entails.of_eq (pointsTo_congr (cv_run m c 4 f4 (psFull m c) (fun _ _ => rfl) (prFull m c) (fun _ _ => rfl)))) $$ Hcv4
  ihave Hcv4 := (slot_shares (F := F) cvM c 4 (cvFull m c)).1 $$ Hcv4
  icases Hcv4 with ⟨Hcv4L, Hcv4K⟩
  ihave Hcv4L := (Entails.of_eq (aside_eq _).symm) $$ Hcv4L
  ihave Hso4 := (Entails.of_eq (aside_eq _)) $$ Hso4
  sl_exec_parts
  ihave Hcv4L := (Entails.of_eq (aside_eq _)) $$ Hcv4L
  rw [owed_succ2 c _ 4 (by decide)]
  iapply (send2_step m c _ (dev13_eq c _) 4 (K (c, some (2, 4))) (K (yn c, some (3, 4))) (off_eq_6 c) (k0_off6_inb c) (cvFull m c) (fun _ _ => rfl) fy _ _) $$ [Hcv4L HoutYn4 HO Hts2_4 Htr2_4]
  · isplitr; · iapply (inv_at m K (c, some (2, 4))); iexact HI
    isplitr; · iapply (inv_at m K (yn c, some (3, 4))); iexact HI
    isplitl [Hcv4L]; · iexact Hcv4L
    isplitl [HoutYn4]; · iexact HoutYn4
    isplitl [HO]; · iexact HO
    isplitl [Hts2_4]; · iexact Hts2_4
    isplitr; · iapply (reached_at (F := F) (c, some (2, 4))); iexact HR
    isplitl [Htr2_4]; · iexact Htr2_4
    iapply (reached_at (F := F) (yn c, some (3, 4))); iexact HR
  iintro ⟨Hcs2_4, HO⟩
  sl_exec_parts

  -- chunk 6: the stored slot is the send buffer's contents there; its lent share goes out with the product, the kept share
  -- stays for the read before the sum
  ihave Hps6 := (Entails.of_eq (pointsTo_congr (ps_run m c 6 0 f0 f2 _ _))) $$ Hps6
  ihave Hps6 := (slot_shares (F := F) psM c 6 (psFull m c)).1 $$ Hps6
  icases Hps6 with ⟨Hps6L, Hps6K⟩
  rw [owed_succ1 c 6 (by decide) _]
  iapply (send1_step m c _ (dev14_eq c _) 6 (K (c, some (0, 6))) (K (xn c, some (1, 6))) (psFull m c) (fun _ _ => rfl) fx _ _) $$ [Hps6L HprX6 HO Hts1_6 Htr1_6]
  · isplitr; · iapply (inv_at m K (c, some (0, 6))); iexact HI
    isplitr; · iapply (inv_at m K (xn c, some (1, 6))); iexact HI
    isplitl [Hps6L]; · iexact Hps6L
    isplitl [HprX6]; · iexact HprX6
    isplitl [HO]; · iexact HO
    isplitl [Hts1_6]; · iexact Hts1_6
    isplitr; · iapply (reached_at (F := F) (c, some (0, 6))); iexact HR
    isplitl [Htr1_6]; · iexact Htr1_6
    iapply (reached_at (F := F) (xn c, some (1, 6))); iexact HR
  iintro ⟨Hcs1_6, HO⟩
  sl_exec_parts

  -- the partner's partial product of chunk 5 has landed: the receive slot comes with the wait, and the cell is closed

  iapply (dmaWait_step m c _ (K (c, some (1, 5))) (r1Pay m 5 c) (expect_r1 m c 5) (rest_r1 m c 5) (slotM prM 5) rfl (owed c 7 5) _) $$ [Hcr1_5 HO Hpr1_5]
  · isplitr; · iapply (inv_at m K (c, some (1, 5))); iexact HI
    isplitl [Hcr1_5]; · iexact Hcr1_5
    isplitl [HO]; · iexact HO
    isplitr
    · iapply (mayWait_owed c (.dma (r1S 5)) 7 5 (fun k hk => by have := k.isLt; rw [lv_r1]; omega) (fun k hk => by have := k.isLt; rw [lv_r1]; omega)); iexact Hlev
    iexact Hpr1_5
  iintro ⟨HO, Hzr1_5, Hpr5⟩
  unfold r1Pay

  -- the local copy of the sum into the result array waits until the sum slot is cut: its counter is set aside
  ihave Hso5 := (Entails.of_eq (aside_eq _).symm) $$ Hso5
  sl_exec_parts
  -- the stored sum slot is the sum buffer's contents there; the kept share feeds the local copy, the lent share the send
  ihave Hcv5 := (Entails.of_eq (pointsTo_congr (cv_run m c 5 f4 (psFull m c) (fun _ _ => rfl) (prFull m c) (fun _ _ => rfl)))) $$ Hcv5
  ihave Hcv5 := (slot_shares (F := F) cvM c 5 (cvFull m c)).1 $$ Hcv5
  icases Hcv5 with ⟨Hcv5L, Hcv5K⟩
  ihave Hcv5L := (Entails.of_eq (aside_eq _).symm) $$ Hcv5L
  ihave Hso5 := (Entails.of_eq (aside_eq _)) $$ Hso5
  sl_exec_parts
  ihave Hcv5L := (Entails.of_eq (aside_eq _)) $$ Hcv5L
  rw [owed_succ2 c _ 5 (by decide)]
  iapply (send2_step m c _ (dev15_eq c _) 5 (K (c, some (2, 5))) (K (yn c, some (3, 5))) (off_eq_7 c) (k0_off7_inb c) (cvFull m c) (fun _ _ => rfl) fy _ _) $$ [Hcv5L HoutYn5 HO Hts2_5 Htr2_5]
  · isplitr; · iapply (inv_at m K (c, some (2, 5))); iexact HI
    isplitr; · iapply (inv_at m K (yn c, some (3, 5))); iexact HI
    isplitl [Hcv5L]; · iexact Hcv5L
    isplitl [HoutYn5]; · iexact HoutYn5
    isplitl [HO]; · iexact HO
    isplitl [Hts2_5]; · iexact Hts2_5
    isplitr; · iapply (reached_at (F := F) (c, some (2, 5))); iexact HR
    isplitl [Htr2_5]; · iexact Htr2_5
    iapply (reached_at (F := F) (yn c, some (3, 5))); iexact HR
  iintro ⟨Hcs2_5, HO⟩
  sl_exec_parts

  -- chunk 7: the stored slot is the send buffer's contents there; its lent share goes out with the product, the kept share
  -- stays for the read before the sum
  ihave Hps7 := (Entails.of_eq (pointsTo_congr (ps_run m c 7 1 f0 f2 _ _))) $$ Hps7
  ihave Hps7 := (slot_shares (F := F) psM c 7 (psFull m c)).1 $$ Hps7
  icases Hps7 with ⟨Hps7L, Hps7K⟩
  rw [owed_succ1 c 7 (by decide) _]
  iapply (send1_step m c _ (dev16_eq c _) 7 (K (c, some (0, 7))) (K (xn c, some (1, 7))) (psFull m c) (fun _ _ => rfl) fx _ _) $$ [Hps7L HprX7 HO Hts1_7 Htr1_7]
  · isplitr; · iapply (inv_at m K (c, some (0, 7))); iexact HI
    isplitr; · iapply (inv_at m K (xn c, some (1, 7))); iexact HI
    isplitl [Hps7L]; · iexact Hps7L
    isplitl [HprX7]; · iexact HprX7
    isplitl [HO]; · iexact HO
    isplitl [Hts1_7]; · iexact Hts1_7
    isplitr; · iapply (reached_at (F := F) (c, some (0, 7))); iexact HR
    isplitl [Htr1_7]; · iexact Htr1_7
    iapply (reached_at (F := F) (xn c, some (1, 7))); iexact HR
  iintro ⟨Hcs1_7, HO⟩
  sl_exec_parts

  -- the partner's partial product of chunk 6 has landed: the receive slot comes with the wait, and the cell is closed

  iapply (dmaWait_step m c _ (K (c, some (1, 6))) (r1Pay m 6 c) (expect_r1 m c 6) (rest_r1 m c 6) (slotM prM 6) rfl (owed c 8 6) _) $$ [Hcr1_6 HO Hpr1_6]
  · isplitr; · iapply (inv_at m K (c, some (1, 6))); iexact HI
    isplitl [Hcr1_6]; · iexact Hcr1_6
    isplitl [HO]; · iexact HO
    isplitr
    · iapply (mayWait_owed c (.dma (r1S 6)) 8 6 (fun k hk => by have := k.isLt; rw [lv_r1]; omega) (fun k hk => by have := k.isLt; rw [lv_r1]; omega)); iexact Hlev
    iexact Hpr1_6
  iintro ⟨HO, Hzr1_6, Hpr6⟩
  unfold r1Pay

  -- the local copy of the sum into the result array waits until the sum slot is cut: its counter is set aside
  ihave Hso6 := (Entails.of_eq (aside_eq _).symm) $$ Hso6
  sl_exec_parts
  -- the stored sum slot is the sum buffer's contents there; the kept share feeds the local copy, the lent share the send
  ihave Hcv6 := (Entails.of_eq (pointsTo_congr (cv_run m c 6 f4 (psFull m c) (fun _ _ => rfl) (prFull m c) (fun _ _ => rfl)))) $$ Hcv6
  ihave Hcv6 := (slot_shares (F := F) cvM c 6 (cvFull m c)).1 $$ Hcv6
  icases Hcv6 with ⟨Hcv6L, Hcv6K⟩
  ihave Hcv6L := (Entails.of_eq (aside_eq _).symm) $$ Hcv6L
  ihave Hso6 := (Entails.of_eq (aside_eq _)) $$ Hso6
  sl_exec_parts
  ihave Hcv6L := (Entails.of_eq (aside_eq _)) $$ Hcv6L
  rw [owed_succ2 c _ 6 (by decide)]
  iapply (send2_step m c _ (dev17_eq c _) 6 (K (c, some (2, 6))) (K (yn c, some (3, 6))) (off_eq_8 c) (k0_off8_inb c) (cvFull m c) (fun _ _ => rfl) fy _ _) $$ [Hcv6L HoutYn6 HO Hts2_6 Htr2_6]
  · isplitr; · iapply (inv_at m K (c, some (2, 6))); iexact HI
    isplitr; · iapply (inv_at m K (yn c, some (3, 6))); iexact HI
    isplitl [Hcv6L]; · iexact Hcv6L
    isplitl [HoutYn6]; · iexact HoutYn6
    isplitl [HO]; · iexact HO
    isplitl [Hts2_6]; · iexact Hts2_6
    isplitr; · iapply (reached_at (F := F) (c, some (2, 6))); iexact HR
    isplitl [Htr2_6]; · iexact Htr2_6
    iapply (reached_at (F := F) (yn c, some (3, 6))); iexact HR
  iintro ⟨Hcs2_6, HO⟩
  sl_exec_parts

  -- chunk 8: the stored slot is the send buffer's contents there; its lent share goes out with the product, the kept share
  -- stays for the read before the sum
  ihave Hps8 := (Entails.of_eq (pointsTo_congr (ps_run m c 8 0 f0 f2 _ _))) $$ Hps8
  ihave Hps8 := (slot_shares (F := F) psM c 8 (psFull m c)).1 $$ Hps8
  icases Hps8 with ⟨Hps8L, Hps8K⟩
  rw [owed_succ1 c 8 (by decide) _]
  iapply (send1_step m c _ (dev18_eq c _) 8 (K (c, some (0, 8))) (K (xn c, some (1, 8))) (psFull m c) (fun _ _ => rfl) fx _ _) $$ [Hps8L HprX8 HO Hts1_8 Htr1_8]
  · isplitr; · iapply (inv_at m K (c, some (0, 8))); iexact HI
    isplitr; · iapply (inv_at m K (xn c, some (1, 8))); iexact HI
    isplitl [Hps8L]; · iexact Hps8L
    isplitl [HprX8]; · iexact HprX8
    isplitl [HO]; · iexact HO
    isplitl [Hts1_8]; · iexact Hts1_8
    isplitr; · iapply (reached_at (F := F) (c, some (0, 8))); iexact HR
    isplitl [Htr1_8]; · iexact Htr1_8
    iapply (reached_at (F := F) (xn c, some (1, 8))); iexact HR
  iintro ⟨Hcs1_8, HO⟩
  sl_exec_parts

  -- the partner's partial product of chunk 7 has landed: the receive slot comes with the wait, and the cell is closed

  iapply (dmaWait_step m c _ (K (c, some (1, 7))) (r1Pay m 7 c) (expect_r1 m c 7) (rest_r1 m c 7) (slotM prM 7) rfl (owed c 9 7) _) $$ [Hcr1_7 HO Hpr1_7]
  · isplitr; · iapply (inv_at m K (c, some (1, 7))); iexact HI
    isplitl [Hcr1_7]; · iexact Hcr1_7
    isplitl [HO]; · iexact HO
    isplitr
    · iapply (mayWait_owed c (.dma (r1S 7)) 9 7 (fun k hk => by have := k.isLt; rw [lv_r1]; omega) (fun k hk => by have := k.isLt; rw [lv_r1]; omega)); iexact Hlev
    iexact Hpr1_7
  iintro ⟨HO, Hzr1_7, Hpr7⟩
  unfold r1Pay

  -- the local copy of the sum into the result array waits until the sum slot is cut: its counter is set aside
  ihave Hso7 := (Entails.of_eq (aside_eq _).symm) $$ Hso7
  sl_exec_parts
  -- the stored sum slot is the sum buffer's contents there; the kept share feeds the local copy, the lent share the send
  ihave Hcv7 := (Entails.of_eq (pointsTo_congr (cv_run m c 7 f4 (psFull m c) (fun _ _ => rfl) (prFull m c) (fun _ _ => rfl)))) $$ Hcv7
  ihave Hcv7 := (slot_shares (F := F) cvM c 7 (cvFull m c)).1 $$ Hcv7
  icases Hcv7 with ⟨Hcv7L, Hcv7K⟩
  ihave Hcv7L := (Entails.of_eq (aside_eq _).symm) $$ Hcv7L
  ihave Hso7 := (Entails.of_eq (aside_eq _)) $$ Hso7
  sl_exec_parts
  ihave Hcv7L := (Entails.of_eq (aside_eq _)) $$ Hcv7L
  rw [owed_succ2 c _ 7 (by decide)]
  iapply (send2_step m c _ (dev19_eq c _) 7 (K (c, some (2, 7))) (K (yn c, some (3, 7))) (off_eq_9 c) (k0_off9_inb c) (cvFull m c) (fun _ _ => rfl) fy _ _) $$ [Hcv7L HoutYn7 HO Hts2_7 Htr2_7]
  · isplitr; · iapply (inv_at m K (c, some (2, 7))); iexact HI
    isplitr; · iapply (inv_at m K (yn c, some (3, 7))); iexact HI
    isplitl [Hcv7L]; · iexact Hcv7L
    isplitl [HoutYn7]; · iexact HoutYn7
    isplitl [HO]; · iexact HO
    isplitl [Hts2_7]; · iexact Hts2_7
    isplitr; · iapply (reached_at (F := F) (c, some (2, 7))); iexact HR
    isplitl [Htr2_7]; · iexact Htr2_7
    iapply (reached_at (F := F) (yn c, some (3, 7))); iexact HR
  iintro ⟨Hcs2_7, HO⟩
  sl_exec_parts

  -- chunk 9: the stored slot is the send buffer's contents there; its lent share goes out with the product, the kept share
  -- stays for the read before the sum
  ihave Hps9 := (Entails.of_eq (pointsTo_congr (ps_run m c 9 1 f0 f2 _ _))) $$ Hps9
  ihave Hps9 := (slot_shares (F := F) psM c 9 (psFull m c)).1 $$ Hps9
  icases Hps9 with ⟨Hps9L, Hps9K⟩
  rw [owed_succ1 c 9 (by decide) _]
  iapply (send1_step m c _ (dev20_eq c _) 9 (K (c, some (0, 9))) (K (xn c, some (1, 9))) (psFull m c) (fun _ _ => rfl) fx _ _) $$ [Hps9L HprX9 HO Hts1_9 Htr1_9]
  · isplitr; · iapply (inv_at m K (c, some (0, 9))); iexact HI
    isplitr; · iapply (inv_at m K (xn c, some (1, 9))); iexact HI
    isplitl [Hps9L]; · iexact Hps9L
    isplitl [HprX9]; · iexact HprX9
    isplitl [HO]; · iexact HO
    isplitl [Hts1_9]; · iexact Hts1_9
    isplitr; · iapply (reached_at (F := F) (c, some (0, 9))); iexact HR
    isplitl [Htr1_9]; · iexact Htr1_9
    iapply (reached_at (F := F) (xn c, some (1, 9))); iexact HR
  iintro ⟨Hcs1_9, HO⟩
  sl_exec_parts

  -- the partner's partial product of chunk 8 has landed: the receive slot comes with the wait, and the cell is closed

  iapply (dmaWait_step m c _ (K (c, some (1, 8))) (r1Pay m 8 c) (expect_r1 m c 8) (rest_r1 m c 8) (slotM prM 8) rfl (owed c 10 8) _) $$ [Hcr1_8 HO Hpr1_8]
  · isplitr; · iapply (inv_at m K (c, some (1, 8))); iexact HI
    isplitl [Hcr1_8]; · iexact Hcr1_8
    isplitl [HO]; · iexact HO
    isplitr
    · iapply (mayWait_owed c (.dma (r1S 8)) 10 8 (fun k hk => by have := k.isLt; rw [lv_r1]; omega) (fun k hk => by have := k.isLt; rw [lv_r1]; omega)); iexact Hlev
    iexact Hpr1_8
  iintro ⟨HO, Hzr1_8, Hpr8⟩
  unfold r1Pay

  -- the local copy of the sum into the result array waits until the sum slot is cut: its counter is set aside
  ihave Hso8 := (Entails.of_eq (aside_eq _).symm) $$ Hso8
  sl_exec_parts
  -- the stored sum slot is the sum buffer's contents there; the kept share feeds the local copy, the lent share the send
  ihave Hcv8 := (Entails.of_eq (pointsTo_congr (cv_run m c 8 f4 (psFull m c) (fun _ _ => rfl) (prFull m c) (fun _ _ => rfl)))) $$ Hcv8
  ihave Hcv8 := (slot_shares (F := F) cvM c 8 (cvFull m c)).1 $$ Hcv8
  icases Hcv8 with ⟨Hcv8L, Hcv8K⟩
  ihave Hcv8L := (Entails.of_eq (aside_eq _).symm) $$ Hcv8L
  ihave Hso8 := (Entails.of_eq (aside_eq _)) $$ Hso8
  sl_exec_parts
  ihave Hcv8L := (Entails.of_eq (aside_eq _)) $$ Hcv8L
  rw [owed_succ2 c _ 8 (by decide)]
  iapply (send2_step m c _ (dev21_eq c _) 8 (K (c, some (2, 8))) (K (yn c, some (3, 8))) (off_eq_10 c) (k0_off10_inb c) (cvFull m c) (fun _ _ => rfl) fy _ _) $$ [Hcv8L HoutYn8 HO Hts2_8 Htr2_8]
  · isplitr; · iapply (inv_at m K (c, some (2, 8))); iexact HI
    isplitr; · iapply (inv_at m K (yn c, some (3, 8))); iexact HI
    isplitl [Hcv8L]; · iexact Hcv8L
    isplitl [HoutYn8]; · iexact HoutYn8
    isplitl [HO]; · iexact HO
    isplitl [Hts2_8]; · iexact Hts2_8
    isplitr; · iapply (reached_at (F := F) (c, some (2, 8))); iexact HR
    isplitl [Htr2_8]; · iexact Htr2_8
    iapply (reached_at (F := F) (yn c, some (3, 8))); iexact HR
  iintro ⟨Hcs2_8, HO⟩
  sl_exec_parts

  -- chunk 10: the stored slot is the send buffer's contents there; its lent share goes out with the product, the kept share
  -- stays for the read before the sum
  ihave Hps10 := (Entails.of_eq (pointsTo_congr (ps_run m c 10 0 f0 f2 _ _))) $$ Hps10
  ihave Hps10 := (slot_shares (F := F) psM c 10 (psFull m c)).1 $$ Hps10
  icases Hps10 with ⟨Hps10L, Hps10K⟩
  rw [owed_succ1 c 10 (by decide) _]
  iapply (send1_step m c _ (dev22_eq c _) 10 (K (c, some (0, 10))) (K (xn c, some (1, 10))) (psFull m c) (fun _ _ => rfl) fx _ _) $$ [Hps10L HprX10 HO Hts1_10 Htr1_10]
  · isplitr; · iapply (inv_at m K (c, some (0, 10))); iexact HI
    isplitr; · iapply (inv_at m K (xn c, some (1, 10))); iexact HI
    isplitl [Hps10L]; · iexact Hps10L
    isplitl [HprX10]; · iexact HprX10
    isplitl [HO]; · iexact HO
    isplitl [Hts1_10]; · iexact Hts1_10
    isplitr; · iapply (reached_at (F := F) (c, some (0, 10))); iexact HR
    isplitl [Htr1_10]; · iexact Htr1_10
    iapply (reached_at (F := F) (xn c, some (1, 10))); iexact HR
  iintro ⟨Hcs1_10, HO⟩
  sl_exec_parts

  -- the partner's partial product of chunk 9 has landed: the receive slot comes with the wait, and the cell is closed

  iapply (dmaWait_step m c _ (K (c, some (1, 9))) (r1Pay m 9 c) (expect_r1 m c 9) (rest_r1 m c 9) (slotM prM 9) rfl (owed c 11 9) _) $$ [Hcr1_9 HO Hpr1_9]
  · isplitr; · iapply (inv_at m K (c, some (1, 9))); iexact HI
    isplitl [Hcr1_9]; · iexact Hcr1_9
    isplitl [HO]; · iexact HO
    isplitr
    · iapply (mayWait_owed c (.dma (r1S 9)) 11 9 (fun k hk => by have := k.isLt; rw [lv_r1]; omega) (fun k hk => by have := k.isLt; rw [lv_r1]; omega)); iexact Hlev
    iexact Hpr1_9
  iintro ⟨HO, Hzr1_9, Hpr9⟩
  unfold r1Pay

  -- the local copy of the sum into the result array waits until the sum slot is cut: its counter is set aside
  ihave Hso9 := (Entails.of_eq (aside_eq _).symm) $$ Hso9
  sl_exec_parts
  -- the stored sum slot is the sum buffer's contents there; the kept share feeds the local copy, the lent share the send
  ihave Hcv9 := (Entails.of_eq (pointsTo_congr (cv_run m c 9 f4 (psFull m c) (fun _ _ => rfl) (prFull m c) (fun _ _ => rfl)))) $$ Hcv9
  ihave Hcv9 := (slot_shares (F := F) cvM c 9 (cvFull m c)).1 $$ Hcv9
  icases Hcv9 with ⟨Hcv9L, Hcv9K⟩
  ihave Hcv9L := (Entails.of_eq (aside_eq _).symm) $$ Hcv9L
  ihave Hso9 := (Entails.of_eq (aside_eq _)) $$ Hso9
  sl_exec_parts
  ihave Hcv9L := (Entails.of_eq (aside_eq _)) $$ Hcv9L
  rw [owed_succ2 c _ 9 (by decide)]
  iapply (send2_step m c _ (dev23_eq c _) 9 (K (c, some (2, 9))) (K (yn c, some (3, 9))) (off_eq_11 c) (k0_off11_inb c) (cvFull m c) (fun _ _ => rfl) fy _ _) $$ [Hcv9L HoutYn9 HO Hts2_9 Htr2_9]
  · isplitr; · iapply (inv_at m K (c, some (2, 9))); iexact HI
    isplitr; · iapply (inv_at m K (yn c, some (3, 9))); iexact HI
    isplitl [Hcv9L]; · iexact Hcv9L
    isplitl [HoutYn9]; · iexact HoutYn9
    isplitl [HO]; · iexact HO
    isplitl [Hts2_9]; · iexact Hts2_9
    isplitr; · iapply (reached_at (F := F) (c, some (2, 9))); iexact HR
    isplitl [Htr2_9]; · iexact Htr2_9
    iapply (reached_at (F := F) (yn c, some (3, 9))); iexact HR
  iintro ⟨Hcs2_9, HO⟩
  sl_exec_parts

  -- chunk 11: the stored slot is the send buffer's contents there; its lent share goes out with the product, the kept share
  -- stays for the read before the sum
  ihave Hps11 := (Entails.of_eq (pointsTo_congr (ps_run m c 11 1 f0 f2 _ _))) $$ Hps11
  ihave Hps11 := (slot_shares (F := F) psM c 11 (psFull m c)).1 $$ Hps11
  icases Hps11 with ⟨Hps11L, Hps11K⟩
  rw [owed_succ1 c 11 (by decide) _]
  iapply (send1_step m c _ (dev24_eq c _) 11 (K (c, some (0, 11))) (K (xn c, some (1, 11))) (psFull m c) (fun _ _ => rfl) fx _ _) $$ [Hps11L HprX11 HO Hts1_11 Htr1_11]
  · isplitr; · iapply (inv_at m K (c, some (0, 11))); iexact HI
    isplitr; · iapply (inv_at m K (xn c, some (1, 11))); iexact HI
    isplitl [Hps11L]; · iexact Hps11L
    isplitl [HprX11]; · iexact HprX11
    isplitl [HO]; · iexact HO
    isplitl [Hts1_11]; · iexact Hts1_11
    isplitr; · iapply (reached_at (F := F) (c, some (0, 11))); iexact HR
    isplitl [Htr1_11]; · iexact Htr1_11
    iapply (reached_at (F := F) (xn c, some (1, 11))); iexact HR
  iintro ⟨Hcs1_11, HO⟩
  sl_exec_parts

  -- the partner's partial product of chunk 10 has landed: the receive slot comes with the wait, and the cell is closed

  iapply (dmaWait_step m c _ (K (c, some (1, 10))) (r1Pay m 10 c) (expect_r1 m c 10) (rest_r1 m c 10) (slotM prM 10) rfl (owed c 12 10) _) $$ [Hcr1_10 HO Hpr1_10]
  · isplitr; · iapply (inv_at m K (c, some (1, 10))); iexact HI
    isplitl [Hcr1_10]; · iexact Hcr1_10
    isplitl [HO]; · iexact HO
    isplitr
    · iapply (mayWait_owed c (.dma (r1S 10)) 12 10 (fun k hk => by have := k.isLt; rw [lv_r1]; omega) (fun k hk => by have := k.isLt; rw [lv_r1]; omega)); iexact Hlev
    iexact Hpr1_10
  iintro ⟨HO, Hzr1_10, Hpr10⟩
  unfold r1Pay

  -- the local copy of the sum into the result array waits until the sum slot is cut: its counter is set aside
  ihave Hso10 := (Entails.of_eq (aside_eq _).symm) $$ Hso10
  sl_exec_parts
  -- the stored sum slot is the sum buffer's contents there; the kept share feeds the local copy, the lent share the send
  ihave Hcv10 := (Entails.of_eq (pointsTo_congr (cv_run m c 10 f4 (psFull m c) (fun _ _ => rfl) (prFull m c) (fun _ _ => rfl)))) $$ Hcv10
  ihave Hcv10 := (slot_shares (F := F) cvM c 10 (cvFull m c)).1 $$ Hcv10
  icases Hcv10 with ⟨Hcv10L, Hcv10K⟩
  ihave Hcv10L := (Entails.of_eq (aside_eq _).symm) $$ Hcv10L
  ihave Hso10 := (Entails.of_eq (aside_eq _)) $$ Hso10
  sl_exec_parts
  ihave Hcv10L := (Entails.of_eq (aside_eq _)) $$ Hcv10L
  rw [owed_succ2 c _ 10 (by decide)]
  iapply (send2_step m c _ (dev25_eq c _) 10 (K (c, some (2, 10))) (K (yn c, some (3, 10))) (off_eq_12 c) (k0_off12_inb c) (cvFull m c) (fun _ _ => rfl) fy _ _) $$ [Hcv10L HoutYn10 HO Hts2_10 Htr2_10]
  · isplitr; · iapply (inv_at m K (c, some (2, 10))); iexact HI
    isplitr; · iapply (inv_at m K (yn c, some (3, 10))); iexact HI
    isplitl [Hcv10L]; · iexact Hcv10L
    isplitl [HoutYn10]; · iexact HoutYn10
    isplitl [HO]; · iexact HO
    isplitl [Hts2_10]; · iexact Hts2_10
    isplitr; · iapply (reached_at (F := F) (c, some (2, 10))); iexact HR
    isplitl [Htr2_10]; · iexact Htr2_10
    iapply (reached_at (F := F) (yn c, some (3, 10))); iexact HR
  iintro ⟨Hcs2_10, HO⟩
  sl_exec_parts

  -- chunk 12: the stored slot is the send buffer's contents there; its lent share goes out with the product, the kept share
  -- stays for the read before the sum
  ihave Hps12 := (Entails.of_eq (pointsTo_congr (ps_run m c 12 0 f0 f2 _ _))) $$ Hps12
  ihave Hps12 := (slot_shares (F := F) psM c 12 (psFull m c)).1 $$ Hps12
  icases Hps12 with ⟨Hps12L, Hps12K⟩
  rw [owed_succ1 c 12 (by decide) _]
  iapply (send1_step m c _ (dev26_eq c _) 12 (K (c, some (0, 12))) (K (xn c, some (1, 12))) (psFull m c) (fun _ _ => rfl) fx _ _) $$ [Hps12L HprX12 HO Hts1_12 Htr1_12]
  · isplitr; · iapply (inv_at m K (c, some (0, 12))); iexact HI
    isplitr; · iapply (inv_at m K (xn c, some (1, 12))); iexact HI
    isplitl [Hps12L]; · iexact Hps12L
    isplitl [HprX12]; · iexact HprX12
    isplitl [HO]; · iexact HO
    isplitl [Hts1_12]; · iexact Hts1_12
    isplitr; · iapply (reached_at (F := F) (c, some (0, 12))); iexact HR
    isplitl [Htr1_12]; · iexact Htr1_12
    iapply (reached_at (F := F) (xn c, some (1, 12))); iexact HR
  iintro ⟨Hcs1_12, HO⟩
  sl_exec_parts

  -- the partner's partial product of chunk 11 has landed: the receive slot comes with the wait, and the cell is closed

  iapply (dmaWait_step m c _ (K (c, some (1, 11))) (r1Pay m 11 c) (expect_r1 m c 11) (rest_r1 m c 11) (slotM prM 11) rfl (owed c 13 11) _) $$ [Hcr1_11 HO Hpr1_11]
  · isplitr; · iapply (inv_at m K (c, some (1, 11))); iexact HI
    isplitl [Hcr1_11]; · iexact Hcr1_11
    isplitl [HO]; · iexact HO
    isplitr
    · iapply (mayWait_owed c (.dma (r1S 11)) 13 11 (fun k hk => by have := k.isLt; rw [lv_r1]; omega) (fun k hk => by have := k.isLt; rw [lv_r1]; omega)); iexact Hlev
    iexact Hpr1_11
  iintro ⟨HO, Hzr1_11, Hpr11⟩
  unfold r1Pay

  -- the local copy of the sum into the result array waits until the sum slot is cut: its counter is set aside
  ihave Hso11 := (Entails.of_eq (aside_eq _).symm) $$ Hso11
  sl_exec_parts
  -- the stored sum slot is the sum buffer's contents there; the kept share feeds the local copy, the lent share the send
  ihave Hcv11 := (Entails.of_eq (pointsTo_congr (cv_run m c 11 f4 (psFull m c) (fun _ _ => rfl) (prFull m c) (fun _ _ => rfl)))) $$ Hcv11
  ihave Hcv11 := (slot_shares (F := F) cvM c 11 (cvFull m c)).1 $$ Hcv11
  icases Hcv11 with ⟨Hcv11L, Hcv11K⟩
  ihave Hcv11L := (Entails.of_eq (aside_eq _).symm) $$ Hcv11L
  ihave Hso11 := (Entails.of_eq (aside_eq _)) $$ Hso11
  sl_exec_parts
  ihave Hcv11L := (Entails.of_eq (aside_eq _)) $$ Hcv11L
  rw [owed_succ2 c _ 11 (by decide)]
  iapply (send2_step m c _ (dev27_eq c _) 11 (K (c, some (2, 11))) (K (yn c, some (3, 11))) (off_eq_13 c) (k0_off13_inb c) (cvFull m c) (fun _ _ => rfl) fy _ _) $$ [Hcv11L HoutYn11 HO Hts2_11 Htr2_11]
  · isplitr; · iapply (inv_at m K (c, some (2, 11))); iexact HI
    isplitr; · iapply (inv_at m K (yn c, some (3, 11))); iexact HI
    isplitl [Hcv11L]; · iexact Hcv11L
    isplitl [HoutYn11]; · iexact HoutYn11
    isplitl [HO]; · iexact HO
    isplitl [Hts2_11]; · iexact Hts2_11
    isplitr; · iapply (reached_at (F := F) (c, some (2, 11))); iexact HR
    isplitl [Htr2_11]; · iexact Htr2_11
    iapply (reached_at (F := F) (yn c, some (3, 11))); iexact HR
  iintro ⟨Hcs2_11, HO⟩
  sl_exec_parts

  -- chunk 13: the stored slot is the send buffer's contents there; its lent share goes out with the product, the kept share
  -- stays for the read before the sum
  ihave Hps13 := (Entails.of_eq (pointsTo_congr (ps_run m c 13 1 f0 f2 _ _))) $$ Hps13
  ihave Hps13 := (slot_shares (F := F) psM c 13 (psFull m c)).1 $$ Hps13
  icases Hps13 with ⟨Hps13L, Hps13K⟩
  rw [owed_succ1 c 13 (by decide) _]
  iapply (send1_step m c _ (dev28_eq c _) 13 (K (c, some (0, 13))) (K (xn c, some (1, 13))) (psFull m c) (fun _ _ => rfl) fx _ _) $$ [Hps13L HprX13 HO Hts1_13 Htr1_13]
  · isplitr; · iapply (inv_at m K (c, some (0, 13))); iexact HI
    isplitr; · iapply (inv_at m K (xn c, some (1, 13))); iexact HI
    isplitl [Hps13L]; · iexact Hps13L
    isplitl [HprX13]; · iexact HprX13
    isplitl [HO]; · iexact HO
    isplitl [Hts1_13]; · iexact Hts1_13
    isplitr; · iapply (reached_at (F := F) (c, some (0, 13))); iexact HR
    isplitl [Htr1_13]; · iexact Htr1_13
    iapply (reached_at (F := F) (xn c, some (1, 13))); iexact HR
  iintro ⟨Hcs1_13, HO⟩
  sl_exec_parts

  -- the partner's partial product of chunk 12 has landed: the receive slot comes with the wait, and the cell is closed

  iapply (dmaWait_step m c _ (K (c, some (1, 12))) (r1Pay m 12 c) (expect_r1 m c 12) (rest_r1 m c 12) (slotM prM 12) rfl (owed c 14 12) _) $$ [Hcr1_12 HO Hpr1_12]
  · isplitr; · iapply (inv_at m K (c, some (1, 12))); iexact HI
    isplitl [Hcr1_12]; · iexact Hcr1_12
    isplitl [HO]; · iexact HO
    isplitr
    · iapply (mayWait_owed c (.dma (r1S 12)) 14 12 (fun k hk => by have := k.isLt; rw [lv_r1]; omega) (fun k hk => by have := k.isLt; rw [lv_r1]; omega)); iexact Hlev
    iexact Hpr1_12
  iintro ⟨HO, Hzr1_12, Hpr12⟩
  unfold r1Pay

  -- the local copy of the sum into the result array waits until the sum slot is cut: its counter is set aside
  ihave Hso12 := (Entails.of_eq (aside_eq _).symm) $$ Hso12
  sl_exec_parts
  -- the stored sum slot is the sum buffer's contents there; the kept share feeds the local copy, the lent share the send
  ihave Hcv12 := (Entails.of_eq (pointsTo_congr (cv_run m c 12 f4 (psFull m c) (fun _ _ => rfl) (prFull m c) (fun _ _ => rfl)))) $$ Hcv12
  ihave Hcv12 := (slot_shares (F := F) cvM c 12 (cvFull m c)).1 $$ Hcv12
  icases Hcv12 with ⟨Hcv12L, Hcv12K⟩
  ihave Hcv12L := (Entails.of_eq (aside_eq _).symm) $$ Hcv12L
  ihave Hso12 := (Entails.of_eq (aside_eq _)) $$ Hso12
  sl_exec_parts
  ihave Hcv12L := (Entails.of_eq (aside_eq _)) $$ Hcv12L
  rw [owed_succ2 c _ 12 (by decide)]
  iapply (send2_step m c _ (dev29_eq c _) 12 (K (c, some (2, 12))) (K (yn c, some (3, 12))) (off_eq_14 c) (k0_off14_inb c) (cvFull m c) (fun _ _ => rfl) fy _ _) $$ [Hcv12L HoutYn12 HO Hts2_12 Htr2_12]
  · isplitr; · iapply (inv_at m K (c, some (2, 12))); iexact HI
    isplitr; · iapply (inv_at m K (yn c, some (3, 12))); iexact HI
    isplitl [Hcv12L]; · iexact Hcv12L
    isplitl [HoutYn12]; · iexact HoutYn12
    isplitl [HO]; · iexact HO
    isplitl [Hts2_12]; · iexact Hts2_12
    isplitr; · iapply (reached_at (F := F) (c, some (2, 12))); iexact HR
    isplitl [Htr2_12]; · iexact Htr2_12
    iapply (reached_at (F := F) (yn c, some (3, 12))); iexact HR
  iintro ⟨Hcs2_12, HO⟩
  sl_exec_parts

  -- chunk 14: the stored slot is the send buffer's contents there; its lent share goes out with the product, the kept share
  -- stays for the read before the sum
  ihave Hps14 := (Entails.of_eq (pointsTo_congr (ps_run m c 14 0 f0 f2 _ _))) $$ Hps14
  ihave Hps14 := (slot_shares (F := F) psM c 14 (psFull m c)).1 $$ Hps14
  icases Hps14 with ⟨Hps14L, Hps14K⟩
  rw [owed_succ1 c 14 (by decide) _]
  iapply (send1_step m c _ (dev30_eq c _) 14 (K (c, some (0, 14))) (K (xn c, some (1, 14))) (psFull m c) (fun _ _ => rfl) fx _ _) $$ [Hps14L HprX14 HO Hts1_14 Htr1_14]
  · isplitr; · iapply (inv_at m K (c, some (0, 14))); iexact HI
    isplitr; · iapply (inv_at m K (xn c, some (1, 14))); iexact HI
    isplitl [Hps14L]; · iexact Hps14L
    isplitl [HprX14]; · iexact HprX14
    isplitl [HO]; · iexact HO
    isplitl [Hts1_14]; · iexact Hts1_14
    isplitr; · iapply (reached_at (F := F) (c, some (0, 14))); iexact HR
    isplitl [Htr1_14]; · iexact Htr1_14
    iapply (reached_at (F := F) (xn c, some (1, 14))); iexact HR
  iintro ⟨Hcs1_14, HO⟩
  sl_exec_parts

  -- the partner's partial product of chunk 13 has landed: the receive slot comes with the wait, and the cell is closed

  iapply (dmaWait_step m c _ (K (c, some (1, 13))) (r1Pay m 13 c) (expect_r1 m c 13) (rest_r1 m c 13) (slotM prM 13) rfl (owed c 15 13) _) $$ [Hcr1_13 HO Hpr1_13]
  · isplitr; · iapply (inv_at m K (c, some (1, 13))); iexact HI
    isplitl [Hcr1_13]; · iexact Hcr1_13
    isplitl [HO]; · iexact HO
    isplitr
    · iapply (mayWait_owed c (.dma (r1S 13)) 15 13 (fun k hk => by have := k.isLt; rw [lv_r1]; omega) (fun k hk => by have := k.isLt; rw [lv_r1]; omega)); iexact Hlev
    iexact Hpr1_13
  iintro ⟨HO, Hzr1_13, Hpr13⟩
  unfold r1Pay

  -- the local copy of the sum into the result array waits until the sum slot is cut: its counter is set aside
  ihave Hso13 := (Entails.of_eq (aside_eq _).symm) $$ Hso13
  sl_exec_parts
  -- the stored sum slot is the sum buffer's contents there; the kept share feeds the local copy, the lent share the send
  ihave Hcv13 := (Entails.of_eq (pointsTo_congr (cv_run m c 13 f4 (psFull m c) (fun _ _ => rfl) (prFull m c) (fun _ _ => rfl)))) $$ Hcv13
  ihave Hcv13 := (slot_shares (F := F) cvM c 13 (cvFull m c)).1 $$ Hcv13
  icases Hcv13 with ⟨Hcv13L, Hcv13K⟩
  ihave Hcv13L := (Entails.of_eq (aside_eq _).symm) $$ Hcv13L
  ihave Hso13 := (Entails.of_eq (aside_eq _)) $$ Hso13
  sl_exec_parts
  ihave Hcv13L := (Entails.of_eq (aside_eq _)) $$ Hcv13L
  rw [owed_succ2 c _ 13 (by decide)]
  iapply (send2_step m c _ (dev31_eq c _) 13 (K (c, some (2, 13))) (K (yn c, some (3, 13))) (off_eq_15 c) (k0_off15_inb c) (cvFull m c) (fun _ _ => rfl) fy _ _) $$ [Hcv13L HoutYn13 HO Hts2_13 Htr2_13]
  · isplitr; · iapply (inv_at m K (c, some (2, 13))); iexact HI
    isplitr; · iapply (inv_at m K (yn c, some (3, 13))); iexact HI
    isplitl [Hcv13L]; · iexact Hcv13L
    isplitl [HoutYn13]; · iexact HoutYn13
    isplitl [HO]; · iexact HO
    isplitl [Hts2_13]; · iexact Hts2_13
    isplitr; · iapply (reached_at (F := F) (c, some (2, 13))); iexact HR
    isplitl [Htr2_13]; · iexact Htr2_13
    iapply (reached_at (F := F) (yn c, some (3, 13))); iexact HR
  iintro ⟨Hcs2_13, HO⟩
  sl_exec_parts

  -- chunk 15: the stored slot is the send buffer's contents there; its lent share goes out with the product, the kept share
  -- stays for the read before the sum
  ihave Hps15 := (Entails.of_eq (pointsTo_congr (ps_run m c 15 1 f0 f2 _ _))) $$ Hps15
  ihave Hps15 := (slot_shares (F := F) psM c 15 (psFull m c)).1 $$ Hps15
  icases Hps15 with ⟨Hps15L, Hps15K⟩
  rw [owed_succ1 c 15 (by decide) _]
  iapply (send1_step m c _ (dev32_eq c _) 15 (K (c, some (0, 15))) (K (xn c, some (1, 15))) (psFull m c) (fun _ _ => rfl) fx _ _) $$ [Hps15L HprX15 HO Hts1_15 Htr1_15]
  · isplitr; · iapply (inv_at m K (c, some (0, 15))); iexact HI
    isplitr; · iapply (inv_at m K (xn c, some (1, 15))); iexact HI
    isplitl [Hps15L]; · iexact Hps15L
    isplitl [HprX15]; · iexact HprX15
    isplitl [HO]; · iexact HO
    isplitl [Hts1_15]; · iexact Hts1_15
    isplitr; · iapply (reached_at (F := F) (c, some (0, 15))); iexact HR
    isplitl [Htr1_15]; · iexact Htr1_15
    iapply (reached_at (F := F) (xn c, some (1, 15))); iexact HR
  iintro ⟨Hcs1_15, HO⟩
  sl_exec_parts

  -- the partner's partial product of chunk 14 has landed: the receive slot comes with the wait, and the cell is closed

  iapply (dmaWait_step m c _ (K (c, some (1, 14))) (r1Pay m 14 c) (expect_r1 m c 14) (rest_r1 m c 14) (slotM prM 14) rfl (owed c 16 14) _) $$ [Hcr1_14 HO Hpr1_14]
  · isplitr; · iapply (inv_at m K (c, some (1, 14))); iexact HI
    isplitl [Hcr1_14]; · iexact Hcr1_14
    isplitl [HO]; · iexact HO
    isplitr
    · iapply (mayWait_owed c (.dma (r1S 14)) 16 14 (fun k hk => by have := k.isLt; rw [lv_r1]; omega) (fun k hk => by have := k.isLt; rw [lv_r1]; omega)); iexact Hlev
    iexact Hpr1_14
  iintro ⟨HO, Hzr1_14, Hpr14⟩
  unfold r1Pay

  -- the local copy of the sum into the result array waits until the sum slot is cut: its counter is set aside
  ihave Hso14 := (Entails.of_eq (aside_eq _).symm) $$ Hso14
  sl_exec_parts
  -- the stored sum slot is the sum buffer's contents there; the kept share feeds the local copy, the lent share the send
  ihave Hcv14 := (Entails.of_eq (pointsTo_congr (cv_run m c 14 f4 (psFull m c) (fun _ _ => rfl) (prFull m c) (fun _ _ => rfl)))) $$ Hcv14
  ihave Hcv14 := (slot_shares (F := F) cvM c 14 (cvFull m c)).1 $$ Hcv14
  icases Hcv14 with ⟨Hcv14L, Hcv14K⟩
  ihave Hcv14L := (Entails.of_eq (aside_eq _).symm) $$ Hcv14L
  ihave Hso14 := (Entails.of_eq (aside_eq _)) $$ Hso14
  sl_exec_parts
  ihave Hcv14L := (Entails.of_eq (aside_eq _)) $$ Hcv14L
  rw [owed_succ2 c _ 14 (by decide)]
  iapply (send2_step m c _ (dev33_eq c _) 14 (K (c, some (2, 14))) (K (yn c, some (3, 14))) (off_eq_16 c) (k0_off16_inb c) (cvFull m c) (fun _ _ => rfl) fy _ _) $$ [Hcv14L HoutYn14 HO Hts2_14 Htr2_14]
  · isplitr; · iapply (inv_at m K (c, some (2, 14))); iexact HI
    isplitr; · iapply (inv_at m K (yn c, some (3, 14))); iexact HI
    isplitl [Hcv14L]; · iexact Hcv14L
    isplitl [HoutYn14]; · iexact HoutYn14
    isplitl [HO]; · iexact HO
    isplitl [Hts2_14]; · iexact Hts2_14
    isplitr; · iapply (reached_at (F := F) (c, some (2, 14))); iexact HR
    isplitl [Htr2_14]; · iexact Htr2_14
    iapply (reached_at (F := F) (yn c, some (3, 14))); iexact HR
  iintro ⟨Hcs2_14, HO⟩
  sl_exec_parts

  -- the partner's partial product of chunk 15 has landed: the receive slot comes with the wait, and the cell is closed

  iapply (dmaWait_step m c _ (K (c, some (1, 15))) (r1Pay m 15 c) (expect_r1 m c 15) (rest_r1 m c 15) (slotM prM 15) rfl (owed c 16 15) _) $$ [Hcr1_15 HO Hpr1_15]
  · isplitr; · iapply (inv_at m K (c, some (1, 15))); iexact HI
    isplitl [Hcr1_15]; · iexact Hcr1_15
    isplitl [HO]; · iexact HO
    isplitr
    · iapply (mayWait_owed c (.dma (r1S 15)) 16 15 (fun k hk => by have := k.isLt; rw [lv_r1]; omega) (fun k hk => by have := k.isLt; rw [lv_r1]; omega)); iexact Hlev
    iexact Hpr1_15
  iintro ⟨HO, Hzr1_15, Hpr15⟩
  unfold r1Pay

  -- the local copy of the sum into the result array waits until the sum slot is cut: its counter is set aside
  ihave Hso15 := (Entails.of_eq (aside_eq _).symm) $$ Hso15
  sl_exec_parts
  -- the stored sum slot is the sum buffer's contents there; the kept share feeds the local copy, the lent share the send
  ihave Hcv15 := (Entails.of_eq (pointsTo_congr (cv_run m c 15 f4 (psFull m c) (fun _ _ => rfl) (prFull m c) (fun _ _ => rfl)))) $$ Hcv15
  ihave Hcv15 := (slot_shares (F := F) cvM c 15 (cvFull m c)).1 $$ Hcv15
  icases Hcv15 with ⟨Hcv15L, Hcv15K⟩
  ihave Hcv15L := (Entails.of_eq (aside_eq _).symm) $$ Hcv15L
  ihave Hso15 := (Entails.of_eq (aside_eq _)) $$ Hso15
  sl_exec_parts
  ihave Hcv15L := (Entails.of_eq (aside_eq _)) $$ Hcv15L
  rw [owed_succ2 c _ 15 (by decide)]
  iapply (send2_step m c _ (dev34_eq c _) 15 (K (c, some (2, 15))) (K (yn c, some (3, 15))) (off_eq_17 c) (k0_off17_inb c) (cvFull m c) (fun _ _ => rfl) fy _ _) $$ [Hcv15L HoutYn15 HO Hts2_15 Htr2_15]
  · isplitr; · iapply (inv_at m K (c, some (2, 15))); iexact HI
    isplitr; · iapply (inv_at m K (yn c, some (3, 15))); iexact HI
    isplitl [Hcv15L]; · iexact Hcv15L
    isplitl [HoutYn15]; · iexact HoutYn15
    isplitl [HO]; · iexact HO
    isplitl [Hts2_15]; · iexact Hts2_15
    isplitr; · iapply (reached_at (F := F) (c, some (2, 15))); iexact HR
    isplitl [Htr2_15]; · iexact Htr2_15
    iapply (reached_at (F := F) (yn c, some (3, 15))); iexact HR
  iintro ⟨Hcs2_15, HO⟩
  sl_exec_parts

  -- chunk 0, the last round: the partner's finished chunk has landed in the result array; the local copy is waited for; the
  -- two read-outs give the lent shares back

  iapply (dmaWait_step m c _ (K (c, some (3, 0))) (r2Pay m 0 c) (expect_r2 m c 0) (rest_r2 m c 0) (oM.slice (Rect.unit (s := S2048x2048) (k0_off2 c) S1024x128.size (k0_off2_inb c)) (fun _ => rfl)) rfl (owed c 16 16) _) $$ [Hcr2_0 HO Hpr2_0]
  · isplitr; · iapply (inv_at m K (c, some (3, 0))); iexact HI
    isplitl [Hcr2_0]; · iexact Hcr2_0
    isplitl [HO]; · iexact HO
    isplitr
    · iapply (mayWait_owed c (.dma (r2S 0)) 16 16 (fun k hk => by have := k.isLt; rw [lv_r2]; omega) (fun k hk => by have := k.isLt; rw [lv_r2]; omega)); iexact Hlev
    iexact Hpr2_0
  iintro ⟨HO, Hzr2_0, HoutR0⟩
  unfold r2Pay

  sl_exec_parts

  iapply (dmaWait_step m c _ (K (c, some (0, 0))) (s1Pay m 0 c) (expect_s1 m c 0) (rest_s1 m c 0) (slotM psM 0) rfl (owed c 16 16) _) $$ [Hcs1_0 HO Hps1_0]
  · isplitr; · iapply (inv_at m K (c, some (0, 0))); iexact HI
    isplitl [Hcs1_0]; · iexact Hcs1_0
    isplitl [HO]; · iexact HO
    isplitr
    · iapply (mayWait_owed c (.dma (s1S 0)) 16 16 (fun k hk => by have := k.isLt; rw [lv_s1]; omega) (fun k hk => by have := k.isLt; rw [lv_s1]; omega)); iexact Hlev
    iexact Hps1_0
  iintro ⟨HO, Hzs1_0, Hps0L⟩
  unfold s1Pay

  sl_exec_parts

  iapply (dmaWait_step m c _ (K (c, some (2, 0))) (s2Pay m 0 c) (expect_s2 m c 0) (rest_s2 m c 0) (slotM cvM 0) rfl (owed c 16 16) _) $$ [Hcs2_0 HO Hps2_0]
  · isplitr; · iapply (inv_at m K (c, some (2, 0))); iexact HI
    isplitl [Hcs2_0]; · iexact Hcs2_0
    isplitl [HO]; · iexact HO
    isplitr
    · iapply (mayWait_owed c (.dma (s2S 0)) 16 16 (fun k hk => by have := k.isLt; rw [lv_s2]; omega) (fun k hk => by have := k.isLt; rw [lv_s2]; omega)); iexact Hlev
    iexact Hps2_0
  iintro ⟨HO, Hzs2_0, Hcv0L⟩
  unfold s2Pay

  sl_exec_parts

  -- chunk 1, the last round: the partner's finished chunk has landed in the result array; the local copy is waited for; the
  -- two read-outs give the lent shares back

  iapply (dmaWait_step m c _ (K (c, some (3, 1))) (r2Pay m 1 c) (expect_r2 m c 1) (rest_r2 m c 1) (oM.slice (Rect.unit (s := S2048x2048) (k0_off3 c) S1024x128.size (k0_off3_inb c)) (fun _ => rfl)) rfl (owed c 16 16) _) $$ [Hcr2_1 HO Hpr2_1]
  · isplitr; · iapply (inv_at m K (c, some (3, 1))); iexact HI
    isplitl [Hcr2_1]; · iexact Hcr2_1
    isplitl [HO]; · iexact HO
    isplitr
    · iapply (mayWait_owed c (.dma (r2S 1)) 16 16 (fun k hk => by have := k.isLt; rw [lv_r2]; omega) (fun k hk => by have := k.isLt; rw [lv_r2]; omega)); iexact Hlev
    iexact Hpr2_1
  iintro ⟨HO, Hzr2_1, HoutR1⟩
  unfold r2Pay

  sl_exec_parts

  iapply (dmaWait_step m c _ (K (c, some (0, 1))) (s1Pay m 1 c) (expect_s1 m c 1) (rest_s1 m c 1) (slotM psM 1) rfl (owed c 16 16) _) $$ [Hcs1_1 HO Hps1_1]
  · isplitr; · iapply (inv_at m K (c, some (0, 1))); iexact HI
    isplitl [Hcs1_1]; · iexact Hcs1_1
    isplitl [HO]; · iexact HO
    isplitr
    · iapply (mayWait_owed c (.dma (s1S 1)) 16 16 (fun k hk => by have := k.isLt; rw [lv_s1]; omega) (fun k hk => by have := k.isLt; rw [lv_s1]; omega)); iexact Hlev
    iexact Hps1_1
  iintro ⟨HO, Hzs1_1, Hps1L⟩
  unfold s1Pay

  sl_exec_parts

  iapply (dmaWait_step m c _ (K (c, some (2, 1))) (s2Pay m 1 c) (expect_s2 m c 1) (rest_s2 m c 1) (slotM cvM 1) rfl (owed c 16 16) _) $$ [Hcs2_1 HO Hps2_1]
  · isplitr; · iapply (inv_at m K (c, some (2, 1))); iexact HI
    isplitl [Hcs2_1]; · iexact Hcs2_1
    isplitl [HO]; · iexact HO
    isplitr
    · iapply (mayWait_owed c (.dma (s2S 1)) 16 16 (fun k hk => by have := k.isLt; rw [lv_s2]; omega) (fun k hk => by have := k.isLt; rw [lv_s2]; omega)); iexact Hlev
    iexact Hps2_1
  iintro ⟨HO, Hzs2_1, Hcv1L⟩
  unfold s2Pay

  sl_exec_parts

  -- chunk 2, the last round: the partner's finished chunk has landed in the result array; the local copy is waited for; the
  -- two read-outs give the lent shares back

  iapply (dmaWait_step m c _ (K (c, some (3, 2))) (r2Pay m 2 c) (expect_r2 m c 2) (rest_r2 m c 2) (oM.slice (Rect.unit (s := S2048x2048) (k0_off4 c) S1024x128.size (k0_off4_inb c)) (fun _ => rfl)) rfl (owed c 16 16) _) $$ [Hcr2_2 HO Hpr2_2]
  · isplitr; · iapply (inv_at m K (c, some (3, 2))); iexact HI
    isplitl [Hcr2_2]; · iexact Hcr2_2
    isplitl [HO]; · iexact HO
    isplitr
    · iapply (mayWait_owed c (.dma (r2S 2)) 16 16 (fun k hk => by have := k.isLt; rw [lv_r2]; omega) (fun k hk => by have := k.isLt; rw [lv_r2]; omega)); iexact Hlev
    iexact Hpr2_2
  iintro ⟨HO, Hzr2_2, HoutR2⟩
  unfold r2Pay

  sl_exec_parts

  iapply (dmaWait_step m c _ (K (c, some (0, 2))) (s1Pay m 2 c) (expect_s1 m c 2) (rest_s1 m c 2) (slotM psM 2) rfl (owed c 16 16) _) $$ [Hcs1_2 HO Hps1_2]
  · isplitr; · iapply (inv_at m K (c, some (0, 2))); iexact HI
    isplitl [Hcs1_2]; · iexact Hcs1_2
    isplitl [HO]; · iexact HO
    isplitr
    · iapply (mayWait_owed c (.dma (s1S 2)) 16 16 (fun k hk => by have := k.isLt; rw [lv_s1]; omega) (fun k hk => by have := k.isLt; rw [lv_s1]; omega)); iexact Hlev
    iexact Hps1_2
  iintro ⟨HO, Hzs1_2, Hps2L⟩
  unfold s1Pay

  sl_exec_parts

  iapply (dmaWait_step m c _ (K (c, some (2, 2))) (s2Pay m 2 c) (expect_s2 m c 2) (rest_s2 m c 2) (slotM cvM 2) rfl (owed c 16 16) _) $$ [Hcs2_2 HO Hps2_2]
  · isplitr; · iapply (inv_at m K (c, some (2, 2))); iexact HI
    isplitl [Hcs2_2]; · iexact Hcs2_2
    isplitl [HO]; · iexact HO
    isplitr
    · iapply (mayWait_owed c (.dma (s2S 2)) 16 16 (fun k hk => by have := k.isLt; rw [lv_s2]; omega) (fun k hk => by have := k.isLt; rw [lv_s2]; omega)); iexact Hlev
    iexact Hps2_2
  iintro ⟨HO, Hzs2_2, Hcv2L⟩
  unfold s2Pay

  sl_exec_parts

  -- chunk 3, the last round: the partner's finished chunk has landed in the result array; the local copy is waited for; the
  -- two read-outs give the lent shares back

  iapply (dmaWait_step m c _ (K (c, some (3, 3))) (r2Pay m 3 c) (expect_r2 m c 3) (rest_r2 m c 3) (oM.slice (Rect.unit (s := S2048x2048) (k0_off5 c) S1024x128.size (k0_off5_inb c)) (fun _ => rfl)) rfl (owed c 16 16) _) $$ [Hcr2_3 HO Hpr2_3]
  · isplitr; · iapply (inv_at m K (c, some (3, 3))); iexact HI
    isplitl [Hcr2_3]; · iexact Hcr2_3
    isplitl [HO]; · iexact HO
    isplitr
    · iapply (mayWait_owed c (.dma (r2S 3)) 16 16 (fun k hk => by have := k.isLt; rw [lv_r2]; omega) (fun k hk => by have := k.isLt; rw [lv_r2]; omega)); iexact Hlev
    iexact Hpr2_3
  iintro ⟨HO, Hzr2_3, HoutR3⟩
  unfold r2Pay

  sl_exec_parts

  iapply (dmaWait_step m c _ (K (c, some (0, 3))) (s1Pay m 3 c) (expect_s1 m c 3) (rest_s1 m c 3) (slotM psM 3) rfl (owed c 16 16) _) $$ [Hcs1_3 HO Hps1_3]
  · isplitr; · iapply (inv_at m K (c, some (0, 3))); iexact HI
    isplitl [Hcs1_3]; · iexact Hcs1_3
    isplitl [HO]; · iexact HO
    isplitr
    · iapply (mayWait_owed c (.dma (s1S 3)) 16 16 (fun k hk => by have := k.isLt; rw [lv_s1]; omega) (fun k hk => by have := k.isLt; rw [lv_s1]; omega)); iexact Hlev
    iexact Hps1_3
  iintro ⟨HO, Hzs1_3, Hps3L⟩
  unfold s1Pay

  sl_exec_parts

  iapply (dmaWait_step m c _ (K (c, some (2, 3))) (s2Pay m 3 c) (expect_s2 m c 3) (rest_s2 m c 3) (slotM cvM 3) rfl (owed c 16 16) _) $$ [Hcs2_3 HO Hps2_3]
  · isplitr; · iapply (inv_at m K (c, some (2, 3))); iexact HI
    isplitl [Hcs2_3]; · iexact Hcs2_3
    isplitl [HO]; · iexact HO
    isplitr
    · iapply (mayWait_owed c (.dma (s2S 3)) 16 16 (fun k hk => by have := k.isLt; rw [lv_s2]; omega) (fun k hk => by have := k.isLt; rw [lv_s2]; omega)); iexact Hlev
    iexact Hps2_3
  iintro ⟨HO, Hzs2_3, Hcv3L⟩
  unfold s2Pay

  sl_exec_parts

  -- chunk 4, the last round: the partner's finished chunk has landed in the result array; the local copy is waited for; the
  -- two read-outs give the lent shares back

  iapply (dmaWait_step m c _ (K (c, some (3, 4))) (r2Pay m 4 c) (expect_r2 m c 4) (rest_r2 m c 4) (oM.slice (Rect.unit (s := S2048x2048) (k0_off6 c) S1024x128.size (k0_off6_inb c)) (fun _ => rfl)) rfl (owed c 16 16) _) $$ [Hcr2_4 HO Hpr2_4]
  · isplitr; · iapply (inv_at m K (c, some (3, 4))); iexact HI
    isplitl [Hcr2_4]; · iexact Hcr2_4
    isplitl [HO]; · iexact HO
    isplitr
    · iapply (mayWait_owed c (.dma (r2S 4)) 16 16 (fun k hk => by have := k.isLt; rw [lv_r2]; omega) (fun k hk => by have := k.isLt; rw [lv_r2]; omega)); iexact Hlev
    iexact Hpr2_4
  iintro ⟨HO, Hzr2_4, HoutR4⟩
  unfold r2Pay

  sl_exec_parts

  iapply (dmaWait_step m c _ (K (c, some (0, 4))) (s1Pay m 4 c) (expect_s1 m c 4) (rest_s1 m c 4) (slotM psM 4) rfl (owed c 16 16) _) $$ [Hcs1_4 HO Hps1_4]
  · isplitr; · iapply (inv_at m K (c, some (0, 4))); iexact HI
    isplitl [Hcs1_4]; · iexact Hcs1_4
    isplitl [HO]; · iexact HO
    isplitr
    · iapply (mayWait_owed c (.dma (s1S 4)) 16 16 (fun k hk => by have := k.isLt; rw [lv_s1]; omega) (fun k hk => by have := k.isLt; rw [lv_s1]; omega)); iexact Hlev
    iexact Hps1_4
  iintro ⟨HO, Hzs1_4, Hps4L⟩
  unfold s1Pay

  sl_exec_parts

  iapply (dmaWait_step m c _ (K (c, some (2, 4))) (s2Pay m 4 c) (expect_s2 m c 4) (rest_s2 m c 4) (slotM cvM 4) rfl (owed c 16 16) _) $$ [Hcs2_4 HO Hps2_4]
  · isplitr; · iapply (inv_at m K (c, some (2, 4))); iexact HI
    isplitl [Hcs2_4]; · iexact Hcs2_4
    isplitl [HO]; · iexact HO
    isplitr
    · iapply (mayWait_owed c (.dma (s2S 4)) 16 16 (fun k hk => by have := k.isLt; rw [lv_s2]; omega) (fun k hk => by have := k.isLt; rw [lv_s2]; omega)); iexact Hlev
    iexact Hps2_4
  iintro ⟨HO, Hzs2_4, Hcv4L⟩
  unfold s2Pay

  sl_exec_parts

  -- chunk 5, the last round: the partner's finished chunk has landed in the result array; the local copy is waited for; the
  -- two read-outs give the lent shares back

  iapply (dmaWait_step m c _ (K (c, some (3, 5))) (r2Pay m 5 c) (expect_r2 m c 5) (rest_r2 m c 5) (oM.slice (Rect.unit (s := S2048x2048) (k0_off7 c) S1024x128.size (k0_off7_inb c)) (fun _ => rfl)) rfl (owed c 16 16) _) $$ [Hcr2_5 HO Hpr2_5]
  · isplitr; · iapply (inv_at m K (c, some (3, 5))); iexact HI
    isplitl [Hcr2_5]; · iexact Hcr2_5
    isplitl [HO]; · iexact HO
    isplitr
    · iapply (mayWait_owed c (.dma (r2S 5)) 16 16 (fun k hk => by have := k.isLt; rw [lv_r2]; omega) (fun k hk => by have := k.isLt; rw [lv_r2]; omega)); iexact Hlev
    iexact Hpr2_5
  iintro ⟨HO, Hzr2_5, HoutR5⟩
  unfold r2Pay

  sl_exec_parts

  iapply (dmaWait_step m c _ (K (c, some (0, 5))) (s1Pay m 5 c) (expect_s1 m c 5) (rest_s1 m c 5) (slotM psM 5) rfl (owed c 16 16) _) $$ [Hcs1_5 HO Hps1_5]
  · isplitr; · iapply (inv_at m K (c, some (0, 5))); iexact HI
    isplitl [Hcs1_5]; · iexact Hcs1_5
    isplitl [HO]; · iexact HO
    isplitr
    · iapply (mayWait_owed c (.dma (s1S 5)) 16 16 (fun k hk => by have := k.isLt; rw [lv_s1]; omega) (fun k hk => by have := k.isLt; rw [lv_s1]; omega)); iexact Hlev
    iexact Hps1_5
  iintro ⟨HO, Hzs1_5, Hps5L⟩
  unfold s1Pay

  sl_exec_parts

  iapply (dmaWait_step m c _ (K (c, some (2, 5))) (s2Pay m 5 c) (expect_s2 m c 5) (rest_s2 m c 5) (slotM cvM 5) rfl (owed c 16 16) _) $$ [Hcs2_5 HO Hps2_5]
  · isplitr; · iapply (inv_at m K (c, some (2, 5))); iexact HI
    isplitl [Hcs2_5]; · iexact Hcs2_5
    isplitl [HO]; · iexact HO
    isplitr
    · iapply (mayWait_owed c (.dma (s2S 5)) 16 16 (fun k hk => by have := k.isLt; rw [lv_s2]; omega) (fun k hk => by have := k.isLt; rw [lv_s2]; omega)); iexact Hlev
    iexact Hps2_5
  iintro ⟨HO, Hzs2_5, Hcv5L⟩
  unfold s2Pay

  sl_exec_parts

  -- chunk 6, the last round: the partner's finished chunk has landed in the result array; the local copy is waited for; the
  -- two read-outs give the lent shares back

  iapply (dmaWait_step m c _ (K (c, some (3, 6))) (r2Pay m 6 c) (expect_r2 m c 6) (rest_r2 m c 6) (oM.slice (Rect.unit (s := S2048x2048) (k0_off8 c) S1024x128.size (k0_off8_inb c)) (fun _ => rfl)) rfl (owed c 16 16) _) $$ [Hcr2_6 HO Hpr2_6]
  · isplitr; · iapply (inv_at m K (c, some (3, 6))); iexact HI
    isplitl [Hcr2_6]; · iexact Hcr2_6
    isplitl [HO]; · iexact HO
    isplitr
    · iapply (mayWait_owed c (.dma (r2S 6)) 16 16 (fun k hk => by have := k.isLt; rw [lv_r2]; omega) (fun k hk => by have := k.isLt; rw [lv_r2]; omega)); iexact Hlev
    iexact Hpr2_6
  iintro ⟨HO, Hzr2_6, HoutR6⟩
  unfold r2Pay

  sl_exec_parts

  iapply (dmaWait_step m c _ (K (c, some (0, 6))) (s1Pay m 6 c) (expect_s1 m c 6) (rest_s1 m c 6) (slotM psM 6) rfl (owed c 16 16) _) $$ [Hcs1_6 HO Hps1_6]
  · isplitr; · iapply (inv_at m K (c, some (0, 6))); iexact HI
    isplitl [Hcs1_6]; · iexact Hcs1_6
    isplitl [HO]; · iexact HO
    isplitr
    · iapply (mayWait_owed c (.dma (s1S 6)) 16 16 (fun k hk => by have := k.isLt; rw [lv_s1]; omega) (fun k hk => by have := k.isLt; rw [lv_s1]; omega)); iexact Hlev
    iexact Hps1_6
  iintro ⟨HO, Hzs1_6, Hps6L⟩
  unfold s1Pay

  sl_exec_parts

  iapply (dmaWait_step m c _ (K (c, some (2, 6))) (s2Pay m 6 c) (expect_s2 m c 6) (rest_s2 m c 6) (slotM cvM 6) rfl (owed c 16 16) _) $$ [Hcs2_6 HO Hps2_6]
  · isplitr; · iapply (inv_at m K (c, some (2, 6))); iexact HI
    isplitl [Hcs2_6]; · iexact Hcs2_6
    isplitl [HO]; · iexact HO
    isplitr
    · iapply (mayWait_owed c (.dma (s2S 6)) 16 16 (fun k hk => by have := k.isLt; rw [lv_s2]; omega) (fun k hk => by have := k.isLt; rw [lv_s2]; omega)); iexact Hlev
    iexact Hps2_6
  iintro ⟨HO, Hzs2_6, Hcv6L⟩
  unfold s2Pay

  sl_exec_parts

  -- chunk 7, the last round: the partner's finished chunk has landed in the result array; the local copy is waited for; the
  -- two read-outs give the lent shares back

  iapply (dmaWait_step m c _ (K (c, some (3, 7))) (r2Pay m 7 c) (expect_r2 m c 7) (rest_r2 m c 7) (oM.slice (Rect.unit (s := S2048x2048) (k0_off9 c) S1024x128.size (k0_off9_inb c)) (fun _ => rfl)) rfl (owed c 16 16) _) $$ [Hcr2_7 HO Hpr2_7]
  · isplitr; · iapply (inv_at m K (c, some (3, 7))); iexact HI
    isplitl [Hcr2_7]; · iexact Hcr2_7
    isplitl [HO]; · iexact HO
    isplitr
    · iapply (mayWait_owed c (.dma (r2S 7)) 16 16 (fun k hk => by have := k.isLt; rw [lv_r2]; omega) (fun k hk => by have := k.isLt; rw [lv_r2]; omega)); iexact Hlev
    iexact Hpr2_7
  iintro ⟨HO, Hzr2_7, HoutR7⟩
  unfold r2Pay

  sl_exec_parts

  iapply (dmaWait_step m c _ (K (c, some (0, 7))) (s1Pay m 7 c) (expect_s1 m c 7) (rest_s1 m c 7) (slotM psM 7) rfl (owed c 16 16) _) $$ [Hcs1_7 HO Hps1_7]
  · isplitr; · iapply (inv_at m K (c, some (0, 7))); iexact HI
    isplitl [Hcs1_7]; · iexact Hcs1_7
    isplitl [HO]; · iexact HO
    isplitr
    · iapply (mayWait_owed c (.dma (s1S 7)) 16 16 (fun k hk => by have := k.isLt; rw [lv_s1]; omega) (fun k hk => by have := k.isLt; rw [lv_s1]; omega)); iexact Hlev
    iexact Hps1_7
  iintro ⟨HO, Hzs1_7, Hps7L⟩
  unfold s1Pay

  sl_exec_parts

  iapply (dmaWait_step m c _ (K (c, some (2, 7))) (s2Pay m 7 c) (expect_s2 m c 7) (rest_s2 m c 7) (slotM cvM 7) rfl (owed c 16 16) _) $$ [Hcs2_7 HO Hps2_7]
  · isplitr; · iapply (inv_at m K (c, some (2, 7))); iexact HI
    isplitl [Hcs2_7]; · iexact Hcs2_7
    isplitl [HO]; · iexact HO
    isplitr
    · iapply (mayWait_owed c (.dma (s2S 7)) 16 16 (fun k hk => by have := k.isLt; rw [lv_s2]; omega) (fun k hk => by have := k.isLt; rw [lv_s2]; omega)); iexact Hlev
    iexact Hps2_7
  iintro ⟨HO, Hzs2_7, Hcv7L⟩
  unfold s2Pay

  sl_exec_parts

  -- chunk 8, the last round: the partner's finished chunk has landed in the result array; the local copy is waited for; the
  -- two read-outs give the lent shares back

  iapply (dmaWait_step m c _ (K (c, some (3, 8))) (r2Pay m 8 c) (expect_r2 m c 8) (rest_r2 m c 8) (oM.slice (Rect.unit (s := S2048x2048) (k0_off10 c) S1024x128.size (k0_off10_inb c)) (fun _ => rfl)) rfl (owed c 16 16) _) $$ [Hcr2_8 HO Hpr2_8]
  · isplitr; · iapply (inv_at m K (c, some (3, 8))); iexact HI
    isplitl [Hcr2_8]; · iexact Hcr2_8
    isplitl [HO]; · iexact HO
    isplitr
    · iapply (mayWait_owed c (.dma (r2S 8)) 16 16 (fun k hk => by have := k.isLt; rw [lv_r2]; omega) (fun k hk => by have := k.isLt; rw [lv_r2]; omega)); iexact Hlev
    iexact Hpr2_8
  iintro ⟨HO, Hzr2_8, HoutR8⟩
  unfold r2Pay

  sl_exec_parts

  iapply (dmaWait_step m c _ (K (c, some (0, 8))) (s1Pay m 8 c) (expect_s1 m c 8) (rest_s1 m c 8) (slotM psM 8) rfl (owed c 16 16) _) $$ [Hcs1_8 HO Hps1_8]
  · isplitr; · iapply (inv_at m K (c, some (0, 8))); iexact HI
    isplitl [Hcs1_8]; · iexact Hcs1_8
    isplitl [HO]; · iexact HO
    isplitr
    · iapply (mayWait_owed c (.dma (s1S 8)) 16 16 (fun k hk => by have := k.isLt; rw [lv_s1]; omega) (fun k hk => by have := k.isLt; rw [lv_s1]; omega)); iexact Hlev
    iexact Hps1_8
  iintro ⟨HO, Hzs1_8, Hps8L⟩
  unfold s1Pay

  sl_exec_parts

  iapply (dmaWait_step m c _ (K (c, some (2, 8))) (s2Pay m 8 c) (expect_s2 m c 8) (rest_s2 m c 8) (slotM cvM 8) rfl (owed c 16 16) _) $$ [Hcs2_8 HO Hps2_8]
  · isplitr; · iapply (inv_at m K (c, some (2, 8))); iexact HI
    isplitl [Hcs2_8]; · iexact Hcs2_8
    isplitl [HO]; · iexact HO
    isplitr
    · iapply (mayWait_owed c (.dma (s2S 8)) 16 16 (fun k hk => by have := k.isLt; rw [lv_s2]; omega) (fun k hk => by have := k.isLt; rw [lv_s2]; omega)); iexact Hlev
    iexact Hps2_8
  iintro ⟨HO, Hzs2_8, Hcv8L⟩
  unfold s2Pay

  sl_exec_parts

  -- chunk 9, the last round: the partner's finished chunk has landed in the result array; the local copy is waited for; the
  -- two read-outs give the lent shares back

  iapply (dmaWait_step m c _ (K (c, some (3, 9))) (r2Pay m 9 c) (expect_r2 m c 9) (rest_r2 m c 9) (oM.slice (Rect.unit (s := S2048x2048) (k0_off11 c) S1024x128.size (k0_off11_inb c)) (fun _ => rfl)) rfl (owed c 16 16) _) $$ [Hcr2_9 HO Hpr2_9]
  · isplitr; · iapply (inv_at m K (c, some (3, 9))); iexact HI
    isplitl [Hcr2_9]; · iexact Hcr2_9
    isplitl [HO]; · iexact HO
    isplitr
    · iapply (mayWait_owed c (.dma (r2S 9)) 16 16 (fun k hk => by have := k.isLt; rw [lv_r2]; omega) (fun k hk => by have := k.isLt; rw [lv_r2]; omega)); iexact Hlev
    iexact Hpr2_9
  iintro ⟨HO, Hzr2_9, HoutR9⟩
  unfold r2Pay

  sl_exec_parts

  iapply (dmaWait_step m c _ (K (c, some (0, 9))) (s1Pay m 9 c) (expect_s1 m c 9) (rest_s1 m c 9) (slotM psM 9) rfl (owed c 16 16) _) $$ [Hcs1_9 HO Hps1_9]
  · isplitr; · iapply (inv_at m K (c, some (0, 9))); iexact HI
    isplitl [Hcs1_9]; · iexact Hcs1_9
    isplitl [HO]; · iexact HO
    isplitr
    · iapply (mayWait_owed c (.dma (s1S 9)) 16 16 (fun k hk => by have := k.isLt; rw [lv_s1]; omega) (fun k hk => by have := k.isLt; rw [lv_s1]; omega)); iexact Hlev
    iexact Hps1_9
  iintro ⟨HO, Hzs1_9, Hps9L⟩
  unfold s1Pay

  sl_exec_parts

  iapply (dmaWait_step m c _ (K (c, some (2, 9))) (s2Pay m 9 c) (expect_s2 m c 9) (rest_s2 m c 9) (slotM cvM 9) rfl (owed c 16 16) _) $$ [Hcs2_9 HO Hps2_9]
  · isplitr; · iapply (inv_at m K (c, some (2, 9))); iexact HI
    isplitl [Hcs2_9]; · iexact Hcs2_9
    isplitl [HO]; · iexact HO
    isplitr
    · iapply (mayWait_owed c (.dma (s2S 9)) 16 16 (fun k hk => by have := k.isLt; rw [lv_s2]; omega) (fun k hk => by have := k.isLt; rw [lv_s2]; omega)); iexact Hlev
    iexact Hps2_9
  iintro ⟨HO, Hzs2_9, Hcv9L⟩
  unfold s2Pay

  sl_exec_parts

  -- chunk 10, the last round: the partner's finished chunk has landed in the result array; the local copy is waited for; the
  -- two read-outs give the lent shares back

  iapply (dmaWait_step m c _ (K (c, some (3, 10))) (r2Pay m 10 c) (expect_r2 m c 10) (rest_r2 m c 10) (oM.slice (Rect.unit (s := S2048x2048) (k0_off12 c) S1024x128.size (k0_off12_inb c)) (fun _ => rfl)) rfl (owed c 16 16) _) $$ [Hcr2_10 HO Hpr2_10]
  · isplitr; · iapply (inv_at m K (c, some (3, 10))); iexact HI
    isplitl [Hcr2_10]; · iexact Hcr2_10
    isplitl [HO]; · iexact HO
    isplitr
    · iapply (mayWait_owed c (.dma (r2S 10)) 16 16 (fun k hk => by have := k.isLt; rw [lv_r2]; omega) (fun k hk => by have := k.isLt; rw [lv_r2]; omega)); iexact Hlev
    iexact Hpr2_10
  iintro ⟨HO, Hzr2_10, HoutR10⟩
  unfold r2Pay

  sl_exec_parts

  iapply (dmaWait_step m c _ (K (c, some (0, 10))) (s1Pay m 10 c) (expect_s1 m c 10) (rest_s1 m c 10) (slotM psM 10) rfl (owed c 16 16) _) $$ [Hcs1_10 HO Hps1_10]
  · isplitr; · iapply (inv_at m K (c, some (0, 10))); iexact HI
    isplitl [Hcs1_10]; · iexact Hcs1_10
    isplitl [HO]; · iexact HO
    isplitr
    · iapply (mayWait_owed c (.dma (s1S 10)) 16 16 (fun k hk => by have := k.isLt; rw [lv_s1]; omega) (fun k hk => by have := k.isLt; rw [lv_s1]; omega)); iexact Hlev
    iexact Hps1_10
  iintro ⟨HO, Hzs1_10, Hps10L⟩
  unfold s1Pay

  sl_exec_parts

  iapply (dmaWait_step m c _ (K (c, some (2, 10))) (s2Pay m 10 c) (expect_s2 m c 10) (rest_s2 m c 10) (slotM cvM 10) rfl (owed c 16 16) _) $$ [Hcs2_10 HO Hps2_10]
  · isplitr; · iapply (inv_at m K (c, some (2, 10))); iexact HI
    isplitl [Hcs2_10]; · iexact Hcs2_10
    isplitl [HO]; · iexact HO
    isplitr
    · iapply (mayWait_owed c (.dma (s2S 10)) 16 16 (fun k hk => by have := k.isLt; rw [lv_s2]; omega) (fun k hk => by have := k.isLt; rw [lv_s2]; omega)); iexact Hlev
    iexact Hps2_10
  iintro ⟨HO, Hzs2_10, Hcv10L⟩
  unfold s2Pay

  sl_exec_parts

  -- chunk 11, the last round: the partner's finished chunk has landed in the result array; the local copy is waited for; the
  -- two read-outs give the lent shares back

  iapply (dmaWait_step m c _ (K (c, some (3, 11))) (r2Pay m 11 c) (expect_r2 m c 11) (rest_r2 m c 11) (oM.slice (Rect.unit (s := S2048x2048) (k0_off13 c) S1024x128.size (k0_off13_inb c)) (fun _ => rfl)) rfl (owed c 16 16) _) $$ [Hcr2_11 HO Hpr2_11]
  · isplitr; · iapply (inv_at m K (c, some (3, 11))); iexact HI
    isplitl [Hcr2_11]; · iexact Hcr2_11
    isplitl [HO]; · iexact HO
    isplitr
    · iapply (mayWait_owed c (.dma (r2S 11)) 16 16 (fun k hk => by have := k.isLt; rw [lv_r2]; omega) (fun k hk => by have := k.isLt; rw [lv_r2]; omega)); iexact Hlev
    iexact Hpr2_11
  iintro ⟨HO, Hzr2_11, HoutR11⟩
  unfold r2Pay

  sl_exec_parts

  iapply (dmaWait_step m c _ (K (c, some (0, 11))) (s1Pay m 11 c) (expect_s1 m c 11) (rest_s1 m c 11) (slotM psM 11) rfl (owed c 16 16) _) $$ [Hcs1_11 HO Hps1_11]
  · isplitr; · iapply (inv_at m K (c, some (0, 11))); iexact HI
    isplitl [Hcs1_11]; · iexact Hcs1_11
    isplitl [HO]; · iexact HO
    isplitr
    · iapply (mayWait_owed c (.dma (s1S 11)) 16 16 (fun k hk => by have := k.isLt; rw [lv_s1]; omega) (fun k hk => by have := k.isLt; rw [lv_s1]; omega)); iexact Hlev
    iexact Hps1_11
  iintro ⟨HO, Hzs1_11, Hps11L⟩
  unfold s1Pay

  sl_exec_parts

  iapply (dmaWait_step m c _ (K (c, some (2, 11))) (s2Pay m 11 c) (expect_s2 m c 11) (rest_s2 m c 11) (slotM cvM 11) rfl (owed c 16 16) _) $$ [Hcs2_11 HO Hps2_11]
  · isplitr; · iapply (inv_at m K (c, some (2, 11))); iexact HI
    isplitl [Hcs2_11]; · iexact Hcs2_11
    isplitl [HO]; · iexact HO
    isplitr
    · iapply (mayWait_owed c (.dma (s2S 11)) 16 16 (fun k hk => by have := k.isLt; rw [lv_s2]; omega) (fun k hk => by have := k.isLt; rw [lv_s2]; omega)); iexact Hlev
    iexact Hps2_11
  iintro ⟨HO, Hzs2_11, Hcv11L⟩
  unfold s2Pay

  sl_exec_parts

  -- chunk 12, the last round: the partner's finished chunk has landed in the result array; the local copy is waited for; the
  -- two read-outs give the lent shares back

  iapply (dmaWait_step m c _ (K (c, some (3, 12))) (r2Pay m 12 c) (expect_r2 m c 12) (rest_r2 m c 12) (oM.slice (Rect.unit (s := S2048x2048) (k0_off14 c) S1024x128.size (k0_off14_inb c)) (fun _ => rfl)) rfl (owed c 16 16) _) $$ [Hcr2_12 HO Hpr2_12]
  · isplitr; · iapply (inv_at m K (c, some (3, 12))); iexact HI
    isplitl [Hcr2_12]; · iexact Hcr2_12
    isplitl [HO]; · iexact HO
    isplitr
    · iapply (mayWait_owed c (.dma (r2S 12)) 16 16 (fun k hk => by have := k.isLt; rw [lv_r2]; omega) (fun k hk => by have := k.isLt; rw [lv_r2]; omega)); iexact Hlev
    iexact Hpr2_12
  iintro ⟨HO, Hzr2_12, HoutR12⟩
  unfold r2Pay

  sl_exec_parts

  iapply (dmaWait_step m c _ (K (c, some (0, 12))) (s1Pay m 12 c) (expect_s1 m c 12) (rest_s1 m c 12) (slotM psM 12) rfl (owed c 16 16) _) $$ [Hcs1_12 HO Hps1_12]
  · isplitr; · iapply (inv_at m K (c, some (0, 12))); iexact HI
    isplitl [Hcs1_12]; · iexact Hcs1_12
    isplitl [HO]; · iexact HO
    isplitr
    · iapply (mayWait_owed c (.dma (s1S 12)) 16 16 (fun k hk => by have := k.isLt; rw [lv_s1]; omega) (fun k hk => by have := k.isLt; rw [lv_s1]; omega)); iexact Hlev
    iexact Hps1_12
  iintro ⟨HO, Hzs1_12, Hps12L⟩
  unfold s1Pay

  sl_exec_parts

  iapply (dmaWait_step m c _ (K (c, some (2, 12))) (s2Pay m 12 c) (expect_s2 m c 12) (rest_s2 m c 12) (slotM cvM 12) rfl (owed c 16 16) _) $$ [Hcs2_12 HO Hps2_12]
  · isplitr; · iapply (inv_at m K (c, some (2, 12))); iexact HI
    isplitl [Hcs2_12]; · iexact Hcs2_12
    isplitl [HO]; · iexact HO
    isplitr
    · iapply (mayWait_owed c (.dma (s2S 12)) 16 16 (fun k hk => by have := k.isLt; rw [lv_s2]; omega) (fun k hk => by have := k.isLt; rw [lv_s2]; omega)); iexact Hlev
    iexact Hps2_12
  iintro ⟨HO, Hzs2_12, Hcv12L⟩
  unfold s2Pay

  sl_exec_parts

  -- chunk 13, the last round: the partner's finished chunk has landed in the result array; the local copy is waited for; the
  -- two read-outs give the lent shares back

  iapply (dmaWait_step m c _ (K (c, some (3, 13))) (r2Pay m 13 c) (expect_r2 m c 13) (rest_r2 m c 13) (oM.slice (Rect.unit (s := S2048x2048) (k0_off15 c) S1024x128.size (k0_off15_inb c)) (fun _ => rfl)) rfl (owed c 16 16) _) $$ [Hcr2_13 HO Hpr2_13]
  · isplitr; · iapply (inv_at m K (c, some (3, 13))); iexact HI
    isplitl [Hcr2_13]; · iexact Hcr2_13
    isplitl [HO]; · iexact HO
    isplitr
    · iapply (mayWait_owed c (.dma (r2S 13)) 16 16 (fun k hk => by have := k.isLt; rw [lv_r2]; omega) (fun k hk => by have := k.isLt; rw [lv_r2]; omega)); iexact Hlev
    iexact Hpr2_13
  iintro ⟨HO, Hzr2_13, HoutR13⟩
  unfold r2Pay

  sl_exec_parts

  iapply (dmaWait_step m c _ (K (c, some (0, 13))) (s1Pay m 13 c) (expect_s1 m c 13) (rest_s1 m c 13) (slotM psM 13) rfl (owed c 16 16) _) $$ [Hcs1_13 HO Hps1_13]
  · isplitr; · iapply (inv_at m K (c, some (0, 13))); iexact HI
    isplitl [Hcs1_13]; · iexact Hcs1_13
    isplitl [HO]; · iexact HO
    isplitr
    · iapply (mayWait_owed c (.dma (s1S 13)) 16 16 (fun k hk => by have := k.isLt; rw [lv_s1]; omega) (fun k hk => by have := k.isLt; rw [lv_s1]; omega)); iexact Hlev
    iexact Hps1_13
  iintro ⟨HO, Hzs1_13, Hps13L⟩
  unfold s1Pay

  sl_exec_parts

  iapply (dmaWait_step m c _ (K (c, some (2, 13))) (s2Pay m 13 c) (expect_s2 m c 13) (rest_s2 m c 13) (slotM cvM 13) rfl (owed c 16 16) _) $$ [Hcs2_13 HO Hps2_13]
  · isplitr; · iapply (inv_at m K (c, some (2, 13))); iexact HI
    isplitl [Hcs2_13]; · iexact Hcs2_13
    isplitl [HO]; · iexact HO
    isplitr
    · iapply (mayWait_owed c (.dma (s2S 13)) 16 16 (fun k hk => by have := k.isLt; rw [lv_s2]; omega) (fun k hk => by have := k.isLt; rw [lv_s2]; omega)); iexact Hlev
    iexact Hps2_13
  iintro ⟨HO, Hzs2_13, Hcv13L⟩
  unfold s2Pay

  sl_exec_parts

  -- chunk 14, the last round: the partner's finished chunk has landed in the result array; the local copy is waited for; the
  -- two read-outs give the lent shares back

  iapply (dmaWait_step m c _ (K (c, some (3, 14))) (r2Pay m 14 c) (expect_r2 m c 14) (rest_r2 m c 14) (oM.slice (Rect.unit (s := S2048x2048) (k0_off16 c) S1024x128.size (k0_off16_inb c)) (fun _ => rfl)) rfl (owed c 16 16) _) $$ [Hcr2_14 HO Hpr2_14]
  · isplitr; · iapply (inv_at m K (c, some (3, 14))); iexact HI
    isplitl [Hcr2_14]; · iexact Hcr2_14
    isplitl [HO]; · iexact HO
    isplitr
    · iapply (mayWait_owed c (.dma (r2S 14)) 16 16 (fun k hk => by have := k.isLt; rw [lv_r2]; omega) (fun k hk => by have := k.isLt; rw [lv_r2]; omega)); iexact Hlev
    iexact Hpr2_14
  iintro ⟨HO, Hzr2_14, HoutR14⟩
  unfold r2Pay

  sl_exec_parts

  iapply (dmaWait_step m c _ (K (c, some (0, 14))) (s1Pay m 14 c) (expect_s1 m c 14) (rest_s1 m c 14) (slotM psM 14) rfl (owed c 16 16) _) $$ [Hcs1_14 HO Hps1_14]
  · isplitr; · iapply (inv_at m K (c, some (0, 14))); iexact HI
    isplitl [Hcs1_14]; · iexact Hcs1_14
    isplitl [HO]; · iexact HO
    isplitr
    · iapply (mayWait_owed c (.dma (s1S 14)) 16 16 (fun k hk => by have := k.isLt; rw [lv_s1]; omega) (fun k hk => by have := k.isLt; rw [lv_s1]; omega)); iexact Hlev
    iexact Hps1_14
  iintro ⟨HO, Hzs1_14, Hps14L⟩
  unfold s1Pay

  sl_exec_parts

  iapply (dmaWait_step m c _ (K (c, some (2, 14))) (s2Pay m 14 c) (expect_s2 m c 14) (rest_s2 m c 14) (slotM cvM 14) rfl (owed c 16 16) _) $$ [Hcs2_14 HO Hps2_14]
  · isplitr; · iapply (inv_at m K (c, some (2, 14))); iexact HI
    isplitl [Hcs2_14]; · iexact Hcs2_14
    isplitl [HO]; · iexact HO
    isplitr
    · iapply (mayWait_owed c (.dma (s2S 14)) 16 16 (fun k hk => by have := k.isLt; rw [lv_s2]; omega) (fun k hk => by have := k.isLt; rw [lv_s2]; omega)); iexact Hlev
    iexact Hps2_14
  iintro ⟨HO, Hzs2_14, Hcv14L⟩
  unfold s2Pay

  sl_exec_parts

  -- chunk 15, the last round: the partner's finished chunk has landed in the result array; the local copy is waited for; the
  -- two read-outs give the lent shares back

  iapply (dmaWait_step m c _ (K (c, some (3, 15))) (r2Pay m 15 c) (expect_r2 m c 15) (rest_r2 m c 15) (oM.slice (Rect.unit (s := S2048x2048) (k0_off17 c) S1024x128.size (k0_off17_inb c)) (fun _ => rfl)) rfl (owed c 16 16) _) $$ [Hcr2_15 HO Hpr2_15]
  · isplitr; · iapply (inv_at m K (c, some (3, 15))); iexact HI
    isplitl [Hcr2_15]; · iexact Hcr2_15
    isplitl [HO]; · iexact HO
    isplitr
    · iapply (mayWait_owed c (.dma (r2S 15)) 16 16 (fun k hk => by have := k.isLt; rw [lv_r2]; omega) (fun k hk => by have := k.isLt; rw [lv_r2]; omega)); iexact Hlev
    iexact Hpr2_15
  iintro ⟨HO, Hzr2_15, HoutR15⟩
  unfold r2Pay

  sl_exec_parts

  iapply (dmaWait_step m c _ (K (c, some (0, 15))) (s1Pay m 15 c) (expect_s1 m c 15) (rest_s1 m c 15) (slotM psM 15) rfl (owed c 16 16) _) $$ [Hcs1_15 HO Hps1_15]
  · isplitr; · iapply (inv_at m K (c, some (0, 15))); iexact HI
    isplitl [Hcs1_15]; · iexact Hcs1_15
    isplitl [HO]; · iexact HO
    isplitr
    · iapply (mayWait_owed c (.dma (s1S 15)) 16 16 (fun k hk => by have := k.isLt; rw [lv_s1]; omega) (fun k hk => by have := k.isLt; rw [lv_s1]; omega)); iexact Hlev
    iexact Hps1_15
  iintro ⟨HO, Hzs1_15, Hps15L⟩
  unfold s1Pay

  sl_exec_parts

  iapply (dmaWait_step m c _ (K (c, some (2, 15))) (s2Pay m 15 c) (expect_s2 m c 15) (rest_s2 m c 15) (slotM cvM 15) rfl (owed c 16 16) _) $$ [Hcs2_15 HO Hps2_15]
  · isplitr; · iapply (inv_at m K (c, some (2, 15))); iexact HI
    isplitl [Hcs2_15]; · iexact Hcs2_15
    isplitl [HO]; · iexact HO
    isplitr
    · iapply (mayWait_owed c (.dma (s2S 15)) 16 16 (fun k hk => by have := k.isLt; rw [lv_s2]; omega) (fun k hk => by have := k.isLt; rw [lv_s2]; omega)); iexact Hlev
    iexact Hps2_15
  iintro ⟨HO, Hzs2_15, Hcv15L⟩
  unfold s2Pay

  sl_exec_parts

  -- the end: every share and slot is put back, and the invariant after the point is handed over
  sl_step
  iapply Hk
  ihave Hps0 := (slot_shares (F := F) psM c 0 (psFull m c)).2 $$ [Hps0L Hps0K]
  · isplitl [Hps0L]; · iexact Hps0L
    iexact Hps0K
  ihave Hcv0 := (slot_shares (F := F) cvM c 0 (cvFull m c)).2 $$ [Hcv0L Hcv0K]
  · isplitl [Hcv0L]; · iexact Hcv0L
    iexact Hcv0K
  ihave Hout0 := (Entails.of_eq (outPts_printed (F := F) c c 0 (off_eq_2 c) (k0_off2_inb c) _)) $$ Hout0
  unfold outPts
  ihave Hout0 := (Entails.of_eq (pointsTo_congr (out_local m c 0 (off_eq_2 c) (k0_off2_inb c) (cvFull m c) (fun _ _ => rfl) fo []))) $$ Hout0
  ihave Hps1 := (slot_shares (F := F) psM c 1 (psFull m c)).2 $$ [Hps1L Hps1K]
  · isplitl [Hps1L]; · iexact Hps1L
    iexact Hps1K
  ihave Hcv1 := (slot_shares (F := F) cvM c 1 (cvFull m c)).2 $$ [Hcv1L Hcv1K]
  · isplitl [Hcv1L]; · iexact Hcv1L
    iexact Hcv1K
  ihave Hout1 := (Entails.of_eq (outPts_printed (F := F) c c 1 (off_eq_3 c) (k0_off3_inb c) _)) $$ Hout1
  unfold outPts
  ihave Hout1 := (Entails.of_eq (pointsTo_congr (out_local m c 1 (off_eq_3 c) (k0_off3_inb c) (cvFull m c) (fun _ _ => rfl) fo []))) $$ Hout1
  ihave Hps2 := (slot_shares (F := F) psM c 2 (psFull m c)).2 $$ [Hps2L Hps2K]
  · isplitl [Hps2L]; · iexact Hps2L
    iexact Hps2K
  ihave Hcv2 := (slot_shares (F := F) cvM c 2 (cvFull m c)).2 $$ [Hcv2L Hcv2K]
  · isplitl [Hcv2L]; · iexact Hcv2L
    iexact Hcv2K
  ihave Hout2 := (Entails.of_eq (outPts_printed (F := F) c c 2 (off_eq_4 c) (k0_off4_inb c) _)) $$ Hout2
  unfold outPts
  ihave Hout2 := (Entails.of_eq (pointsTo_congr (out_local m c 2 (off_eq_4 c) (k0_off4_inb c) (cvFull m c) (fun _ _ => rfl) fo []))) $$ Hout2
  ihave Hps3 := (slot_shares (F := F) psM c 3 (psFull m c)).2 $$ [Hps3L Hps3K]
  · isplitl [Hps3L]; · iexact Hps3L
    iexact Hps3K
  ihave Hcv3 := (slot_shares (F := F) cvM c 3 (cvFull m c)).2 $$ [Hcv3L Hcv3K]
  · isplitl [Hcv3L]; · iexact Hcv3L
    iexact Hcv3K
  ihave Hout3 := (Entails.of_eq (outPts_printed (F := F) c c 3 (off_eq_5 c) (k0_off5_inb c) _)) $$ Hout3
  unfold outPts
  ihave Hout3 := (Entails.of_eq (pointsTo_congr (out_local m c 3 (off_eq_5 c) (k0_off5_inb c) (cvFull m c) (fun _ _ => rfl) fo []))) $$ Hout3
  ihave Hps4 := (slot_shares (F := F) psM c 4 (psFull m c)).2 $$ [Hps4L Hps4K]
  · isplitl [Hps4L]; · iexact Hps4L
    iexact Hps4K
  ihave Hcv4 := (slot_shares (F := F) cvM c 4 (cvFull m c)).2 $$ [Hcv4L Hcv4K]
  · isplitl [Hcv4L]; · iexact Hcv4L
    iexact Hcv4K
  ihave Hout4 := (Entails.of_eq (outPts_printed (F := F) c c 4 (off_eq_6 c) (k0_off6_inb c) _)) $$ Hout4
  unfold outPts
  ihave Hout4 := (Entails.of_eq (pointsTo_congr (out_local m c 4 (off_eq_6 c) (k0_off6_inb c) (cvFull m c) (fun _ _ => rfl) fo []))) $$ Hout4
  ihave Hps5 := (slot_shares (F := F) psM c 5 (psFull m c)).2 $$ [Hps5L Hps5K]
  · isplitl [Hps5L]; · iexact Hps5L
    iexact Hps5K
  ihave Hcv5 := (slot_shares (F := F) cvM c 5 (cvFull m c)).2 $$ [Hcv5L Hcv5K]
  · isplitl [Hcv5L]; · iexact Hcv5L
    iexact Hcv5K
  ihave Hout5 := (Entails.of_eq (outPts_printed (F := F) c c 5 (off_eq_7 c) (k0_off7_inb c) _)) $$ Hout5
  unfold outPts
  ihave Hout5 := (Entails.of_eq (pointsTo_congr (out_local m c 5 (off_eq_7 c) (k0_off7_inb c) (cvFull m c) (fun _ _ => rfl) fo []))) $$ Hout5
  ihave Hps6 := (slot_shares (F := F) psM c 6 (psFull m c)).2 $$ [Hps6L Hps6K]
  · isplitl [Hps6L]; · iexact Hps6L
    iexact Hps6K
  ihave Hcv6 := (slot_shares (F := F) cvM c 6 (cvFull m c)).2 $$ [Hcv6L Hcv6K]
  · isplitl [Hcv6L]; · iexact Hcv6L
    iexact Hcv6K
  ihave Hout6 := (Entails.of_eq (outPts_printed (F := F) c c 6 (off_eq_8 c) (k0_off8_inb c) _)) $$ Hout6
  unfold outPts
  ihave Hout6 := (Entails.of_eq (pointsTo_congr (out_local m c 6 (off_eq_8 c) (k0_off8_inb c) (cvFull m c) (fun _ _ => rfl) fo []))) $$ Hout6
  ihave Hps7 := (slot_shares (F := F) psM c 7 (psFull m c)).2 $$ [Hps7L Hps7K]
  · isplitl [Hps7L]; · iexact Hps7L
    iexact Hps7K
  ihave Hcv7 := (slot_shares (F := F) cvM c 7 (cvFull m c)).2 $$ [Hcv7L Hcv7K]
  · isplitl [Hcv7L]; · iexact Hcv7L
    iexact Hcv7K
  ihave Hout7 := (Entails.of_eq (outPts_printed (F := F) c c 7 (off_eq_9 c) (k0_off9_inb c) _)) $$ Hout7
  unfold outPts
  ihave Hout7 := (Entails.of_eq (pointsTo_congr (out_local m c 7 (off_eq_9 c) (k0_off9_inb c) (cvFull m c) (fun _ _ => rfl) fo []))) $$ Hout7
  ihave Hps8 := (slot_shares (F := F) psM c 8 (psFull m c)).2 $$ [Hps8L Hps8K]
  · isplitl [Hps8L]; · iexact Hps8L
    iexact Hps8K
  ihave Hcv8 := (slot_shares (F := F) cvM c 8 (cvFull m c)).2 $$ [Hcv8L Hcv8K]
  · isplitl [Hcv8L]; · iexact Hcv8L
    iexact Hcv8K
  ihave Hout8 := (Entails.of_eq (outPts_printed (F := F) c c 8 (off_eq_10 c) (k0_off10_inb c) _)) $$ Hout8
  unfold outPts
  ihave Hout8 := (Entails.of_eq (pointsTo_congr (out_local m c 8 (off_eq_10 c) (k0_off10_inb c) (cvFull m c) (fun _ _ => rfl) fo []))) $$ Hout8
  ihave Hps9 := (slot_shares (F := F) psM c 9 (psFull m c)).2 $$ [Hps9L Hps9K]
  · isplitl [Hps9L]; · iexact Hps9L
    iexact Hps9K
  ihave Hcv9 := (slot_shares (F := F) cvM c 9 (cvFull m c)).2 $$ [Hcv9L Hcv9K]
  · isplitl [Hcv9L]; · iexact Hcv9L
    iexact Hcv9K
  ihave Hout9 := (Entails.of_eq (outPts_printed (F := F) c c 9 (off_eq_11 c) (k0_off11_inb c) _)) $$ Hout9
  unfold outPts
  ihave Hout9 := (Entails.of_eq (pointsTo_congr (out_local m c 9 (off_eq_11 c) (k0_off11_inb c) (cvFull m c) (fun _ _ => rfl) fo []))) $$ Hout9
  ihave Hps10 := (slot_shares (F := F) psM c 10 (psFull m c)).2 $$ [Hps10L Hps10K]
  · isplitl [Hps10L]; · iexact Hps10L
    iexact Hps10K
  ihave Hcv10 := (slot_shares (F := F) cvM c 10 (cvFull m c)).2 $$ [Hcv10L Hcv10K]
  · isplitl [Hcv10L]; · iexact Hcv10L
    iexact Hcv10K
  ihave Hout10 := (Entails.of_eq (outPts_printed (F := F) c c 10 (off_eq_12 c) (k0_off12_inb c) _)) $$ Hout10
  unfold outPts
  ihave Hout10 := (Entails.of_eq (pointsTo_congr (out_local m c 10 (off_eq_12 c) (k0_off12_inb c) (cvFull m c) (fun _ _ => rfl) fo []))) $$ Hout10
  ihave Hps11 := (slot_shares (F := F) psM c 11 (psFull m c)).2 $$ [Hps11L Hps11K]
  · isplitl [Hps11L]; · iexact Hps11L
    iexact Hps11K
  ihave Hcv11 := (slot_shares (F := F) cvM c 11 (cvFull m c)).2 $$ [Hcv11L Hcv11K]
  · isplitl [Hcv11L]; · iexact Hcv11L
    iexact Hcv11K
  ihave Hout11 := (Entails.of_eq (outPts_printed (F := F) c c 11 (off_eq_13 c) (k0_off13_inb c) _)) $$ Hout11
  unfold outPts
  ihave Hout11 := (Entails.of_eq (pointsTo_congr (out_local m c 11 (off_eq_13 c) (k0_off13_inb c) (cvFull m c) (fun _ _ => rfl) fo []))) $$ Hout11
  ihave Hps12 := (slot_shares (F := F) psM c 12 (psFull m c)).2 $$ [Hps12L Hps12K]
  · isplitl [Hps12L]; · iexact Hps12L
    iexact Hps12K
  ihave Hcv12 := (slot_shares (F := F) cvM c 12 (cvFull m c)).2 $$ [Hcv12L Hcv12K]
  · isplitl [Hcv12L]; · iexact Hcv12L
    iexact Hcv12K
  ihave Hout12 := (Entails.of_eq (outPts_printed (F := F) c c 12 (off_eq_14 c) (k0_off14_inb c) _)) $$ Hout12
  unfold outPts
  ihave Hout12 := (Entails.of_eq (pointsTo_congr (out_local m c 12 (off_eq_14 c) (k0_off14_inb c) (cvFull m c) (fun _ _ => rfl) fo []))) $$ Hout12
  ihave Hps13 := (slot_shares (F := F) psM c 13 (psFull m c)).2 $$ [Hps13L Hps13K]
  · isplitl [Hps13L]; · iexact Hps13L
    iexact Hps13K
  ihave Hcv13 := (slot_shares (F := F) cvM c 13 (cvFull m c)).2 $$ [Hcv13L Hcv13K]
  · isplitl [Hcv13L]; · iexact Hcv13L
    iexact Hcv13K
  ihave Hout13 := (Entails.of_eq (outPts_printed (F := F) c c 13 (off_eq_15 c) (k0_off15_inb c) _)) $$ Hout13
  unfold outPts
  ihave Hout13 := (Entails.of_eq (pointsTo_congr (out_local m c 13 (off_eq_15 c) (k0_off15_inb c) (cvFull m c) (fun _ _ => rfl) fo []))) $$ Hout13
  ihave Hps14 := (slot_shares (F := F) psM c 14 (psFull m c)).2 $$ [Hps14L Hps14K]
  · isplitl [Hps14L]; · iexact Hps14L
    iexact Hps14K
  ihave Hcv14 := (slot_shares (F := F) cvM c 14 (cvFull m c)).2 $$ [Hcv14L Hcv14K]
  · isplitl [Hcv14L]; · iexact Hcv14L
    iexact Hcv14K
  ihave Hout14 := (Entails.of_eq (outPts_printed (F := F) c c 14 (off_eq_16 c) (k0_off16_inb c) _)) $$ Hout14
  unfold outPts
  ihave Hout14 := (Entails.of_eq (pointsTo_congr (out_local m c 14 (off_eq_16 c) (k0_off16_inb c) (cvFull m c) (fun _ _ => rfl) fo []))) $$ Hout14
  ihave Hps15 := (slot_shares (F := F) psM c 15 (psFull m c)).2 $$ [Hps15L Hps15K]
  · isplitl [Hps15L]; · iexact Hps15L
    iexact Hps15K
  ihave Hcv15 := (slot_shares (F := F) cvM c 15 (cvFull m c)).2 $$ [Hcv15L Hcv15K]
  · isplitl [Hcv15L]; · iexact Hcv15L
    iexact Hcv15K
  ihave Hout15 := (Entails.of_eq (outPts_printed (F := F) c c 15 (off_eq_17 c) (k0_off17_inb c) _)) $$ Hout15
  unfold outPts
  ihave Hout15 := (Entails.of_eq (pointsTo_congr (out_local m c 15 (off_eq_17 c) (k0_off17_inb c) (cvFull m c) (fun _ _ => rfl) fo []))) $$ Hout15
  ihave Hps := (Entails.of_eq ((split16 (F := F) psM (Memref.isWhole_whole _) c fullShare (psFull m c)).trans (bigSep_fin16 _)).symm) $$ [Hps0 Hps1 Hps2 Hps3 Hps4 Hps5 Hps6 Hps7 Hps8 Hps9 Hps10 Hps11 Hps12 Hps13 Hps14 Hps15]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    isplitl [Hps7]; · iexact Hps7
    isplitl [Hps8]; · iexact Hps8
    isplitl [Hps9]; · iexact Hps9
    isplitl [Hps10]; · iexact Hps10
    isplitl [Hps11]; · iexact Hps11
    isplitl [Hps12]; · iexact Hps12
    isplitl [Hps13]; · iexact Hps13
    isplitl [Hps14]; · iexact Hps14
    iexact Hps15
  ihave Hcv := (Entails.of_eq ((split16 (F := F) cvM (Memref.isWhole_whole _) c fullShare (cvFull m c)).trans (bigSep_fin16 _)).symm) $$ [Hcv0 Hcv1 Hcv2 Hcv3 Hcv4 Hcv5 Hcv6 Hcv7 Hcv8 Hcv9 Hcv10 Hcv11 Hcv12 Hcv13 Hcv14 Hcv15]
  · isplitl [Hcv0]; · iexact Hcv0
    isplitl [Hcv1]; · iexact Hcv1
    isplitl [Hcv2]; · iexact Hcv2
    isplitl [Hcv3]; · iexact Hcv3
    isplitl [Hcv4]; · iexact Hcv4
    isplitl [Hcv5]; · iexact Hcv5
    isplitl [Hcv6]; · iexact Hcv6
    isplitl [Hcv7]; · iexact Hcv7
    isplitl [Hcv8]; · iexact Hcv8
    isplitl [Hcv9]; · iexact Hcv9
    isplitl [Hcv10]; · iexact Hcv10
    isplitl [Hcv11]; · iexact Hcv11
    isplitl [Hcv12]; · iexact Hcv12
    isplitl [Hcv13]; · iexact Hcv13
    isplitl [Hcv14]; · iexact Hcv14
    iexact Hcv15
  ihave Hpr := (Entails.of_eq ((split16 (F := F) prM (Memref.isWhole_whole _) c fullShare (prFull m c)).trans (bigSep_fin16 _)).symm) $$ [Hpr0 Hpr1 Hpr2 Hpr3 Hpr4 Hpr5 Hpr6 Hpr7 Hpr8 Hpr9 Hpr10 Hpr11 Hpr12 Hpr13 Hpr14 Hpr15]
  · isplitl [Hpr0]; · iexact Hpr0
    isplitl [Hpr1]; · iexact Hpr1
    isplitl [Hpr2]; · iexact Hpr2
    isplitl [Hpr3]; · iexact Hpr3
    isplitl [Hpr4]; · iexact Hpr4
    isplitl [Hpr5]; · iexact Hpr5
    isplitl [Hpr6]; · iexact Hpr6
    isplitl [Hpr7]; · iexact Hpr7
    isplitl [Hpr8]; · iexact Hpr8
    isplitl [Hpr9]; · iexact Hpr9
    isplitl [Hpr10]; · iexact Hpr10
    isplitl [Hpr11]; · iexact Hpr11
    isplitl [Hpr12]; · iexact Hpr12
    isplitl [Hpr13]; · iexact Hpr13
    isplitl [Hpr14]; · iexact Hpr14
    iexact Hpr15
  ihave Hbv := (join2 (F := F) c _ _) $$ [Hbv0 Hbv1]
  · isplitl [Hbv0] <;> iassumption
  ihave HOutC := (Entails.of_eq ((splitRows (F := F) c c (outFull m c)).trans (bigSep_fin16 _)).symm) $$ [Hout0 Hout1 Hout2 Hout3 Hout4 Hout5 Hout6 Hout7 Hout8 Hout9 Hout10 Hout11 Hout12 Hout13 Hout14 Hout15]
  · isplitl [Hout0]; · iexact Hout0
    isplitl [Hout1]; · iexact Hout1
    isplitl [Hout2]; · iexact Hout2
    isplitl [Hout3]; · iexact Hout3
    isplitl [Hout4]; · iexact Hout4
    isplitl [Hout5]; · iexact Hout5
    isplitl [Hout6]; · iexact Hout6
    isplitl [Hout7]; · iexact Hout7
    isplitl [Hout8]; · iexact Hout8
    isplitl [Hout9]; · iexact Hout9
    isplitl [Hout10]; · iexact Hout10
    isplitl [Hout11]; · iexact Hout11
    isplitl [Hout12]; · iexact Hout12
    isplitl [Hout13]; · iexact Hout13
    isplitl [Hout14]; · iexact Hout14
    iexact Hout15
  ihave HOutY := (Entails.of_eq ((splitRows (F := F) c (yn c) (outFull m c)).trans (bigSep_fin16 _)).symm) $$ [HoutR0 HoutR1 HoutR2 HoutR3 HoutR4 HoutR5 HoutR6 HoutR7 HoutR8 HoutR9 HoutR10 HoutR11 HoutR12 HoutR13 HoutR14 HoutR15]
  · isplitl [HoutR0]; · iexact HoutR0
    isplitl [HoutR1]; · iexact HoutR1
    isplitl [HoutR2]; · iexact HoutR2
    isplitl [HoutR3]; · iexact HoutR3
    isplitl [HoutR4]; · iexact HoutR4
    isplitl [HoutR5]; · iexact HoutR5
    isplitl [HoutR6]; · iexact HoutR6
    isplitl [HoutR7]; · iexact HoutR7
    isplitl [HoutR8]; · iexact HoutR8
    isplitl [HoutR9]; · iexact HoutR9
    isplitl [HoutR10]; · iexact HoutR10
    isplitl [HoutR11]; · iexact HoutR11
    isplitl [HoutR12]; · iexact HoutR12
    isplitl [HoutR13]; · iexact HoutR13
    isplitl [HoutR14]; · iexact HoutR14
    iexact HoutR15
  ihave HOut := (Entails.of_eq (splitOut (F := F) c c (outFull m c)).symm) $$ [HOutC HOutY]
  · isplitl [HOutC] <;> iassumption
  ihave Hz0 := (Entails.of_eq (bigSep_fin16 fun j : Fin 16 => (semVal (s1Cell j c) 0 : sProp 𝕄)).symm) $$ [Hzs1_0 Hzs1_1 Hzs1_2 Hzs1_3 Hzs1_4 Hzs1_5 Hzs1_6 Hzs1_7 Hzs1_8 Hzs1_9 Hzs1_10 Hzs1_11 Hzs1_12 Hzs1_13 Hzs1_14 Hzs1_15]
  · isplitl [Hzs1_0]; · iexact Hzs1_0
    isplitl [Hzs1_1]; · iexact Hzs1_1
    isplitl [Hzs1_2]; · iexact Hzs1_2
    isplitl [Hzs1_3]; · iexact Hzs1_3
    isplitl [Hzs1_4]; · iexact Hzs1_4
    isplitl [Hzs1_5]; · iexact Hzs1_5
    isplitl [Hzs1_6]; · iexact Hzs1_6
    isplitl [Hzs1_7]; · iexact Hzs1_7
    isplitl [Hzs1_8]; · iexact Hzs1_8
    isplitl [Hzs1_9]; · iexact Hzs1_9
    isplitl [Hzs1_10]; · iexact Hzs1_10
    isplitl [Hzs1_11]; · iexact Hzs1_11
    isplitl [Hzs1_12]; · iexact Hzs1_12
    isplitl [Hzs1_13]; · iexact Hzs1_13
    isplitl [Hzs1_14]; · iexact Hzs1_14
    iexact Hzs1_15
  ihave Hz1 := (Entails.of_eq (bigSep_fin16 fun j : Fin 16 => (semVal (r1Cell j c) 0 : sProp 𝕄)).symm) $$ [Hzr1_0 Hzr1_1 Hzr1_2 Hzr1_3 Hzr1_4 Hzr1_5 Hzr1_6 Hzr1_7 Hzr1_8 Hzr1_9 Hzr1_10 Hzr1_11 Hzr1_12 Hzr1_13 Hzr1_14 Hzr1_15]
  · isplitl [Hzr1_0]; · iexact Hzr1_0
    isplitl [Hzr1_1]; · iexact Hzr1_1
    isplitl [Hzr1_2]; · iexact Hzr1_2
    isplitl [Hzr1_3]; · iexact Hzr1_3
    isplitl [Hzr1_4]; · iexact Hzr1_4
    isplitl [Hzr1_5]; · iexact Hzr1_5
    isplitl [Hzr1_6]; · iexact Hzr1_6
    isplitl [Hzr1_7]; · iexact Hzr1_7
    isplitl [Hzr1_8]; · iexact Hzr1_8
    isplitl [Hzr1_9]; · iexact Hzr1_9
    isplitl [Hzr1_10]; · iexact Hzr1_10
    isplitl [Hzr1_11]; · iexact Hzr1_11
    isplitl [Hzr1_12]; · iexact Hzr1_12
    isplitl [Hzr1_13]; · iexact Hzr1_13
    isplitl [Hzr1_14]; · iexact Hzr1_14
    iexact Hzr1_15
  ihave Hz2 := (Entails.of_eq (bigSep_fin16 fun j : Fin 16 => (semVal (s2Cell j c) 0 : sProp 𝕄)).symm) $$ [Hzs2_0 Hzs2_1 Hzs2_2 Hzs2_3 Hzs2_4 Hzs2_5 Hzs2_6 Hzs2_7 Hzs2_8 Hzs2_9 Hzs2_10 Hzs2_11 Hzs2_12 Hzs2_13 Hzs2_14 Hzs2_15]
  · isplitl [Hzs2_0]; · iexact Hzs2_0
    isplitl [Hzs2_1]; · iexact Hzs2_1
    isplitl [Hzs2_2]; · iexact Hzs2_2
    isplitl [Hzs2_3]; · iexact Hzs2_3
    isplitl [Hzs2_4]; · iexact Hzs2_4
    isplitl [Hzs2_5]; · iexact Hzs2_5
    isplitl [Hzs2_6]; · iexact Hzs2_6
    isplitl [Hzs2_7]; · iexact Hzs2_7
    isplitl [Hzs2_8]; · iexact Hzs2_8
    isplitl [Hzs2_9]; · iexact Hzs2_9
    isplitl [Hzs2_10]; · iexact Hzs2_10
    isplitl [Hzs2_11]; · iexact Hzs2_11
    isplitl [Hzs2_12]; · iexact Hzs2_12
    isplitl [Hzs2_13]; · iexact Hzs2_13
    isplitl [Hzs2_14]; · iexact Hzs2_14
    iexact Hzs2_15
  ihave Hz3 := (Entails.of_eq (bigSep_fin16 fun j : Fin 16 => (semVal (r2Cell j c) 0 : sProp 𝕄)).symm) $$ [Hzr2_0 Hzr2_1 Hzr2_2 Hzr2_3 Hzr2_4 Hzr2_5 Hzr2_6 Hzr2_7 Hzr2_8 Hzr2_9 Hzr2_10 Hzr2_11 Hzr2_12 Hzr2_13 Hzr2_14 Hzr2_15]
  · isplitl [Hzr2_0]; · iexact Hzr2_0
    isplitl [Hzr2_1]; · iexact Hzr2_1
    isplitl [Hzr2_2]; · iexact Hzr2_2
    isplitl [Hzr2_3]; · iexact Hzr2_3
    isplitl [Hzr2_4]; · iexact Hzr2_4
    isplitl [Hzr2_5]; · iexact Hzr2_5
    isplitl [Hzr2_6]; · iexact Hzr2_6
    isplitl [Hzr2_7]; · iexact Hzr2_7
    isplitl [Hzr2_8]; · iexact Hzr2_8
    isplitl [Hzr2_9]; · iexact Hzr2_9
    isplitl [Hzr2_10]; · iexact Hzr2_10
    isplitl [Hzr2_11]; · iexact Hzr2_11
    isplitl [Hzr2_12]; · iexact Hzr2_12
    isplitl [Hzr2_13]; · iexact Hzr2_13
    isplitl [Hzr2_14]; · iexact Hzr2_14
    iexact Hzr2_15
  ihave Hz := (exchSems_intro (F := F) c) $$ [Hz0 Hz1 Hz2 Hz3]
  · isplitl [Hz0]; · iexact Hz0
    isplitl [Hz1]; · iexact Hz1
    isplitl [Hz2]; · iexact Hz2
    iexact Hz3
  unfold Φ₁ arrays1 scratch localSems0
  isplitr [HO]
  · isplitl [HA HB HOut]
    · isplitl [HA]; · iexact HA
      isplitl [HB]; · iexact HB
      iexact HOut
    isplitl [Hav Hbv Hps Hpr Hcv]
    · isplitl [Hav]; · iexists _; iexact Hav
      isplitl [Hbv]; · iexact Hbv
      isplitl [Hps]; · iexists _; iexact Hps
      isplitl [Hpr]; · iexists _; iexact Hpr
      iexists _; iexact Hcv
    isplitl [Hsa Hsb0 Hsb1 Hso0 Hso1 Hso2 Hso3 Hso4 Hso5 Hso6 Hso7 Hso8 Hso9 Hso10 Hso11 Hso12 Hso13 Hso14 Hso15]
    · isplitl [Hsa]; · iexact Hsa
      isplitl [Hsb0]; · iexact Hsb0
      isplitl [Hsb1]; · iexact Hsb1
      rw [bigSep_fin16]
      isplitl [Hso0]; · iexact Hso0
      isplitl [Hso1]; · iexact Hso1
      isplitl [Hso2]; · iexact Hso2
      isplitl [Hso3]; · iexact Hso3
      isplitl [Hso4]; · iexact Hso4
      isplitl [Hso5]; · iexact Hso5
      isplitl [Hso6]; · iexact Hso6
      isplitl [Hso7]; · iexact Hso7
      isplitl [Hso8]; · iexact Hso8
      isplitl [Hso9]; · iexact Hso9
      isplitl [Hso10]; · iexact Hso10
      isplitl [Hso11]; · iexact Hso11
      isplitl [Hso12]; · iexact Hso12
      isplitl [Hso13]; · iexact Hso13
      isplitl [Hso14]; · iexact Hso14
      iexact Hso15
    iexact Hz
  · iapply (owesAt_done m c _)
    iexact HO

/-- The library's body obligation on device `c`: no window, one point; before it the device holds `Φ₀` and owes everything,
    after it `Φ₁` and nothing. -/
theorem body_obligation (c : Dev nD) :
    BodyObligation (dats (F := F) m 0 c) (defs₀ (F := F)) 𝒱₀ () Set.univ := fun t => by
  rw [fin_N0 t]
  have e0 : ∀ Ψ : Fin cfg0.W → sProp 𝕄, bigSep Finset.univ Ψ = iprop(emp) := fun Ψ => by
    rw [show (Finset.univ : Finset (Fin cfg0.W)) = ∅ from Finset.univ_eq_empty]; exact bigSep_empty
  rw [e0, e0]
  show iprop((dats (F := F) m 0 c).Φ (t0_0 : Fin cfg0.N).castSucc ∗ (dats (F := F) m 0 c).owesAt () (t0_0 : Fin cfg0.N).castSucc ∗ emp)
    ⊢ wp frame (wpE (defs₀ (F := F)) 𝒱₀ (c : Thread nD τ) none) Set.univ (bodyAt0 (F := F) t0_0)
        (fun _ => iprop((dats (F := F) m 0 c).Φ (t0_0 : Fin cfg0.N).succ ∗ (dats (F := F) m 0 c).owesAt () (t0_0 : Fin cfg0.N).succ ∗ emp))
  rw [show (dats (F := F) m 0 c).Φ (t0_0 : Fin cfg0.N).castSucc = Φ₀ m c from rfl, show (dats (F := F) m 0 c).Φ (t0_0 : Fin cfg0.N).succ = Φ₁ m c from rfl]
  iintro ⟨HΦ, Ho, -⟩
  iapply (sound_body m c fun _ => iprop(Φ₁ m c ∗ (dats (F := F) m 0 c).owesAt () (t0_0 : Fin cfg0.N).succ ∗ emp))
  isplitl [HΦ Ho]
  · isplitl [HΦ]
    · iexact HΦ
    · iexact Ho
  · iintro ⟨H1, H2⟩
    isplitl [H1]; · iexact H1
    isplitl [H2]; · iexact H2
    iempintro

/-- info: 'Cert.Kernel.DM.body_obligation' depends on axioms: [propext, Classical.choice, Quot.sound] -/
#guard_msgs in #print axioms Cert.Kernel.DM.body_obligation

end Cert.Kernel.DM

end
-- ==== Proof.BitsSide.Launch.lean ====
/-
  The launch of the mesh kernel: from every device's body proved to the run of the whole program.

  At launch each device is dealt, for every one of its own sixty-five traffic cells (its barrier cell and the four
  exchange cells of each of the sixteen chunks), the cell's round state, its position at the start of round 0 and the
  tokens of the cell's duties. One update over all four devices turns the counters at zero and the round states into the
  cells' invariants, known to every device, and passes each token to the device that PAYS the duty: a barrier cell's
  first duty and the landing of partial product `j` to the partner across the contraction split, its second duty and the
  landing of sum `j` to the partner across the row split, the two read-outs to the device itself. What the devices owe
  each other at launch comes back as credit: two units on a device's barrier cell, a slot's credit on each of its
  thirty-two landing cells. The nineteen local semaphores stay plain counters at zero. At exit a device hands back its
  eighty-three counters at zero and its five scratch buffers, and its three arrays are read off the final state: the two
  factors as launched, the result the whole product.
-/
import proofs.«900449_g7700000000000450_dist_matmul_k_x_m2048_n2048_k1024_v7x_xy2x2_bf16_1_alg».proof.Proof.BitsSide.Inv
import proofs.«900449_g7700000000000450_dist_matmul_k_x_m2048_n2048_k1024_v7x_xy2x2_bf16_1_alg».proof.Proof.Gen.Kernel.Frame
import Idealize.ShloMosaic.Lib.Pipeline.Launch
import Idealize.ShloMosaic.Lib.Pipeline.Kit
import Idealize.ShloMosaic.Lib.Rounds

noncomputable section

namespace Cert.Kernel.DM

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores

The eighty-three scoped DMA semaphores, indexed so that they fall apart as they are used: the sixty-four of the two
exchanges, then the left factor's, the right factor's two, and the result's sixteen. -/

abbrev OIx : Type := (Fin 4 × Fin 16) ⊕ (Unit ⊕ (Unit ⊕ (Unit ⊕ Fin 16)))

def osem : OIx → SemLoc sig
  | .inl kj => csem (some kj)
  | .inr (.inl _) => .dma aS
  | .inr (.inr (.inl _)) => .dma (bS 0)
  | .inr (.inr (.inr (.inl _))) => .dma (bS 1)
  | .inr (.inr (.inr (.inr j))) => .dma (oS j)

set_option maxRecDepth 100000 in
theorem osem_scoped : ∀ k : OIx, (osem k).isScoped .tc = true := by decide
set_option maxRecDepth 100000 in
theorem osem_injective : Function.Injective osem := by decide

/-- They are scoped, pairwise distinct, and there is no staging semaphore to meet. -/
theorem ownSemFacts : Pipeline.OwnSemFacts cfg0.spec osem := ⟨osem_scoped, osem_injective, fun _ w => w.elim0⟩

/-! ## The cells and the duty tokens, enumerated -/

set_option maxRecDepth 100000 in
theorem csem_some_ne_bar : ∀ kj : Fin 4 × Fin 16, csem (some kj) ≠ (.reg barS : SemLoc sig) := by decide

theorem csem_injective : Function.Injective (csem : CIx → SemLoc sig) := by
  rintro (_ | kj) (_ | kj') h
  · rfl
  · exact absurd h.symm (csem_some_ne_bar kj')
  · exact absurd h (csem_some_ne_bar kj)
  · exact congrArg some (Sum.inl.inj (osem_injective (a₁ := .inl kj) (a₂ := .inl kj') h))

theorem kcell_injective : Function.Injective (kcell : Dev nD × CIx → GSem nD τ sig) := by
  rintro ⟨c, x⟩ ⟨c', x'⟩ h
  have h1 : c = c' := congrArg (fun g : GSem nD τ sig => g.1.1) h
  subst h1
  have h2 : x = x' := csem_injective (congrArg Prod.snd h)
  subst h2; rfl

/-- Every device's sixty-five cells. -/
def meshCells : Finset (GSem nD τ sig) := Finset.univ.map ⟨kcell, kcell_injective⟩

/-- A device's own cells' duties: its barrier cell's two, and one per exchange cell. -/
abbrev TIx : Type := Bool ⊕ (Fin 4 × Fin 16)
abbrev tokOf (x : Dev nD × TIx) : GSem nD τ sig × ℕ × Bool := match x.2 with
  | .inl b => (kcell (x.1, none), 0, b)
  | .inr kj => (kcell (x.1, some kj), 0, false)

theorem tokOf_injective : Function.Injective (tokOf : Dev nD × TIx → GSem nD τ sig × ℕ × Bool) := by
  rintro ⟨d, b | kj⟩ ⟨d', b' | kj'⟩ h
  · have h1 : (d, (none : CIx)) = (d', none) := kcell_injective (congrArg (fun x : GSem nD τ sig × ℕ × Bool => x.1) h)
    have h2 : b = b' := congrArg (fun x : GSem nD τ sig × ℕ × Bool => x.2.2) h
    cases h1; cases h2; rfl
  · have h1 : (d, (none : CIx)) = (d', some kj') := kcell_injective (congrArg (fun x : GSem nD τ sig × ℕ × Bool => x.1) h)
    cases h1
  · have h1 : (d, (some kj : CIx)) = (d', none) := kcell_injective (congrArg (fun x : GSem nD τ sig × ℕ × Bool => x.1) h)
    cases h1
  · have h1 : (d, (some kj : CIx)) = (d', some kj') := kcell_injective (congrArg (fun x : GSem nD τ sig × ℕ × Bool => x.1) h)
    cases h1; rfl

def meshToks : Finset (GSem nD τ sig × ℕ × Bool) := Finset.univ.map ⟨tokOf, tokOf_injective⟩

/-- The launch element: the pipeline library's (no staging cell here), the mesh traffic's, and the counters' unit. -/
def u₀ : UU :=
  (initOf (Pipeline.cells cfgs cellOf_inj) (Pipeline.launchToks cfgs cellOf_inj), (initOf meshCells meshToks, 1))

/-! ## What the launch element deals a device -/

/-- The tokens of a device's own cells, grouped by who will pay: the partner across the contraction split (the barrier
    cell's first duty, the landings of the partial products), the partner across the row split (the second duty, the
    landings of the sums), the device itself (the read-outs). -/
def toksX (c : Dev nD) : sProp 𝕄 :=
  iprop(dutyTok ER (barCell c) 0 false ∗ bigSep Finset.univ fun j : Fin 16 => dutyTok ER (r1Cell j c) 0 false)
def toksY (c : Dev nD) : sProp 𝕄 :=
  iprop(dutyTok ER (barCell c) 0 true ∗ bigSep Finset.univ fun j : Fin 16 => dutyTok ER (r2Cell j c) 0 false)
def toksZ (c : Dev nD) : sProp 𝕄 :=
  iprop((bigSep Finset.univ fun j : Fin 16 => dutyTok ER (s1Cell j c) 0 false) ∗ bigSep Finset.univ fun j : Fin 16 => dutyTok ER (s2Cell j c) 0 false)
def toks (c : Dev nD) : sProp 𝕄 := iprop(toksX c ∗ toksY c ∗ toksZ c)

/-- What the launch element deals device `c`: its cells' round states, positions and reached-marks, and its cells' tokens. -/
def G (m : Mem F) (c : Dev nD) : sProp 𝕄 :=
  iprop((bigSep Finset.univ fun x : CIx => roundState ER (meshRd m) (kcell (c, x)) 0)
    ∗ (bigSep Finset.univ fun x : CIx => iprop(atPos ER (kcell (c, x)) 0 ∅ 0 ∗ reached ER (kcell (c, x)) 0)) ∗ toks c)

/-- What the global step makes of it. -/
def G' (m : Mem F) (c : Dev nD) : sProp 𝕄 := iprop(∃ K, ghost m K c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ
theorem bigSep_unit (Φ : Unit → sProp 𝕄) : bigSep Finset.univ Φ = Φ () := by
  rw [Finset.univ_unique, bigSep_singleton]
theorem bigSep_sum {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ
/-- Over an optional index: the summand at no index, and the rest. -/
theorem bigSep_option {α : Type} [Fintype α] [DecidableEq α] (Φ : Option α → sProp 𝕄) :
    bigSep Finset.univ Φ = iprop(Φ none ∗ bigSep Finset.univ fun a => Φ (some a)) := by
  rw [bigSep_univ_at Φ none, show (Finset.univ.erase none : Finset (Option α)) = Finset.univ.map ⟨some, Option.some_injective α⟩ from by
    ext x; cases x <;> simp, bigSep_map]
  rfl

/-- One device's tokens as minted, sorted by payer. -/
theorem toks_minted_at (c : Dev nD) :
    (bigSep Finset.univ fun x : TIx => (dutyTok ER (tokOf (c, x)).1 (tokOf (c, x)).2.1 (tokOf (c, x)).2.2 : sProp 𝕄)) ⊢ toks c := by
  rw [bigSep_sum, bigSep_bool, bigSep_univ_prod, bigSep_fin4]
  unfold toks toksX toksY toksZ
  iintro ⟨⟨Hf, Ht⟩, H0, H1, H2, H3⟩
  isplitl [Hf H1]
  · isplitl [Hf]; · iexact Hf
    iexact H1
  isplitl [Ht H3]
  · isplitl [Ht]; · iexact Ht
    iexact H3
  isplitl [H0]; · iexact H0
  iexact H2

/-- The tokens as minted, device by device. -/
theorem toks_minted : (bigSep meshToks fun x => (dutyTok ER x.1 x.2.1 x.2.2 : sProp 𝕄)) ⊢ bigSep Finset.univ fun c : Dev nD => (toks c : sProp 𝕄) := by
  unfold meshToks
  rw [bigSep_map, bigSep_univ_prod]
  exact bigSep_mono fun c _ => toks_minted_at c

theorem fund_mesh (m : Mem F) : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun x : CIx => Φ (kcell (c, x)) := by
    unfold meshCells; rw [bigSep_map, bigSep_univ_prod]; rfl
  iintro HX
  imod (Rounds.fund ER (meshRd m) meshCells meshToks) $$ HX with ⟨Hst, Hr, Hat, Htok⟩
  imodintro
  ihave Hst' := (Entails.of_eq (hX fun g => roundState ER (meshRd m) g 0)) $$ Hst
  ihave Hat' := (Entails.of_eq (hX fun g => atPos ER g 0 ∅ 0)) $$ Hat
  ihave Hr' := (Entails.of_eq (hX fun g => reached ER g 0)) $$ Hr
  ihave Htok' := (toks_minted (F := F)) $$ Htok
  unfold G; simp only [bigSep_sep']
  isplitl [Hst']; · iexact Hst'
  isplitl [Hat' Hr']
  · isplitl [Hat'] <;> iassumption
  iexact Htok'

/-! ## The global step: every cell's invariant, and the tokens to their payers -/

/-- The own counters at zero are the exchange cells' and the local ones'. -/
theorem ownSems0_eq (c : Dev nD) : (Pipeline.ownSems0 (Ix := Unit) (Name := ℕ) (U := UU) (Lvl := ℕ) (Val := Elt F) (τ := τ) osem c : sProp 𝕄)
    = iprop(exchSems0 c ∗ localSems0 c) := by
  unfold Pipeline.ownSems0 exchSems0 localSems0
  rw [bigSep_sum, bigSep_sum, bigSep_sum, bigSep_sum, bigSep_unit, bigSep_unit, bigSep_unit]
  rfl

set_option maxRecDepth 100000 in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's sixty-five traffic counters at zero, and the nineteen local ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun x : CIx => semVal (kcell (c, x)) 0) ∗ localSems0 c) : sProp 𝕄) := by
  rw [ownSems0_eq, unscopedSems0_eq, bigSep_option]
  unfold exchSems0
  iintro ⟨⟨HE, HL⟩, HB⟩
  isplitr [HL]
  · isplitl [HB]; · iexact HB
    iexact HE
  · iexact HL

/-- One device: its counters and round states become its cells' invariants. -/
theorem core_alloc (m : Mem F) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CIx => iprop(∃ κ : ℕ, cellInv ER (meshRd m) κ (kcell (c, x))))
          ∗ (bigSep Finset.univ fun x : CIx => iprop(atPos ER (kcell (c, x)) 0 ∅ 0 ∗ reached ER (kcell (c, x)) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun x : CIx => semVal (kcell (c, x)) 0) ∗ bigSep Finset.univ fun x : CIx => roundState ER (meshRd m) (kcell (c, x)) 0)
      ⊢ (|={Set.univ}=> bigSep Finset.univ fun x : CIx => iprop(∃ κ : ℕ, cellInv ER (meshRd m) κ (kcell (c, x))) : sProp 𝕄) from by
        rw [← bigSep_sep']
        exact (bigSep_mono fun x _ => (Rounds.body_intro ER (meshRd m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- With the records in hand, a device's positions, the tokens it pays with and its local counters are its ghost state. -/
theorem ghost_intro (m : Mem F) (K : Dev nD × CIx → ℕ) (c : Dev nD) :
    iprop(records m K ∗ (positions c ∗ payToks c ∗ localSems0 c)) ⊢ G' m c := by
  unfold G' ghost
  iintro ⟨#HR, HP, HT, HL⟩
  iexists K
  isplitr; · iexact HR
  isplitl [HP]; · iexact HP
  isplitl [HT]; · iexact HT
  iexact HL

/-- What a device pays with, out of what its two partners and itself were dealt. -/
theorem pay_intro (c : Dev nD) : iprop(toksX (xn c) ∗ toksY (yn c) ∗ toksZ c) ⊢ (payToks c : sProp 𝕄) := by
  unfold toksX toksY toksZ payToks chunkToks
  rw [bigSep_sep', bigSep_sep', bigSep_sep']
  iintro ⟨⟨HbX, HR1⟩, ⟨HbY, HR2⟩, HS1, HS2⟩
  isplitl [HbX]; · iexact HbX
  isplitl [HbY]; · iexact HbY
  isplitl [HS1]; · iexact HS1
  isplitl [HR1]; · iexact HR1
  isplitl [HS2]; · iexact HS2
  iexact HR2

/-- The tokens dealt across the mesh: each partner's share goes to that partner. -/
theorem toks_around : (bigSep Finset.univ fun c : Dev nD => (toks c : sProp 𝕄)) ⊢ bigSep Finset.univ fun c : Dev nD => payToks c := by
  unfold toks
  rw [bigSep_sep', bigSep_sep', bigSep_univ_equiv xnEquiv (fun c : Dev nD => (toksX c : sProp 𝕄)),
    bigSep_univ_equiv ynEquiv (fun c : Dev nD => (toksY c : sProp 𝕄)), ← bigSep_sep', ← bigSep_sep']
  exact bigSep_mono fun c _ => pay_intro c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : Mem F) :
    (bigSep Finset.univ fun c : Dev nD => iprop((bigSep Finset.univ fun x : CIx => iprop(∃ κ : ℕ, cellInv ER (meshRd m) κ (kcell (c, x))))
          ∗ (bigSep Finset.univ fun x : CIx => iprop(atPos ER (kcell (c, x)) 0 ∅ 0 ∗ reached ER (kcell (c, x)) 0)) ∗ toks c ∗ localSems0 c) : sProp 𝕄)
      ⊢ bigSep Finset.univ (G' m) := by
  rw [bigSep_sep', bigSep_sep', bigSep_sep', ← bigSep_univ_prod (fun ck : Dev nD × CIx => iprop(∃ κ : ℕ, cellInv ER (meshRd m) κ (kcell ck))),
    bigSep_congr (s := Finset.univ) (fun (c : Dev nD) _ => bigSep_sep' Finset.univ (fun x : CIx => (atPos ER (kcell (c, x)) 0 ∅ 0 : sProp 𝕄)) (fun x => reached ER (kcell (c, x)) 0)),
    bigSep_sep', ← bigSep_univ_prod (fun ck : Dev nD × CIx => (reached ER (kcell ck) 0 : sProp 𝕄))]
  iintro ⟨HI, ⟨Hat, #HR⟩, Htok, Hloc⟩
  ihave HK := (BI.bigSep_exists_pi Finset.univ (fun (ck : Dev nD × CIx) (κ : ℕ) => (cellInv ER (meshRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => positions c) ∗ (bigSep Finset.univ fun c : Dev nD => payToks c) ∗ bigSep Finset.univ fun c : Dev nD => localSems0 c)
        ⊢ (bigSep Finset.univ fun c : Dev nD => iprop(positions c ∗ payToks c ∗ localSems0 c) : sProp 𝕄) from by rw [← bigSep_sep', ← bigSep_sep'])
    isplitl [Hat]; · iexact Hat
    isplitl [Htk]; · iexact Htk
    iexact Hloc

/-- The global step: own and unscoped counters of every device at once. -/
theorem glob (m : Mem F) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe a device's cells at launch, as its credit: two units on its barrier cell (one from each partner)
    and a slot's credit on each landing cell (the partial products' from across the contraction split, the sums' from across
    the row split). -/
theorem creds_intro (c : Dev nD) : (Pipeline.launchCred O₀ c : sProp 𝕄) ⊢ creds c := by
  have hO : (O₀ : Dev nD → CellTallies nD τ sig Unit) = fun d =>
      ((∑ j : Fin 16, tallyAt (r1Cell j (xn d)) () Ncr) + (∑ j : Fin 16, tallyAt (r2Cell j (yn d)) () Ncr)
        + tallyAt (barCell (yn d)) () 1) + tallyAt (barCell (xn d)) () 1 := by
    funext d; unfold O₀ owed owe1 owe2
    rw [Finset.filter_true_of_mem (fun j _ => Nat.zero_le _)]
  have hland : iprop((bigSep Finset.univ fun j : Fin 16 => Pipeline.launchCred (fun d => tallyAt (r1Cell j (xn d)) () Ncr) c)
        ∗ (bigSep Finset.univ fun j : Fin 16 => Pipeline.launchCred (fun d => tallyAt (r2Cell j (yn d)) () Ncr) c))
      ⊢ (bigSep Finset.univ fun j : Fin 16 => iprop(cred (tallyAt (r1Cell j c) () Ncr) ∗ cred (tallyAt (r2Cell j c) () Ncr)) : sProp 𝕄) := by
    rw [← bigSep_sep']
    exact bigSep_mono fun j _ => BIClass.sep_mono (Pipeline.launchCred_tallyAt (.dma (r1S j)) xn xn xn_xn xn_xn () Ncr c)
      (Pipeline.launchCred_tallyAt (.dma (r2S j)) yn yn yn_yn yn_yn () Ncr c)
  have hbar : iprop(cred (tallyAt (barCell c) () 1) ∗ cred (tallyAt (barCell c) () 1)) ⊢ (cred (tallyAt (barCell c) () 2) : sProp 𝕄) :=
    (cred_add _ _).2.trans (Entails.of_eq (congrArg cred (tallyAt_add (barCell c) () 1 1)))
  rw [hO, Pipeline.launchCred_add, Pipeline.launchCred_add, Pipeline.launchCred_add, Pipeline.launchCred_sum, Pipeline.launchCred_sum]
  unfold creds
  iintro ⟨⟨⟨H1, H2⟩, HbY⟩, HbX⟩
  ihave HY := (Pipeline.launchCred_tallyAt (.reg barS) yn yn yn_yn yn_yn () 1 c) $$ HbY
  ihave HX := (Pipeline.launchCred_tallyAt (.reg barS) xn xn xn_xn xn_xn () 1 c) $$ HbX
  isplitl [HX HY]
  · iapply hbar
    isplitl [HX] <;> iassumption
  · iapply hland
    isplitl [H1] <;> iassumption

/-! ## The launch theorem's side conditions -/

/-- What a device enters its kernel with, the scratch buffers apart: the ghost state, its credit, the levels, and the three
    arrays as launched. -/
def entry (m : Mem F) (c : Dev nD) : sProp 𝕄 := iprop(start m c ∗ arrays0 m c)

theorem start_intro (m : Mem F) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  rw [Pipeline.unscopedRestP_none, unscopedRest0_eq]
  unfold entry start arrays0 G'
  iintro ⟨⟨Ha, Hb, Ho⟩, Hlev, Hcr, -, HG⟩
  ihave Hc := (creds_intro (F := F) c) $$ Hcr
  imodintro
  isplitl
  · isplitl [HG Hc Hlev]
    · isplitl [HG]; · iexact HG
      isplitl [Hc]; · iexact Hc
      iexact Hlev
    · isplitl [Ha]; · iexact Ha
      isplitl [Hb]; · iexact Hb
      iexists _; iexact Ho
  · iempintro

/-- With the five scratch buffers at whatever they hold, that is the body's precondition. -/
theorem phi0_intro (m : Mem F) (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ entry scratch
  iintro ⟨⟨Hs, Ha⟩, -, H0, H1, H2, H3, H4⟩
  isplitl [Hs]; · iexact Hs
  isplitl [Ha]; · iexact Ha
  isplitl [H0]; · iexact H0
  isplitl [H1]; · iexact H1
  isplitl [H2]; · iexact H2
  isplitl [H3]; · iexact H3
  iexact H4

/-- At exit: the three arrays stay with the device; its eighty-three counters, back at zero, and its scratch buffers go back. -/
theorem phi1_exit (m : Mem F) (c : Dev nD) :
    (dats m 0 c).Φ (Fin.last cfg0.N) ⊢ iprop(arrays1 m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch
  iintro ⟨Ha, ⟨H0, H1, H2, H3, H4⟩, Hl, He⟩
  isplitl [Ha]; · iexact Ha
  isplitl [Hl He]
  · isplitl [He] <;> iassumption
  isplitl [H0]; · iexact H0
  isplitl [H1]; · iexact H1
  isplitl [H2]; · iexact H2
  isplitl [H3]; · iexact H3
  iexact H4

/-- No window, so no staging cell to wait on. -/
theorem waits (m : Mem F) (c : Dev nD) : (levAts L lv : sProp 𝕄) ⊢ Pipeline.cellsWaits cfgs (dats m) () 0 c :=
  Pipeline.cellsWaits_intro cfgs (dats m) () 0 c fun w _ _ => w.elim0

/-! ## The run -/

/-- The traffic's launch element sits in the second component beside the counters' unit. -/
theorem own_mesh : (BI.own ((embR : Emb (UB × Counters) 𝕄) (initOf meshCells meshToks, 1)) : sProp 𝕄)
    ⊢ BI.own (ER (initOf meshCells meshToks)) := BI.Entails.refl _

set_option maxRecDepth 8000 in
/-- On the four devices, at any float values, from any memory with every counter at zero: if each device's body meets its
    obligation, every weakly fair execution of the program terminates, and every final state has, on each device, the
    result array holding the whole product and the two factors what they held. -/
theorem run_main (m : Mem F) (ρ : Dev nD → PrngReg)
    (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outFull m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_mesh (F := F)) $$ HX
      imod (fund_mesh m) $$ HX' with HG
      imodintro
      isplitl [HP] <;> iassumption)
    (hglob := glob m)
    (hA := fun _ w => w.elim0) (hpf := fun _ k => k.elim0)
    (X := entry m) (Y := arrays1 m) (Z := fun _ => iprop(emp))
    (hX := start_intro m ρ) (hin := phi0_intro m) (hout := phi1_exit m)
    (QY := fun c s => s.mem ((c.tc : Thread nD τ).loc main_v1) = outFull m c
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold arrays1
      iintro ⟨⟨Ha, Hb, Ho⟩, -, HSI⟩
      icombine HSI Ha gives %ha
      icombine HSI Hb gives %hb
      icombine HSI Ho gives %ho
      imodintro
      isplitr
      · ipureintro; exact ⟨Buf.eq_of_forall_mem_univ ho, Buf.eq_of_forall_mem_univ ha, Buf.eq_of_forall_mem_univ hb⟩
      iexact HSI)
    (hQ := fun _ h c => (h c).2.2)

/-- info: 'Cert.Kernel.DM.run_main' depends on axioms: [propext, Classical.choice, Quot.sound] -/
#guard_msgs in #print axioms Cert.Kernel.DM.run_main

end Cert.Kernel.DM

end
-- ==== Proof.lean ====
/-
  The five claims. Each device of the 2 × 2 mesh multiplies its half of the contraction for its half of the rows, chunk by
  chunk; the halves meet across the contraction split and the finished rows cross the row split, so every device ends with
  the whole product. The two kernel frames are the main run with the values dropped; the reference's frame is its run with
  the result dropped; the idealization rewrote nothing; and at the extended reals the kernel's result, the sum over one half
  of the contraction plus the sum over the other, is the reference's one sum over all of it.
-/
import proofs.«900449_g7700000000000450_dist_matmul_k_x_m2048_n2048_k1024_v7x_xy2x2_bf16_1_alg».proof.Defs
import proofs.«900449_g7700000000000450_dist_matmul_k_x_m2048_n2048_k1024_v7x_xy2x2_bf16_1_alg».proof.Proof.Gen.Kernel
import proofs.«900449_g7700000000000450_dist_matmul_k_x_m2048_n2048_k1024_v7x_xy2x2_bf16_1_alg».proof.Proof.Gen.KernelIdeal
import proofs.«900449_g7700000000000450_dist_matmul_k_x_m2048_n2048_k1024_v7x_xy2x2_bf16_1_alg».proof.Proof.Gen.ReferenceIdeal
import proofs.«900449_g7700000000000450_dist_matmul_k_x_m2048_n2048_k1024_v7x_xy2x2_bf16_1_alg».proof.Proof.Gen.ReferenceIdeal.Run
import proofs.«900449_g7700000000000450_dist_matmul_k_x_m2048_n2048_k1024_v7x_xy2x2_bf16_1_alg».proof.Proof.Gen.ReferenceIdeal.Read
import proofs.«900449_g7700000000000450_dist_matmul_k_x_m2048_n2048_k1024_v7x_xy2x2_bf16_1_alg».proof.Proof.Gen.Pre_finite_inputs_Kernel
import proofs.«900449_g7700000000000450_dist_matmul_k_x_m2048_n2048_k1024_v7x_xy2x2_bf16_1_alg».proof.Proof.Gen.Pre_finite_inputs_ReferenceIdeal
import proofs.«900449_g7700000000000450_dist_matmul_k_x_m2048_n2048_k1024_v7x_xy2x2_bf16_1_alg».proof.Proof.IdealSide.Body
import proofs.«900449_g7700000000000450_dist_matmul_k_x_m2048_n2048_k1024_v7x_xy2x2_bf16_1_alg».proof.Proof.IdealSide.Launch
import proofs.«900449_g7700000000000450_dist_matmul_k_x_m2048_n2048_k1024_v7x_xy2x2_bf16_1_alg».proof.Proof.IdealSide.Value
import proofs.«900449_g7700000000000450_dist_matmul_k_x_m2048_n2048_k1024_v7x_xy2x2_bf16_1_alg».proof.Proof.BitsSide.Body
import proofs.«900449_g7700000000000450_dist_matmul_k_x_m2048_n2048_k1024_v7x_xy2x2_bf16_1_alg».proof.Proof.BitsSide.Launch
import Idealize.ShloMosaic.Adequacy
import Idealize.ShloMosaic.Init

noncomputable section

namespace Cert.Proof

open Idealize.ShloMosaic Idealize.SL.Sem

/-- The word-level kernel runs to its end on all four devices and leaves its arguments as they were. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => ⟨(h c).2.1, (h c).2.2⟩)
    (Cert.Kernel.DM.run_main (F := Bits) m ρ (Cert.Kernel.DM.body_obligation (F := Bits) m))

/-- So does the idealized kernel. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => ⟨(h c).2.1, (h c).2.2⟩)
    (Cert.KernelIdeal.DM.run_main (F := Ideal) m ρ (Cert.KernelIdeal.DM.body_obligation (F := Ideal) m))

/-- The reference's run, its result dropped. -/
theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2) (Cert.ReferenceIdeal.Value.run (F := Ideal) m ρ)

/-- Both programs end with the whole product: the kernel's two half sums, added, are the reference's one sum. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨_, (θ_run (Cert.KernelIdeal.defs (F := Ideal)) _ _).mono (fun _ h c => ⟨(h c).1.trans ?_, (h c).2.1, (h c).2.2⟩)
      (Cert.KernelIdeal.DM.run_main (F := Ideal) m ρ (Cert.KernelIdeal.DM.body_obligation (F := Ideal) m)),
    (θ_run (Cert.ReferenceIdeal.defs (F := Ideal)) _ _).mono (fun _ h => ⟨(h 0).1.trans (Cert.ReferenceIdeal.Read.val_main_v1_eq _ _), (h 0).2.1, (h 0).2.2⟩)
      (Cert.ReferenceIdeal.Value.run (F := Ideal) m' ρ')⟩
  exact Cert.KernelIdeal.DM.outSpec_eq_ref m m' hagree c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
